-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_arg9 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S2000x128 : Shape := ⟨2, ![2000, 128]⟩
abbrev S2000x1 : Shape := ⟨2, ![2000, 1]⟩
abbrev S850000x128 : Shape := ⟨2, ![850000, 128]⟩
abbrev S1x128 : Shape := ⟨2, ![1, 128]⟩

abbrev nBuf : Space → Nat
  | .hbm => 99
  | .vmem => 48
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S50000, .i32⟩
  | .hbm, ⟨15, _⟩ => ⟨S850000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .bf16⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000x128, .bf16⟩
  | .hbm, ⟨44, _⟩ => ⟨S850000x128, .f32⟩
  | .hbm, ⟨45, _⟩ => ⟨S_, .f32⟩
  | .hbm, ⟨46, _⟩ => ⟨S50000x128, .f32⟩
  | .hbm, ⟨47, _⟩ => ⟨S850000x1, .i32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S1x128, .f32⟩
  | .hbm, ⟨52, _⟩ => ⟨S1x128, .f32⟩
  | .hbm, ⟨53, _⟩ => ⟨S_, .f32⟩
  | .hbm, ⟨54, _⟩ => ⟨S1x128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S1x128, .f32⟩
  | .hbm, ⟨61, _⟩ => ⟨S_, .f32⟩
  | .hbm, ⟨62, _⟩ => ⟨S1x128, .f32⟩
  | .hbm, ⟨63, _⟩ => ⟨S1x128, .f32⟩
  | .hbm, ⟨64, _⟩ => ⟨S1x128, .f32⟩
  | .hbm, ⟨65, _⟩ => ⟨S1x128, .f32⟩
  | .hbm, ⟨66, _⟩ => ⟨S50000x128, .bf16⟩
  | .hbm, ⟨67, _⟩ => ⟨S_, .i32⟩
  | .hbm, ⟨68, _⟩ => ⟨S850000, .i32⟩
  | .hbm, ⟨69, _⟩ => ⟨S850000, .i1⟩
  | .hbm, ⟨70, _⟩ => ⟨S_, .i32⟩
  | .hbm, ⟨71, _⟩ => ⟨S850000, .i32⟩
  | .hbm, ⟨72, _⟩ => ⟨S850000, .i32⟩
  | .hbm, ⟨73, _⟩ => ⟨S850000, .i32⟩
  | .hbm, ⟨74, _⟩ => ⟨S850000x1, .i32⟩
  | .hbm, ⟨75, _⟩ => ⟨S850000x128, .bf16⟩
  | .hbm, ⟨76, _⟩ => ⟨S850000x128, .f32⟩
  | .hbm, ⟨77, _⟩ => ⟨S_, .f32⟩
  | .hbm, ⟨78, _⟩ => ⟨S50000x128, .f32⟩
  | .hbm, ⟨79, _⟩ => ⟨S850000x1, .i32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S1x128, .f32⟩
  | .hbm, ⟨84, _⟩ => ⟨S1x128, .f32⟩
  | .hbm, ⟨85, _⟩ => ⟨S_, .f32⟩
  | .hbm, ⟨86, _⟩ => ⟨S1x128, .f32⟩
  | .hbm, ⟨87, _⟩ => ⟨S1x128, .f32⟩
  | .hbm, ⟨88, _⟩ => ⟨S_, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S_, .f32⟩
  | .hbm, ⟨94, _⟩ => ⟨S1x128, .f32⟩
  | .hbm, ⟨95, _⟩ => ⟨S1x128, .f32⟩
  | .hbm, ⟨96, _⟩ => ⟨S1x128, .f32⟩
  | .hbm, ⟨97, _⟩ => ⟨S1x128, .f32⟩
  | .hbm, ⟨98, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S2000x1, .f32⟩
  | .local _ .vmem, ⟨26, _⟩ => ⟨S2000x1, .f32⟩
  | .local _ .vmem, ⟨27, _⟩ => ⟨S2000x128, .bf16⟩
  | .local _ .vmem, ⟨28, _⟩ => ⟨S2000x128, .bf16⟩
  | .local _ .vmem, ⟨29, _⟩ => ⟨S2000x128, .f32⟩
  | .local _ .vmem, ⟨30, _⟩ => ⟨S2000x128, .f32⟩
  | .local _ .vmem, ⟨31, _⟩ => ⟨S2000x1, .f32⟩
  | .local _ .vmem, ⟨32, _⟩ => ⟨S2000x1, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S2000x128, .f32⟩
  | .local _ .vmem, ⟨41, _⟩ => ⟨S2000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30_0 : Ref sig .tc := ⟨.hbm, 50, rfl⟩
abbrev main_v30_1 : Ref sig .tc := ⟨.hbm, 51, rfl⟩
abbrev main_v30_2 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_9 : Ref sig .tc := ⟨.hbm, 67, rfl⟩
abbrev main_v42 : Ref sig .tc := ⟨.hbm, 68, rfl⟩
abbrev main_v43 : Ref sig .tc := ⟨.hbm, 69, rfl⟩
abbrev main_c_10 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54_0 : Ref sig .tc := ⟨.hbm, 82, rfl⟩
abbrev main_v54_1 : Ref sig .tc := ⟨.hbm, 83, rfl⟩
abbrev main_v54_2 : Ref sig .tc := ⟨.hbm, 84, rfl⟩
abbrev main_cst_12 : Ref sig .tc := ⟨.hbm, 85, rfl⟩
abbrev main_v55 : Ref sig .tc := ⟨.hbm, 86, rfl⟩
abbrev main_v56 : Ref sig .tc := ⟨.hbm, 87, rfl⟩
abbrev main_cst_13 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_14 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg5_0 : Ref sig .tc := ⟨.vmem, 37, rfl⟩
abbrev cc3_scratch0 : Ref sig .tc := ⟨.vmem, 38, rfl⟩
abbrev cc3_scratch1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc2_sem7_0 : DmaSem sig := 25
abbrev cc2_sem7_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem3_1 : DmaSem sig := 33
abbrev cc3_sem4_0 : DmaSem sig := 34
abbrev cc3_sem5_0 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v29 : BitVec 1 := Scalar.cmpi .eq arg0 c24_i32
  let v30 : BitVec 32 := Scalar.extui v29
  let c0_i32_17 : BitVec 32 := 0#32
  let v31 : BitVec 1 := Scalar.cmpi .ne v30 c0_i32_17
  v31

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def k3_cond2 (i : grid3.Coords) : BitVec 1 :=
  let arg0 : BitVec 32 := BitVec.ofNat 32 (i 0).val
  let c24_i32 : BitVec 32 := 24#32
  let v29 : BitVec 1 := Scalar.cmpi .eq arg0 c24_i32
  let v30 : BitVec 32 := Scalar.extui v29
  let c0_i32_17 : BitVec 32 := 0#32
  let v31 : BitVec 1 := Scalar.cmpi .ne v30 c0_i32_17
  v31

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S2000x128_S2000x128 : S2000x128.ShapeCasts S2000x128
  broadcasts_S1x128_S2000x128 : S1x128.Broadcasts S2000x128
  reduces_S2000x128_S128 : S2000x128.Reduces [0] S128
  bcast_S_S1x128 : S_.BroadcastsInDim S1x128 (![] : Fin 0 → Fin S1x128.rank)
  scatter_S50000_S850000x1_S850000_n_0_0_1_wf : ScatterDims.WF S50000 S850000x1 S850000 [] [0] [0] 1
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x1.size a ≤ S50000x1.size a
  hwx2_6 : ∀ i : grid2.Coords, EltTy.bits .f32 = 32 ∨ (Rect.block (s := S50000x1) S2000x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .bf16 = 32 ∨ (Rect.block (s := S50000x128) S2000x128.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x128.size a ≤ S50000x128.size a
  hwx4_5 : ∀ i : grid4.Coords, EltTy.bits .f32 = 32 ∨ (Rect.block (s := S50000x128) S2000x128.size (cc4_transform_5 i) (hinb4_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v28) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30_0) S2000x128.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30_1) S1x128.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30_2) S1x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v30_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v32) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v38) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16) S2000x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v41) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v52) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v16) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54_0) S2000x128.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v54_1) S1x128.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54_2) S1x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun i => !(k3_cond2 i == 1#1) | 5 => fun i => !(k3_cond2 i == 1#1) | ⟨_ + 6, h⟩ => absurd h (Nat.not_lt.2 (Nat.le_add_left _ _))

abbrev win4_0 : Pipeline.Window sig grid4 :=
  Pipeline.Window.ofSpec (Memref.whole main_v54_0) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v56) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v65) S2000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 224
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S1x800000, .i32⟩
  | 11 => ⟨S800000, .i32⟩
  | 12 => ⟨S1x800000, .i32⟩
  | 13 => ⟨S800000, .i32⟩
  | 14 => ⟨S50000, .i32⟩
  | 15 => ⟨S850000, .i32⟩
  | 16 => ⟨S850000, .i32⟩
  | 17 => ⟨S_, .f32⟩
  | 18 => ⟨S850000, .f32⟩
  | 19 => ⟨S_, .f32⟩
  | 20 => ⟨S50000, .f32⟩
  | 21 => ⟨S850000x1, .i32⟩
  | 22 => ⟨S50000, .f32⟩
  | 23 => ⟨S_, .f32⟩
  | 24 => ⟨S50000, .f32⟩
  | 25 => ⟨S50000, .i1⟩
  | 26 => ⟨S_, .f32⟩
  | 27 => ⟨S50000, .f32⟩
  | 28 => ⟨S50000, .f32⟩
  | 29 => ⟨S_, .f32⟩
  | 30 => ⟨S_, .f32⟩
  | 31 => ⟨S50000, .f32⟩
  | 32 => ⟨S50000, .f32⟩
  | 33 => ⟨S_, .i32⟩
  | 34 => ⟨S850000, .i32⟩
  | 35 => ⟨S850000, .i1⟩
  | 36 => ⟨S_, .i32⟩
  | 37 => ⟨S850000, .i32⟩
  | 38 => ⟨S850000, .i32⟩
  | 39 => ⟨S850000, .i32⟩
  | 40 => ⟨S850000x1, .i32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x128, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x128, .f32⟩
  | 62 => ⟨S850000x1, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S128, .f32⟩
  | 74 => ⟨S_, .f32⟩
  | 75 => ⟨S128, .f32⟩
  | 76 => ⟨S128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S50000x128, .f32⟩
  | 85 => ⟨S50000x128, .f32⟩
  | 86 => ⟨S50000x128, .f32⟩
  | 87 => ⟨S_, .f32⟩
  | 88 => ⟨S_, .f32⟩
  | 89 => ⟨S_, .f32⟩
  | 90 => ⟨S_, .f32⟩
  | 91 => ⟨S128, .f32⟩
  | 92 => ⟨S128, .f32⟩
  | 93 => ⟨S128, .f32⟩
  | 94 => ⟨S_, .f32⟩
  | 95 => ⟨S_, .i1⟩
  | 96 => ⟨S_, .f32⟩
  | 97 => ⟨S_, .f32⟩
  | 98 => ⟨S128, .f32⟩
  | 99 => ⟨S128, .f32⟩
  | 100 => ⟨S1x128, .f32⟩
  | 101 => ⟨S50000x128, .f32⟩
  | 102 => ⟨S50000x128, .f32⟩
  | 103 => ⟨S_, .f32⟩
  | 104 => ⟨S128, .f32⟩
  | 105 => ⟨S128, .f32⟩
  | 106 => ⟨S128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000, .i32⟩
  | 120 => ⟨S850000, .i32⟩
  | 121 => ⟨S850000, .i32⟩
  | 122 => ⟨S_, .f32⟩
  | 123 => ⟨S850000, .f32⟩
  | 124 => ⟨S_, .f32⟩
  | 125 => ⟨S50000, .f32⟩
  | 126 => ⟨S850000x1, .i32⟩
  | 127 => ⟨S50000, .f32⟩
  | _ => ⟨S50000x128, .f32⟩

abbrev hbmTy0_1 (i : Nat) : BufTy := match i % 128 with
  | 0 => ⟨S_, .f32⟩
  | 1 => ⟨S50000, .f32⟩
  | 2 => ⟨S50000, .i1⟩
  | 3 => ⟨S_, .f32⟩
  | 4 => ⟨S50000, .f32⟩
  | 5 => ⟨S50000, .f32⟩
  | 6 => ⟨S_, .f32⟩
  | 7 => ⟨S_, .f32⟩
  | 8 => ⟨S50000, .f32⟩
  | 9 => ⟨S50000, .f32⟩
  | 10 => ⟨S_, .i32⟩
  | 11 => ⟨S850000, .i32⟩
  | 12 => ⟨S850000, .i1⟩
  | 13 => ⟨S_, .i32⟩
  | 14 => ⟨S850000, .i32⟩
  | 15 => ⟨S850000, .i32⟩
  | 16 => ⟨S850000, .i32⟩
  | 17 => ⟨S850000x1, .i32⟩
  | 18 => ⟨S850000, .f32⟩
  | 19 => ⟨S_, .i32⟩
  | 20 => ⟨S850000, .i32⟩
  | 21 => ⟨S850000, .i1⟩
  | 22 => ⟨S_, .i32⟩
  | 23 => ⟨S850000, .i32⟩
  | 24 => ⟨S850000, .i32⟩
  | 25 => ⟨S850000, .i32⟩
  | 26 => ⟨S850000x1, .i32⟩
  | 27 => ⟨S850000, .f32⟩
  | 28 => ⟨S850000, .f32⟩
  | 29 => ⟨S50000x128, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000x128, .f32⟩
  | 39 => ⟨S850000x1, .f32⟩
  | 40 => ⟨S850000x128, .f32⟩
  | 41 => ⟨S850000x128, .f32⟩
  | 42 => ⟨S_, .f32⟩
  | 43 => ⟨S50000x128, .f32⟩
  | 44 => ⟨S850000x1, .i32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S128, .f32⟩
  | 51 => ⟨S_, .f32⟩
  | 52 => ⟨S128, .f32⟩
  | 53 => ⟨S128, .f32⟩
  | 54 => ⟨S_, .i32⟩
  | 55 => ⟨S_, .f32⟩
  | 56 => ⟨S128, .f32⟩
  | 57 => ⟨S1x128, .f32⟩
  | 58 => ⟨S_, .f32⟩
  | 59 => ⟨S1x128, .f32⟩
  | 60 => ⟨S1x128, .f32⟩
  | 61 => ⟨S50000x128, .f32⟩
  | 62 => ⟨S50000x128, .f32⟩
  | 63 => ⟨S50000x128, .f32⟩
  | 64 => ⟨S_, .f32⟩
  | 65 => ⟨S_, .f32⟩
  | 66 => ⟨S_, .f32⟩
  | 67 => ⟨S_, .f32⟩
  | 68 => ⟨S128, .f32⟩
  | 69 => ⟨S128, .f32⟩
  | 70 => ⟨S128, .f32⟩
  | 71 => ⟨S_, .f32⟩
  | 72 => ⟨S_, .i1⟩
  | 73 => ⟨S_, .f32⟩
  | 74 => ⟨S_, .f32⟩
  | 75 => ⟨S128, .f32⟩
  | 76 => ⟨S128, .f32⟩
  | 77 => ⟨S1x128, .f32⟩
  | 78 => ⟨S50000x128, .f32⟩
  | 79 => ⟨S50000x128, .f32⟩
  | 80 => ⟨S_, .f32⟩
  | 81 => ⟨S128, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S1x128, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S_, .f32⟩
  | 94 => ⟨S50000x128, .f32⟩
  | 95 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v15 : Ref sig .tc := ⟨.hbm, 32, rfl⟩
abbrev main_c : Ref sig .tc := ⟨.hbm, 33, rfl⟩
abbrev main_v16 : Ref sig .tc := ⟨.hbm, 34, rfl⟩
abbrev main_v17 : Ref sig .tc := ⟨.hbm, 35, rfl⟩
abbrev main_c_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_c_6 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_c_8 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_9 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_c_12 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_cst_0 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_cst_1 : Ref sig .tc := ⟨.hbm, 88, rfl⟩
abbrev main_call1_v8 : Ref sig .tc := ⟨.hbm, 89, rfl⟩
abbrev main_call1_cst_2 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_cst_3 : Ref sig .tc := ⟨.hbm, 94, rfl⟩
abbrev main_call1_v12 : Ref sig .tc := ⟨.hbm, 95, rfl⟩
abbrev main_call1_cst_4 : Ref sig .tc := ⟨.hbm, 96, rfl⟩
abbrev main_call1_call0_v0 : Ref sig .tc := ⟨.hbm, 97, rfl⟩
abbrev main_call1_call0_v1 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_cst_13 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_call2_cst : Ref sig .tc := ⟨.hbm, 116, rfl⟩
abbrev main_call2_v0 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_14 : Ref sig .tc := ⟨.hbm, 122, rfl⟩
abbrev main_v71 : Ref sig .tc := ⟨.hbm, 123, rfl⟩
abbrev main_cst_15 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_16 : Ref sig .tc := ⟨.hbm, 128, rfl⟩
abbrev main_v75 : Ref sig .tc := ⟨.hbm, 129, rfl⟩
abbrev main_v76 : Ref sig .tc := ⟨.hbm, 130, rfl⟩
abbrev main_cst_17 : Ref sig .tc := ⟨.hbm, 131, rfl⟩
abbrev main_v77 : Ref sig .tc := ⟨.hbm, 132, rfl⟩
abbrev main_v78 : Ref sig .tc := ⟨.hbm, 133, rfl⟩
abbrev main_cst_18 : Ref sig .tc := ⟨.hbm, 134, rfl⟩
abbrev main_call3_v0 : Ref sig .tc := ⟨.hbm, 135, rfl⟩
abbrev main_call3_v1 : Ref sig .tc := ⟨.hbm, 136, rfl⟩
abbrev main_v79 : Ref sig .tc := ⟨.hbm, 137, rfl⟩
abbrev main_c_19 : Ref sig .tc := ⟨.hbm, 138, rfl⟩
abbrev main_v80 : Ref sig .tc := ⟨.hbm, 139, rfl⟩
abbrev main_v81 : Ref sig .tc := ⟨.hbm, 140, rfl⟩
abbrev main_c_20 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_c_21 : Ref sig .tc := ⟨.hbm, 147, rfl⟩
abbrev main_v87 : Ref sig .tc := ⟨.hbm, 148, rfl⟩
abbrev main_v88 : Ref sig .tc := ⟨.hbm, 149, rfl⟩
abbrev main_c_22 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_c_23 : Ref sig .tc := ⟨.hbm, 158, rfl⟩
abbrev main_v96 : Ref sig .tc := ⟨.hbm, 159, rfl⟩
abbrev main_v97 : Ref sig .tc := ⟨.hbm, 160, rfl⟩
abbrev main_c_24 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_cst_25 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_cst_26 : Ref sig .tc := ⟨.hbm, 177, rfl⟩
abbrev main_v112 : Ref sig .tc := ⟨.hbm, 178, rfl⟩
abbrev main_cst_27 : Ref sig .tc := ⟨.hbm, 179, rfl⟩
abbrev main_v113 : Ref sig .tc := ⟨.hbm, 180, rfl⟩
abbrev main_v114 : Ref sig .tc := ⟨.hbm, 181, rfl⟩
abbrev main_c_28 : Ref sig .tc := ⟨.hbm, 182, rfl⟩
abbrev main_call4_cst : Ref sig .tc := ⟨.hbm, 183, rfl⟩
abbrev main_call4_v0 : Ref sig .tc := ⟨.hbm, 184, rfl⟩
abbrev main_call4_v1 : Ref sig .tc := ⟨.hbm, 185, rfl⟩
abbrev main_call4_cst_0 : Ref sig .tc := ⟨.hbm, 186, rfl⟩
abbrev main_call4_v2 : Ref sig .tc := ⟨.hbm, 187, rfl⟩
abbrev main_call4_v3 : Ref sig .tc := ⟨.hbm, 188, rfl⟩
abbrev main_call4_v4 : Ref sig .tc := ⟨.hbm, 189, rfl⟩
abbrev main_call4_v5 : Ref sig .tc := ⟨.hbm, 190, rfl⟩
abbrev main_call4_v6 : Ref sig .tc := ⟨.hbm, 191, rfl⟩
abbrev main_call4_v7 : Ref sig .tc := ⟨.hbm, 192, rfl⟩
abbrev main_call4_cst_1 : Ref sig .tc := ⟨.hbm, 193, rfl⟩
abbrev main_call4_v8 : Ref sig .tc := ⟨.hbm, 194, rfl⟩
abbrev main_call4_cst_2 : Ref sig .tc := ⟨.hbm, 195, rfl⟩
abbrev main_call4_v9 : Ref sig .tc := ⟨.hbm, 196, rfl⟩
abbrev main_call4_v10 : Ref sig .tc := ⟨.hbm, 197, rfl⟩
abbrev main_call4_v11 : Ref sig .tc := ⟨.hbm, 198, rfl⟩
abbrev main_call4_cst_3 : Ref sig .tc := ⟨.hbm, 199, rfl⟩
abbrev main_call4_v12 : Ref sig .tc := ⟨.hbm, 200, rfl⟩
abbrev main_call4_cst_4 : Ref sig .tc := ⟨.hbm, 201, rfl⟩
abbrev main_call4_call0_v0 : Ref sig .tc := ⟨.hbm, 202, rfl⟩
abbrev main_call4_call0_v1 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_cst_29 : Ref sig .tc := ⟨.hbm, 208, rfl⟩
abbrev main_v119 : Ref sig .tc := ⟨.hbm, 209, rfl⟩
abbrev main_v120 : Ref sig .tc := ⟨.hbm, 210, rfl⟩
abbrev main_v121 : Ref sig .tc := ⟨.hbm, 211, rfl⟩
abbrev main_v122 : Ref sig .tc := ⟨.hbm, 212, rfl⟩
abbrev main_v123 : Ref sig .tc := ⟨.hbm, 213, rfl⟩
abbrev main_v124 : Ref sig .tc := ⟨.hbm, 214, rfl⟩
abbrev main_v125 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_call5_cst : Ref sig .tc := ⟨.hbm, 221, rfl⟩
abbrev main_call5_v0 : Ref sig .tc := ⟨.hbm, 222, rfl⟩
abbrev main_v131 : Ref sig .tc := ⟨.hbm, 223, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.K.Reg0.lean ====
/- Region 0: the first layer's feature transform of one block of 2000 rows. The kernel loads a block of features, the
   128 x 128 weight matrix and a column of 2000 inverse square-root degrees, and stores
   bf16((bf16 x) (bf16 W) * dinv) over its whole output block. This module states what the output staging buffer holds
   after the body as a function of the input blocks, proves the body's triple, and discharges the pipeline's body
   obligation at every grid point. -/
import proofs.«168650_j27212912787479_2_alg».proof.Proof.Gen.Kernel.Launch
import proofs.«168650_j27212912787479_2_alg».proof.Proof.Gen.Kernel.Skeleton
import proofs.«168650_j27212912787479_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every point, whether or not the block was
    fetched there: where it was not, the block index has not moved since the previous point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every point, whether or not the block was
    fetched there: where it was not, the block index has not moved since the previous point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every point, whether or not the block was
    fetched there: where it was not, the block index has not moved since the previous point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the store take a whole buffer -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S2000x1 := Rect.unit (s := S2000x1) ![0, 0] S2000x1.size inb_S2000x1_S2000x1_0_0

/-! ## What the body leaves in the output window's buffer -/

/-- The output buffer after the body: the one payload, of the input blocks, laid over the whole buffer. -/
def out0_3 (x0 : Vec F S2000x128 .f32) (x1 : Vec F S128x128 .f32) (x2 : Vec F S2000x1 .f32) : Vec F S2000x128 .bf16 :=
  View.canon [⟨r0_0, k0_pay1 (View.ld x0 r0_0) (View.ld x1 r0_1) (View.ld x2 r0_2)⟩]

/-- The one store covers the buffer. -/
theorem cover0_3 (p0 : Vec F S2000x128 .bf16) (y : S2000x128.Idx) :
    ∃ pc ∈ ([⟨r0_0, p0⟩] : List (View.Piece (Elt F) S2000x128 .bf16)), y ∈ pc.1.set :=
  View.cover_of_tiled [⟨r0_0, p0⟩] S2000x128.size (by rfl) y

/-! ## The body's triple -/

set_option maxHeartbeats 1000000 in
/-- The kernel on whole staging memrefs, the inputs' at contents `xW` and the output's at anything, runs to the
    continuation holding the inputs' as they were and the output's at `out0_3` of the inputs'. The body first
    loads the output buffer (a value it never uses) and then stores the payload over all of it. -/
theorem sound_kernel0 (c : Dev nD) (E : Set ℕ) (i : grid0.Coords) (arg0 : Memref sig .tc .vmem S2000x128 .f32) (harg0 : arg0.IsWhole) (arg1 : Memref sig .tc .vmem S128x128 .f32) (harg1 : arg1.IsWhole) (arg2 : Memref sig .tc .vmem S2000x1 .f32) (harg2 : arg2.IsWhole) (arg3 : Memref sig .tc .vmem S2000x128 .bf16) (harg3 : arg3.IsWhole)
    (x0 : Vec F S2000x128 .f32) (x1 : Vec F S128x128 .f32) (x2 : Vec F S2000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__matmul_scale_kernel i arg0 harg0 arg1 harg1 arg2 harg2 arg3 harg3) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t`
    each input's buffer at its block and the output's at `out0_3` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1Body.lean ====
/- Region 1 of the kernel's program: the statistics kernel's body, run on whole memrefs in each of the three
   cases its two conditionals on the grid coordinate leave (first point: the accumulators are reset; a middle point;
   last point: the accumulators are copied out). Each run states what every memref holds afterwards through the
   skeleton's payloads. -/
import proofs.«168650_j27212912787479_2_alg».proof.Proof.Gen.Kernel.Launch
import proofs.«168650_j27212912787479_2_alg».proof.Proof.Gen.Kernel.Skeleton
import proofs.«168650_j27212912787479_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The unit offsets of a rank-2 rectangle are zero at every axis. -/
theorem hz_1 : (![0, 0] : Fin 2 → Nat) = fun _ => 0 := funext fun a => by fin_cases a <;> rfl

/-- A load of the whole buffer, through the unit rectangle at zero offsets, of contents that read `x` reads `x`. -/
theorem readAt_whole_1 {S : Shape} {e : EltTy} {off : Fin S.rank → Nat} (h : off = fun _ => 0)
    (inb : ∀ a, off a + S.size a ≤ S.size a) (a : Memref sig .tc .vmem S e) (ha : a.IsWhole) (x : S.Idx → Elt F e) :
    View.readAt (Elt F) a.view (Rect.unit off S.size inb).toLoadRect (ha.unread x) = x := by
  rw [View.readAt_eq_ld, ha.read_unread, View.ld_unit_zero h]

/-- A store of the whole buffer, through the unit rectangle at zero offsets, made last leaves its payload, whatever
    was there and whatever the earlier stores were. -/
theorem read_writes_whole_1 {S : Shape} {e : EltTy} {off : Fin S.rank → Nat} (h : off = fun _ => 0)
    (inb : ∀ a, off a + S.size a ≤ S.size a) (v : View sig .tc .vmem S e) (f : v.ty.Contents (Elt F)) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.mem_cons_self .., View.mem_set_unit_zero h inb y⟩)).trans
    (View.canon_cons_unit_zero h inb w L)

/-- The condition of the body's first `scf.if` (the reset of the two accumulators), from the grid coordinates. -/
abbrev cond1_0 (i : grid1.Coords) : Prop := (Scalar.cmpi .ne (Scalar.extui (Scalar.cmpi .eq (BitVec.ofNat 32 (i 0).val) 0#32)) 0#32) = 1#1
/-- The condition of its second (the copy of the accumulators into the two statistics outputs). -/
abbrev cond1_1 (i : grid1.Coords) : Prop := k1_cond2 i = 1#1

set_option maxHeartbeats 1000000 in
/-- The body at the first point (the reset taken, the copy not), on whole memrefs: the accumulators, whatever they
    held, are zeroed and left at the first block's column sums added to zero. -/
theorem run1_A (c : Dev nD) (i : grid1.Coords)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : cond1_0 i) (hc1 : ¬cond1_1 i)
    (x0 : Vec F S2000x128 .f32) (x1 : Vec F S2000x1 .f32) (x2 : Vec F S1x128 .f32)
    (xi4 xi5 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi4 ∗ owns (c : Thread nD τ) arg6 fullShare xi5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay3 x0 x1 x2) ∗ owns (c : Thread nD τ) arg5 fullShare xi4 ∗ owns (c : Thread nD τ) arg6 fullShare xi5
            ∗ owns (c : Thread nD τ) arg7 fullShare (k1_pay4 x0 x1 x2 k1_pay1) ∗ owns (c : Thread nD τ) arg8 fullShare (k1_pay5 x0 x1 x2 k1_pay2)) -∗ K ⟨⟩))
      ⊢ wp frame (wpE (defs₀ (F := F)) Variants.none c none) E (cc1__stats_bias_kernel i arg1 harg1 arg2 harg2 arg3 harg3 arg4 harg4 arg5 harg5 arg6 harg6 arg7 harg7 arg8 harg8) K := by
  simp only [cc1__stats_bias_kernel_eq_skeleton]; unfold cc1__stats_bias_kernel_skel
  simp only [k1_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, Hk⟩
  obtain rfl := harg1.eq_unread hf0; obtain rfl := harg2.eq_unread hf1; obtain rfl := harg3.eq_unread hf2
  obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [read_writes_whole_1 hz_1, readAt_whole_1 hz_1, readAt_whole_1 hz_1, readAt_whole_1 hz_1]
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    sl_unfold_run_names
    rw [read_writes_whole_1 hz_1, readAt_whole_1 hz_1, readAt_whole_1 hz_1, readAt_whole_1 hz_1, View.readCov_unit_zero _ hz_1]
  iexists _; isplitr
  swap; · iexact H7
  ipureintro
  sl_unfold_run_names
  rw [read_writes_whole_1 hz_1, readAt_whole_1 hz_1, readAt_whole_1 hz_1, readAt_whole_1 hz_1, View.readCov_unit_zero _ hz_1]

set_option maxHeartbeats 1000000 in
/-- The body at a point that is neither the first nor the last (neither conditional taken), on whole memrefs: the
    three inputs at their blocks, the two statistics outputs handed back untouched, the accumulators taken at `s0`,
    `s1` and left with the block's column sums added. -/
theorem run1_B (c : Dev nD) (i : grid1.Coords)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond1_0 i) (hc1 : ¬cond1_1 i)
    (x0 : Vec F S2000x128 .f32) (x1 : Vec F S2000x1 .f32) (x2 : Vec F S1x128 .f32) (s0 s1 : Vec F S1x128 .f32)
    (xi4 xi5 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi4 ∗ owns (c : Thread nD τ) arg6 fullShare xi5
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k1_pay3 x0 x1 x2) ∗ owns (c : Thread nD τ) arg5 fullShare xi4 ∗ owns (c : Thread nD τ) arg6 fullShare xi5
            ∗ owns (c : Thread nD τ) arg7 fullShare (k1_pay4 x0 x1 x2 s0) ∗ owns (c : Thread nD τ) arg8 fullShare (k1_pay5 x0 x1 x2 s1)) -∗ K ⟨⟩))
      ⊢ wp frame (wpE (defs₀ (F := F)) Variants.none c none) E (cc1__stats_bias_kernel i arg1 harg1 arg2 harg2 arg3 harg3 arg4 harg4 arg5 harg5 arg6 harg6 arg7 harg7 arg8 harg8) K := by
  simp only [cc1__stats_bias_kernel_eq_skeleton]; unfold cc1__stats_bias_kernel_skel
  simp only [k1_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2
  obtain rfl := harg5.eq_unread hf4; obtain rfl := harg6.eq_unread hf5; obtain rfl := harg7.eq_unread hf6; obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [read_writes_whole_1 hz_1, readAt_whole_1 hz_1, readAt_whole_1 hz_1, readAt_whole_1 hz_1]
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [read_writes_whole_1 hz_1, readAt_whole_1 hz_1, readAt_whole_1 hz_1, readAt_whole_1 hz_1, readAt_whole_1 hz_1]
  iexists _; isplitr
  swap; · iexact H7
  ipureintro
  rw [read_writes_whole_1 hz_1, readAt_whole_1 hz_1, readAt_whole_1 hz_1, readAt_whole_1 hz_1, readAt_whole_1 hz_1]

set_option maxHeartbeats 1000000 in
/-- The body at the last point (the copy taken, the reset not), on whole memrefs: the accumulators are updated as at
    any later point and then copied into the two statistics outputs' buffers, whatever those held. -/
theorem run1_C (c : Dev nD) (i : grid1.Coords)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond1_0 i) (hc1 : cond1_1 i)
    (x0 : Vec F S2000x128 .f32) (x1 : Vec F S2000x1 .f32) (x2 : Vec F S1x128 .f32) (s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k1_pay3 x0 x1 x2) ∗ owns (c : Thread nD τ) arg5 fullShare (k1_pay4 x0 x1 x2 s0) ∗ owns (c : Thread nD τ) arg6 fullShare (k1_pay5 x0 x1 x2 s1)
            ∗ owns (c : Thread nD τ) arg7 fullShare (k1_pay4 x0 x1 x2 s0) ∗ owns (c : Thread nD τ) arg8 fullShare (k1_pay5 x0 x1 x2 s1)) -∗ K ⟨⟩))
      ⊢ wp frame (wpE (defs₀ (F := F)) Variants.none c none) E (cc1__stats_bias_kernel i arg1 harg1 arg2 harg2 arg3 harg3 arg4 harg4 arg5 harg5 arg6 harg6 arg7 harg7 arg8 harg8) K := by
  simp only [cc1__stats_bias_kernel_eq_skeleton]; unfold cc1__stats_bias_kernel_skel
  simp only [k1_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  obtain rfl := harg1.eq_unread hf0; obtain rfl := harg2.eq_unread hf1; obtain rfl := harg3.eq_unread hf2
  obtain rfl := harg7.eq_unread hf6; obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [read_writes_whole_1 hz_1, readAt_whole_1 hz_1, readAt_whole_1 hz_1, readAt_whole_1 hz_1]
  isplitl [H4]
  · iexists _; isplitr
    swap; · iexact H4
    ipureintro
    sl_unfold_run_names
    rw [read_writes_whole_1 hz_1, View.readCov_unit_zero _ hz_1, readAt_whole_1 hz_1, readAt_whole_1 hz_1, readAt_whole_1 hz_1, readAt_whole_1 hz_1]
  isplitl [H5]
  · iexists _; isplitr
    swap; · iexact H5
    ipureintro
    sl_unfold_run_names
    rw [read_writes_whole_1 hz_1, View.readCov_unit_zero _ hz_1, readAt_whole_1 hz_1, readAt_whole_1 hz_1, readAt_whole_1 hz_1, readAt_whole_1 hz_1]
  isplitl [H6]
  · iexists _; isplitr
    swap; · iexact H6
    ipureintro
    sl_unfold_run_names
    rw [read_writes_whole_1 hz_1, readAt_whole_1 hz_1, readAt_whole_1 hz_1, readAt_whole_1 hz_1, readAt_whole_1 hz_1]
  iexists _; isplitr
  swap; · iexact H7
  ipureintro
  sl_unfold_run_names
  rw [read_writes_whole_1 hz_1, readAt_whole_1 hz_1, readAt_whole_1 hz_1, readAt_whole_1 hz_1, readAt_whole_1 hz_1]

end Cert.Kernel.Hand

end
-- ==== Proof.K.Reg1.lean ====
/- Region 1 of the kernel's program (the first statistics kernel): the proof data of its pipeline on one
   core, with the two accumulators carried between the grid's points held in the body's invariant at their running
   sums, the body obligation at every point, and the invariant's two ends. -/
import proofs.«168650_j27212912787479_2_alg».proof.Proof.Gen.Kernel.Launch
import proofs.«168650_j27212912787479_2_alg».proof.Proof.Gen.Kernel.Skeleton
import proofs.«168650_j27212912787479_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«168650_j27212912787479_2_alg».proof.Proof.K.Reg1Body
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents on the TensorCore when the region is entered: the parameter the region's data is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: an input not
    fetched at a point has the block index it had at the point before, and the body leaves the inputs as it finds them. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditions over the grid, and where the two statistics outputs are idle -/

/-- The reset is taken at the first point only. -/
theorem hcond1_0 : ∀ t : Fin cfg1.N, cond1_0 (grid1.coords t) ↔ t.val % 25 = 0 :=
  (by decide +kernel : ∀ t : Fin grid1.N, cond1_0 (grid1.coords t) ↔ t.val % 25 = 0)
/-- The copy into the statistics outputs is taken at the last point only. -/
theorem hcond1_1 : ∀ t : Fin cfg1.N, cond1_1 (grid1.coords t) ↔ t.val % 25 = 24 :=
  (by decide +kernel : ∀ t : Fin grid1.N, cond1_1 (grid1.coords t) ↔ t.val % 25 = 24)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last point the two statistics outputs are idle and not written back; at it they are live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
/-- The two accumulators: whole scoped buffers of the kernel's own. -/
abbrev scM1_0 : Memref sig .tc .vmem S1x128 .f32 := Memref.whole cc1_scratch0
abbrev scM1_1 : Memref sig .tc .vmem S1x128 .f32 := Memref.whole cc1_scratch1

/-! ## What the body leaves -/

abbrev r1_3 : Rect S2000x128 := Rect.unit (s := S2000x128) ![0, 0] S2000x128.size inb_S2000x128_S2000x128_0_0

/-- Output window 3's staging buffer after the body: its one store, of `agg · dinv + b` over the whole block. -/
def out1_3 (x0 : Vec F S2000x128 .f32) (x1 : Vec F S2000x1 .f32) (x2 : Vec F S1x128 .f32) : Vec F S2000x128 .f32 :=
  View.canon [⟨r1_3, k1_pay3 x0 x1 x2⟩]

/-- The one store covers the block: the buffer holds its payload. -/
theorem out1_3_eq (x0 : Vec F S2000x128 .f32) (x1 : Vec F S2000x1 .f32) (x2 : Vec F S1x128 .f32) :
    out1_3 x0 x1 x2 = k1_pay3 x0 x1 x2 := View.canon_unit_zero hz_1 _ _

/-- THE RUNNING SUMS. What the two accumulators hold after the body at point `n`: at the first point the block's
    column sums (of `h`, and of `h · h`) added to the zero row the reset stored; afterwards added to what the point
    before left. -/
def acc1 (c : Dev nD) : (n : ℕ) → n < cfg1.N → Vec F S1x128 .f32 × Vec F S1x128 .f32
  | 0, hn => (k1_pay4 (iblk1 V c 0 ⟨0, hn⟩) (iblk1 V c 1 ⟨0, hn⟩) (iblk1 V c 2 ⟨0, hn⟩) k1_pay1, k1_pay5 (iblk1 V c 0 ⟨0, hn⟩) (iblk1 V c 1 ⟨0, hn⟩) (iblk1 V c 2 ⟨0, hn⟩) k1_pay2)
  | n + 1, hn => (k1_pay4 (iblk1 V c 0 ⟨n + 1, hn⟩) (iblk1 V c 1 ⟨n + 1, hn⟩) (iblk1 V c 2 ⟨n + 1, hn⟩) (acc1 c n (Nat.lt_of_succ_lt hn)).1,
      k1_pay5 (iblk1 V c 0 ⟨n + 1, hn⟩) (iblk1 V c 1 ⟨n + 1, hn⟩) (iblk1 V c 2 ⟨n + 1, hn⟩) (acc1 c n (Nat.lt_of_succ_lt hn)).2)

theorem acc1_zero (c : Dev nD) (t : Fin cfg1.N) (hz : t.val = 0) :
    acc1 V c t.val t.isLt = (k1_pay4 (iblk1 V c 0 t) (iblk1 V c 1 t) (iblk1 V c 2 t) k1_pay1, k1_pay5 (iblk1 V c 0 t) (iblk1 V c 1 t) (iblk1 V c 2 t) k1_pay2) := by
  obtain ⟨n, hn⟩ := t
  cases n with
  | zero => rfl
  | succ n => exact absurd hz (Nat.succ_ne_zero n)

theorem acc1_pos (c : Dev nD) (t : Fin cfg1.N) (hz : t.val ≠ 0) :
    acc1 V c t.val t.isLt = (k1_pay4 (iblk1 V c 0 t) (iblk1 V c 1 t) (iblk1 V c 2 t) (acc1 V c (t.val - 1) (Nat.lt_of_le_of_lt (Nat.sub_le _ _) t.isLt)).1,
      k1_pay5 (iblk1 V c 0 t) (iblk1 V c 1 t) (iblk1 V c 2 t) (acc1 V c (t.val - 1) (Nat.lt_of_le_of_lt (Nat.sub_le _ _) t.isLt)).2) := by
  obtain ⟨n, hn⟩ := t
  cases n with
  | zero => exact absurd rfl hz
  | succ n => rfl

/-! ## The body's invariant -/

/-- The scoped buffers of the core other than the two accumulators, unopened. -/
abbrev rest1 (c : Dev nD) : sProp 𝕄 := Pipeline.scopedRestBut (Ix := Unit) (Name := ℕ) (U := UR sig nD τ) (Lvl := ℕ) (Val := Elt F) spec1 c [cc1_scratch0, cc1_scratch1]

/-- The scoped rest with the two accumulators taken out, each at some contents. -/
theorem rest1_split (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d) ∗ (∃ d, owns (c : Thread nD τ) scM1_1 fullShare d)) ∗ rest1 c) := by
  rw [scopedRest1_split]; simp only [scM1_0, scM1_1, owns_whole]; try rfl

/-- The invariant before position `n`: before the first point the generator register at some state and the whole scoped
    rest (the accumulators at anything: the first point overwrites them); afterwards the accumulators at the running
    sums the point before left, beside the register and the other scoped buffers. -/
def Phi1 (c : Dev nD) : (n : ℕ) → n ≤ cfg1.N → sProp 𝕄
  | 0, _ => iprop((∃ r, prngReg c r) ∗ Pipeline.scopedRest (Ix := Unit) (Name := ℕ) (U := UR sig nD τ) (Lvl := ℕ) (Val := Elt F) spec1 c)
  | n + 1, hn => iprop((∃ r, prngReg c r) ∗ iprop(owns (c : Thread nD τ) scM1_0 fullShare (acc1 V c n hn).1 ∗ owns (c : Thread nD τ) scM1_1 fullShare (acc1 V c n hn).2) ∗ rest1 c)

theorem Phi1_zero (c : Dev nD) (n : ℕ) (h : n ≤ cfg1.N) (hz : n = 0) :
    Phi1 V c n h = iprop((∃ r, prngReg c r) ∗ Pipeline.scopedRest (Ix := Unit) (Name := ℕ) (U := UR sig nD τ) (Lvl := ℕ) (Val := Elt F) spec1 c) := by
  subst hz; rfl

theorem Phi1_succ (c : Dev nD) (n : ℕ) (hn : n < cfg1.N) :
    Phi1 V c (n + 1) hn = iprop((∃ r, prngReg c r) ∗ iprop(owns (c : Thread nD τ) scM1_0 fullShare (acc1 V c n hn).1 ∗ owns (c : Thread nD τ) scM1_1 fullShare (acc1 V c n hn).2) ∗ rest1 c) := rfl

theorem Phi1_pos (c : Dev nD) (n : ℕ) (h : n ≤ cfg1.N) (hz : n ≠ 0) :
    Phi1 V c n h = iprop((∃ r, prngReg c r) ∗ iprop(owns (c : Thread nD τ) scM1_0 fullShare (acc1 V c (n - 1) (by omega)).1 ∗ owns (c : Thread nD τ) scM1_1 fullShare (acc1 V c (n - 1) (by omega)).2) ∗ rest1 c) := by
  cases n with
  | zero => exact absurd rfl hz
  | succ n => rfl

/-! ## The pipeline's proof data -/

/-- The proof data of pipeline 1 on core `c`: the arrays as the region finds them; after the body at point `t` each
    input's buffer at its block, output 3's at its one store, the two statistics outputs' at the running sums (read only
    at the last point: elsewhere the windows are idle and not written back); the invariant above; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => (acc1 V c t.val t.isLt).1
    | ⟨5, _⟩ => (acc1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = (acc1 V c t.val t.isLt).1 := by dsimp only [dat1]
theorem after1_5 (c : Dev nD) (t : Fin cfg1.N) : (dat1 V c).after 5 t = (acc1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the closed forms of the two conditions say which of
    the three cases the point is in, and that case's run applies: the invariant hands it the accumulators (at anything
    at the first point, at the running sums of the point before afterwards) and takes them back at this point's
    running sums; away from the last point the two statistics outputs are handed back as found, at it they are left at
    the running sums; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3, out1_3_eq]
  have hN : t.val < 25 := lt_of_lt_of_eq t.isLt (show cfg1.N = 25 from N_1)
  by_cases h0 : t.val % 25 = 0
  · have h1 : ¬t.val % 25 = 24 := by omega
    have hz : t.val = 0 := by omega
    rw [Dat.leavesExact_idle (dat1 V c) 4 t (idleAt1_4 t (fun h => h1 ((hcond1_1 t).mp h))) (noFlush1_4 t (fun h => h1 ((hcond1_1 t).mp h)))]
    rw [Dat.leavesExact_idle (dat1 V c) 5 t (idleAt1_5 t (fun h => h1 ((hcond1_1 t).mp h))) (noFlush1_5 t (fun h => h1 ((hcond1_1 t).mp h)))]
    rw [acc1_zero V c t hz]; (try dsimp only)
    rw [Phi1_castSucc V c t, Phi1_zero V c _ _ hz, rest1_split]
    iintro ⟨⟨Hg, ⟨HS0, HS1⟩, Hrest⟩, Ho, ⟨%d0, H0⟩, ⟨%d1, H1⟩, ⟨%d2, H2⟩, ⟨%d3, H3⟩, ⟨%d4, H4⟩, ⟨%d5, H5⟩⟩
    iapply (run1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [Hg HS0 HS1 Hrest]
    · isplitl [Hg]; · iexact Hg
      isplitl [HS0 HS1]
      · isplitl [HS0]; · iexact HS0
        iexact HS1
      iexact Hrest
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hz : t.val ≠ 0 := fun h => h0 (by rw [h])
    by_cases h1 : t.val % 25 = 24
    · rw [show (dat1 V c).leavesExact 4 t = owns (c : Thread nD τ) (ms1_4 t) fullShare ((dat1 V c).after 4 t) from by
        unfold Dat.leavesExact; rw [liveAt1_4 t ((hcond1_1 t).mpr h1)], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [acc1_pos V c t hz]; (try dsimp only)
      rw [Phi1_castSucc V c t, Phi1_pos V c _ _ hz]
      iintro ⟨⟨Hg, ⟨HS0, HS1⟩, Hrest⟩, Ho, ⟨%d0, H0⟩, ⟨%d1, H1⟩, ⟨%d2, H2⟩, ⟨%d3, H3⟩, ⟨%d4, H4⟩, ⟨%d5, H5⟩⟩
      iapply (run1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) _ _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [Hg HS0 HS1 Hrest]
      · isplitl [Hg]; · iexact Hg
        isplitl [HS0 HS1]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [acc1_pos V c t hz]; (try dsimp only)
      rw [Phi1_castSucc V c t, Phi1_pos V c _ _ hz]
      iintro ⟨⟨Hg, ⟨HS0, HS1⟩, Hrest⟩, Ho, ⟨%d0, H0⟩, ⟨%d1, H1⟩, ⟨%d2, H2⟩, ⟨%d3, H3⟩, ⟨%d4, H4⟩, ⟨%d5, H5⟩⟩
      iapply (run1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, H3, H4, H5, HS0, HS1⟩
      isplitl [Hg HS0 HS1 Hrest]
      · isplitl [Hg]; · iexact Hg
        isplitl [HS0 HS1]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem phi_in1 (c : Dev nD) : iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = Phi1 V c 0 (Nat.zero_le _) from rfl, Phi1_zero V c 0 _ rfl]
  try exact Idealize.SL.BI.Entails.refl _

/-- After the last point the invariant gives the scoped rest back: the accumulators' named contents are forgotten. -/
theorem phi_out1 (c : Dev nD) : (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Phi1 V c cfg1.N (Nat.le_refl _) from rfl,
    Phi1_pos V c _ _ (by rw [show cfg1.N = 25 from N_1]; omega), rest1_split]
  iintro ⟨Hg, ⟨HS0, HS1⟩, Hrest⟩
  isplitl [Hg]; · iexact Hg
  isplitl [HS0 HS1]
  · isplitl [HS0]
    · iexists _; iexact HS0
    iexists _; iexact HS1
  iexact Hrest

/-! ## What the output windows' staging buffers hold after the body, in closed form -/

/-- Output 3 at any point: `agg · dinv + b` of the point's blocks. -/
theorem after1_3_val (c : Dev nD) (t : Fin cfg1.N) : (dat1 V c).after 3 t = k1_pay3 (iblk1 V c 0 t) (iblk1 V c 1 t) (iblk1 V c 2 t) :=
  (after1_3 V c t).trans (out1_3_eq _ _ _)

/-- The two statistics outputs at the last point: the running sums after all 25 points. -/
theorem after1_4_last (c : Dev nD) : (dat1 V c).after 4 ⟨24, by decide⟩ = (acc1 V c 24 (by decide)).1 := after1_4 V c _
theorem after1_5_last (c : Dev nD) : (dat1 V c).after 5 ⟨24, by decide⟩ = (acc1 V c 24 (by decide)).2 := after1_5 V c _

/-- The running sums unfold one point at a time. -/
theorem acc1_zero_eq (c : Dev nD) (hn : 0 < cfg1.N) :
    acc1 V c 0 hn = (k1_pay4 (iblk1 V c 0 ⟨0, hn⟩) (iblk1 V c 1 ⟨0, hn⟩) (iblk1 V c 2 ⟨0, hn⟩) k1_pay1, k1_pay5 (iblk1 V c 0 ⟨0, hn⟩) (iblk1 V c 1 ⟨0, hn⟩) (iblk1 V c 2 ⟨0, hn⟩) k1_pay2) := rfl
theorem acc1_succ_eq (c : Dev nD) (n : ℕ) (hn : n + 1 < cfg1.N) :
    acc1 V c (n + 1) hn = (k1_pay4 (iblk1 V c 0 ⟨n + 1, hn⟩) (iblk1 V c 1 ⟨n + 1, hn⟩) (iblk1 V c 2 ⟨n + 1, hn⟩) (acc1 V c n (Nat.lt_of_succ_lt hn)).1,
      k1_pay5 (iblk1 V c 0 ⟨n + 1, hn⟩) (iblk1 V c 1 ⟨n + 1, hn⟩) (iblk1 V c 2 ⟨n + 1, hn⟩) (acc1 V c n (Nat.lt_of_succ_lt hn)).2) := rfl

end Cert.Kernel.Hand

end
-- ==== Proof.K.Reg2.lean ====
/- Region 2: batch normalisation, ReLU and the second layer's feature transform of one block of 2000 rows. The kernel
   loads a block of activations, four rows of 128 statistics and parameters, the 128 x 128 weight matrix and a column
   of 2000 inverse square-root degrees, and stores
   bf16((bf16 relu((x - mean) * rsqrt(var + eps) * gamma + beta)) (bf16 W) * dinv) over its whole output block. This
   module states what the output staging buffer holds after the body as a function of the input blocks, proves the
   body's triple, and discharges the pipeline's body obligation at every grid point. -/
import proofs.«168650_j27212912787479_2_alg».proof.Proof.Gen.Kernel.Launch
import proofs.«168650_j27212912787479_2_alg».proof.Proof.Gen.Kernel.Skeleton
import proofs.«168650_j27212912787479_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the window's block at every point, whether or not the block was
    fetched there: where it was not, the block index has not moved since the previous point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds the window's block at every point, whether or not the block was
    fetched there: where it was not, the block index has not moved since the previous point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds the window's block at every point, whether or not the block was
    fetched there: where it was not, the block index has not moved since the previous point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds the window's block at every point, whether or not the block was
    fetched there: where it was not, the block index has not moved since the previous point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds the window's block at every point, whether or not the block was
    fetched there: where it was not, the block index has not moved since the previous point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds the window's block at every point, whether or not the block was
    fetched there: where it was not, the block index has not moved since the previous point. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds the window's block at every point, whether or not the block was
    fetched there: where it was not, the block index has not moved since the previous point. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and the store take a whole buffer -/

abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0
abbrev r2_2 : Rect S128x128 := Rect.unit (s := S128x128) ![0, 0] S128x128.size inb_S128x128_S128x128_0_0
abbrev r2_3 : Rect S2000x1 := Rect.unit (s := S2000x1) ![0, 0] S2000x1.size inb_S2000x1_S2000x1_0_0

/-! ## What the body leaves in the output window's buffer -/

/-- The output buffer after the body: the one payload, of the input blocks, laid over the whole buffer. -/
def out2_7 (x0 : Vec F S2000x128 .f32) (x1 : Vec F S1x128 .f32) (x2 : Vec F S1x128 .f32) (x3 : Vec F S1x128 .f32) (x4 : Vec F S1x128 .f32) (x5 : Vec F S128x128 .f32) (x6 : Vec F S2000x1 .f32) : Vec F S2000x128 .bf16 :=
  View.canon [⟨r2_0, k2_pay1 (View.ld x0 r2_0) (View.ld x2 r2_1) (View.ld x1 r2_1) (View.ld x3 r2_1) (View.ld x4 r2_1) (View.ld x5 r2_2) (View.ld x6 r2_3)⟩]

/-- The one store covers the buffer. -/
theorem cover2_7 (p0 : Vec F S2000x128 .bf16) (y : S2000x128.Idx) :
    ∃ pc ∈ ([⟨r2_0, p0⟩] : List (View.Piece (Elt F) S2000x128 .bf16)), y ∈ pc.1.set :=
  View.cover_of_tiled [⟨r2_0, p0⟩] S2000x128.size (by rfl) y

/-! ## The body's triple -/

set_option maxHeartbeats 1000000 in
/-- The kernel on whole staging memrefs, the inputs' at contents `xW` and the output's at anything, runs to the
    continuation holding the inputs' as they were and the output's at `out2_7` of the inputs'. The body first
    loads the output buffer (a value it never uses) and then stores the payload over all of it. -/
theorem sound_kernel2 (c : Dev nD) (E : Set ℕ) (i : grid2.Coords) (arg0 : Memref sig .tc .vmem S2000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x1 .f32) (harg6 : arg6.IsWhole) (arg7 : Memref sig .tc .vmem S2000x128 .bf16) (harg7 : arg7.IsWhole)
    (x0 : Vec F S2000x128 .f32) (x1 : Vec F S1x128 .f32) (x2 : Vec F S1x128 .f32) (x3 : Vec F S1x128 .f32) (x4 : Vec F S1x128 .f32) (x5 : Vec F S128x128 .f32) (x6 : Vec F S2000x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__fused_bn_matmul_kernel i arg0 harg0 arg1 harg1 arg2 harg2 arg3 harg3 arg4 harg4 arg5 harg5 arg6 harg6 arg7 harg7) K := by
  simp only [cc2__fused_bn_matmul_kernel_eq_skeleton]; unfold cc2__fused_bn_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of the pipeline on core `c`: the arrays as the region finds them; after the body at point `t`
    each input's buffer at its block and the output's at `out2_7` of the input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so `sound_kernel2` applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3Body.lean ====
/- Region 3 of the kernel's program: the statistics kernel's body, run on whole memrefs in each of the three
   cases its two conditionals on the grid coordinate leave (first point: the accumulators are reset; a middle point;
   last point: the accumulators are copied out). Each run states what every memref holds afterwards through the
   skeleton's payloads. -/
import proofs.«168650_j27212912787479_2_alg».proof.Proof.Gen.Kernel.Launch
import proofs.«168650_j27212912787479_2_alg».proof.Proof.Gen.Kernel.Skeleton
import proofs.«168650_j27212912787479_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The unit offsets of a rank-2 rectangle are zero at every axis. -/
theorem hz_3 : (![0, 0] : Fin 2 → Nat) = fun _ => 0 := funext fun a => by fin_cases a <;> rfl

/-- A load of the whole buffer, through the unit rectangle at zero offsets, of contents that read `x` reads `x`. -/
theorem readAt_whole_3 {S : Shape} {e : EltTy} {off : Fin S.rank → Nat} (h : off = fun _ => 0)
    (inb : ∀ a, off a + S.size a ≤ S.size a) (a : Memref sig .tc .vmem S e) (ha : a.IsWhole) (x : S.Idx → Elt F e) :
    View.readAt (Elt F) a.view (Rect.unit off S.size inb).toLoadRect (ha.unread x) = x := by
  rw [View.readAt_eq_ld, ha.read_unread, View.ld_unit_zero h]

/-- A store of the whole buffer, through the unit rectangle at zero offsets, made last leaves its payload, whatever
    was there and whatever the earlier stores were. -/
theorem read_writes_whole_3 {S : Shape} {e : EltTy} {off : Fin S.rank → Nat} (h : off = fun _ => 0)
    (inb : ∀ a, off a + S.size a ≤ S.size a) (v : View sig .tc .vmem S e) (f : v.ty.Contents (Elt F)) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.mem_cons_self .., View.mem_set_unit_zero h inb y⟩)).trans
    (View.canon_cons_unit_zero h inb w L)

/-- The condition of the body's first `scf.if` (the reset of the two accumulators), from the grid coordinates. -/
abbrev cond3_0 (i : grid3.Coords) : Prop := (Scalar.cmpi .ne (Scalar.extui (Scalar.cmpi .eq (BitVec.ofNat 32 (i 0).val) 0#32)) 0#32) = 1#1
/-- The condition of its second (the copy of the accumulators into the two statistics outputs). -/
abbrev cond3_1 (i : grid3.Coords) : Prop := k3_cond2 i = 1#1

set_option maxHeartbeats 1000000 in
/-- The body at the first point (the reset taken, the copy not), on whole memrefs: the accumulators, whatever they
    held, are zeroed and left at the first block's column sums added to zero. -/
theorem run3_A (c : Dev nD) (i : grid3.Coords)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : cond3_0 i) (hc1 : ¬cond3_1 i)
    (x0 : Vec F S2000x128 .f32) (x1 : Vec F S2000x1 .f32) (x2 : Vec F S1x128 .f32)
    (xi4 xi5 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi4 ∗ owns (c : Thread nD τ) arg6 fullShare xi5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k3_pay3 x0 x1 x2) ∗ owns (c : Thread nD τ) arg5 fullShare xi4 ∗ owns (c : Thread nD τ) arg6 fullShare xi5
            ∗ owns (c : Thread nD τ) arg7 fullShare (k3_pay4 x0 x1 x2 k3_pay1) ∗ owns (c : Thread nD τ) arg8 fullShare (k3_pay5 x0 x1 x2 k3_pay2)) -∗ K ⟨⟩))
      ⊢ wp frame (wpE (defs₀ (F := F)) Variants.none c none) E (cc3__stats_bias_kernel i arg1 harg1 arg2 harg2 arg3 harg3 arg4 harg4 arg5 harg5 arg6 harg6 arg7 harg7 arg8 harg8) K := by
  simp only [cc3__stats_bias_kernel_eq_skeleton]; unfold cc3__stats_bias_kernel_skel
  simp only [k3_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, Hk⟩
  obtain rfl := harg1.eq_unread hf0; obtain rfl := harg2.eq_unread hf1; obtain rfl := harg3.eq_unread hf2
  obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [read_writes_whole_3 hz_3, readAt_whole_3 hz_3, readAt_whole_3 hz_3, readAt_whole_3 hz_3]
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    sl_unfold_run_names
    rw [read_writes_whole_3 hz_3, readAt_whole_3 hz_3, readAt_whole_3 hz_3, readAt_whole_3 hz_3, View.readCov_unit_zero _ hz_3]
  iexists _; isplitr
  swap; · iexact H7
  ipureintro
  sl_unfold_run_names
  rw [read_writes_whole_3 hz_3, readAt_whole_3 hz_3, readAt_whole_3 hz_3, readAt_whole_3 hz_3, View.readCov_unit_zero _ hz_3]

set_option maxHeartbeats 1000000 in
/-- The body at a point that is neither the first nor the last (neither conditional taken), on whole memrefs: the
    three inputs at their blocks, the two statistics outputs handed back untouched, the accumulators taken at `s0`,
    `s1` and left with the block's column sums added. -/
theorem run3_B (c : Dev nD) (i : grid3.Coords)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond3_0 i) (hc1 : ¬cond3_1 i)
    (x0 : Vec F S2000x128 .f32) (x1 : Vec F S2000x1 .f32) (x2 : Vec F S1x128 .f32) (s0 s1 : Vec F S1x128 .f32)
    (xi4 xi5 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi4 ∗ owns (c : Thread nD τ) arg6 fullShare xi5
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k3_pay3 x0 x1 x2) ∗ owns (c : Thread nD τ) arg5 fullShare xi4 ∗ owns (c : Thread nD τ) arg6 fullShare xi5
            ∗ owns (c : Thread nD τ) arg7 fullShare (k3_pay4 x0 x1 x2 s0) ∗ owns (c : Thread nD τ) arg8 fullShare (k3_pay5 x0 x1 x2 s1)) -∗ K ⟨⟩))
      ⊢ wp frame (wpE (defs₀ (F := F)) Variants.none c none) E (cc3__stats_bias_kernel i arg1 harg1 arg2 harg2 arg3 harg3 arg4 harg4 arg5 harg5 arg6 harg6 arg7 harg7 arg8 harg8) K := by
  simp only [cc3__stats_bias_kernel_eq_skeleton]; unfold cc3__stats_bias_kernel_skel
  simp only [k3_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2
  obtain rfl := harg5.eq_unread hf4; obtain rfl := harg6.eq_unread hf5; obtain rfl := harg7.eq_unread hf6; obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [read_writes_whole_3 hz_3, readAt_whole_3 hz_3, readAt_whole_3 hz_3, readAt_whole_3 hz_3]
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [read_writes_whole_3 hz_3, readAt_whole_3 hz_3, readAt_whole_3 hz_3, readAt_whole_3 hz_3, readAt_whole_3 hz_3]
  iexists _; isplitr
  swap; · iexact H7
  ipureintro
  rw [read_writes_whole_3 hz_3, readAt_whole_3 hz_3, readAt_whole_3 hz_3, readAt_whole_3 hz_3, readAt_whole_3 hz_3]

set_option maxHeartbeats 1000000 in
/-- The body at the last point (the copy taken, the reset not), on whole memrefs: the accumulators are updated as at
    any later point and then copied into the two statistics outputs' buffers, whatever those held. -/
theorem run3_C (c : Dev nD) (i : grid3.Coords)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond3_0 i) (hc1 : cond3_1 i)
    (x0 : Vec F S2000x128 .f32) (x1 : Vec F S2000x1 .f32) (x2 : Vec F S1x128 .f32) (s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k3_pay3 x0 x1 x2) ∗ owns (c : Thread nD τ) arg5 fullShare (k3_pay4 x0 x1 x2 s0) ∗ owns (c : Thread nD τ) arg6 fullShare (k3_pay5 x0 x1 x2 s1)
            ∗ owns (c : Thread nD τ) arg7 fullShare (k3_pay4 x0 x1 x2 s0) ∗ owns (c : Thread nD τ) arg8 fullShare (k3_pay5 x0 x1 x2 s1)) -∗ K ⟨⟩))
      ⊢ wp frame (wpE (defs₀ (F := F)) Variants.none c none) E (cc3__stats_bias_kernel i arg1 harg1 arg2 harg2 arg3 harg3 arg4 harg4 arg5 harg5 arg6 harg6 arg7 harg7 arg8 harg8) K := by
  simp only [cc3__stats_bias_kernel_eq_skeleton]; unfold cc3__stats_bias_kernel_skel
  simp only [k3_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  obtain rfl := harg1.eq_unread hf0; obtain rfl := harg2.eq_unread hf1; obtain rfl := harg3.eq_unread hf2
  obtain rfl := harg7.eq_unread hf6; obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [read_writes_whole_3 hz_3, readAt_whole_3 hz_3, readAt_whole_3 hz_3, readAt_whole_3 hz_3]
  isplitl [H4]
  · iexists _; isplitr
    swap; · iexact H4
    ipureintro
    sl_unfold_run_names
    rw [read_writes_whole_3 hz_3, View.readCov_unit_zero _ hz_3, readAt_whole_3 hz_3, readAt_whole_3 hz_3, readAt_whole_3 hz_3, readAt_whole_3 hz_3]
  isplitl [H5]
  · iexists _; isplitr
    swap; · iexact H5
    ipureintro
    sl_unfold_run_names
    rw [read_writes_whole_3 hz_3, View.readCov_unit_zero _ hz_3, readAt_whole_3 hz_3, readAt_whole_3 hz_3, readAt_whole_3 hz_3, readAt_whole_3 hz_3]
  isplitl [H6]
  · iexists _; isplitr
    swap; · iexact H6
    ipureintro
    sl_unfold_run_names
    rw [read_writes_whole_3 hz_3, readAt_whole_3 hz_3, readAt_whole_3 hz_3, readAt_whole_3 hz_3, readAt_whole_3 hz_3]
  iexists _; isplitr
  swap; · iexact H7
  ipureintro
  sl_unfold_run_names
  rw [read_writes_whole_3 hz_3, readAt_whole_3 hz_3, readAt_whole_3 hz_3, readAt_whole_3 hz_3, readAt_whole_3 hz_3]

end Cert.Kernel.Hand

end
-- ==== Proof.K.Reg3.lean ====
/- Region 3 of the kernel's program (the second statistics kernel): the proof data of its pipeline on one
   core, with the two accumulators carried between the grid's points held in the body's invariant at their running
   sums, the body obligation at every point, and the invariant's two ends. -/
import proofs.«168650_j27212912787479_2_alg».proof.Proof.Gen.Kernel.Launch
import proofs.«168650_j27212912787479_2_alg».proof.Proof.Gen.Kernel.Skeleton
import proofs.«168650_j27212912787479_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«168650_j27212912787479_2_alg».proof.Proof.K.Reg3Body
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents on the TensorCore when the region is entered: the parameter the region's data is stated at
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point, fetched there or not: an input not
    fetched at a point has the block index it had at the point before, and the body leaves the inputs as it finds them. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The conditions over the grid, and where the two statistics outputs are idle -/

/-- The reset is taken at the first point only. -/
theorem hcond3_0 : ∀ t : Fin cfg3.N, cond3_0 (grid3.coords t) ↔ t.val % 25 = 0 :=
  (by decide +kernel : ∀ t : Fin grid3.N, cond3_0 (grid3.coords t) ↔ t.val % 25 = 0)
/-- The copy into the statistics outputs is taken at the last point only. -/
theorem hcond3_1 : ∀ t : Fin cfg3.N, cond3_1 (grid3.coords t) ↔ t.val % 25 = 24 :=
  (by decide +kernel : ∀ t : Fin grid3.N, cond3_1 (grid3.coords t) ↔ t.val % 25 = 24)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Away from the last point the two statistics outputs are idle and not written back; at it they are live. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
theorem liveAt3_5 : ∀ t : Fin cfg3.N, cond3_1 (grid3.coords t) → cfg3.idle 5 (grid3.coords t) = false := by decide +kernel

/-! ## The memrefs the body is called with -/

abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2000x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x128 .f32 := win3_5.stage (cfg3.slots t 5)
abbrev hs3_5 (t : Fin cfg3.N) : (ms3_5 t).IsWhole := hstage3_5 ((cfg3.slots t 5).cast nbuf3_5)
/-- The two accumulators: whole scoped buffers of the kernel's own. -/
abbrev scM3_0 : Memref sig .tc .vmem S1x128 .f32 := Memref.whole cc3_scratch0
abbrev scM3_1 : Memref sig .tc .vmem S1x128 .f32 := Memref.whole cc3_scratch1

/-! ## What the body leaves -/

abbrev r3_3 : Rect S2000x128 := Rect.unit (s := S2000x128) ![0, 0] S2000x128.size inb_S2000x128_S2000x128_0_0

/-- Output window 3's staging buffer after the body: its one store, of `agg · dinv + b` over the whole block. -/
def out3_3 (x0 : Vec F S2000x128 .f32) (x1 : Vec F S2000x1 .f32) (x2 : Vec F S1x128 .f32) : Vec F S2000x128 .f32 :=
  View.canon [⟨r3_3, k3_pay3 x0 x1 x2⟩]

/-- The one store covers the block: the buffer holds its payload. -/
theorem out3_3_eq (x0 : Vec F S2000x128 .f32) (x1 : Vec F S2000x1 .f32) (x2 : Vec F S1x128 .f32) :
    out3_3 x0 x1 x2 = k3_pay3 x0 x1 x2 := View.canon_unit_zero hz_3 _ _

/-- THE RUNNING SUMS. What the two accumulators hold after the body at point `n`: at the first point the block's
    column sums (of `h`, and of `h · h`) added to the zero row the reset stored; afterwards added to what the point
    before left. -/
def acc3 (c : Dev nD) : (n : ℕ) → n < cfg3.N → Vec F S1x128 .f32 × Vec F S1x128 .f32
  | 0, hn => (k3_pay4 (iblk3 V c 0 ⟨0, hn⟩) (iblk3 V c 1 ⟨0, hn⟩) (iblk3 V c 2 ⟨0, hn⟩) k3_pay1, k3_pay5 (iblk3 V c 0 ⟨0, hn⟩) (iblk3 V c 1 ⟨0, hn⟩) (iblk3 V c 2 ⟨0, hn⟩) k3_pay2)
  | n + 1, hn => (k3_pay4 (iblk3 V c 0 ⟨n + 1, hn⟩) (iblk3 V c 1 ⟨n + 1, hn⟩) (iblk3 V c 2 ⟨n + 1, hn⟩) (acc3 c n (Nat.lt_of_succ_lt hn)).1,
      k3_pay5 (iblk3 V c 0 ⟨n + 1, hn⟩) (iblk3 V c 1 ⟨n + 1, hn⟩) (iblk3 V c 2 ⟨n + 1, hn⟩) (acc3 c n (Nat.lt_of_succ_lt hn)).2)

theorem acc3_zero (c : Dev nD) (t : Fin cfg3.N) (hz : t.val = 0) :
    acc3 V c t.val t.isLt = (k3_pay4 (iblk3 V c 0 t) (iblk3 V c 1 t) (iblk3 V c 2 t) k3_pay1, k3_pay5 (iblk3 V c 0 t) (iblk3 V c 1 t) (iblk3 V c 2 t) k3_pay2) := by
  obtain ⟨n, hn⟩ := t
  cases n with
  | zero => rfl
  | succ n => exact absurd hz (Nat.succ_ne_zero n)

theorem acc3_pos (c : Dev nD) (t : Fin cfg3.N) (hz : t.val ≠ 0) :
    acc3 V c t.val t.isLt = (k3_pay4 (iblk3 V c 0 t) (iblk3 V c 1 t) (iblk3 V c 2 t) (acc3 V c (t.val - 1) (Nat.lt_of_le_of_lt (Nat.sub_le _ _) t.isLt)).1,
      k3_pay5 (iblk3 V c 0 t) (iblk3 V c 1 t) (iblk3 V c 2 t) (acc3 V c (t.val - 1) (Nat.lt_of_le_of_lt (Nat.sub_le _ _) t.isLt)).2) := by
  obtain ⟨n, hn⟩ := t
  cases n with
  | zero => exact absurd rfl hz
  | succ n => rfl

/-! ## The body's invariant -/

/-- The scoped buffers of the core other than the two accumulators, unopened. -/
abbrev rest3 (c : Dev nD) : sProp 𝕄 := Pipeline.scopedRestBut (Ix := Unit) (Name := ℕ) (U := UR sig nD τ) (Lvl := ℕ) (Val := Elt F) spec3 c [cc3_scratch0, cc3_scratch1]

/-- The scoped rest with the two accumulators taken out, each at some contents. -/
theorem rest3_split (c : Dev nD) :
    (Pipeline.scopedRest (Ix := Unit) (Name := ℕ) (U := UR sig nD τ) (Lvl := ℕ) (Val := Elt F) spec3 c : sProp 𝕄)
      = iprop(iprop((∃ d, owns (c : Thread nD τ) scM3_0 fullShare d) ∗ (∃ d, owns (c : Thread nD τ) scM3_1 fullShare d)) ∗ rest3 c) := by
  rw [scopedRest3_split]; simp only [scM3_0, scM3_1, owns_whole]; try rfl

/-- The invariant before position `n`: before the first point the generator register at some state and the whole scoped
    rest (the accumulators at anything: the first point overwrites them); afterwards the accumulators at the running
    sums the point before left, beside the register and the other scoped buffers. -/
def Phi3 (c : Dev nD) : (n : ℕ) → n ≤ cfg3.N → sProp 𝕄
  | 0, _ => iprop((∃ r, prngReg c r) ∗ Pipeline.scopedRest (Ix := Unit) (Name := ℕ) (U := UR sig nD τ) (Lvl := ℕ) (Val := Elt F) spec3 c)
  | n + 1, hn => iprop((∃ r, prngReg c r) ∗ iprop(owns (c : Thread nD τ) scM3_0 fullShare (acc3 V c n hn).1 ∗ owns (c : Thread nD τ) scM3_1 fullShare (acc3 V c n hn).2) ∗ rest3 c)

theorem Phi3_zero (c : Dev nD) (n : ℕ) (h : n ≤ cfg3.N) (hz : n = 0) :
    Phi3 V c n h = iprop((∃ r, prngReg c r) ∗ Pipeline.scopedRest (Ix := Unit) (Name := ℕ) (U := UR sig nD τ) (Lvl := ℕ) (Val := Elt F) spec3 c) := by
  subst hz; rfl

theorem Phi3_succ (c : Dev nD) (n : ℕ) (hn : n < cfg3.N) :
    Phi3 V c (n + 1) hn = iprop((∃ r, prngReg c r) ∗ iprop(owns (c : Thread nD τ) scM3_0 fullShare (acc3 V c n hn).1 ∗ owns (c : Thread nD τ) scM3_1 fullShare (acc3 V c n hn).2) ∗ rest3 c) := rfl

theorem Phi3_pos (c : Dev nD) (n : ℕ) (h : n ≤ cfg3.N) (hz : n ≠ 0) :
    Phi3 V c n h = iprop((∃ r, prngReg c r) ∗ iprop(owns (c : Thread nD τ) scM3_0 fullShare (acc3 V c (n - 1) (by omega)).1 ∗ owns (c : Thread nD τ) scM3_1 fullShare (acc3 V c (n - 1) (by omega)).2) ∗ rest3 c) := by
  cases n with
  | zero => exact absurd rfl hz
  | succ n => rfl

/-! ## The pipeline's proof data -/

/-- The proof data of pipeline 3 on core `c`: the arrays as the region finds them; after the body at point `t` each
    input's buffer at its block, output 3's at its one store, the two statistics outputs' at the running sums (read only
    at the last point: elsewhere the windows are idle and not written back); the invariant above; nothing owed; full
    shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
    | ⟨4, _⟩ => (acc3 V c t.val t.isLt).1
    | ⟨5, _⟩ => (acc3 V c t.val t.isLt).2
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]
theorem after3_4 (c : Dev nD) (t : Fin cfg3.N) : (dat3 V c).after 4 t = (acc3 V c t.val t.isLt).1 := by dsimp only [dat3]
theorem after3_5 (c : Dev nD) (t : Fin cfg3.N) : (dat3 V c).after 5 t = (acc3 V c t.val t.isLt).2 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point. The inputs' memrefs hold their blocks; the closed forms of the two conditions say which of
    the three cases the point is in, and that case's run applies: the invariant hands it the accumulators (at anything
    at the first point, at the running sums of the point before afterwards) and takes them back at this point's
    running sums; away from the last point the two statistics outputs are handed back as found, at it they are left at
    the running sums; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3, out3_3_eq]
  have hN : t.val < 25 := lt_of_lt_of_eq t.isLt (show cfg3.N = 25 from N_3)
  by_cases h0 : t.val % 25 = 0
  · have h1 : ¬t.val % 25 = 24 := by omega
    have hz : t.val = 0 := by omega
    rw [Dat.leavesExact_idle (dat3 V c) 4 t (idleAt3_4 t (fun h => h1 ((hcond3_1 t).mp h))) (noFlush3_4 t (fun h => h1 ((hcond3_1 t).mp h)))]
    rw [Dat.leavesExact_idle (dat3 V c) 5 t (idleAt3_5 t (fun h => h1 ((hcond3_1 t).mp h))) (noFlush3_5 t (fun h => h1 ((hcond3_1 t).mp h)))]
    rw [acc3_zero V c t hz]; (try dsimp only)
    rw [Phi3_castSucc V c t, Phi3_zero V c _ _ hz, rest3_split]
    iintro ⟨⟨Hg, ⟨HS0, HS1⟩, Hrest⟩, Ho, ⟨%d0, H0⟩, ⟨%d1, H1⟩, ⟨%d2, H2⟩, ⟨%d3, H3⟩, ⟨%d4, H4⟩, ⟨%d5, H5⟩⟩
    iapply (run3_A c (grid3.coords t) _ _ _ _ _ _ _ _ _ _ _ _ _ _ _ _ ((hcond3_0 t).mpr h0) (fun h => h1 ((hcond3_1 t).mp h)) (iblk3 V c 0 t) (iblk3 V c 1 t) (iblk3 V c 2 t) _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [Hg HS0 HS1 Hrest]
    · isplitl [Hg]; · iexact Hg
      isplitl [HS0 HS1]
      · isplitl [HS0]; · iexact HS0
        iexact HS1
      iexact Hrest
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hz : t.val ≠ 0 := fun h => h0 (by rw [h])
    by_cases h1 : t.val % 25 = 24
    · rw [show (dat3 V c).leavesExact 4 t = owns (c : Thread nD τ) (ms3_4 t) fullShare ((dat3 V c).after 4 t) from by
        unfold Dat.leavesExact; rw [liveAt3_4 t ((hcond3_1 t).mpr h1)], after3_4]
      rw [show (dat3 V c).leavesExact 5 t = owns (c : Thread nD τ) (ms3_5 t) fullShare ((dat3 V c).after 5 t) from by
        unfold Dat.leavesExact; rw [liveAt3_5 t ((hcond3_1 t).mpr h1)], after3_5]
      rw [acc3_pos V c t hz]; (try dsimp only)
      rw [Phi3_castSucc V c t, Phi3_pos V c _ _ hz]
      iintro ⟨⟨Hg, ⟨HS0, HS1⟩, Hrest⟩, Ho, ⟨%d0, H0⟩, ⟨%d1, H1⟩, ⟨%d2, H2⟩, ⟨%d3, H3⟩, ⟨%d4, H4⟩, ⟨%d5, H5⟩⟩
      iapply (run3_C c (grid3.coords t) _ _ _ _ _ _ _ _ _ _ _ _ _ _ _ _ (fun h => h0 ((hcond3_0 t).mp h)) ((hcond3_1 t).mpr h1) (iblk3 V c 0 t) (iblk3 V c 1 t) (iblk3 V c 2 t) _ _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [Hg HS0 HS1 Hrest]
      · isplitl [Hg]; · iexact Hg
        isplitl [HS0 HS1]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat3 V c) 4 t (idleAt3_4 t (fun h => h1 ((hcond3_1 t).mp h))) (noFlush3_4 t (fun h => h1 ((hcond3_1 t).mp h)))]
      rw [Dat.leavesExact_idle (dat3 V c) 5 t (idleAt3_5 t (fun h => h1 ((hcond3_1 t).mp h))) (noFlush3_5 t (fun h => h1 ((hcond3_1 t).mp h)))]
      rw [acc3_pos V c t hz]; (try dsimp only)
      rw [Phi3_castSucc V c t, Phi3_pos V c _ _ hz]
      iintro ⟨⟨Hg, ⟨HS0, HS1⟩, Hrest⟩, Ho, ⟨%d0, H0⟩, ⟨%d1, H1⟩, ⟨%d2, H2⟩, ⟨%d3, H3⟩, ⟨%d4, H4⟩, ⟨%d5, H5⟩⟩
      iapply (run3_B c (grid3.coords t) _ _ _ _ _ _ _ _ _ _ _ _ _ _ _ _ (fun h => h0 ((hcond3_0 t).mp h)) (fun h => h1 ((hcond3_1 t).mp h)) (iblk3 V c 0 t) (iblk3 V c 1 t) (iblk3 V c 2 t) _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, H3, H4, H5, HS0, HS1⟩
      isplitl [Hg HS0 HS1 Hrest]
      · isplitl [Hg]; · iexact Hg
        isplitl [HS0 HS1]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant's two ends -/

/-- What the launch hands the region is the invariant before the first point. -/
theorem phi_in3 (c : Dev nD) : iprop((∃ r, prngReg c r) ∗ Pipeline.scopedRest (Ix := Unit) (Name := ℕ) (U := UR sig nD τ) (Lvl := ℕ) (Val := Elt F) spec3 c) ⊢ (dat3 V c).Φ 0 := by
  rw [show (dat3 V c).Φ 0 = Phi3 V c 0 (Nat.zero_le _) from rfl, Phi3_zero V c 0 _ rfl]
  try exact Idealize.SL.BI.Entails.refl _

/-- After the last point the invariant gives the scoped rest back: the accumulators' named contents are forgotten. -/
theorem phi_out3 (c : Dev nD) : (dat3 V c).Φ (Fin.last cfg3.N) ⊢ iprop((∃ r, prngReg c r) ∗ Pipeline.scopedRest (Ix := Unit) (Name := ℕ) (U := UR sig nD τ) (Lvl := ℕ) (Val := Elt F) spec3 c) := by
  rw [show (dat3 V c).Φ (Fin.last cfg3.N) = Phi3 V c cfg3.N (Nat.le_refl _) from rfl,
    Phi3_pos V c _ _ (by rw [show cfg3.N = 25 from N_3]; omega), rest3_split]
  iintro ⟨Hg, ⟨HS0, HS1⟩, Hrest⟩
  isplitl [Hg]; · iexact Hg
  isplitl [HS0 HS1]
  · isplitl [HS0]
    · iexists _; iexact HS0
    iexists _; iexact HS1
  iexact Hrest

/-! ## What the output windows' staging buffers hold after the body, in closed form -/

/-- Output 3 at any point: `agg · dinv + b` of the point's blocks. -/
theorem after3_3_val (c : Dev nD) (t : Fin cfg3.N) : (dat3 V c).after 3 t = k3_pay3 (iblk3 V c 0 t) (iblk3 V c 1 t) (iblk3 V c 2 t) :=
  (after3_3 V c t).trans (out3_3_eq _ _ _)

/-- The two statistics outputs at the last point: the running sums after all 25 points. -/
theorem after3_4_last (c : Dev nD) : (dat3 V c).after 4 ⟨24, by decide⟩ = (acc3 V c 24 (by decide)).1 := after3_4 V c _
theorem after3_5_last (c : Dev nD) : (dat3 V c).after 5 ⟨24, by decide⟩ = (acc3 V c 24 (by decide)).2 := after3_5 V c _

/-- The running sums unfold one point at a time. -/
theorem acc3_zero_eq (c : Dev nD) (hn : 0 < cfg3.N) :
    acc3 V c 0 hn = (k3_pay4 (iblk3 V c 0 ⟨0, hn⟩) (iblk3 V c 1 ⟨0, hn⟩) (iblk3 V c 2 ⟨0, hn⟩) k3_pay1, k3_pay5 (iblk3 V c 0 ⟨0, hn⟩) (iblk3 V c 1 ⟨0, hn⟩) (iblk3 V c 2 ⟨0, hn⟩) k3_pay2) := rfl
theorem acc3_succ_eq (c : Dev nD) (n : ℕ) (hn : n + 1 < cfg3.N) :
    acc3 V c (n + 1) hn = (k3_pay4 (iblk3 V c 0 ⟨n + 1, hn⟩) (iblk3 V c 1 ⟨n + 1, hn⟩) (iblk3 V c 2 ⟨n + 1, hn⟩) (acc3 V c n (Nat.lt_of_succ_lt hn)).1,
      k3_pay5 (iblk3 V c 0 ⟨n + 1, hn⟩) (iblk3 V c 1 ⟨n + 1, hn⟩) (iblk3 V c 2 ⟨n + 1, hn⟩) (acc3 V c n (Nat.lt_of_succ_lt hn)).2) := rfl

end Cert.Kernel.Hand

end
-- ==== Proof.K.Reg4.lean ====
/- Region 4: batch normalisation and ReLU of one block of 2000 rows. The kernel loads a block of activations and four
   rows of 128 statistics and parameters, and stores relu((x - mean) * rsqrt(var + eps) * gamma + beta) over its whole
   output block. This module states what the output staging buffer holds after the body as a function of the input
   blocks, proves the body's triple, and discharges the pipeline's body obligation at every grid point. -/
import proofs.«168650_j27212912787479_2_alg».proof.Proof.Gen.Kernel.Launch
import proofs.«168650_j27212912787479_2_alg».proof.Proof.Gen.Kernel.Skeleton
import proofs.«168650_j27212912787479_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds the window's block at every point, whether or not the block was
    fetched there: where it was not, the block index has not moved since the previous point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds the window's block at every point, whether or not the block was
    fetched there: where it was not, the block index has not moved since the previous point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds the window's block at every point, whether or not the block was
    fetched there: where it was not, the block index has not moved since the previous point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds the window's block at every point, whether or not the block was
    fetched there: where it was not, the block index has not moved since the previous point. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds the window's block at every point, whether or not the block was
    fetched there: where it was not, the block index has not moved since the previous point. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each load and the store take a whole buffer -/

abbrev r4_0 : Rect S2000x128 := Rect.unit (s := S2000x128) ![0, 0] S2000x128.size inb_S2000x128_S2000x128_0_0
abbrev r4_1 : Rect S1x128 := Rect.unit (s := S1x128) ![0, 0] S1x128.size inb_S1x128_S1x128_0_0

/-! ## What the body leaves in the output window's buffer -/

/-- The output buffer after the body: the one payload, of the input blocks, laid over the whole buffer. -/
def out4_5 (x0 : Vec F S2000x128 .f32) (x1 : Vec F S1x128 .f32) (x2 : Vec F S1x128 .f32) (x3 : Vec F S1x128 .f32) (x4 : Vec F S1x128 .f32) : Vec F S2000x128 .f32 :=
  View.canon [⟨r4_0, k4_pay1 (View.ld x0 r4_0) (View.ld x2 r4_1) (View.ld x1 r4_1) (View.ld x3 r4_1) (View.ld x4 r4_1)⟩]

/-- The one store covers the buffer. -/
theorem cover4_5 (p0 : Vec F S2000x128 .f32) (y : S2000x128.Idx) :
    ∃ pc ∈ ([⟨r4_0, p0⟩] : List (View.Piece (Elt F) S2000x128 .f32)), y ∈ pc.1.set :=
  View.cover_of_tiled [⟨r4_0, p0⟩] S2000x128.size (by rfl) y

/-! ## The body's triple -/

set_option maxHeartbeats 1000000 in
/-- The kernel on whole staging memrefs, the inputs' at contents `xW` and the output's at anything, runs to the
    continuation holding the inputs' as they were and the output's at `out4_5` of the inputs'. The body first
    loads the output buffer (a value it never uses) and then stores the payload over all of it. -/
theorem sound_kernel4 (c : Dev nD) (E : Set ℕ) (i : grid4.Coords) (arg0 : Memref sig .tc .vmem S2000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S2000x128 .f32) (harg5 : arg5.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out4_5 x0 x1 x2 x3 x4)) -∗ K ⟨⟩))
      ⊢ wp frame (wpE (defs₀ (F := F)) Variants.none c none) E (cc4__bn_relu_kernel i arg0 harg0 arg1 harg1 arg2 harg2 arg3 harg3 arg4 harg4 arg5 harg5) K := by
  simp only [cc4__bn_relu_kernel_eq_skeleton]; unfold cc4__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of the pipeline on core `c`: the arrays as the region finds them; after the body at point `t`
    each input's buffer at its block and the output's at `out4_5` of the input blocks; the invariant is the
    scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so `sound_kernel4` applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
/-
  The run of the kernel program as printed, and its frame.

  @main is twelve items: three stretches of host operations (the edge lists with self-loops appended, the degree of
  every node as a scatter-add of ones, its inverse square root `dinv`), then five kernel regions over a grid of 25 row
  blocks of 2000 nodes — the projection `(x · W₁) · dinv`, the bias step with the column sums of `h` and `h²`, the
  normalisation fused with the second projection, the bias step again, the last normalisation — each but the first
  preceded by one stretch (a gather of rows by source node and a scatter-add by target node; the mean and the
  variance from the two sums).  Here the items are chained: the contents of every unscoped buffer at each boundary
  (`WJ`), each region as a segment entered from one boundary and left at the next, and the launch.  What each region
  leaves is its proof data's (`datK`, from the region modules); nothing here looks inside a body.
-/
import proofs.«168650_j27212912787479_2_alg».proof.Proof.K.Reg0
import proofs.«168650_j27212912787479_2_alg».proof.Proof.K.Reg1
import proofs.«168650_j27212912787479_2_alg».proof.Proof.K.Reg2
import proofs.«168650_j27212912787479_2_alg».proof.Proof.K.Reg3
import proofs.«168650_j27212912787479_2_alg».proof.Proof.K.Reg4
import proofs.«168650_j27212912787479_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! # The buffers' contents at every boundary of @main

Twelve items: three stretches of host operations, then five kernel regions, each but the first preceded by one
stretch. `WJ c` is what core `c`'s unscoped buffers hold after item J−1: a host stretch applies its operations
(`StableHlo.after`); a region leaves its windows' arrays at what its write-backs fold to (`Dat.arrAt … N`) and every
other buffer as it found it. -/

/-- Core `c`'s buffers at launch. -/
abbrev W0 : Dev nD → Valuation τ sig (Elt F) := fun c b => m (c, b)
/-- After the stretch `hostOps0`. -/
abbrev W1 : Dev nD → Valuation τ sig (Elt F) := fun c => StableHlo.after hostOps0 (W0 m c)
/-- After the stretch `hostOps0_1`. -/
abbrev W2 : Dev nD → Valuation τ sig (Elt F) := fun c => StableHlo.after hostOps0_1 (W1 m c)
/-- After the stretch `hostOps0_2`. -/
abbrev W3 : Dev nD → Valuation τ sig (Elt F) := fun c => StableHlo.after hostOps0_2 (W2 m c)
/-- What region 0 is entered from, read at the TensorCore's references. -/
abbrev VE0 : (c : Dev nD) → (b : Ref sig .tc) → Buf (Elt F) ((c : Thread nD τ).loc b) := fun c b => W3 m c b
/-- After region 0: its arrays at what the pipeline leaves, every other buffer as entered. -/
def W4 (c : Dev nD) : Valuation τ sig (Elt F) :=
  Pipeline.withArrays spec0 c (W3 m c) fun w => (dat0 (VE0 m) c).arrAt w cfg0.N
theorem W4_arr (c : Dev nD) (w : Fin cfg0.W) :
    W4 m c (Proc.devRef .tc (Pipeline.arrRef spec0 w)) = (dat0 (VE0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- Region 0's exit contents read at the TensorCore's references. -/
abbrev VX0 : (c : Dev nD) → (b : Ref sig .tc) → Buf (Elt F) ((c : Thread nD τ).loc b) := fun c b => W4 m c b
theorem hF0 (c : Dev nD) (w : Fin cfg0.W) : (dat0 (VE0 m) c).arrAt w cfg0.N = VX0 m c (Pipeline.arrRef spec0 w) :=
  (W4_arr m c w).symm
theorem hrest0 (c : Dev nD) : ∀ b, b ∉ Finset.univ.image (Pipeline.arrRef spec0) → VX0 m c b = VE0 m c b :=
  fun b hb => W4_of_ne m c b fun w e => hb (Finset.mem_image.mpr ⟨w, Finset.mem_univ _, e⟩)
/-- After the stretch `hostOps1`. -/
abbrev W5 : Dev nD → Valuation τ sig (Elt F) := fun c => StableHlo.after hostOps1 (W4 m c)
/-- What region 1 is entered from, read at the TensorCore's references. -/
abbrev VE1 : (c : Dev nD) → (b : Ref sig .tc) → Buf (Elt F) ((c : Thread nD τ).loc b) := fun c b => W5 m c b
/-- After region 1: its arrays at what the pipeline leaves, every other buffer as entered. -/
def W6 (c : Dev nD) : Valuation τ sig (Elt F) :=
  Pipeline.withArrays spec1 c (W5 m c) fun w => (dat1 (VE1 m) c).arrAt w cfg1.N
theorem W6_arr (c : Dev nD) (w : Fin cfg1.W) :
    W6 m c (Proc.devRef .tc (Pipeline.arrRef spec1 w)) = (dat1 (VE1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- Region 1's exit contents read at the TensorCore's references. -/
abbrev VX1 : (c : Dev nD) → (b : Ref sig .tc) → Buf (Elt F) ((c : Thread nD τ).loc b) := fun c b => W6 m c b
theorem hF1 (c : Dev nD) (w : Fin cfg1.W) : (dat1 (VE1 m) c).arrAt w cfg1.N = VX1 m c (Pipeline.arrRef spec1 w) :=
  (W6_arr m c w).symm
theorem hrest1 (c : Dev nD) : ∀ b, b ∉ Finset.univ.image (Pipeline.arrRef spec1) → VX1 m c b = VE1 m c b :=
  fun b hb => W6_of_ne m c b fun w e => hb (Finset.mem_image.mpr ⟨w, Finset.mem_univ _, e⟩)
/-- After the stretch `hostOps2`. -/
abbrev W7 : Dev nD → Valuation τ sig (Elt F) := fun c => StableHlo.after hostOps2 (W6 m c)
/-- What region 2 is entered from, read at the TensorCore's references. -/
abbrev VE2 : (c : Dev nD) → (b : Ref sig .tc) → Buf (Elt F) ((c : Thread nD τ).loc b) := fun c b => W7 m c b
/-- After region 2: its arrays at what the pipeline leaves, every other buffer as entered. -/
def W8 (c : Dev nD) : Valuation τ sig (Elt F) :=
  Pipeline.withArrays spec2 c (W7 m c) fun w => (dat2 (VE2 m) c).arrAt w cfg2.N
theorem W8_arr (c : Dev nD) (w : Fin cfg2.W) :
    W8 m c (Proc.devRef .tc (Pipeline.arrRef spec2 w)) = (dat2 (VE2 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- Region 2's exit contents read at the TensorCore's references. -/
abbrev VX2 : (c : Dev nD) → (b : Ref sig .tc) → Buf (Elt F) ((c : Thread nD τ).loc b) := fun c b => W8 m c b
theorem hF2 (c : Dev nD) (w : Fin cfg2.W) : (dat2 (VE2 m) c).arrAt w cfg2.N = VX2 m c (Pipeline.arrRef spec2 w) :=
  (W8_arr m c w).symm
theorem hrest2 (c : Dev nD) : ∀ b, b ∉ Finset.univ.image (Pipeline.arrRef spec2) → VX2 m c b = VE2 m c b :=
  fun b hb => W8_of_ne m c b fun w e => hb (Finset.mem_image.mpr ⟨w, Finset.mem_univ _, e⟩)
/-- After the stretch `hostOps3`. -/
abbrev W9 : Dev nD → Valuation τ sig (Elt F) := fun c => StableHlo.after hostOps3 (W8 m c)
/-- What region 3 is entered from, read at the TensorCore's references. -/
abbrev VE3 : (c : Dev nD) → (b : Ref sig .tc) → Buf (Elt F) ((c : Thread nD τ).loc b) := fun c b => W9 m c b
/-- After region 3: its arrays at what the pipeline leaves, every other buffer as entered. -/
def W10 (c : Dev nD) : Valuation τ sig (Elt F) :=
  Pipeline.withArrays spec3 c (W9 m c) fun w => (dat3 (VE3 m) c).arrAt w cfg3.N
theorem W10_arr (c : Dev nD) (w : Fin cfg3.W) :
    W10 m c (Proc.devRef .tc (Pipeline.arrRef spec3 w)) = (dat3 (VE3 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
/-- Region 3's exit contents read at the TensorCore's references. -/
abbrev VX3 : (c : Dev nD) → (b : Ref sig .tc) → Buf (Elt F) ((c : Thread nD τ).loc b) := fun c b => W10 m c b
theorem hF3 (c : Dev nD) (w : Fin cfg3.W) : (dat3 (VE3 m) c).arrAt w cfg3.N = VX3 m c (Pipeline.arrRef spec3 w) :=
  (W10_arr m c w).symm
theorem hrest3 (c : Dev nD) : ∀ b, b ∉ Finset.univ.image (Pipeline.arrRef spec3) → VX3 m c b = VE3 m c b :=
  fun b hb => W10_of_ne m c b fun w e => hb (Finset.mem_image.mpr ⟨w, Finset.mem_univ _, e⟩)
/-- After the stretch `hostOps4`. -/
abbrev W11 : Dev nD → Valuation τ sig (Elt F) := fun c => StableHlo.after hostOps4 (W10 m c)
/-- What region 4 is entered from, read at the TensorCore's references. -/
abbrev VE4 : (c : Dev nD) → (b : Ref sig .tc) → Buf (Elt F) ((c : Thread nD τ).loc b) := fun c b => W11 m c b
/-- After region 4: its arrays at what the pipeline leaves, every other buffer as entered. -/
def W12 (c : Dev nD) : Valuation τ sig (Elt F) :=
  Pipeline.withArrays spec4 c (W11 m c) fun w => (dat4 (VE4 m) c).arrAt w cfg4.N
theorem W12_arr (c : Dev nD) (w : Fin cfg4.W) :
    W12 m c (Proc.devRef .tc (Pipeline.arrRef spec4 w)) = (dat4 (VE4 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
/-- Region 4's exit contents read at the TensorCore's references. -/
abbrev VX4 : (c : Dev nD) → (b : Ref sig .tc) → Buf (Elt F) ((c : Thread nD τ).loc b) := fun c b => W12 m c b
theorem hF4 (c : Dev nD) (w : Fin cfg4.W) : (dat4 (VE4 m) c).arrAt w cfg4.N = VX4 m c (Pipeline.arrRef spec4 w) :=
  (W12_arr m c w).symm
theorem hrest4 (c : Dev nD) : ∀ b, b ∉ Finset.univ.image (Pipeline.arrRef spec4) → VX4 m c b = VE4 m c b :=
  fun b hb => W12_of_ne m c b fun w e => hb (Finset.mem_image.mpr ⟨w, Finset.mem_univ _, e⟩)

/-! # What reaches the end unchanged

A buffer that no host stretch writes and that no region has as an OUTPUT window's array holds at the end what it held
at launch: a stretch leaves it alone, and a region either does not touch it or reads it through an input window, whose
array the write-backs never change. -/

/-- Region 0 keeps a buffer that is not one of its output windows' arrays. -/
theorem W4_region_keep (c : Dev nD) (r : Ref sig .tc) (h : ∀ w, Pipeline.arrRef spec0 w = r → (cfg0.win w).isOut = false) :
    W4 m c (Proc.devRef .tc r) = W3 m c (Proc.devRef .tc r) := by
  by_cases he : ∃ w, Pipeline.arrRef spec0 w = r
  · obtain ⟨w, rfl⟩ := he
    exact (W4_arr m c w).trans (((dat0 (VE0 m) c).arrAt_in w (h w rfl) _).trans (A_eq0 (VE0 m) c w))
  · exact W4_of_ne m c r (fun w e => he ⟨w, e⟩)
/-- Region 1 keeps a buffer that is not one of its output windows' arrays. -/
theorem W6_region_keep (c : Dev nD) (r : Ref sig .tc) (h : ∀ w, Pipeline.arrRef spec1 w = r → (cfg1.win w).isOut = false) :
    W6 m c (Proc.devRef .tc r) = W5 m c (Proc.devRef .tc r) := by
  by_cases he : ∃ w, Pipeline.arrRef spec1 w = r
  · obtain ⟨w, rfl⟩ := he
    exact (W6_arr m c w).trans (((dat1 (VE1 m) c).arrAt_in w (h w rfl) _).trans (A_eq1 (VE1 m) c w))
  · exact W6_of_ne m c r (fun w e => he ⟨w, e⟩)
/-- Region 2 keeps a buffer that is not one of its output windows' arrays. -/
theorem W8_region_keep (c : Dev nD) (r : Ref sig .tc) (h : ∀ w, Pipeline.arrRef spec2 w = r → (cfg2.win w).isOut = false) :
    W8 m c (Proc.devRef .tc r) = W7 m c (Proc.devRef .tc r) := by
  by_cases he : ∃ w, Pipeline.arrRef spec2 w = r
  · obtain ⟨w, rfl⟩ := he
    exact (W8_arr m c w).trans (((dat2 (VE2 m) c).arrAt_in w (h w rfl) _).trans (A_eq2 (VE2 m) c w))
  · exact W8_of_ne m c r (fun w e => he ⟨w, e⟩)
/-- Region 3 keeps a buffer that is not one of its output windows' arrays. -/
theorem W10_region_keep (c : Dev nD) (r : Ref sig .tc) (h : ∀ w, Pipeline.arrRef spec3 w = r → (cfg3.win w).isOut = false) :
    W10 m c (Proc.devRef .tc r) = W9 m c (Proc.devRef .tc r) := by
  by_cases he : ∃ w, Pipeline.arrRef spec3 w = r
  · obtain ⟨w, rfl⟩ := he
    exact (W10_arr m c w).trans (((dat3 (VE3 m) c).arrAt_in w (h w rfl) _).trans (A_eq3 (VE3 m) c w))
  · exact W10_of_ne m c r (fun w e => he ⟨w, e⟩)
/-- Region 4 keeps a buffer that is not one of its output windows' arrays. -/
theorem W12_region_keep (c : Dev nD) (r : Ref sig .tc) (h : ∀ w, Pipeline.arrRef spec4 w = r → (cfg4.win w).isOut = false) :
    W12 m c (Proc.devRef .tc r) = W11 m c (Proc.devRef .tc r) := by
  by_cases he : ∃ w, Pipeline.arrRef spec4 w = r
  · obtain ⟨w, rfl⟩ := he
    exact (W12_arr m c w).trans (((dat4 (VE4 m) c).arrAt_in w (h w rfl) _).trans (A_eq4 (VE4 m) c w))
  · exact W12_of_ne m c r (fun w e => he ⟨w, e⟩)

/-- A buffer no stretch writes and no region outputs ends at its launch contents. -/
theorem W12_keep (c : Dev nD) (r : Ref sig .tc)
    (g0 : r ∉ hostOps0_W) (g1 : r ∉ hostOps0_1_W) (g2 : r ∉ hostOps0_2_W) (g3 : r ∉ hostOps1_W) (g4 : r ∉ hostOps2_W)
    (g5 : r ∉ hostOps3_W) (g6 : r ∉ hostOps4_W)
    (k0 : ∀ w, Pipeline.arrRef spec0 w = r → (cfg0.win w).isOut = false)
    (k1 : ∀ w, Pipeline.arrRef spec1 w = r → (cfg1.win w).isOut = false)
    (k2 : ∀ w, Pipeline.arrRef spec2 w = r → (cfg2.win w).isOut = false)
    (k3 : ∀ w, Pipeline.arrRef spec3 w = r → (cfg3.win w).isOut = false)
    (k4 : ∀ w, Pipeline.arrRef spec4 w = r → (cfg4.win w).isOut = false) :
    W12 m c (Proc.devRef .tc r) = m ((c : Thread nD τ).loc r) :=
  calc W12 m c (Proc.devRef .tc r)
    _ = W11 m c (Proc.devRef .tc r) := W12_region_keep m c r k4
    _ = W10 m c (Proc.devRef .tc r) := StableHlo.after_of_writes_sub hostOps4 _ hostOps4_writes g6
    _ = W9 m c (Proc.devRef .tc r) := W10_region_keep m c r k3
    _ = W8 m c (Proc.devRef .tc r) := StableHlo.after_of_writes_sub hostOps3 _ hostOps3_writes g5
    _ = W7 m c (Proc.devRef .tc r) := W8_region_keep m c r k2
    _ = W6 m c (Proc.devRef .tc r) := StableHlo.after_of_writes_sub hostOps2 _ hostOps2_writes g4
    _ = W5 m c (Proc.devRef .tc r) := W6_region_keep m c r k1
    _ = W4 m c (Proc.devRef .tc r) := StableHlo.after_of_writes_sub hostOps1 _ hostOps1_writes g3
    _ = W3 m c (Proc.devRef .tc r) := W4_region_keep m c r k0
    _ = W2 m c (Proc.devRef .tc r) := StableHlo.after_of_writes_sub hostOps0_2 _ hostOps0_2_writes g2
    _ = W1 m c (Proc.devRef .tc r) := StableHlo.after_of_writes_sub hostOps0_1 _ hostOps0_1_writes g1
    _ = W0 m c (Proc.devRef .tc r) := StableHlo.after_of_writes_sub hostOps0 _ hostOps0_writes g0
    _ = m ((c : Thread nD τ).loc r) := rfl

/-- Every argument array ends at its launch contents. -/
theorem W12_arg (c : Dev nD) :
    W12 m c (Proc.devRef .tc main_arg0) = m ((c : Thread nD τ).loc main_arg0)
    ∧ W12 m c (Proc.devRef .tc main_arg1) = m ((c : Thread nD τ).loc main_arg1)
    ∧ W12 m c (Proc.devRef .tc main_arg2) = m ((c : Thread nD τ).loc main_arg2)
    ∧ W12 m c (Proc.devRef .tc main_arg3) = m ((c : Thread nD τ).loc main_arg3)
    ∧ W12 m c (Proc.devRef .tc main_arg4) = m ((c : Thread nD τ).loc main_arg4)
    ∧ W12 m c (Proc.devRef .tc main_arg5) = m ((c : Thread nD τ).loc main_arg5)
    ∧ W12 m c (Proc.devRef .tc main_arg6) = m ((c : Thread nD τ).loc main_arg6)
    ∧ W12 m c (Proc.devRef .tc main_arg7) = m ((c : Thread nD τ).loc main_arg7)
    ∧ W12 m c (Proc.devRef .tc main_arg8) = m ((c : Thread nD τ).loc main_arg8)
    ∧ W12 m c (Proc.devRef .tc main_arg9) = m ((c : Thread nD τ).loc main_arg9) :=
  ⟨W12_keep m c main_arg0 (by decide) (by decide) (by decide) (by decide) (by decide) (by decide) (by decide) (by decide) (by decide) (by decide) (by decide) (by decide),
   W12_keep m c main_arg1 (by decide) (by decide) (by decide) (by decide) (by decide) (by decide) (by decide) (by decide) (by decide) (by decide) (by decide) (by decide),
   W12_keep m c main_arg2 (by decide) (by decide) (by decide) (by decide) (by decide) (by decide) (by decide) (by decide) (by decide) (by decide) (by decide) (by decide),
   W12_keep m c main_arg3 (by decide) (by decide) (by decide) (by decide) (by decide) (by decide) (by decide) (by decide) (by decide) (by decide) (by decide) (by decide),
   W12_keep m c main_arg4 (by decide) (by decide) (by decide) (by decide) (by decide) (by decide) (by decide) (by decide) (by decide) (by decide) (by decide) (by decide),
   W12_keep m c main_arg5 (by decide) (by decide) (by decide) (by decide) (by decide) (by decide) (by decide) (by decide) (by decide) (by decide) (by decide) (by decide),
   W12_keep m c main_arg6 (by decide) (by decide) (by decide) (by decide) (by decide) (by decide) (by decide) (by decide) (by decide) (by decide) (by decide) (by decide),
   W12_keep m c main_arg7 (by decide) (by decide) (by decide) (by decide) (by decide) (by decide) (by decide) (by decide) (by decide) (by decide) (by decide) (by decide),
   W12_keep m c main_arg8 (by decide) (by decide) (by decide) (by decide) (by decide) (by decide) (by decide) (by decide) (by decide) (by decide) (by decide) (by decide),
   W12_keep m c main_arg9 (by decide) (by decide) (by decide) (by decide) (by decide) (by decide) (by decide) (by decide) (by decide) (by decide) (by decide) (by decide)⟩

/-! # The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c
  | ⟨2, _⟩ => fun c => dat2 (VE2 m) c
  | ⟨3, _⟩ => fun c => dat3 (VE3 m) c
  | ⟨4, _⟩ => fun c => dat4 (VE4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A host stretch as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator register at some state. -/
abbrev Tₙ (c : Dev nD) : sProp 𝕄 := iprop(StableHlo.held (c : Thread nD τ) (Pipeline.ucRefs τ sig) (W12 m c) ∗ ∃ r, prngReg c r)

/-! # The regions as segments -/

set_option backward.isDefEq.respectTransparency.types false in
/-- Region 0 over the thread state: entered from every unscoped buffer at `W3`, left at `W4`. Its windows' arrays are
    split out of the unscoped buffers and put back at their exit contents; the generator register goes into the body's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its windows' arrays are
    split out of the unscoped buffers and put back at their exit contents; the generator register goes into the body's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (VE1 m) c).Φ 0 from rfl]
    iintro ⟨Hp, -, Hr⟩
    iapply (phi_in1 (VE1 m) c)
    isplitl [Hp]; · iexact Hp
    iexact Hr
  hout c := by
    rw [Pipeline.ownSems0_none, show (pdats m 1 c).Φ (Fin.last _) = (dat1 (VE1 m) c).Φ (Fin.last cfg1.N) from rfl]
    iintro HΦ
    ihave H := (phi_out1 (VE1 m) c) $$ HΦ
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its windows' arrays are
    split out of the unscoped buffers and put back at their exit contents; the generator register goes into the body's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (VE2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VE2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VE2 m c) (VX2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W9`, left at `W10`. Its windows' arrays are
    split out of the unscoped buffers and put back at their exit contents; the generator register goes into the body's
    invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VE3 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (VE3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (VE3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (VE3 m) c).Φ 0 from rfl]
    iintro ⟨Hp, -, Hr⟩
    iapply (phi_in3 (VE3 m) c)
    isplitl [Hp]; · iexact Hp
    iexact Hr
  hout c := by
    rw [Pipeline.ownSems0_none, show (pdats m 3 c).Φ (Fin.last _) = (dat3 (VE3 m) c).Φ (Fin.last cfg3.N) from rfl]
    iintro HΦ
    ihave H := (phi_out3 (VE3 m) c) $$ HΦ
    icases H with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (VE3 m c) (VX3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W11`, left at `W12`. Its windows' arrays are
    split out of the unscoped buffers and put back at their exit contents; the generator register goes into the body's
    invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VE4 m) c).loose
  hwaits := Pipeline.hwaits_of_owed_zero _ _ _ _ L lv 4 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (VE4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (VE4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (VE4 m c) (VX4 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's twelve items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m) ]

/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and every final state holds each unscoped buffer at the last boundary's contents `W12`. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W12_arg m c).1,
     (h c _ (mem_uc main_arg1 (by decide))).trans (W12_arg m c).2.1,
     (h c _ (mem_uc main_arg2 (by decide))).trans (W12_arg m c).2.2.1,
     (h c _ (mem_uc main_arg3 (by decide))).trans (W12_arg m c).2.2.2.1,
     (h c _ (mem_uc main_arg4 (by decide))).trans (W12_arg m c).2.2.2.2.1,
     (h c _ (mem_uc main_arg5 (by decide))).trans (W12_arg m c).2.2.2.2.2.1,
     (h c _ (mem_uc main_arg6 (by decide))).trans (W12_arg m c).2.2.2.2.2.2.1,
     (h c _ (mem_uc main_arg7 (by decide))).trans (W12_arg m c).2.2.2.2.2.2.2.1,
     (h c _ (mem_uc main_arg8 (by decide))).trans (W12_arg m c).2.2.2.2.2.2.2.2.1,
     (h c _ (mem_uc main_arg9 (by decide))).trans (W12_arg m c).2.2.2.2.2.2.2.2.2⟩) (run_main m ρ)

/-- THE RUN WITH ITS RESULT: the result array ends at the last boundary's contents, every argument as launched. -/
theorem run_result (ρ : Dev nD → PrngReg) : θ_run defs (onTc (τ := τ) (main (F := F))) ⟨m, fun _ => 0, ρ⟩ (fun r => ∀ c : Dev nD,
      r.2.mem ((c.tc : Thread nD τ).loc main_v65) = W12 m c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v65 (by decide)),
     (h c _ (mem_uc main_arg0 (by decide))).trans (W12_arg m c).1,
     (h c _ (mem_uc main_arg1 (by decide))).trans (W12_arg m c).2.1,
     (h c _ (mem_uc main_arg2 (by decide))).trans (W12_arg m c).2.2.1,
     (h c _ (mem_uc main_arg3 (by decide))).trans (W12_arg m c).2.2.2.1,
     (h c _ (mem_uc main_arg4 (by decide))).trans (W12_arg m c).2.2.2.2.1,
     (h c _ (mem_uc main_arg5 (by decide))).trans (W12_arg m c).2.2.2.2.2.1,
     (h c _ (mem_uc main_arg6 (by decide))).trans (W12_arg m c).2.2.2.2.2.2.1,
     (h c _ (mem_uc main_arg7 (by decide))).trans (W12_arg m c).2.2.2.2.2.2.2.1,
     (h c _ (mem_uc main_arg8 (by decide))).trans (W12_arg m c).2.2.2.2.2.2.2.2.1,
     (h c _ (mem_uc main_arg9 (by decide))).trans (W12_arg m c).2.2.2.2.2.2.2.2.2⟩) (run_main m ρ)

end Cert.Kernel.Hand

end
-- ==== Proof.KI.Reg0.lean ====
/- Region 0: the first layer's feature transform of one block of 2000 rows. The kernel loads a block of features, the
   128 x 128 weight matrix and a column of 2000 inverse square-root degrees, and stores
   bf16((bf16 x) (bf16 W) * dinv) over its whole output block. This module states what the output staging buffer holds
   after the body as a function of the input blocks, proves the body's triple, and discharges the pipeline's body
   obligation at every grid point. -/
import proofs.«168650_j27212912787479_2_alg».proof.Proof.Gen.KernelIdeal.Launch
import proofs.«168650_j27212912787479_2_alg».proof.Proof.Gen.KernelIdeal.Skeleton
import proofs.«168650_j27212912787479_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds the window's block at every point, whether or not the block was
    fetched there: where it was not, the block index has not moved since the previous point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds the window's block at every point, whether or not the block was
    fetched there: where it was not, the block index has not moved since the previous point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds the window's block at every point, whether or not the block was
    fetched there: where it was not, the block index has not moved since the previous point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and the store take a whole buffer -/

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S2000x1 := Rect.unit (s := S2000x1) ![0, 0] S2000x1.size inb_S2000x1_S2000x1_0_0

/-! ## What the body leaves in the output window's buffer -/

/-- The output buffer after the body: the one payload, of the input blocks, laid over the whole buffer. -/
def out0_3 (x0 : Vec F S2000x128 .f32) (x1 : Vec F S128x128 .f32) (x2 : Vec F S2000x1 .f32) : Vec F S2000x128 .bf16 :=
  View.canon [⟨r0_0, k0_pay1 (View.ld x0 r0_0) (View.ld x1 r0_1) (View.ld x2 r0_2)⟩]

/-- The one store covers the buffer. -/
theorem cover0_3 (p0 : Vec F S2000x128 .bf16) (y : S2000x128.Idx) :
    ∃ pc ∈ ([⟨r0_0, p0⟩] : List (View.Piece (Elt F) S2000x128 .bf16)), y ∈ pc.1.set :=
  View.cover_of_tiled [⟨r0_0, p0⟩] S2000x128.size (by rfl) y

/-! ## The body's triple -/

set_option maxHeartbeats 1000000 in
/-- The kernel on whole staging memrefs, the inputs' at contents `xW` and the output's at anything, runs to the
    continuation holding the inputs' as they were and the output's at `out0_3` of the inputs'. The body first
    loads the output buffer (a value it never uses) and then stores the payload over all of it. -/
theorem sound_kernel0 (c : Dev nD) (E : Set ℕ) (i : grid0.Coords) (arg0 : Memref sig .tc .vmem S2000x128 .f32) (harg0 : arg0.IsWhole) (arg1 : Memref sig .tc .vmem S128x128 .f32) (harg1 : arg1.IsWhole) (arg2 : Memref sig .tc .vmem S2000x1 .f32) (harg2 : arg2.IsWhole) (arg3 : Memref sig .tc .vmem S2000x128 .bf16) (harg3 : arg3.IsWhole)
    (x0 : Vec F S2000x128 .f32) (x1 : Vec F S128x128 .f32) (x2 : Vec F S2000x1 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__matmul_scale_kernel i arg0 harg0 arg1 harg1 arg2 harg2 arg3 harg3) K := by
  simp only [cc0__matmul_scale_kernel_eq_skeleton]; unfold cc0__matmul_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of the pipeline on core `c`: the arrays as the region finds them; after the body at point `t`
    each input's buffer at its block and the output's at `out0_3` of the input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1Body.lean ====
/- Region 1 of the idealized kernel's program: the statistics kernel's body, run on whole memrefs in each of the three
   cases its two conditionals on the grid coordinate leave (first point: the accumulators are reset; a middle point;
   last point: the accumulators are copied out). Each run states what every memref holds afterwards through the
   skeleton's payloads. -/
import proofs.«168650_j27212912787479_2_alg».proof.Proof.Gen.KernelIdeal.Launch
import proofs.«168650_j27212912787479_2_alg».proof.Proof.Gen.KernelIdeal.Skeleton
import proofs.«168650_j27212912787479_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The unit offsets of a rank-2 rectangle are zero at every axis. -/
theorem hz_1 : (![0, 0] : Fin 2 → Nat) = fun _ => 0 := funext fun a => by fin_cases a <;> rfl

/-- A load of the whole buffer, through the unit rectangle at zero offsets, of contents that read `x` reads `x`. -/
theorem readAt_whole_1 {S : Shape} {e : EltTy} {off : Fin S.rank → Nat} (h : off = fun _ => 0)
    (inb : ∀ a, off a + S.size a ≤ S.size a) (a : Memref sig .tc .vmem S e) (ha : a.IsWhole) (x : S.Idx → Elt F e) :
    View.readAt (Elt F) a.view (Rect.unit off S.size inb).toLoadRect (ha.unread x) = x := by
  rw [View.readAt_eq_ld, ha.read_unread, View.ld_unit_zero h]

/-- A store of the whole buffer, through the unit rectangle at zero offsets, made last leaves its payload, whatever
    was there and whatever the earlier stores were. -/
theorem read_writes_whole_1 {S : Shape} {e : EltTy} {off : Fin S.rank → Nat} (h : off = fun _ => 0)
    (inb : ∀ a, off a + S.size a ≤ S.size a) (v : View sig .tc .vmem S e) (f : v.ty.Contents (Elt F)) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.mem_cons_self .., View.mem_set_unit_zero h inb y⟩)).trans
    (View.canon_cons_unit_zero h inb w L)

/-- The condition of the body's first `scf.if` (the reset of the two accumulators), from the grid coordinates. -/
abbrev cond1_0 (i : grid1.Coords) : Prop := (Scalar.cmpi .ne (Scalar.extui (Scalar.cmpi .eq (BitVec.ofNat 32 (i 0).val) 0#32)) 0#32) = 1#1
/-- The condition of its second (the copy of the accumulators into the two statistics outputs). -/
abbrev cond1_1 (i : grid1.Coords) : Prop := k1_cond2 i = 1#1

set_option maxHeartbeats 1000000 in
/-- The body at the first point (the reset taken, the copy not), on whole memrefs: the accumulators, whatever they
    held, are zeroed and left at the first block's column sums added to zero. -/
theorem run1_A (c : Dev nD) (i : grid1.Coords)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : cond1_0 i) (hc1 : ¬cond1_1 i)
    (x0 : Vec F S2000x128 .f32) (x1 : Vec F S2000x1 .f32) (x2 : Vec F S1x128 .f32)
    (xi4 xi5 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi4 ∗ owns (c : Thread nD τ) arg6 fullShare xi5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay3 x0 x1 x2) ∗ owns (c : Thread nD τ) arg5 fullShare xi4 ∗ owns (c : Thread nD τ) arg6 fullShare xi5
            ∗ owns (c : Thread nD τ) arg7 fullShare (k1_pay4 x0 x1 x2 k1_pay1) ∗ owns (c : Thread nD τ) arg8 fullShare (k1_pay5 x0 x1 x2 k1_pay2)) -∗ K ⟨⟩))
      ⊢ wp frame (wpE (defs₀ (F := F)) Variants.none c none) E (cc1__stats_bias_kernel i arg1 harg1 arg2 harg2 arg3 harg3 arg4 harg4 arg5 harg5 arg6 harg6 arg7 harg7 arg8 harg8) K := by
  simp only [cc1__stats_bias_kernel_eq_skeleton]; unfold cc1__stats_bias_kernel_skel
  simp only [k1_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, Hk⟩
  obtain rfl := harg1.eq_unread hf0; obtain rfl := harg2.eq_unread hf1; obtain rfl := harg3.eq_unread hf2
  obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [read_writes_whole_1 hz_1, readAt_whole_1 hz_1, readAt_whole_1 hz_1, readAt_whole_1 hz_1]
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    sl_unfold_run_names
    rw [read_writes_whole_1 hz_1, readAt_whole_1 hz_1, readAt_whole_1 hz_1, readAt_whole_1 hz_1, View.readCov_unit_zero _ hz_1]
  iexists _; isplitr
  swap; · iexact H7
  ipureintro
  sl_unfold_run_names
  rw [read_writes_whole_1 hz_1, readAt_whole_1 hz_1, readAt_whole_1 hz_1, readAt_whole_1 hz_1, View.readCov_unit_zero _ hz_1]

set_option maxHeartbeats 1000000 in
/-- The body at a point that is neither the first nor the last (neither conditional taken), on whole memrefs: the
    three inputs at their blocks, the two statistics outputs handed back untouched, the accumulators taken at `s0`,
    `s1` and left with the block's column sums added. -/
theorem run1_B (c : Dev nD) (i : grid1.Coords)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond1_0 i) (hc1 : ¬cond1_1 i)
    (x0 : Vec F S2000x128 .f32) (x1 : Vec F S2000x1 .f32) (x2 : Vec F S1x128 .f32) (s0 s1 : Vec F S1x128 .f32)
    (xi4 xi5 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi4 ∗ owns (c : Thread nD τ) arg6 fullShare xi5
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k1_pay3 x0 x1 x2) ∗ owns (c : Thread nD τ) arg5 fullShare xi4 ∗ owns (c : Thread nD τ) arg6 fullShare xi5
            ∗ owns (c : Thread nD τ) arg7 fullShare (k1_pay4 x0 x1 x2 s0) ∗ owns (c : Thread nD τ) arg8 fullShare (k1_pay5 x0 x1 x2 s1)) -∗ K ⟨⟩))
      ⊢ wp frame (wpE (defs₀ (F := F)) Variants.none c none) E (cc1__stats_bias_kernel i arg1 harg1 arg2 harg2 arg3 harg3 arg4 harg4 arg5 harg5 arg6 harg6 arg7 harg7 arg8 harg8) K := by
  simp only [cc1__stats_bias_kernel_eq_skeleton]; unfold cc1__stats_bias_kernel_skel
  simp only [k1_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2
  obtain rfl := harg5.eq_unread hf4; obtain rfl := harg6.eq_unread hf5; obtain rfl := harg7.eq_unread hf6; obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [read_writes_whole_1 hz_1, readAt_whole_1 hz_1, readAt_whole_1 hz_1, readAt_whole_1 hz_1]
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [read_writes_whole_1 hz_1, readAt_whole_1 hz_1, readAt_whole_1 hz_1, readAt_whole_1 hz_1, readAt_whole_1 hz_1]
  iexists _; isplitr
  swap; · iexact H7
  ipureintro
  rw [read_writes_whole_1 hz_1, readAt_whole_1 hz_1, readAt_whole_1 hz_1, readAt_whole_1 hz_1, readAt_whole_1 hz_1]

set_option maxHeartbeats 1000000 in
/-- The body at the last point (the copy taken, the reset not), on whole memrefs: the accumulators are updated as at
    any later point and then copied into the two statistics outputs' buffers, whatever those held. -/
theorem run1_C (c : Dev nD) (i : grid1.Coords)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond1_0 i) (hc1 : cond1_1 i)
    (x0 : Vec F S2000x128 .f32) (x1 : Vec F S2000x1 .f32) (x2 : Vec F S1x128 .f32) (s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k1_pay3 x0 x1 x2) ∗ owns (c : Thread nD τ) arg5 fullShare (k1_pay4 x0 x1 x2 s0) ∗ owns (c : Thread nD τ) arg6 fullShare (k1_pay5 x0 x1 x2 s1)
            ∗ owns (c : Thread nD τ) arg7 fullShare (k1_pay4 x0 x1 x2 s0) ∗ owns (c : Thread nD τ) arg8 fullShare (k1_pay5 x0 x1 x2 s1)) -∗ K ⟨⟩))
      ⊢ wp frame (wpE (defs₀ (F := F)) Variants.none c none) E (cc1__stats_bias_kernel i arg1 harg1 arg2 harg2 arg3 harg3 arg4 harg4 arg5 harg5 arg6 harg6 arg7 harg7 arg8 harg8) K := by
  simp only [cc1__stats_bias_kernel_eq_skeleton]; unfold cc1__stats_bias_kernel_skel
  simp only [k1_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  obtain rfl := harg1.eq_unread hf0; obtain rfl := harg2.eq_unread hf1; obtain rfl := harg3.eq_unread hf2
  obtain rfl := harg7.eq_unread hf6; obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [read_writes_whole_1 hz_1, readAt_whole_1 hz_1, readAt_whole_1 hz_1, readAt_whole_1 hz_1]
  isplitl [H4]
  · iexists _; isplitr
    swap; · iexact H4
    ipureintro
    sl_unfold_run_names
    rw [read_writes_whole_1 hz_1, View.readCov_unit_zero _ hz_1, readAt_whole_1 hz_1, readAt_whole_1 hz_1, readAt_whole_1 hz_1, readAt_whole_1 hz_1]
  isplitl [H5]
  · iexists _; isplitr
    swap; · iexact H5
    ipureintro
    sl_unfold_run_names
    rw [read_writes_whole_1 hz_1, View.readCov_unit_zero _ hz_1, readAt_whole_1 hz_1, readAt_whole_1 hz_1, readAt_whole_1 hz_1, readAt_whole_1 hz_1]
  isplitl [H6]
  · iexists _; isplitr
    swap; · iexact H6
    ipureintro
    sl_unfold_run_names
    rw [read_writes_whole_1 hz_1, readAt_whole_1 hz_1, readAt_whole_1 hz_1, readAt_whole_1 hz_1, readAt_whole_1 hz_1]
  iexists _; isplitr
  swap; · iexact H7
  ipureintro
  sl_unfold_run_names
  rw [read_writes_whole_1 hz_1, readAt_whole_1 hz_1, readAt_whole_1 hz_1, readAt_whole_1 hz_1, readAt_whole_1 hz_1]

end Cert.KernelIdeal.Hand

end
-- ==== Proof.KI.Reg1.lean ====
/- Region 1 of the idealized kernel's program (the first statistics kernel): the proof data of its pipeline on one
   core, with the two accumulators carried between the grid's points held in the body's invariant at their running
   sums, the body obligation at every point, and the invariant's two ends. -/
import proofs.«168650_j27212912787479_2_alg».proof.Proof.Gen.KernelIdeal.Launch
import proofs.«168650_j27212912787479_2_alg».proof.Proof.Gen.KernelIdeal.Skeleton
import proofs.«168650_j27212912787479_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«168650_j27212912787479_2_alg».proof.Proof.KI.Reg1Body
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents on the TensorCore when the region is entered: the parameter the region's data is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not: an input not
    fetched at a point has the block index it had at the point before, and the body leaves the inputs as it finds them. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditions over the grid, and where the two statistics outputs are idle -/

/-- The reset is taken at the first point only. -/
theorem hcond1_0 : ∀ t : Fin cfg1.N, cond1_0 (grid1.coords t) ↔ t.val % 25 = 0 :=
  (by decide +kernel : ∀ t : Fin grid1.N, cond1_0 (grid1.coords t) ↔ t.val % 25 = 0)
/-- The copy into the statistics outputs is taken at the last point only. -/
theorem hcond1_1 : ∀ t : Fin cfg1.N, cond1_1 (grid1.coords t) ↔ t.val % 25 = 24 :=
  (by decide +kernel : ∀ t : Fin grid1.N, cond1_1 (grid1.coords t) ↔ t.val % 25 = 24)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- Away from the last point the two statistics outputs are idle and not written back; at it they are live. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The memrefs the body is called with -/

abbrev ms1_0 (t : Fin cfg1.N) : Memref sig .tc .vmem S2000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2000x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
/-- The two accumulators: whole scoped buffers of the kernel's own. -/
abbrev scM1_0 : Memref sig .tc .vmem S1x128 .f32 := Memref.whole cc1_scratch0
abbrev scM1_1 : Memref sig .tc .vmem S1x128 .f32 := Memref.whole cc1_scratch1

/-! ## What the body leaves -/

abbrev r1_3 : Rect S2000x128 := Rect.unit (s := S2000x128) ![0, 0] S2000x128.size inb_S2000x128_S2000x128_0_0

/-- Output window 3's staging buffer after the body: its one store, of `agg · dinv + b` over the whole block. -/
def out1_3 (x0 : Vec F S2000x128 .f32) (x1 : Vec F S2000x1 .f32) (x2 : Vec F S1x128 .f32) : Vec F S2000x128 .f32 :=
  View.canon [⟨r1_3, k1_pay3 x0 x1 x2⟩]

/-- The one store covers the block: the buffer holds its payload. -/
theorem out1_3_eq (x0 : Vec F S2000x128 .f32) (x1 : Vec F S2000x1 .f32) (x2 : Vec F S1x128 .f32) :
    out1_3 x0 x1 x2 = k1_pay3 x0 x1 x2 := View.canon_unit_zero hz_1 _ _

/-- THE RUNNING SUMS. What the two accumulators hold after the body at point `n`: at the first point the block's
    column sums (of `h`, and of `h · h`) added to the zero row the reset stored; afterwards added to what the point
    before left. -/
def acc1 (c : Dev nD) : (n : ℕ) → n < cfg1.N → Vec F S1x128 .f32 × Vec F S1x128 .f32
  | 0, hn => (k1_pay4 (iblk1 V c 0 ⟨0, hn⟩) (iblk1 V c 1 ⟨0, hn⟩) (iblk1 V c 2 ⟨0, hn⟩) k1_pay1, k1_pay5 (iblk1 V c 0 ⟨0, hn⟩) (iblk1 V c 1 ⟨0, hn⟩) (iblk1 V c 2 ⟨0, hn⟩) k1_pay2)
  | n + 1, hn => (k1_pay4 (iblk1 V c 0 ⟨n + 1, hn⟩) (iblk1 V c 1 ⟨n + 1, hn⟩) (iblk1 V c 2 ⟨n + 1, hn⟩) (acc1 c n (Nat.lt_of_succ_lt hn)).1,
      k1_pay5 (iblk1 V c 0 ⟨n + 1, hn⟩) (iblk1 V c 1 ⟨n + 1, hn⟩) (iblk1 V c 2 ⟨n + 1, hn⟩) (acc1 c n (Nat.lt_of_succ_lt hn)).2)

theorem acc1_zero (c : Dev nD) (t : Fin cfg1.N) (hz : t.val = 0) :
    acc1 V c t.val t.isLt = (k1_pay4 (iblk1 V c 0 t) (iblk1 V c 1 t) (iblk1 V c 2 t) k1_pay1, k1_pay5 (iblk1 V c 0 t) (iblk1 V c 1 t) (iblk1 V c 2 t) k1_pay2) := by
  obtain ⟨n, hn⟩ := t
  cases n with
  | zero => rfl
  | succ n => exact absurd hz (Nat.succ_ne_zero n)

theorem acc1_pos (c : Dev nD) (t : Fin cfg1.N) (hz : t.val ≠ 0) :
    acc1 V c t.val t.isLt = (k1_pay4 (iblk1 V c 0 t) (iblk1 V c 1 t) (iblk1 V c 2 t) (acc1 V c (t.val - 1) (Nat.lt_of_le_of_lt (Nat.sub_le _ _) t.isLt)).1,
      k1_pay5 (iblk1 V c 0 t) (iblk1 V c 1 t) (iblk1 V c 2 t) (acc1 V c (t.val - 1) (Nat.lt_of_le_of_lt (Nat.sub_le _ _) t.isLt)).2) := by
  obtain ⟨n, hn⟩ := t
  cases n with
  | zero => exact absurd rfl hz
  | succ n => rfl

/-! ## The body's invariant -/

/-- The scoped buffers of the core other than the two accumulators, unopened. -/
abbrev rest1 (c : Dev nD) : sProp 𝕄 := Pipeline.scopedRestBut (Ix := Unit) (Name := ℕ) (U := UR sig nD τ) (Lvl := ℕ) (Val := Elt F) spec1 c [cc1_scratch0, cc1_scratch1]

/-- The scoped rest with the two accumulators taken out, each at some contents. -/
theorem rest1_split (c : Dev nD) :
    (Pipeline.scopedRest (Ix := Unit) (Name := ℕ) (U := UR sig nD τ) (Lvl := ℕ) (Val := Elt F) spec1 c : sProp 𝕄)
      = iprop(iprop((∃ d, owns (c : Thread nD τ) scM1_0 fullShare d) ∗ (∃ d, owns (c : Thread nD τ) scM1_1 fullShare d)) ∗ rest1 c) := by
  rw [scopedRest1_split]; simp only [scM1_0, scM1_1, owns_whole]; try rfl

/-- The invariant before position `n`: before the first point the generator register at some state and the whole scoped
    rest (the accumulators at anything: the first point overwrites them); afterwards the accumulators at the running
    sums the point before left, beside the register and the other scoped buffers. -/
def Phi1 (c : Dev nD) : (n : ℕ) → n ≤ cfg1.N → sProp 𝕄
  | 0, _ => iprop((∃ r, prngReg c r) ∗ Pipeline.scopedRest (Ix := Unit) (Name := ℕ) (U := UR sig nD τ) (Lvl := ℕ) (Val := Elt F) spec1 c)
  | n + 1, hn => iprop((∃ r, prngReg c r) ∗ iprop(owns (c : Thread nD τ) scM1_0 fullShare (acc1 V c n hn).1 ∗ owns (c : Thread nD τ) scM1_1 fullShare (acc1 V c n hn).2) ∗ rest1 c)

theorem Phi1_zero (c : Dev nD) (n : ℕ) (h : n ≤ cfg1.N) (hz : n = 0) :
    Phi1 V c n h = iprop((∃ r, prngReg c r) ∗ Pipeline.scopedRest (Ix := Unit) (Name := ℕ) (U := UR sig nD τ) (Lvl := ℕ) (Val := Elt F) spec1 c) := by
  subst hz; rfl

theorem Phi1_succ (c : Dev nD) (n : ℕ) (hn : n < cfg1.N) :
    Phi1 V c (n + 1) hn = iprop((∃ r, prngReg c r) ∗ iprop(owns (c : Thread nD τ) scM1_0 fullShare (acc1 V c n hn).1 ∗ owns (c : Thread nD τ) scM1_1 fullShare (acc1 V c n hn).2) ∗ rest1 c) := rfl

theorem Phi1_pos (c : Dev nD) (n : ℕ) (h : n ≤ cfg1.N) (hz : n ≠ 0) :
    Phi1 V c n h = iprop((∃ r, prngReg c r) ∗ iprop(owns (c : Thread nD τ) scM1_0 fullShare (acc1 V c (n - 1) (by omega)).1 ∗ owns (c : Thread nD τ) scM1_1 fullShare (acc1 V c (n - 1) (by omega)).2) ∗ rest1 c) := by
  cases n with
  | zero => exact absurd rfl hz
  | succ n => rfl

/-! ## The pipeline's proof data -/

/-- The proof data of pipeline 1 on core `c`: the arrays as the region finds them; after the body at point `t` each
    input's buffer at its block, output 3's at its one store, the two statistics outputs' at the running sums (read only
    at the last point: elsewhere the windows are idle and not written back); the invariant above; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
    | ⟨4, _⟩ => (acc1 V c t.val t.isLt).1
    | ⟨5, _⟩ => (acc1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem after1_4 (c : Dev nD) (t : Fin cfg1.N) : (dat1 V c).after 4 t = (acc1 V c t.val t.isLt).1 := by dsimp only [dat1]
theorem after1_5 (c : Dev nD) (t : Fin cfg1.N) : (dat1 V c).after 5 t = (acc1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the closed forms of the two conditions say which of
    the three cases the point is in, and that case's run applies: the invariant hands it the accumulators (at anything
    at the first point, at the running sums of the point before afterwards) and takes them back at this point's
    running sums; away from the last point the two statistics outputs are handed back as found, at it they are left at
    the running sums; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3, out1_3_eq]
  have hN : t.val < 25 := lt_of_lt_of_eq t.isLt (show cfg1.N = 25 from N_1)
  by_cases h0 : t.val % 25 = 0
  · have h1 : ¬t.val % 25 = 24 := by omega
    have hz : t.val = 0 := by omega
    rw [Dat.leavesExact_idle (dat1 V c) 4 t (idleAt1_4 t (fun h => h1 ((hcond1_1 t).mp h))) (noFlush1_4 t (fun h => h1 ((hcond1_1 t).mp h)))]
    rw [Dat.leavesExact_idle (dat1 V c) 5 t (idleAt1_5 t (fun h => h1 ((hcond1_1 t).mp h))) (noFlush1_5 t (fun h => h1 ((hcond1_1 t).mp h)))]
    rw [acc1_zero V c t hz]; (try dsimp only)
    rw [Phi1_castSucc V c t, Phi1_zero V c _ _ hz, rest1_split]
    iintro ⟨⟨Hg, ⟨HS0, HS1⟩, Hrest⟩, Ho, ⟨%d0, H0⟩, ⟨%d1, H1⟩, ⟨%d2, H2⟩, ⟨%d3, H3⟩, ⟨%d4, H4⟩, ⟨%d5, H5⟩⟩
    iapply (run1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [Hg HS0 HS1 Hrest]
    · isplitl [Hg]; · iexact Hg
      isplitl [HS0 HS1]
      · isplitl [HS0]; · iexact HS0
        iexact HS1
      iexact Hrest
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hz : t.val ≠ 0 := fun h => h0 (by rw [h])
    by_cases h1 : t.val % 25 = 24
    · rw [show (dat1 V c).leavesExact 4 t = owns (c : Thread nD τ) (ms1_4 t) fullShare ((dat1 V c).after 4 t) from by
        unfold Dat.leavesExact; rw [liveAt1_4 t ((hcond1_1 t).mpr h1)], after1_4]
      rw [show (dat1 V c).leavesExact 5 t = owns (c : Thread nD τ) (ms1_5 t) fullShare ((dat1 V c).after 5 t) from by
        unfold Dat.leavesExact; rw [liveAt1_5 t ((hcond1_1 t).mpr h1)], after1_5]
      rw [acc1_pos V c t hz]; (try dsimp only)
      rw [Phi1_castSucc V c t, Phi1_pos V c _ _ hz]
      iintro ⟨⟨Hg, ⟨HS0, HS1⟩, Hrest⟩, Ho, ⟨%d0, H0⟩, ⟨%d1, H1⟩, ⟨%d2, H2⟩, ⟨%d3, H3⟩, ⟨%d4, H4⟩, ⟨%d5, H5⟩⟩
      iapply (run1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) _ _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [Hg HS0 HS1 Hrest]
      · isplitl [Hg]; · iexact Hg
        isplitl [HS0 HS1]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 4 t (idleAt1_4 t (fun h => h1 ((hcond1_1 t).mp h))) (noFlush1_4 t (fun h => h1 ((hcond1_1 t).mp h)))]
      rw [Dat.leavesExact_idle (dat1 V c) 5 t (idleAt1_5 t (fun h => h1 ((hcond1_1 t).mp h))) (noFlush1_5 t (fun h => h1 ((hcond1_1 t).mp h)))]
      rw [acc1_pos V c t hz]; (try dsimp only)
      rw [Phi1_castSucc V c t, Phi1_pos V c _ _ hz]
      iintro ⟨⟨Hg, ⟨HS0, HS1⟩, Hrest⟩, Ho, ⟨%d0, H0⟩, ⟨%d1, H1⟩, ⟨%d2, H2⟩, ⟨%d3, H3⟩, ⟨%d4, H4⟩, ⟨%d5, H5⟩⟩
      iapply (run1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, H3, H4, H5, HS0, HS1⟩
      isplitl [Hg HS0 HS1 Hrest]
      · isplitl [Hg]; · iexact Hg
        isplitl [HS0 HS1]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant's two ends -/

/-- What the launch hands the region is the invariant before the first point. -/
theorem phi_in1 (c : Dev nD) : iprop((∃ r, prngReg c r) ∗ Pipeline.scopedRest (Ix := Unit) (Name := ℕ) (U := UR sig nD τ) (Lvl := ℕ) (Val := Elt F) spec1 c) ⊢ (dat1 V c).Φ 0 := by
  rw [show (dat1 V c).Φ 0 = Phi1 V c 0 (Nat.zero_le _) from rfl, Phi1_zero V c 0 _ rfl]
  try exact Idealize.SL.BI.Entails.refl _

/-- After the last point the invariant gives the scoped rest back: the accumulators' named contents are forgotten. -/
theorem phi_out1 (c : Dev nD) : (dat1 V c).Φ (Fin.last cfg1.N) ⊢ iprop((∃ r, prngReg c r) ∗ Pipeline.scopedRest (Ix := Unit) (Name := ℕ) (U := UR sig nD τ) (Lvl := ℕ) (Val := Elt F) spec1 c) := by
  rw [show (dat1 V c).Φ (Fin.last cfg1.N) = Phi1 V c cfg1.N (Nat.le_refl _) from rfl,
    Phi1_pos V c _ _ (by rw [show cfg1.N = 25 from N_1]; omega), rest1_split]
  iintro ⟨Hg, ⟨HS0, HS1⟩, Hrest⟩
  isplitl [Hg]; · iexact Hg
  isplitl [HS0 HS1]
  · isplitl [HS0]
    · iexists _; iexact HS0
    iexists _; iexact HS1
  iexact Hrest

/-! ## What the output windows' staging buffers hold after the body, in closed form -/

/-- Output 3 at any point: `agg · dinv + b` of the point's blocks. -/
theorem after1_3_val (c : Dev nD) (t : Fin cfg1.N) : (dat1 V c).after 3 t = k1_pay3 (iblk1 V c 0 t) (iblk1 V c 1 t) (iblk1 V c 2 t) :=
  (after1_3 V c t).trans (out1_3_eq _ _ _)

/-- The two statistics outputs at the last point: the running sums after all 25 points. -/
theorem after1_4_last (c : Dev nD) : (dat1 V c).after 4 ⟨24, by decide⟩ = (acc1 V c 24 (by decide)).1 := after1_4 V c _
theorem after1_5_last (c : Dev nD) : (dat1 V c).after 5 ⟨24, by decide⟩ = (acc1 V c 24 (by decide)).2 := after1_5 V c _

/-- The running sums unfold one point at a time. -/
theorem acc1_zero_eq (c : Dev nD) (hn : 0 < cfg1.N) :
    acc1 V c 0 hn = (k1_pay4 (iblk1 V c 0 ⟨0, hn⟩) (iblk1 V c 1 ⟨0, hn⟩) (iblk1 V c 2 ⟨0, hn⟩) k1_pay1, k1_pay5 (iblk1 V c 0 ⟨0, hn⟩) (iblk1 V c 1 ⟨0, hn⟩) (iblk1 V c 2 ⟨0, hn⟩) k1_pay2) := rfl
theorem acc1_succ_eq (c : Dev nD) (n : ℕ) (hn : n + 1 < cfg1.N) :
    acc1 V c (n + 1) hn = (k1_pay4 (iblk1 V c 0 ⟨n + 1, hn⟩) (iblk1 V c 1 ⟨n + 1, hn⟩) (iblk1 V c 2 ⟨n + 1, hn⟩) (acc1 V c n (Nat.lt_of_succ_lt hn)).1,
      k1_pay5 (iblk1 V c 0 ⟨n + 1, hn⟩) (iblk1 V c 1 ⟨n + 1, hn⟩) (iblk1 V c 2 ⟨n + 1, hn⟩) (acc1 V c n (Nat.lt_of_succ_lt hn)).2) := rfl

end Cert.KernelIdeal.Hand

end
-- ==== Proof.KI.Reg2.lean ====
/- Region 2: batch normalisation, ReLU and the second layer's feature transform of one block of 2000 rows. The kernel
   loads a block of activations, four rows of 128 statistics and parameters, the 128 x 128 weight matrix and a column
   of 2000 inverse square-root degrees, and stores
   bf16((bf16 relu((x - mean) * rsqrt(var + eps) * gamma + beta)) (bf16 W) * dinv) over its whole output block. This
   module states what the output staging buffer holds after the body as a function of the input blocks, proves the
   body's triple, and discharges the pipeline's body obligation at every grid point. -/
import proofs.«168650_j27212912787479_2_alg».proof.Proof.Gen.KernelIdeal.Launch
import proofs.«168650_j27212912787479_2_alg».proof.Proof.Gen.KernelIdeal.Skeleton
import proofs.«168650_j27212912787479_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds the window's block at every point, whether or not the block was
    fetched there: where it was not, the block index has not moved since the previous point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds the window's block at every point, whether or not the block was
    fetched there: where it was not, the block index has not moved since the previous point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds the window's block at every point, whether or not the block was
    fetched there: where it was not, the block index has not moved since the previous point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds the window's block at every point, whether or not the block was
    fetched there: where it was not, the block index has not moved since the previous point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds the window's block at every point, whether or not the block was
    fetched there: where it was not, the block index has not moved since the previous point. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's staging buffer holds the window's block at every point, whether or not the block was
    fetched there: where it was not, the block index has not moved since the previous point. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's staging buffer holds the window's block at every point, whether or not the block was
    fetched there: where it was not, the block index has not moved since the previous point. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each load and the store take a whole buffer -/

abbrev r2_0 : Rect S2000x128 := Rect.unit (s := S2000x128) ![0, 0] S2000x128.size inb_S2000x128_S2000x128_0_0
abbrev r2_1 : Rect S1x128 := Rect.unit (s := S1x128) ![0, 0] S1x128.size inb_S1x128_S1x128_0_0
abbrev r2_2 : Rect S128x128 := Rect.unit (s := S128x128) ![0, 0] S128x128.size inb_S128x128_S128x128_0_0
abbrev r2_3 : Rect S2000x1 := Rect.unit (s := S2000x1) ![0, 0] S2000x1.size inb_S2000x1_S2000x1_0_0

/-! ## What the body leaves in the output window's buffer -/

/-- The output buffer after the body: the one payload, of the input blocks, laid over the whole buffer. -/
def out2_7 (x0 : Vec F S2000x128 .f32) (x1 : Vec F S1x128 .f32) (x2 : Vec F S1x128 .f32) (x3 : Vec F S1x128 .f32) (x4 : Vec F S1x128 .f32) (x5 : Vec F S128x128 .f32) (x6 : Vec F S2000x1 .f32) : Vec F S2000x128 .bf16 :=
  View.canon [⟨r2_0, k2_pay1 (View.ld x0 r2_0) (View.ld x2 r2_1) (View.ld x1 r2_1) (View.ld x3 r2_1) (View.ld x4 r2_1) (View.ld x5 r2_2) (View.ld x6 r2_3)⟩]

/-- The one store covers the buffer. -/
theorem cover2_7 (p0 : Vec F S2000x128 .bf16) (y : S2000x128.Idx) :
    ∃ pc ∈ ([⟨r2_0, p0⟩] : List (View.Piece (Elt F) S2000x128 .bf16)), y ∈ pc.1.set :=
  View.cover_of_tiled [⟨r2_0, p0⟩] S2000x128.size (by rfl) y

/-! ## The body's triple -/

set_option maxHeartbeats 1000000 in
/-- The kernel on whole staging memrefs, the inputs' at contents `xW` and the output's at anything, runs to the
    continuation holding the inputs' as they were and the output's at `out2_7` of the inputs'. The body first
    loads the output buffer (a value it never uses) and then stores the payload over all of it. -/
theorem sound_kernel2 (c : Dev nD) (E : Set ℕ) (i : grid2.Coords) (arg0 : Memref sig .tc .vmem S2000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x1 .f32) (harg6 : arg6.IsWhole) (arg7 : Memref sig .tc .vmem S2000x128 .bf16) (harg7 : arg7.IsWhole)
    (x0 : Vec F S2000x128 .f32) (x1 : Vec F S1x128 .f32) (x2 : Vec F S1x128 .f32) (x3 : Vec F S1x128 .f32) (x4 : Vec F S1x128 .f32) (x5 : Vec F S128x128 .f32) (x6 : Vec F S2000x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__fused_bn_matmul_kernel i arg0 harg0 arg1 harg1 arg2 harg2 arg3 harg3 arg4 harg4 arg5 harg5 arg6 harg6 arg7 harg7) K := by
  simp only [cc2__fused_bn_matmul_kernel_eq_skeleton]; unfold cc2__fused_bn_matmul_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of the pipeline on core `c`: the arrays as the region finds them; after the body at point `t`
    each input's buffer at its block and the output's at `out2_7` of the input blocks; the invariant is the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so `sound_kernel2` applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3Body.lean ====
/- Region 3 of the idealized kernel's program: the statistics kernel's body, run on whole memrefs in each of the three
   cases its two conditionals on the grid coordinate leave (first point: the accumulators are reset; a middle point;
   last point: the accumulators are copied out). Each run states what every memref holds afterwards through the
   skeleton's payloads. -/
import proofs.«168650_j27212912787479_2_alg».proof.Proof.Gen.KernelIdeal.Launch
import proofs.«168650_j27212912787479_2_alg».proof.Proof.Gen.KernelIdeal.Skeleton
import proofs.«168650_j27212912787479_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The unit offsets of a rank-2 rectangle are zero at every axis. -/
theorem hz_3 : (![0, 0] : Fin 2 → Nat) = fun _ => 0 := funext fun a => by fin_cases a <;> rfl

/-- A load of the whole buffer, through the unit rectangle at zero offsets, of contents that read `x` reads `x`. -/
theorem readAt_whole_3 {S : Shape} {e : EltTy} {off : Fin S.rank → Nat} (h : off = fun _ => 0)
    (inb : ∀ a, off a + S.size a ≤ S.size a) (a : Memref sig .tc .vmem S e) (ha : a.IsWhole) (x : S.Idx → Elt F e) :
    View.readAt (Elt F) a.view (Rect.unit off S.size inb).toLoadRect (ha.unread x) = x := by
  rw [View.readAt_eq_ld, ha.read_unread, View.ld_unit_zero h]

/-- A store of the whole buffer, through the unit rectangle at zero offsets, made last leaves its payload, whatever
    was there and whatever the earlier stores were. -/
theorem read_writes_whole_3 {S : Shape} {e : EltTy} {off : Fin S.rank → Nat} (h : off = fun _ => 0)
    (inb : ∀ a, off a + S.size a ≤ S.size a) (v : View sig .tc .vmem S e) (f : v.ty.Contents (Elt F)) (w : S.Idx → Elt F e)
    (L : List (View.Piece (Elt F) S e)) :
    v.read (Elt F) (v.writes (Elt F) f (⟨Rect.unit off S.size inb, w⟩ :: L)) = w :=
  (View.read_writes_eq_canon v f _ (fun y => ⟨_, List.mem_cons_self .., View.mem_set_unit_zero h inb y⟩)).trans
    (View.canon_cons_unit_zero h inb w L)

/-- The condition of the body's first `scf.if` (the reset of the two accumulators), from the grid coordinates. -/
abbrev cond3_0 (i : grid3.Coords) : Prop := (Scalar.cmpi .ne (Scalar.extui (Scalar.cmpi .eq (BitVec.ofNat 32 (i 0).val) 0#32)) 0#32) = 1#1
/-- The condition of its second (the copy of the accumulators into the two statistics outputs). -/
abbrev cond3_1 (i : grid3.Coords) : Prop := k3_cond2 i = 1#1

set_option maxHeartbeats 1000000 in
/-- The body at the first point (the reset taken, the copy not), on whole memrefs: the accumulators, whatever they
    held, are zeroed and left at the first block's column sums added to zero. -/
theorem run3_A (c : Dev nD) (i : grid3.Coords)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : cond3_0 i) (hc1 : ¬cond3_1 i)
    (x0 : Vec F S2000x128 .f32) (x1 : Vec F S2000x1 .f32) (x2 : Vec F S1x128 .f32)
    (xi4 xi5 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi4 ∗ owns (c : Thread nD τ) arg6 fullShare xi5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k3_pay3 x0 x1 x2) ∗ owns (c : Thread nD τ) arg5 fullShare xi4 ∗ owns (c : Thread nD τ) arg6 fullShare xi5
            ∗ owns (c : Thread nD τ) arg7 fullShare (k3_pay4 x0 x1 x2 k3_pay1) ∗ owns (c : Thread nD τ) arg8 fullShare (k3_pay5 x0 x1 x2 k3_pay2)) -∗ K ⟨⟩))
      ⊢ wp frame (wpE (defs₀ (F := F)) Variants.none c none) E (cc3__stats_bias_kernel i arg1 harg1 arg2 harg2 arg3 harg3 arg4 harg4 arg5 harg5 arg6 harg6 arg7 harg7 arg8 harg8) K := by
  simp only [cc3__stats_bias_kernel_eq_skeleton]; unfold cc3__stats_bias_kernel_skel
  simp only [k3_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%d6, %f6, -, H6⟩, ⟨%d7, %f7, -, H7⟩, Hk⟩
  obtain rfl := harg1.eq_unread hf0; obtain rfl := harg2.eq_unread hf1; obtain rfl := harg3.eq_unread hf2
  obtain rfl := harg5.eq_unread hf4; obtain rfl := harg6.eq_unread hf5
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [read_writes_whole_3 hz_3, readAt_whole_3 hz_3, readAt_whole_3 hz_3, readAt_whole_3 hz_3]
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    sl_unfold_run_names
    rw [read_writes_whole_3 hz_3, readAt_whole_3 hz_3, readAt_whole_3 hz_3, readAt_whole_3 hz_3, View.readCov_unit_zero _ hz_3]
  iexists _; isplitr
  swap; · iexact H7
  ipureintro
  sl_unfold_run_names
  rw [read_writes_whole_3 hz_3, readAt_whole_3 hz_3, readAt_whole_3 hz_3, readAt_whole_3 hz_3, View.readCov_unit_zero _ hz_3]

set_option maxHeartbeats 1000000 in
/-- The body at a point that is neither the first nor the last (neither conditional taken), on whole memrefs: the
    three inputs at their blocks, the two statistics outputs handed back untouched, the accumulators taken at `s0`,
    `s1` and left with the block's column sums added. -/
theorem run3_B (c : Dev nD) (i : grid3.Coords)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond3_0 i) (hc1 : ¬cond3_1 i)
    (x0 : Vec F S2000x128 .f32) (x1 : Vec F S2000x1 .f32) (x2 : Vec F S1x128 .f32) (s0 s1 : Vec F S1x128 .f32)
    (xi4 xi5 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare xi4 ∗ owns (c : Thread nD τ) arg6 fullShare xi5
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k3_pay3 x0 x1 x2) ∗ owns (c : Thread nD τ) arg5 fullShare xi4 ∗ owns (c : Thread nD τ) arg6 fullShare xi5
            ∗ owns (c : Thread nD τ) arg7 fullShare (k3_pay4 x0 x1 x2 s0) ∗ owns (c : Thread nD τ) arg8 fullShare (k3_pay5 x0 x1 x2 s1)) -∗ K ⟨⟩))
      ⊢ wp frame (wpE (defs₀ (F := F)) Variants.none c none) E (cc3__stats_bias_kernel i arg1 harg1 arg2 harg2 arg3 harg3 arg4 harg4 arg5 harg5 arg6 harg6 arg7 harg7 arg8 harg8) K := by
  simp only [cc3__stats_bias_kernel_eq_skeleton]; unfold cc3__stats_bias_kernel_skel
  simp only [k3_part1_eq_skeleton]
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%f7, %hf7, H7⟩, Hk⟩
  obtain rfl := harg1.eq_unread hf0; obtain rfl := harg2.eq_unread hf1; obtain rfl := harg3.eq_unread hf2
  obtain rfl := harg5.eq_unread hf4; obtain rfl := harg6.eq_unread hf5; obtain rfl := harg7.eq_unread hf6; obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [read_writes_whole_3 hz_3, readAt_whole_3 hz_3, readAt_whole_3 hz_3, readAt_whole_3 hz_3]
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    rw [read_writes_whole_3 hz_3, readAt_whole_3 hz_3, readAt_whole_3 hz_3, readAt_whole_3 hz_3, readAt_whole_3 hz_3]
  iexists _; isplitr
  swap; · iexact H7
  ipureintro
  rw [read_writes_whole_3 hz_3, readAt_whole_3 hz_3, readAt_whole_3 hz_3, readAt_whole_3 hz_3, readAt_whole_3 hz_3]

set_option maxHeartbeats 1000000 in
/-- The body at the last point (the copy taken, the reset not), on whole memrefs: the accumulators are updated as at
    any later point and then copied into the two statistics outputs' buffers, whatever those held. -/
theorem run3_C (c : Dev nD) (i : grid3.Coords)
    (arg1 : Memref sig .tc .vmem S2000x128 .f32) (harg1 : arg1.IsWhole) (arg2 : Memref sig .tc .vmem S2000x1 .f32) (harg2 : arg2.IsWhole)
    (arg3 : Memref sig .tc .vmem S1x128 .f32) (harg3 : arg3.IsWhole) (arg4 : Memref sig .tc .vmem S2000x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128 .f32) (harg8 : arg8.IsWhole)
    (hc0 : ¬cond3_0 i) (hc1 : cond3_1 i)
    (x0 : Vec F S2000x128 .f32) (x1 : Vec F S2000x1 .f32) (x2 : Vec F S1x128 .f32) (s0 s1 : Vec F S1x128 .f32)
    (E : Set ℕ) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare s0 ∗ owns (c : Thread nD τ) arg8 fullShare s1
        ∗ (iprop(owns (c : Thread nD τ) arg1 fullShare x0 ∗ owns (c : Thread nD τ) arg2 fullShare x1 ∗ owns (c : Thread nD τ) arg3 fullShare x2
            ∗ owns (c : Thread nD τ) arg4 fullShare (k3_pay3 x0 x1 x2) ∗ owns (c : Thread nD τ) arg5 fullShare (k3_pay4 x0 x1 x2 s0) ∗ owns (c : Thread nD τ) arg6 fullShare (k3_pay5 x0 x1 x2 s1)
            ∗ owns (c : Thread nD τ) arg7 fullShare (k3_pay4 x0 x1 x2 s0) ∗ owns (c : Thread nD τ) arg8 fullShare (k3_pay5 x0 x1 x2 s1)) -∗ K ⟨⟩))
      ⊢ wp frame (wpE (defs₀ (F := F)) Variants.none c none) E (cc3__stats_bias_kernel i arg1 harg1 arg2 harg2 arg3 harg3 arg4 harg4 arg5 harg5 arg6 harg6 arg7 harg7 arg8 harg8) K := by
  simp only [cc3__stats_bias_kernel_eq_skeleton]; unfold cc3__stats_bias_kernel_skel
  simp only [k3_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%f7, %hf7, H7⟩, Hk⟩
  obtain rfl := harg1.eq_unread hf0; obtain rfl := harg2.eq_unread hf1; obtain rfl := harg3.eq_unread hf2
  obtain rfl := harg7.eq_unread hf6; obtain rfl := harg8.eq_unread hf7
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    rw [read_writes_whole_3 hz_3, readAt_whole_3 hz_3, readAt_whole_3 hz_3, readAt_whole_3 hz_3]
  isplitl [H4]
  · iexists _; isplitr
    swap; · iexact H4
    ipureintro
    sl_unfold_run_names
    rw [read_writes_whole_3 hz_3, View.readCov_unit_zero _ hz_3, readAt_whole_3 hz_3, readAt_whole_3 hz_3, readAt_whole_3 hz_3, readAt_whole_3 hz_3]
  isplitl [H5]
  · iexists _; isplitr
    swap; · iexact H5
    ipureintro
    sl_unfold_run_names
    rw [read_writes_whole_3 hz_3, View.readCov_unit_zero _ hz_3, readAt_whole_3 hz_3, readAt_whole_3 hz_3, readAt_whole_3 hz_3, readAt_whole_3 hz_3]
  isplitl [H6]
  · iexists _; isplitr
    swap; · iexact H6
    ipureintro
    sl_unfold_run_names
    rw [read_writes_whole_3 hz_3, readAt_whole_3 hz_3, readAt_whole_3 hz_3, readAt_whole_3 hz_3, readAt_whole_3 hz_3]
  iexists _; isplitr
  swap; · iexact H7
  ipureintro
  sl_unfold_run_names
  rw [read_writes_whole_3 hz_3, readAt_whole_3 hz_3, readAt_whole_3 hz_3, readAt_whole_3 hz_3, readAt_whole_3 hz_3]

end Cert.KernelIdeal.Hand

end
-- ==== Proof.KI.Reg3.lean ====
/- Region 3 of the idealized kernel's program (the second statistics kernel): the proof data of its pipeline on one
   core, with the two accumulators carried between the grid's points held in the body's invariant at their running
   sums, the body obligation at every point, and the invariant's two ends. -/
import proofs.«168650_j27212912787479_2_alg».proof.Proof.Gen.KernelIdeal.Launch
import proofs.«168650_j27212912787479_2_alg».proof.Proof.Gen.KernelIdeal.Skeleton
import proofs.«168650_j27212912787479_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«168650_j27212912787479_2_alg».proof.Proof.KI.Reg3Body
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents on the TensorCore when the region is entered: the parameter the region's data is stated at
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! Each input window's current staging buffer holds its block at every point, fetched there or not: an input not
    fetched at a point has the block index it had at the point before, and the body leaves the inputs as it finds them. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The conditions over the grid, and where the two statistics outputs are idle -/

/-- The reset is taken at the first point only. -/
theorem hcond3_0 : ∀ t : Fin cfg3.N, cond3_0 (grid3.coords t) ↔ t.val % 25 = 0 :=
  (by decide +kernel : ∀ t : Fin grid3.N, cond3_0 (grid3.coords t) ↔ t.val % 25 = 0)
/-- The copy into the statistics outputs is taken at the last point only. -/
theorem hcond3_1 : ∀ t : Fin cfg3.N, cond3_1 (grid3.coords t) ↔ t.val % 25 = 24 :=
  (by decide +kernel : ∀ t : Fin grid3.N, cond3_1 (grid3.coords t) ↔ t.val % 25 = 24)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem liveAt3_3 : ∀ t : Fin cfg3.N, cfg3.idle 3 (grid3.coords t) = false := by decide +kernel
/-- Away from the last point the two statistics outputs are idle and not written back; at it they are live. -/
theorem idleAt3_4 : ∀ t : Fin cfg3.N, ¬cond3_1 (grid3.coords t) → cfg3.idle 4 (grid3.coords t) = true := by decide +kernel
theorem noFlush3_4 : ∀ t : Fin cfg3.N, ¬cond3_1 (grid3.coords t) → (cfg3.win 4).flush t = false := by decide +kernel
theorem liveAt3_4 : ∀ t : Fin cfg3.N, cond3_1 (grid3.coords t) → cfg3.idle 4 (grid3.coords t) = false := by decide +kernel
theorem idleAt3_5 : ∀ t : Fin cfg3.N, ¬cond3_1 (grid3.coords t) → cfg3.idle 5 (grid3.coords t) = true := by decide +kernel
theorem noFlush3_5 : ∀ t : Fin cfg3.N, ¬cond3_1 (grid3.coords t) → (cfg3.win 5).flush t = false := by decide +kernel
theorem liveAt3_5 : ∀ t : Fin cfg3.N, cond3_1 (grid3.coords t) → cfg3.idle 5 (grid3.coords t) = false := by decide +kernel

/-! ## The memrefs the body is called with -/

abbrev ms3_0 (t : Fin cfg3.N) : Memref sig .tc .vmem S2000x128 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S2000x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x128 .f32 := win3_5.stage (cfg3.slots t 5)
abbrev hs3_5 (t : Fin cfg3.N) : (ms3_5 t).IsWhole := hstage3_5 ((cfg3.slots t 5).cast nbuf3_5)
/-- The two accumulators: whole scoped buffers of the kernel's own. -/
abbrev scM3_0 : Memref sig .tc .vmem S1x128 .f32 := Memref.whole cc3_scratch0
abbrev scM3_1 : Memref sig .tc .vmem S1x128 .f32 := Memref.whole cc3_scratch1

/-! ## What the body leaves -/

abbrev r3_3 : Rect S2000x128 := Rect.unit (s := S2000x128) ![0, 0] S2000x128.size inb_S2000x128_S2000x128_0_0

/-- Output window 3's staging buffer after the body: its one store, of `agg · dinv + b` over the whole block. -/
def out3_3 (x0 : Vec F S2000x128 .f32) (x1 : Vec F S2000x1 .f32) (x2 : Vec F S1x128 .f32) : Vec F S2000x128 .f32 :=
  View.canon [⟨r3_3, k3_pay3 x0 x1 x2⟩]

/-- The one store covers the block: the buffer holds its payload. -/
theorem out3_3_eq (x0 : Vec F S2000x128 .f32) (x1 : Vec F S2000x1 .f32) (x2 : Vec F S1x128 .f32) :
    out3_3 x0 x1 x2 = k3_pay3 x0 x1 x2 := View.canon_unit_zero hz_3 _ _

/-- THE RUNNING SUMS. What the two accumulators hold after the body at point `n`: at the first point the block's
    column sums (of `h`, and of `h · h`) added to the zero row the reset stored; afterwards added to what the point
    before left. -/
def acc3 (c : Dev nD) : (n : ℕ) → n < cfg3.N → Vec F S1x128 .f32 × Vec F S1x128 .f32
  | 0, hn => (k3_pay4 (iblk3 V c 0 ⟨0, hn⟩) (iblk3 V c 1 ⟨0, hn⟩) (iblk3 V c 2 ⟨0, hn⟩) k3_pay1, k3_pay5 (iblk3 V c 0 ⟨0, hn⟩) (iblk3 V c 1 ⟨0, hn⟩) (iblk3 V c 2 ⟨0, hn⟩) k3_pay2)
  | n + 1, hn => (k3_pay4 (iblk3 V c 0 ⟨n + 1, hn⟩) (iblk3 V c 1 ⟨n + 1, hn⟩) (iblk3 V c 2 ⟨n + 1, hn⟩) (acc3 c n (Nat.lt_of_succ_lt hn)).1,
      k3_pay5 (iblk3 V c 0 ⟨n + 1, hn⟩) (iblk3 V c 1 ⟨n + 1, hn⟩) (iblk3 V c 2 ⟨n + 1, hn⟩) (acc3 c n (Nat.lt_of_succ_lt hn)).2)

theorem acc3_zero (c : Dev nD) (t : Fin cfg3.N) (hz : t.val = 0) :
    acc3 V c t.val t.isLt = (k3_pay4 (iblk3 V c 0 t) (iblk3 V c 1 t) (iblk3 V c 2 t) k3_pay1, k3_pay5 (iblk3 V c 0 t) (iblk3 V c 1 t) (iblk3 V c 2 t) k3_pay2) := by
  obtain ⟨n, hn⟩ := t
  cases n with
  | zero => rfl
  | succ n => exact absurd hz (Nat.succ_ne_zero n)

theorem acc3_pos (c : Dev nD) (t : Fin cfg3.N) (hz : t.val ≠ 0) :
    acc3 V c t.val t.isLt = (k3_pay4 (iblk3 V c 0 t) (iblk3 V c 1 t) (iblk3 V c 2 t) (acc3 V c (t.val - 1) (Nat.lt_of_le_of_lt (Nat.sub_le _ _) t.isLt)).1,
      k3_pay5 (iblk3 V c 0 t) (iblk3 V c 1 t) (iblk3 V c 2 t) (acc3 V c (t.val - 1) (Nat.lt_of_le_of_lt (Nat.sub_le _ _) t.isLt)).2) := by
  obtain ⟨n, hn⟩ := t
  cases n with
  | zero => exact absurd rfl hz
  | succ n => rfl

/-! ## The body's invariant -/

/-- The scoped buffers of the core other than the two accumulators, unopened. -/
abbrev rest3 (c : Dev nD) : sProp 𝕄 := Pipeline.scopedRestBut (Ix := Unit) (Name := ℕ) (U := UR sig nD τ) (Lvl := ℕ) (Val := Elt F) spec3 c [cc3_scratch0, cc3_scratch1]

/-- The scoped rest with the two accumulators taken out, each at some contents. -/
theorem rest3_split (c : Dev nD) :
    (Pipeline.scopedRest (Ix := Unit) (Name := ℕ) (U := UR sig nD τ) (Lvl := ℕ) (Val := Elt F) spec3 c : sProp 𝕄)
      = iprop(iprop((∃ d, owns (c : Thread nD τ) scM3_0 fullShare d) ∗ (∃ d, owns (c : Thread nD τ) scM3_1 fullShare d)) ∗ rest3 c) := by
  rw [scopedRest3_split]; simp only [scM3_0, scM3_1, owns_whole]; try rfl

/-- The invariant before position `n`: before the first point the generator register at some state and the whole scoped
    rest (the accumulators at anything: the first point overwrites them); afterwards the accumulators at the running
    sums the point before left, beside the register and the other scoped buffers. -/
def Phi3 (c : Dev nD) : (n : ℕ) → n ≤ cfg3.N → sProp 𝕄
  | 0, _ => iprop((∃ r, prngReg c r) ∗ Pipeline.scopedRest (Ix := Unit) (Name := ℕ) (U := UR sig nD τ) (Lvl := ℕ) (Val := Elt F) spec3 c)
  | n + 1, hn => iprop((∃ r, prngReg c r) ∗ iprop(owns (c : Thread nD τ) scM3_0 fullShare (acc3 V c n hn).1 ∗ owns (c : Thread nD τ) scM3_1 fullShare (acc3 V c n hn).2) ∗ rest3 c)

theorem Phi3_zero (c : Dev nD) (n : ℕ) (h : n ≤ cfg3.N) (hz : n = 0) :
    Phi3 V c n h = iprop((∃ r, prngReg c r) ∗ Pipeline.scopedRest (Ix := Unit) (Name := ℕ) (U := UR sig nD τ) (Lvl := ℕ) (Val := Elt F) spec3 c) := by
  subst hz; rfl

theorem Phi3_succ (c : Dev nD) (n : ℕ) (hn : n < cfg3.N) :
    Phi3 V c (n + 1) hn = iprop((∃ r, prngReg c r) ∗ iprop(owns (c : Thread nD τ) scM3_0 fullShare (acc3 V c n hn).1 ∗ owns (c : Thread nD τ) scM3_1 fullShare (acc3 V c n hn).2) ∗ rest3 c) := rfl

theorem Phi3_pos (c : Dev nD) (n : ℕ) (h : n ≤ cfg3.N) (hz : n ≠ 0) :
    Phi3 V c n h = iprop((∃ r, prngReg c r) ∗ iprop(owns (c : Thread nD τ) scM3_0 fullShare (acc3 V c (n - 1) (by omega)).1 ∗ owns (c : Thread nD τ) scM3_1 fullShare (acc3 V c (n - 1) (by omega)).2) ∗ rest3 c) := by
  cases n with
  | zero => exact absurd rfl hz
  | succ n => rfl

/-! ## The pipeline's proof data -/

/-- The proof data of pipeline 3 on core `c`: the arrays as the region finds them; after the body at point `t` each
    input's buffer at its block, output 3's at its one store, the two statistics outputs' at the running sums (read only
    at the last point: elsewhere the windows are idle and not written back); the invariant above; nothing owed; full
    shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
    | ⟨4, _⟩ => (acc3 V c t.val t.isLt).1
    | ⟨5, _⟩ => (acc3 V c t.val t.isLt).2
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]
theorem after3_4 (c : Dev nD) (t : Fin cfg3.N) : (dat3 V c).after 4 t = (acc3 V c t.val t.isLt).1 := by dsimp only [dat3]
theorem after3_5 (c : Dev nD) (t : Fin cfg3.N) : (dat3 V c).after 5 t = (acc3 V c t.val t.isLt).2 := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point. The inputs' memrefs hold their blocks; the closed forms of the two conditions say which of
    the three cases the point is in, and that case's run applies: the invariant hands it the accumulators (at anything
    at the first point, at the running sums of the point before afterwards) and takes them back at this point's
    running sums; away from the last point the two statistics outputs are handed back as found, at it they are left at
    the running sums; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [show (dat3 V c).leavesExact 3 t = owns (c : Thread nD τ) (ms3_3 t) fullShare ((dat3 V c).after 3 t) from by
    unfold Dat.leavesExact; rw [liveAt3_3 t], after3_3, out3_3_eq]
  have hN : t.val < 25 := lt_of_lt_of_eq t.isLt (show cfg3.N = 25 from N_3)
  by_cases h0 : t.val % 25 = 0
  · have h1 : ¬t.val % 25 = 24 := by omega
    have hz : t.val = 0 := by omega
    rw [Dat.leavesExact_idle (dat3 V c) 4 t (idleAt3_4 t (fun h => h1 ((hcond3_1 t).mp h))) (noFlush3_4 t (fun h => h1 ((hcond3_1 t).mp h)))]
    rw [Dat.leavesExact_idle (dat3 V c) 5 t (idleAt3_5 t (fun h => h1 ((hcond3_1 t).mp h))) (noFlush3_5 t (fun h => h1 ((hcond3_1 t).mp h)))]
    rw [acc3_zero V c t hz]; (try dsimp only)
    rw [Phi3_castSucc V c t, Phi3_zero V c _ _ hz, rest3_split]
    iintro ⟨⟨Hg, ⟨HS0, HS1⟩, Hrest⟩, Ho, ⟨%d0, H0⟩, ⟨%d1, H1⟩, ⟨%d2, H2⟩, ⟨%d3, H3⟩, ⟨%d4, H4⟩, ⟨%d5, H5⟩⟩
    iapply (run3_A c (grid3.coords t) _ _ _ _ _ _ _ _ _ _ _ _ _ _ _ _ ((hcond3_0 t).mpr h0) (fun h => h1 ((hcond3_1 t).mp h)) (iblk3 V c 0 t) (iblk3 V c 1 t) (iblk3 V c 2 t) _ _ Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    iintro ⟨H0, H1, H2, H3, H4, H5, HS0, HS1⟩
    isplitl [Hg HS0 HS1 Hrest]
    · isplitl [Hg]; · iexact Hg
      isplitl [HS0 HS1]
      · isplitl [HS0]; · iexact HS0
        iexact HS1
      iexact Hrest
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hz : t.val ≠ 0 := fun h => h0 (by rw [h])
    by_cases h1 : t.val % 25 = 24
    · rw [show (dat3 V c).leavesExact 4 t = owns (c : Thread nD τ) (ms3_4 t) fullShare ((dat3 V c).after 4 t) from by
        unfold Dat.leavesExact; rw [liveAt3_4 t ((hcond3_1 t).mpr h1)], after3_4]
      rw [show (dat3 V c).leavesExact 5 t = owns (c : Thread nD τ) (ms3_5 t) fullShare ((dat3 V c).after 5 t) from by
        unfold Dat.leavesExact; rw [liveAt3_5 t ((hcond3_1 t).mpr h1)], after3_5]
      rw [acc3_pos V c t hz]; (try dsimp only)
      rw [Phi3_castSucc V c t, Phi3_pos V c _ _ hz]
      iintro ⟨⟨Hg, ⟨HS0, HS1⟩, Hrest⟩, Ho, ⟨%d0, H0⟩, ⟨%d1, H1⟩, ⟨%d2, H2⟩, ⟨%d3, H3⟩, ⟨%d4, H4⟩, ⟨%d5, H5⟩⟩
      iapply (run3_C c (grid3.coords t) _ _ _ _ _ _ _ _ _ _ _ _ _ _ _ _ (fun h => h0 ((hcond3_0 t).mp h)) ((hcond3_1 t).mpr h1) (iblk3 V c 0 t) (iblk3 V c 1 t) (iblk3 V c 2 t) _ _ Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [Hg HS0 HS1 Hrest]
      · isplitl [Hg]; · iexact Hg
        isplitl [HS0 HS1]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat3 V c) 4 t (idleAt3_4 t (fun h => h1 ((hcond3_1 t).mp h))) (noFlush3_4 t (fun h => h1 ((hcond3_1 t).mp h)))]
      rw [Dat.leavesExact_idle (dat3 V c) 5 t (idleAt3_5 t (fun h => h1 ((hcond3_1 t).mp h))) (noFlush3_5 t (fun h => h1 ((hcond3_1 t).mp h)))]
      rw [acc3_pos V c t hz]; (try dsimp only)
      rw [Phi3_castSucc V c t, Phi3_pos V c _ _ hz]
      iintro ⟨⟨Hg, ⟨HS0, HS1⟩, Hrest⟩, Ho, ⟨%d0, H0⟩, ⟨%d1, H1⟩, ⟨%d2, H2⟩, ⟨%d3, H3⟩, ⟨%d4, H4⟩, ⟨%d5, H5⟩⟩
      iapply (run3_B c (grid3.coords t) _ _ _ _ _ _ _ _ _ _ _ _ _ _ _ _ (fun h => h0 ((hcond3_0 t).mp h)) (fun h => h1 ((hcond3_1 t).mp h)) (iblk3 V c 0 t) (iblk3 V c 1 t) (iblk3 V c 2 t) _ _ _ _ Set.univ _)
      isplitl [H0]; · iexact H0
      isplitl [H1]; · iexact H1
      isplitl [H2]; · iexact H2
      isplitl [H3]; · iexists _; iexact H3
      isplitl [H4]; · iexact H4
      isplitl [H5]; · iexact H5
      isplitl [HS0]; · iexact HS0
      isplitl [HS1]; · iexact HS1
      iintro ⟨H0, H1, H2, H3, H4, H5, HS0, HS1⟩
      isplitl [Hg HS0 HS1 Hrest]
      · isplitl [Hg]; · iexact Hg
        isplitl [HS0 HS1]
        · isplitl [HS0]; · iexact HS0
          iexact HS1
        iexact Hrest
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

/-! ## The invariant's two ends -/

/-- What the launch hands the region is the invariant before the first point. -/
theorem phi_in3 (c : Dev nD) : iprop((∃ r, prngReg c r) ∗ Pipeline.scopedRest (Ix := Unit) (Name := ℕ) (U := UR sig nD τ) (Lvl := ℕ) (Val := Elt F) spec3 c) ⊢ (dat3 V c).Φ 0 := by
  rw [show (dat3 V c).Φ 0 = Phi3 V c 0 (Nat.zero_le _) from rfl, Phi3_zero V c 0 _ rfl]
  try exact Idealize.SL.BI.Entails.refl _

/-- After the last point the invariant gives the scoped rest back: the accumulators' named contents are forgotten. -/
theorem phi_out3 (c : Dev nD) : (dat3 V c).Φ (Fin.last cfg3.N) ⊢ iprop((∃ r, prngReg c r) ∗ Pipeline.scopedRest (Ix := Unit) (Name := ℕ) (U := UR sig nD τ) (Lvl := ℕ) (Val := Elt F) spec3 c) := by
  rw [show (dat3 V c).Φ (Fin.last cfg3.N) = Phi3 V c cfg3.N (Nat.le_refl _) from rfl,
    Phi3_pos V c _ _ (by rw [show cfg3.N = 25 from N_3]; omega), rest3_split]
  iintro ⟨Hg, ⟨HS0, HS1⟩, Hrest⟩
  isplitl [Hg]; · iexact Hg
  isplitl [HS0 HS1]
  · isplitl [HS0]
    · iexists _; iexact HS0
    iexists _; iexact HS1
  iexact Hrest

/-! ## What the output windows' staging buffers hold after the body, in closed form -/

/-- Output 3 at any point: `agg · dinv + b` of the point's blocks. -/
theorem after3_3_val (c : Dev nD) (t : Fin cfg3.N) : (dat3 V c).after 3 t = k3_pay3 (iblk3 V c 0 t) (iblk3 V c 1 t) (iblk3 V c 2 t) :=
  (after3_3 V c t).trans (out3_3_eq _ _ _)

/-- The two statistics outputs at the last point: the running sums after all 25 points. -/
theorem after3_4_last (c : Dev nD) : (dat3 V c).after 4 ⟨24, by decide⟩ = (acc3 V c 24 (by decide)).1 := after3_4 V c _
theorem after3_5_last (c : Dev nD) : (dat3 V c).after 5 ⟨24, by decide⟩ = (acc3 V c 24 (by decide)).2 := after3_5 V c _

/-- The running sums unfold one point at a time. -/
theorem acc3_zero_eq (c : Dev nD) (hn : 0 < cfg3.N) :
    acc3 V c 0 hn = (k3_pay4 (iblk3 V c 0 ⟨0, hn⟩) (iblk3 V c 1 ⟨0, hn⟩) (iblk3 V c 2 ⟨0, hn⟩) k3_pay1, k3_pay5 (iblk3 V c 0 ⟨0, hn⟩) (iblk3 V c 1 ⟨0, hn⟩) (iblk3 V c 2 ⟨0, hn⟩) k3_pay2) := rfl
theorem acc3_succ_eq (c : Dev nD) (n : ℕ) (hn : n + 1 < cfg3.N) :
    acc3 V c (n + 1) hn = (k3_pay4 (iblk3 V c 0 ⟨n + 1, hn⟩) (iblk3 V c 1 ⟨n + 1, hn⟩) (iblk3 V c 2 ⟨n + 1, hn⟩) (acc3 V c n (Nat.lt_of_succ_lt hn)).1,
      k3_pay5 (iblk3 V c 0 ⟨n + 1, hn⟩) (iblk3 V c 1 ⟨n + 1, hn⟩) (iblk3 V c 2 ⟨n + 1, hn⟩) (acc3 V c n (Nat.lt_of_succ_lt hn)).2) := rfl

end Cert.KernelIdeal.Hand

end
-- ==== Proof.KI.Reg4.lean ====
/- Region 4: batch normalisation and ReLU of one block of 2000 rows. The kernel loads a block of activations and four
   rows of 128 statistics and parameters, and stores relu((x - mean) * rsqrt(var + eps) * gamma + beta) over its whole
   output block. This module states what the output staging buffer holds after the body as a function of the input
   blocks, proves the body's triple, and discharges the pipeline's body obligation at every grid point. -/
import proofs.«168650_j27212912787479_2_alg».proof.Proof.Gen.KernelIdeal.Launch
import proofs.«168650_j27212912787479_2_alg».proof.Proof.Gen.KernelIdeal.Skeleton
import proofs.«168650_j27212912787479_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's staging buffer holds the window's block at every point, whether or not the block was
    fetched there: where it was not, the block index has not moved since the previous point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's staging buffer holds the window's block at every point, whether or not the block was
    fetched there: where it was not, the block index has not moved since the previous point. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's staging buffer holds the window's block at every point, whether or not the block was
    fetched there: where it was not, the block index has not moved since the previous point. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's staging buffer holds the window's block at every point, whether or not the block was
    fetched there: where it was not, the block index has not moved since the previous point. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's staging buffer holds the window's block at every point, whether or not the block was
    fetched there: where it was not, the block index has not moved since the previous point. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each load and the store take a whole buffer -/

abbrev r4_0 : Rect S2000x128 := Rect.unit (s := S2000x128) ![0, 0] S2000x128.size inb_S2000x128_S2000x128_0_0
abbrev r4_1 : Rect S1x128 := Rect.unit (s := S1x128) ![0, 0] S1x128.size inb_S1x128_S1x128_0_0

/-! ## What the body leaves in the output window's buffer -/

/-- The output buffer after the body: the one payload, of the input blocks, laid over the whole buffer. -/
def out4_5 (x0 : Vec F S2000x128 .f32) (x1 : Vec F S1x128 .f32) (x2 : Vec F S1x128 .f32) (x3 : Vec F S1x128 .f32) (x4 : Vec F S1x128 .f32) : Vec F S2000x128 .f32 :=
  View.canon [⟨r4_0, k4_pay1 (View.ld x0 r4_0) (View.ld x2 r4_1) (View.ld x1 r4_1) (View.ld x3 r4_1) (View.ld x4 r4_1)⟩]

/-- The one store covers the buffer. -/
theorem cover4_5 (p0 : Vec F S2000x128 .f32) (y : S2000x128.Idx) :
    ∃ pc ∈ ([⟨r4_0, p0⟩] : List (View.Piece (Elt F) S2000x128 .f32)), y ∈ pc.1.set :=
  View.cover_of_tiled [⟨r4_0, p0⟩] S2000x128.size (by rfl) y

/-! ## The body's triple -/

set_option maxHeartbeats 1000000 in
/-- The kernel on whole staging memrefs, the inputs' at contents `xW` and the output's at anything, runs to the
    continuation holding the inputs' as they were and the output's at `out4_5` of the inputs'. The body first
    loads the output buffer (a value it never uses) and then stores the payload over all of it. -/
theorem sound_kernel4 (c : Dev nD) (E : Set ℕ) (i : grid4.Coords) (arg0 : Memref sig .tc .vmem S2000x128 .f32) (harg0 : arg0.IsWhole) (arg1 : Memref sig .tc .vmem S1x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S2000x128 .f32) (harg5 : arg5.IsWhole)
    (x0 : Vec F S2000x128 .f32) (x1 : Vec F S1x128 .f32) (x2 : Vec F S1x128 .f32) (x3 : Vec F S1x128 .f32) (x4 : Vec F S1x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out4_5 x0 x1 x2 x3 x4)) -∗ K ⟨⟩))
      ⊢ wp frame (wpE (defs₀ (F := F)) Variants.none c none) E (cc4__bn_relu_kernel i arg0 harg0 arg1 harg1 arg2 harg2 arg3 harg3 arg4 harg4 arg5 harg5) K := by
  simp only [cc4__bn_relu_kernel_eq_skeleton]; unfold cc4__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of the pipeline on core `c`: the arrays as the region finds them; after the body at point `t`
    each input's buffer at its block and the output's at `out4_5` of the input blocks; the invariant is the
    scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' memrefs hold their blocks, so `sound_kernel4` applies; the invariant and
    the core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The run of the idealized kernel program, and its frame.

  @main is twelve items: three stretches of host operations (the edge lists with self-loops appended, the degree of
  every node as a scatter-add of ones, its inverse square root `dinv`), then five kernel regions over a grid of 25 row
  blocks of 2000 nodes — the projection `(x · W₁) · dinv`, the bias step with the column sums of `h` and `h²`, the
  normalisation fused with the second projection, the bias step again, the last normalisation — each but the first
  preceded by one stretch (a gather of rows by source node and a scatter-add by target node; the mean and the
  variance from the two sums).  Here the items are chained: the contents of every unscoped buffer at each boundary
  (`WJ`), each region as a segment entered from one boundary and left at the next, and the launch.  What each region
  leaves is its proof data's (`datK`, from the region modules); nothing here looks inside a body.
-/
import proofs.«168650_j27212912787479_2_alg».proof.Proof.KI.Reg0
import proofs.«168650_j27212912787479_2_alg».proof.Proof.KI.Reg1
import proofs.«168650_j27212912787479_2_alg».proof.Proof.KI.Reg2
import proofs.«168650_j27212912787479_2_alg».proof.Proof.KI.Reg3
import proofs.«168650_j27212912787479_2_alg».proof.Proof.KI.Reg4
import proofs.«168650_j27212912787479_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! # The buffers' contents at every boundary of @main

Twelve items: three stretches of host operations, then five kernel regions, each but the first preceded by one
stretch. `WJ c` is what core `c`'s unscoped buffers hold after item J−1: a host stretch applies its operations
(`StableHlo.after`); a region leaves its windows' arrays at what its write-backs fold to (`Dat.arrAt … N`) and every
other buffer as it found it. -/

/-- Core `c`'s buffers at launch. -/
abbrev W0 : Dev nD → Valuation τ sig (Elt F) := fun c b => m (c, b)
/-- After the stretch `hostOps0`. -/
abbrev W1 : Dev nD → Valuation τ sig (Elt F) := fun c => StableHlo.after hostOps0 (W0 m c)
/-- After the stretch `hostOps0_1`. -/
abbrev W2 : Dev nD → Valuation τ sig (Elt F) := fun c => StableHlo.after hostOps0_1 (W1 m c)
/-- After the stretch `hostOps0_2`. -/
abbrev W3 : Dev nD → Valuation τ sig (Elt F) := fun c => StableHlo.after hostOps0_2 (W2 m c)
/-- What region 0 is entered from, read at the TensorCore's references. -/
abbrev VE0 : (c : Dev nD) → (b : Ref sig .tc) → Buf (Elt F) ((c : Thread nD τ).loc b) := fun c b => W3 m c b
/-- After region 0: its arrays at what the pipeline leaves, every other buffer as entered. -/
def W4 (c : Dev nD) : Valuation τ sig (Elt F) :=
  Pipeline.withArrays spec0 c (W3 m c) fun w => (dat0 (VE0 m) c).arrAt w cfg0.N
theorem W4_arr (c : Dev nD) (w : Fin cfg0.W) :
    W4 m c (Proc.devRef .tc (Pipeline.arrRef spec0 w)) = (dat0 (VE0 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
/-- Region 0's exit contents read at the TensorCore's references. -/
abbrev VX0 : (c : Dev nD) → (b : Ref sig .tc) → Buf (Elt F) ((c : Thread nD τ).loc b) := fun c b => W4 m c b
theorem hF0 (c : Dev nD) (w : Fin cfg0.W) : (dat0 (VE0 m) c).arrAt w cfg0.N = VX0 m c (Pipeline.arrRef spec0 w) :=
  (W4_arr m c w).symm
theorem hrest0 (c : Dev nD) : ∀ b, b ∉ Finset.univ.image (Pipeline.arrRef spec0) → VX0 m c b = VE0 m c b :=
  fun b hb => W4_of_ne m c b fun w e => hb (Finset.mem_image.mpr ⟨w, Finset.mem_univ _, e⟩)
/-- After the stretch `hostOps1`. -/
abbrev W5 : Dev nD → Valuation τ sig (Elt F) := fun c => StableHlo.after hostOps1 (W4 m c)
/-- What region 1 is entered from, read at the TensorCore's references. -/
abbrev VE1 : (c : Dev nD) → (b : Ref sig .tc) → Buf (Elt F) ((c : Thread nD τ).loc b) := fun c b => W5 m c b
/-- After region 1: its arrays at what the pipeline leaves, every other buffer as entered. -/
def W6 (c : Dev nD) : Valuation τ sig (Elt F) :=
  Pipeline.withArrays spec1 c (W5 m c) fun w => (dat1 (VE1 m) c).arrAt w cfg1.N
theorem W6_arr (c : Dev nD) (w : Fin cfg1.W) :
    W6 m c (Proc.devRef .tc (Pipeline.arrRef spec1 w)) = (dat1 (VE1 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
/-- Region 1's exit contents read at the TensorCore's references. -/
abbrev VX1 : (c : Dev nD) → (b : Ref sig .tc) → Buf (Elt F) ((c : Thread nD τ).loc b) := fun c b => W6 m c b
theorem hF1 (c : Dev nD) (w : Fin cfg1.W) : (dat1 (VE1 m) c).arrAt w cfg1.N = VX1 m c (Pipeline.arrRef spec1 w) :=
  (W6_arr m c w).symm
theorem hrest1 (c : Dev nD) : ∀ b, b ∉ Finset.univ.image (Pipeline.arrRef spec1) → VX1 m c b = VE1 m c b :=
  fun b hb => W6_of_ne m c b fun w e => hb (Finset.mem_image.mpr ⟨w, Finset.mem_univ _, e⟩)
/-- After the stretch `hostOps2`. -/
abbrev W7 : Dev nD → Valuation τ sig (Elt F) := fun c => StableHlo.after hostOps2 (W6 m c)
/-- What region 2 is entered from, read at the TensorCore's references. -/
abbrev VE2 : (c : Dev nD) → (b : Ref sig .tc) → Buf (Elt F) ((c : Thread nD τ).loc b) := fun c b => W7 m c b
/-- After region 2: its arrays at what the pipeline leaves, every other buffer as entered. -/
def W8 (c : Dev nD) : Valuation τ sig (Elt F) :=
  Pipeline.withArrays spec2 c (W7 m c) fun w => (dat2 (VE2 m) c).arrAt w cfg2.N
theorem W8_arr (c : Dev nD) (w : Fin cfg2.W) :
    W8 m c (Proc.devRef .tc (Pipeline.arrRef spec2 w)) = (dat2 (VE2 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
/-- Region 2's exit contents read at the TensorCore's references. -/
abbrev VX2 : (c : Dev nD) → (b : Ref sig .tc) → Buf (Elt F) ((c : Thread nD τ).loc b) := fun c b => W8 m c b
theorem hF2 (c : Dev nD) (w : Fin cfg2.W) : (dat2 (VE2 m) c).arrAt w cfg2.N = VX2 m c (Pipeline.arrRef spec2 w) :=
  (W8_arr m c w).symm
theorem hrest2 (c : Dev nD) : ∀ b, b ∉ Finset.univ.image (Pipeline.arrRef spec2) → VX2 m c b = VE2 m c b :=
  fun b hb => W8_of_ne m c b fun w e => hb (Finset.mem_image.mpr ⟨w, Finset.mem_univ _, e⟩)
/-- After the stretch `hostOps3`. -/
abbrev W9 : Dev nD → Valuation τ sig (Elt F) := fun c => StableHlo.after hostOps3 (W8 m c)
/-- What region 3 is entered from, read at the TensorCore's references. -/
abbrev VE3 : (c : Dev nD) → (b : Ref sig .tc) → Buf (Elt F) ((c : Thread nD τ).loc b) := fun c b => W9 m c b
/-- After region 3: its arrays at what the pipeline leaves, every other buffer as entered. -/
def W10 (c : Dev nD) : Valuation τ sig (Elt F) :=
  Pipeline.withArrays spec3 c (W9 m c) fun w => (dat3 (VE3 m) c).arrAt w cfg3.N
theorem W10_arr (c : Dev nD) (w : Fin cfg3.W) :
    W10 m c (Proc.devRef .tc (Pipeline.arrRef spec3 w)) = (dat3 (VE3 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
/-- Region 3's exit contents read at the TensorCore's references. -/
abbrev VX3 : (c : Dev nD) → (b : Ref sig .tc) → Buf (Elt F) ((c : Thread nD τ).loc b) := fun c b => W10 m c b
theorem hF3 (c : Dev nD) (w : Fin cfg3.W) : (dat3 (VE3 m) c).arrAt w cfg3.N = VX3 m c (Pipeline.arrRef spec3 w) :=
  (W10_arr m c w).symm
theorem hrest3 (c : Dev nD) : ∀ b, b ∉ Finset.univ.image (Pipeline.arrRef spec3) → VX3 m c b = VE3 m c b :=
  fun b hb => W10_of_ne m c b fun w e => hb (Finset.mem_image.mpr ⟨w, Finset.mem_univ _, e⟩)
/-- After the stretch `hostOps4`. -/
abbrev W11 : Dev nD → Valuation τ sig (Elt F) := fun c => StableHlo.after hostOps4 (W10 m c)
/-- What region 4 is entered from, read at the TensorCore's references. -/
abbrev VE4 : (c : Dev nD) → (b : Ref sig .tc) → Buf (Elt F) ((c : Thread nD τ).loc b) := fun c b => W11 m c b
/-- After region 4: its arrays at what the pipeline leaves, every other buffer as entered. -/
def W12 (c : Dev nD) : Valuation τ sig (Elt F) :=
  Pipeline.withArrays spec4 c (W11 m c) fun w => (dat4 (VE4 m) c).arrAt w cfg4.N
theorem W12_arr (c : Dev nD) (w : Fin cfg4.W) :
    W12 m c (Proc.devRef .tc (Pipeline.arrRef spec4 w)) = (dat4 (VE4 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
/-- Region 4's exit contents read at the TensorCore's references. -/
abbrev VX4 : (c : Dev nD) → (b : Ref sig .tc) → Buf (Elt F) ((c : Thread nD τ).loc b) := fun c b => W12 m c b
theorem hF4 (c : Dev nD) (w : Fin cfg4.W) : (dat4 (VE4 m) c).arrAt w cfg4.N = VX4 m c (Pipeline.arrRef spec4 w) :=
  (W12_arr m c w).symm
theorem hrest4 (c : Dev nD) : ∀ b, b ∉ Finset.univ.image (Pipeline.arrRef spec4) → VX4 m c b = VE4 m c b :=
  fun b hb => W12_of_ne m c b fun w e => hb (Finset.mem_image.mpr ⟨w, Finset.mem_univ _, e⟩)

/-! # What reaches the end unchanged

A buffer that no host stretch writes and that no region has as an OUTPUT window's array holds at the end what it held
at launch: a stretch leaves it alone, and a region either does not touch it or reads it through an input window, whose
array the write-backs never change. -/

/-- Region 0 keeps a buffer that is not one of its output windows' arrays. -/
theorem W4_region_keep (c : Dev nD) (r : Ref sig .tc) (h : ∀ w, Pipeline.arrRef spec0 w = r → (cfg0.win w).isOut = false) :
    W4 m c (Proc.devRef .tc r) = W3 m c (Proc.devRef .tc r) := by
  by_cases he : ∃ w, Pipeline.arrRef spec0 w = r
  · obtain ⟨w, rfl⟩ := he
    exact (W4_arr m c w).trans (((dat0 (VE0 m) c).arrAt_in w (h w rfl) _).trans (A_eq0 (VE0 m) c w))
  · exact W4_of_ne m c r (fun w e => he ⟨w, e⟩)
/-- Region 1 keeps a buffer that is not one of its output windows' arrays. -/
theorem W6_region_keep (c : Dev nD) (r : Ref sig .tc) (h : ∀ w, Pipeline.arrRef spec1 w = r → (cfg1.win w).isOut = false) :
    W6 m c (Proc.devRef .tc r) = W5 m c (Proc.devRef .tc r) := by
  by_cases he : ∃ w, Pipeline.arrRef spec1 w = r
  · obtain ⟨w, rfl⟩ := he
    exact (W6_arr m c w).trans (((dat1 (VE1 m) c).arrAt_in w (h w rfl) _).trans (A_eq1 (VE1 m) c w))
  · exact W6_of_ne m c r (fun w e => he ⟨w, e⟩)
/-- Region 2 keeps a buffer that is not one of its output windows' arrays. -/
theorem W8_region_keep (c : Dev nD) (r : Ref sig .tc) (h : ∀ w, Pipeline.arrRef spec2 w = r → (cfg2.win w).isOut = false) :
    W8 m c (Proc.devRef .tc r) = W7 m c (Proc.devRef .tc r) := by
  by_cases he : ∃ w, Pipeline.arrRef spec2 w = r
  · obtain ⟨w, rfl⟩ := he
    exact (W8_arr m c w).trans (((dat2 (VE2 m) c).arrAt_in w (h w rfl) _).trans (A_eq2 (VE2 m) c w))
  · exact W8_of_ne m c r (fun w e => he ⟨w, e⟩)
/-- Region 3 keeps a buffer that is not one of its output windows' arrays. -/
theorem W10_region_keep (c : Dev nD) (r : Ref sig .tc) (h : ∀ w, Pipeline.arrRef spec3 w = r → (cfg3.win w).isOut = false) :
    W10 m c (Proc.devRef .tc r) = W9 m c (Proc.devRef .tc r) := by
  by_cases he : ∃ w, Pipeline.arrRef spec3 w = r
  · obtain ⟨w, rfl⟩ := he
    exact (W10_arr m c w).trans (((dat3 (VE3 m) c).arrAt_in w (h w rfl) _).trans (A_eq3 (VE3 m) c w))
  · exact W10_of_ne m c r (fun w e => he ⟨w, e⟩)
/-- Region 4 keeps a buffer that is not one of its output windows' arrays. -/
theorem W12_region_keep (c : Dev nD) (r : Ref sig .tc) (h : ∀ w, Pipeline.arrRef spec4 w = r → (cfg4.win w).isOut = false) :
    W12 m c (Proc.devRef .tc r) = W11 m c (Proc.devRef .tc r) := by
  by_cases he : ∃ w, Pipeline.arrRef spec4 w = r
  · obtain ⟨w, rfl⟩ := he
    exact (W12_arr m c w).trans (((dat4 (VE4 m) c).arrAt_in w (h w rfl) _).trans (A_eq4 (VE4 m) c w))
  · exact W12_of_ne m c r (fun w e => he ⟨w, e⟩)

/-- A buffer no stretch writes and no region outputs ends at its launch contents. -/
theorem W12_keep (c : Dev nD) (r : Ref sig .tc)
    (g0 : r ∉ hostOps0_W) (g1 : r ∉ hostOps0_1_W) (g2 : r ∉ hostOps0_2_W) (g3 : r ∉ hostOps1_W) (g4 : r ∉ hostOps2_W)
    (g5 : r ∉ hostOps3_W) (g6 : r ∉ hostOps4_W)
    (k0 : ∀ w, Pipeline.arrRef spec0 w = r → (cfg0.win w).isOut = false)
    (k1 : ∀ w, Pipeline.arrRef spec1 w = r → (cfg1.win w).isOut = false)
    (k2 : ∀ w, Pipeline.arrRef spec2 w = r → (cfg2.win w).isOut = false)
    (k3 : ∀ w, Pipeline.arrRef spec3 w = r → (cfg3.win w).isOut = false)
    (k4 : ∀ w, Pipeline.arrRef spec4 w = r → (cfg4.win w).isOut = false) :
    W12 m c (Proc.devRef .tc r) = m ((c : Thread nD τ).loc r) :=
  calc W12 m c (Proc.devRef .tc r)
    _ = W11 m c (Proc.devRef .tc r) := W12_region_keep m c r k4
    _ = W10 m c (Proc.devRef .tc r) := StableHlo.after_of_writes_sub hostOps4 _ hostOps4_writes g6
    _ = W9 m c (Proc.devRef .tc r) := W10_region_keep m c r k3
    _ = W8 m c (Proc.devRef .tc r) := StableHlo.after_of_writes_sub hostOps3 _ hostOps3_writes g5
    _ = W7 m c (Proc.devRef .tc r) := W8_region_keep m c r k2
    _ = W6 m c (Proc.devRef .tc r) := StableHlo.after_of_writes_sub hostOps2 _ hostOps2_writes g4
    _ = W5 m c (Proc.devRef .tc r) := W6_region_keep m c r k1
    _ = W4 m c (Proc.devRef .tc r) := StableHlo.after_of_writes_sub hostOps1 _ hostOps1_writes g3
    _ = W3 m c (Proc.devRef .tc r) := W4_region_keep m c r k0
    _ = W2 m c (Proc.devRef .tc r) := StableHlo.after_of_writes_sub hostOps0_2 _ hostOps0_2_writes g2
    _ = W1 m c (Proc.devRef .tc r) := StableHlo.after_of_writes_sub hostOps0_1 _ hostOps0_1_writes g1
    _ = W0 m c (Proc.devRef .tc r) := StableHlo.after_of_writes_sub hostOps0 _ hostOps0_writes g0
    _ = m ((c : Thread nD τ).loc r) := rfl

/-- Every argument array ends at its launch contents. -/
theorem W12_arg (c : Dev nD) :
    W12 m c (Proc.devRef .tc main_arg0) = m ((c : Thread nD τ).loc main_arg0)
    ∧ W12 m c (Proc.devRef .tc main_arg1) = m ((c : Thread nD τ).loc main_arg1)
    ∧ W12 m c (Proc.devRef .tc main_arg2) = m ((c : Thread nD τ).loc main_arg2)
    ∧ W12 m c (Proc.devRef .tc main_arg3) = m ((c : Thread nD τ).loc main_arg3)
    ∧ W12 m c (Proc.devRef .tc main_arg4) = m ((c : Thread nD τ).loc main_arg4)
    ∧ W12 m c (Proc.devRef .tc main_arg5) = m ((c : Thread nD τ).loc main_arg5)
    ∧ W12 m c (Proc.devRef .tc main_arg6) = m ((c : Thread nD τ).loc main_arg6)
    ∧ W12 m c (Proc.devRef .tc main_arg7) = m ((c : Thread nD τ).loc main_arg7)
    ∧ W12 m c (Proc.devRef .tc main_arg8) = m ((c : Thread nD τ).loc main_arg8)
    ∧ W12 m c (Proc.devRef .tc main_arg9) = m ((c : Thread nD τ).loc main_arg9) :=
  ⟨W12_keep m c main_arg0 (by decide) (by decide) (by decide) (by decide) (by decide) (by decide) (by decide) (by decide) (by decide) (by decide) (by decide) (by decide),
   W12_keep m c main_arg1 (by decide) (by decide) (by decide) (by decide) (by decide) (by decide) (by decide) (by decide) (by decide) (by decide) (by decide) (by decide),
   W12_keep m c main_arg2 (by decide) (by decide) (by decide) (by decide) (by decide) (by decide) (by decide) (by decide) (by decide) (by decide) (by decide) (by decide),
   W12_keep m c main_arg3 (by decide) (by decide) (by decide) (by decide) (by decide) (by decide) (by decide) (by decide) (by decide) (by decide) (by decide) (by decide),
   W12_keep m c main_arg4 (by decide) (by decide) (by decide) (by decide) (by decide) (by decide) (by decide) (by decide) (by decide) (by decide) (by decide) (by decide),
   W12_keep m c main_arg5 (by decide) (by decide) (by decide) (by decide) (by decide) (by decide) (by decide) (by decide) (by decide) (by decide) (by decide) (by decide),
   W12_keep m c main_arg6 (by decide) (by decide) (by decide) (by decide) (by decide) (by decide) (by decide) (by decide) (by decide) (by decide) (by decide) (by decide),
   W12_keep m c main_arg7 (by decide) (by decide) (by decide) (by decide) (by decide) (by decide) (by decide) (by decide) (by decide) (by decide) (by decide) (by decide),
   W12_keep m c main_arg8 (by decide) (by decide) (by decide) (by decide) (by decide) (by decide) (by decide) (by decide) (by decide) (by decide) (by decide) (by decide),
   W12_keep m c main_arg9 (by decide) (by decide) (by decide) (by decide) (by decide) (by decide) (by decide) (by decide) (by decide) (by decide) (by decide) (by decide)⟩

/-! # The proof data family and the thread state -/

/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (VE0 m) c
  | ⟨1, _⟩ => fun c => dat1 (VE1 m) c
  | ⟨2, _⟩ => fun c => dat2 (VE2 m) c
  | ⟨3, _⟩ => fun c => dat3 (VE3 m) c
  | ⟨4, _⟩ => fun c => dat4 (VE4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A host stretch as a segment from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last boundary's contents, the generator register at some state. -/
abbrev Tₙ (c : Dev nD) : sProp 𝕄 := iprop(StableHlo.held (c : Thread nD τ) (Pipeline.ucRefs τ sig) (W12 m c) ∗ ∃ r, prngReg c r)

/-! # The regions as segments -/

set_option backward.isDefEq.respectTransparency.types false in
/-- Region 0 over the thread state: entered from every unscoped buffer at `W3`, left at `W4`. Its windows' arrays are
    split out of the unscoped buffers and put back at their exit contents; the generator register goes into the body's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VE0 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (VX0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W5`, left at `W6`. Its windows' arrays are
    split out of the unscoped buffers and put back at their exit contents; the generator register goes into the body's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VE1 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (VE1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VE1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (VE1 m) c).Φ 0 from rfl]
    iintro ⟨Hp, -, Hr⟩
    iapply (phi_in1 (VE1 m) c)
    isplitl [Hp]; · iexact Hp
    iexact Hr
  hout c := by
    rw [Pipeline.ownSems0_none, show (pdats m 1 c).Φ (Fin.last _) = (dat1 (VE1 m) c).Φ (Fin.last cfg1.N) from rfl]
    iintro HΦ
    ihave H := (phi_out1 (VE1 m) c) $$ HΦ
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VE1 m c) (VX1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W7`, left at `W8`. Its windows' arrays are
    split out of the unscoped buffers and put back at their exit contents; the generator register goes into the body's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VE2 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (VE2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VE2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VE2 m c) (VX2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W9`, left at `W10`. Its windows' arrays are
    split out of the unscoped buffers and put back at their exit contents; the generator register goes into the body's
    invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VE3 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (VE3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (VE3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (VE3 m) c).Φ 0 from rfl]
    iintro ⟨Hp, -, Hr⟩
    iapply (phi_in3 (VE3 m) c)
    isplitl [Hp]; · iexact Hp
    iexact Hr
  hout c := by
    rw [Pipeline.ownSems0_none, show (pdats m 3 c).Φ (Fin.last _) = (dat3 (VE3 m) c).Φ (Fin.last cfg3.N) from rfl]
    iintro HΦ
    ihave H := (phi_out3 (VE3 m) c) $$ HΦ
    icases H with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (VE3 m c) (VX3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W11`, left at `W12`. Its windows' arrays are
    split out of the unscoped buffers and put back at their exit contents; the generator register goes into the body's
    invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VE4 m) c).loose
  hwaits := Pipeline.hwaits_of_owed_zero _ _ _ _ L lv 4 fun _ _ => rfl
  pre c := iprop(StableHlo.held (c : Thread nD τ) (Pipeline.ucRefs τ sig) (W11 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (VE4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (VE4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (VE4 m c) (VX4 m c) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! # @main as segments, and the launch -/

/-- @main's twelve items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m) ]

/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and every final state holds each unscoped buffer at the last boundary's contents `W12`. -/
theorem run_main (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W12 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h c => h c)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨(h c _ (mem_uc main_arg0 (by decide))).trans (W12_arg m c).1,
     (h c _ (mem_uc main_arg1 (by decide))).trans (W12_arg m c).2.1,
     (h c _ (mem_uc main_arg2 (by decide))).trans (W12_arg m c).2.2.1,
     (h c _ (mem_uc main_arg3 (by decide))).trans (W12_arg m c).2.2.2.1,
     (h c _ (mem_uc main_arg4 (by decide))).trans (W12_arg m c).2.2.2.2.1,
     (h c _ (mem_uc main_arg5 (by decide))).trans (W12_arg m c).2.2.2.2.2.1,
     (h c _ (mem_uc main_arg6 (by decide))).trans (W12_arg m c).2.2.2.2.2.2.1,
     (h c _ (mem_uc main_arg7 (by decide))).trans (W12_arg m c).2.2.2.2.2.2.2.1,
     (h c _ (mem_uc main_arg8 (by decide))).trans (W12_arg m c).2.2.2.2.2.2.2.2.1,
     (h c _ (mem_uc main_arg9 (by decide))).trans (W12_arg m c).2.2.2.2.2.2.2.2.2⟩) (run_main m ρ)

/-- THE RUN WITH ITS RESULT: the result array ends at the last boundary's contents, every argument as launched. -/
theorem run_result (ρ : Dev nD → PrngReg) : θ_run defs (onTc (τ := τ) (main (F := F))) ⟨m, fun _ => 0, ρ⟩ (fun r => ∀ c : Dev nD,
      r.2.mem ((c.tc : Thread nD τ).loc main_v65) = W12 m c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v65 (by decide)),
     (h c _ (mem_uc main_arg0 (by decide))).trans (W12_arg m c).1,
     (h c _ (mem_uc main_arg1 (by decide))).trans (W12_arg m c).2.1,
     (h c _ (mem_uc main_arg2 (by decide))).trans (W12_arg m c).2.2.1,
     (h c _ (mem_uc main_arg3 (by decide))).trans (W12_arg m c).2.2.2.1,
     (h c _ (mem_uc main_arg4 (by decide))).trans (W12_arg m c).2.2.2.2.1,
     (h c _ (mem_uc main_arg5 (by decide))).trans (W12_arg m c).2.2.2.2.2.1,
     (h c _ (mem_uc main_arg6 (by decide))).trans (W12_arg m c).2.2.2.2.2.2.1,
     (h c _ (mem_uc main_arg7 (by decide))).trans (W12_arg m c).2.2.2.2.2.2.2.1,
     (h c _ (mem_uc main_arg8 (by decide))).trans (W12_arg m c).2.2.2.2.2.2.2.2.1,
     (h c _ (mem_uc main_arg9 (by decide))).trans (W12_arg m c).2.2.2.2.2.2.2.2.2⟩) (run_main m ρ)

end Cert.KernelIdeal.Hand

end
-- ==== Proof.Ref.Ops.lean ====
/- The reference program's @main as a list of its operations, in program order, each call of an outlined
   function replaced by the callee's operations over that call's own buffers; one list per window of @main,
   `ops` their concatenation; beside each list the buffers its operations write, in the same order. -/
import proofs.«168650_j27212912787479_2_alg».proof.ReferenceIdeal
import proofs.«168650_j27212912787479_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations 1 … 62 (window `main_part0` of @main). -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_v4 (iotaInDim S50000 32 0),
    StableHlo.binary main_v1 main_v4 main_v5 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v4 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0xBF000000#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v10 main_v13 main_v14 (Host.powf : (⟨S50000, .f32⟩ : BufTy).Contents (Elt F) → (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v14 : StableHlo.TRef sig ⟨S50000, .f32⟩) (.of main_call0_v1 : StableHlo.TRef sig ⟨S50000, .f32⟩) (.of main_v15 : StableHlo.TRef sig ⟨S50000, .f32⟩) select,
    StableHlo.nullary main_c (constantI S_ 32 0#32),
    StableHlo.unary main_c main_v16 (broadcastInDim S850000 ![] bcast_S_S850000 : (⟨S_, .i32⟩ : BufTy).Contents (Elt F) → (⟨S850000, .i32⟩ : BufTy).Contents (Elt F)),
    StableHlo.binary main_v5 main_v16 main_v17 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v18 (broadcastInDim S850000 ![] bcast_S_S850000 : (⟨S_, .i32⟩ : BufTy).Contents (Elt F) → (⟨S850000, .i32⟩ : BufTy).Contents (Elt F)),
    StableHlo.binary main_v5 main_v18 main_v19 (addi : (⟨S850000, .i32⟩ : BufTy).Contents (Elt F) → (⟨S850000, .i32⟩ : BufTy).Contents (Elt F) → (⟨S850000, .i32⟩ : BufTy).Contents (Elt F)),
    StableHlo.ternary main_v17 main_v19 main_v5 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v20 main_v21 (broadcastInDim S850000x1 ![0] bcast_S850000_S850000x1_0 : (⟨S850000, .i32⟩ : BufTy).Contents (Elt F) → (⟨S850000x1, .i32⟩ : BufTy).Contents (Elt F)),
    StableHlo.binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_5 (constantI S_ 32 0#32),
    StableHlo.unary main_c_5 main_v23 (broadcastInDim S850000 ![] bcast_S_S850000 : (⟨S_, .i32⟩ : BufTy).Contents (Elt F) → (⟨S850000, .i32⟩ : BufTy).Contents (Elt F)),
    StableHlo.binary main_v6 main_v23 main_v24 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v25 (broadcastInDim S850000 ![] bcast_S_S850000 : (⟨S_, .i32⟩ : BufTy).Contents (Elt F) → (⟨S850000, .i32⟩ : BufTy).Contents (Elt F)),
    StableHlo.binary main_v6 main_v25 main_v26 (addi : (⟨S850000, .i32⟩ : BufTy).Contents (Elt F) → (⟨S850000, .i32⟩ : BufTy).Contents (Elt F) → (⟨S850000, .i32⟩ : BufTy).Contents (Elt F)),
    StableHlo.ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v27 main_v28 (broadcastInDim S850000x1 ![0] bcast_S850000_S850000x1_0 : (⟨S850000, .i32⟩ : BufTy).Contents (Elt F) → (⟨S850000x1, .i32⟩ : BufTy).Contents (Elt F)),
    StableHlo.binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v22 main_v29 main_v30 (mulf : (⟨S850000, .f32⟩ : BufTy).Contents (Elt F) → (⟨S850000, .f32⟩ : BufTy).Contents (Elt F) → (⟨S850000, .f32⟩ : BufTy).Contents (Elt F)),
    StableHlo.binary main_arg0 main_arg2 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_7 (constantI S_ 32 0#32),
    StableHlo.unary main_c_7 main_v32 (broadcastInDim S850000 ![] bcast_S_S850000 : (⟨S_, .i32⟩ : BufTy).Contents (Elt F) → (⟨S850000, .i32⟩ : BufTy).Contents (Elt F)),
    StableHlo.binary main_v5 main_v32 main_v33 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v34 (broadcastInDim S850000 ![] bcast_S_S850000 : (⟨S_, .i32⟩ : BufTy).Contents (Elt F) → (⟨S850000, .i32⟩ : BufTy).Contents (Elt F)),
    StableHlo.binary main_v5 main_v34 main_v35 (addi : (⟨S850000, .i32⟩ : BufTy).Contents (Elt F) → (⟨S850000, .i32⟩ : BufTy).Contents (Elt F) → (⟨S850000, .i32⟩ : BufTy).Contents (Elt F)),
    StableHlo.ternary main_v33 main_v35 main_v5 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v36 main_v37 (broadcastInDim S850000x1 ![0] bcast_S850000_S850000x1_0 : (⟨S850000, .i32⟩ : BufTy).Contents (Elt F) → (⟨S850000x1, .i32⟩ : BufTy).Contents (Elt F)),
    StableHlo.binary main_v31 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v30 main_v39 (broadcastInDim S850000x1 ![0] bcast_S850000_S850000x1_0 : (⟨S850000, .f32⟩ : BufTy).Contents (Elt F) → (⟨S850000x1, .f32⟩ : BufTy).Contents (Elt F)),
    StableHlo.unary main_v39 main_v40 (broadcastInDim S850000x128 ![0, 1] bcast_S850000x1_S850000x128_0_1 : (⟨S850000x1, .f32⟩ : BufTy).Contents (Elt F) → (⟨S850000x128, .f32⟩ : BufTy).Contents (Elt F)),
    StableHlo.binary main_v38 main_v40 main_v41 (mulf : (⟨S850000x128, .f32⟩ : BufTy).Contents (Elt F) → (⟨S850000x128, .f32⟩ : BufTy).Contents (Elt F) → (⟨S850000x128, .f32⟩ : BufTy).Contents (Elt F)),
    StableHlo.nullary main_cst_9 (constant S_ .f32 0x00000000#32),
    StableHlo.unary main_cst_9 main_v42 (broadcastInDim S50000x128 ![] bcast_S_S50000x128 : (⟨S_, .f32⟩ : BufTy).Contents (Elt F) → (⟨S50000x128, .f32⟩ : BufTy).Contents (Elt F)),
    StableHlo.unary main_v6 main_v43 (broadcastInDim S850000x1 ![0] bcast_S850000_S850000x1_0 : (⟨S850000, .i32⟩ : BufTy).Contents (Elt F) → (⟨S850000x1, .i32⟩ : BufTy).Contents (Elt F)),
    StableHlo.ternary main_v42 main_v43 main_v41 main_v44 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg3 main_v45 (broadcastInDim S1x128 ![1] bcast_S128_S1x128_1 : (⟨S128, .f32⟩ : BufTy).Contents (Elt F) → (⟨S1x128, .f32⟩ : BufTy).Contents (Elt F)),
    StableHlo.unary main_v45 main_v46 (broadcastInDim S50000x128 ![0, 1] bcast_S1x128_S50000x128_0_1 : (⟨S1x128, .f32⟩ : BufTy).Contents (Elt F) → (⟨S50000x128, .f32⟩ : BufTy).Contents (Elt F)),
    StableHlo.binary main_v44 main_v46 main_v47 (addf : (⟨S50000x128, .f32⟩ : BufTy).Contents (Elt F) → (⟨S50000x128, .f32⟩ : BufTy).Contents (Elt F) → (⟨S50000x128, .f32⟩ : BufTy).Contents (Elt F)) ]

/-- The buffers `ops0`'s operations write, in order. -/
abbrev W0 : List (Ref sig .tc) :=
  [main_v0, main_v1, main_v2, main_v3, main_v4, main_v5, main_v6, main_cst, main_v7, main_cst_0, main_v8, main_v9, main_v10, main_cst_1, main_v11, main_v12, main_cst_2, main_v13, main_v14, main_cst_3, main_call0_v0, main_call0_v1, main_v15, main_c, main_v16, main_v17, main_c_4, main_v18, main_v19, main_v20, main_v21, main_v22, main_c_5, main_v23, main_v24, main_c_6, main_v25, main_v26, main_v27, main_v28, main_v29, main_v30, main_v31, main_c_7, main_v32, main_v33, main_c_8, main_v34, main_v35, main_v36, main_v37, main_v38, main_v39, main_v40, main_v41, main_cst_9, main_v42, main_v43, main_v44, main_v45, main_v46, main_v47]

/-- Operations 63 … 147 (window `main_part1` of @main). -/
abbrev ops1 : List (HloOp τ sig (Elt F)) :=
  [ StableHlo.nullary main_cst_10 (constant S_ .f32 0x00000000#32),
    StableHlo.binary main_v47 main_cst_10 main_v48 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_11 (constant S_ .f32 0x47435000#32),
    StableHlo.unary main_cst_11 main_v49 (broadcastInDim S128 ![] bcast_S_S128 : (⟨S_, .f32⟩ : BufTy).Contents (Elt F) → (⟨S128, .f32⟩ : BufTy).Contents (Elt F)),
    StableHlo.binary main_v48 main_v49 main_v50 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary (.of main_call1_cst : StableHlo.TRef sig ⟨S_, .f32⟩) (constant S_ .f32 0x00000000#32),
    StableHlo.TRef.binary (.of main_v47 : StableHlo.TRef sig ⟨S50000x128, .f32⟩) (.of main_call1_cst : StableHlo.TRef sig ⟨S_, .f32⟩) (.of main_call1_v0 : StableHlo.TRef sig ⟨S128, .f32⟩) (fun x v => Host.reduceAdd x v reducesTo_S50000x128_S128_d0 h_S_),
    StableHlo.TRef.unary (.of main_call1_v0 : StableHlo.TRef sig ⟨S128, .f32⟩) (.of main_call1_v1 : StableHlo.TRef sig ⟨S1x128, .f32⟩) (broadcastInDim S1x128 ![1] bcast_S128_S1x128_1),
    StableHlo.TRef.nullary (.of main_call1_cst_0 : StableHlo.TRef sig ⟨S_, .f32⟩) (constant S_ .f32 0x47435000#32),
    StableHlo.TRef.unary (.of main_call1_cst_0 : StableHlo.TRef sig ⟨S_, .f32⟩) (.of main_call1_v2 : StableHlo.TRef sig ⟨S1x128, .f32⟩) (broadcastInDim S1x128 ![] bcast_S_S1x128),
    StableHlo.TRef.binary (.of main_call1_v1 : StableHlo.TRef sig ⟨S1x128, .f32⟩) (.of main_call1_v2 : StableHlo.TRef sig ⟨S1x128, .f32⟩) (.of main_call1_v3 : StableHlo.TRef sig ⟨S1x128, .f32⟩) Host.divf,
    StableHlo.TRef.unary (.of main_call1_v3 : StableHlo.TRef sig ⟨S1x128, .f32⟩) (.of main_call1_v4 : StableHlo.TRef sig ⟨S50000x128, .f32⟩) (broadcastInDim S50000x128 ![0, 1] bcast_S1x128_S50000x128_0_1),
    StableHlo.TRef.binary (.of main_v47 : StableHlo.TRef sig ⟨S50000x128, .f32⟩) (.of main_call1_v4 : StableHlo.TRef sig ⟨S50000x128, .f32⟩) (.of main_call1_v5 : StableHlo.TRef sig ⟨S50000x128, .f32⟩) subf,
    StableHlo.TRef.binary (.of main_call1_v5 : StableHlo.TRef sig ⟨S50000x128, .f32⟩) (.of main_call1_v5 : StableHlo.TRef sig ⟨S50000x128, .f32⟩) (.of main_call1_v6 : StableHlo.TRef sig ⟨S50000x128, .f32⟩) mulf,
    StableHlo.TRef.unary (.of main_c_12 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x47435000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S50000x128, .f32⟩) (.of main_call1_cst_2 : StableHlo.TRef sig ⟨S_, .f32⟩) (.of main_call1_v9 : StableHlo.TRef sig ⟨S128, .f32⟩) (fun x v => Host.reduceAdd x v reducesTo_S50000x128_S128_d0 h_S_),
    StableHlo.TRef.unary (.of main_call1_v8 : StableHlo.TRef sig ⟨S_, .f32⟩) (.of main_call1_v10 : StableHlo.TRef sig ⟨S128, .f32⟩) (broadcastInDim S128 ![] bcast_S_S128),
    StableHlo.TRef.binary (.of main_call1_v9 : StableHlo.TRef sig ⟨S128, .f32⟩) (.of main_call1_v10 : StableHlo.TRef sig ⟨S128, .f32⟩) (.of main_call1_v11 : StableHlo.TRef sig ⟨S128, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v12 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S128, .f32⟩) (broadcastInDim S128 ![] bcast_S_S128),
    StableHlo.TRef.ternary (.of main_call1_v12 : StableHlo.TRef sig ⟨S_, .i1⟩) (.of main_call1_v11 : StableHlo.TRef sig ⟨S128, .f32⟩) (.of main_call1_call0_v1 : StableHlo.TRef sig ⟨S128, .f32⟩) (.of main_v51 : StableHlo.TRef sig ⟨S128, .f32⟩) (fun p a b => select (broadcastInDim S128 ![] bcast_S_S128 p) a b),
    StableHlo.unary main_v50 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v47 main_v53 main_v54 (subf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3727C5AC#32),
    StableHlo.unary main_cst_13 main_v55 (broadcastInDim S128 ![] bcast_S_S128 : (⟨S_, .f32⟩ : BufTy).Contents (Elt F) → (⟨S128, .f32⟩ : BufTy).Contents (Elt F)),
    StableHlo.binary main_v51 main_v55 main_v56 (addf : (⟨S128, .f32⟩ : BufTy).Contents (Elt F) → (⟨S128, .f32⟩ : BufTy).Contents (Elt F) → (⟨S128, .f32⟩ : BufTy).Contents (Elt F)),
    StableHlo.unary main_v56 main_v57 (Host.rsqrt : (⟨S128, .f32⟩ : BufTy).Contents (Elt F) → (⟨S128, .f32⟩ : BufTy).Contents (Elt F)),
    StableHlo.unary main_v57 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v59 main_v60 (mulf : (⟨S50000x128, .f32⟩ : BufTy).Contents (Elt F) → (⟨S50000x128, .f32⟩ : BufTy).Contents (Elt F) → (⟨S50000x128, .f32⟩ : BufTy).Contents (Elt F)),
    StableHlo.unary main_arg4 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v60 main_v62 main_v63 (mulf : (⟨S50000x128, .f32⟩ : BufTy).Contents (Elt F) → (⟨S50000x128, .f32⟩ : BufTy).Contents (Elt F) → (⟨S50000x128, .f32⟩ : BufTy).Contents (Elt F)),
    StableHlo.unary main_arg5 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v63 main_v65 main_v66 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x128, .f32⟩) (broadcastInDim S50000x128 ![] bcast_S_S50000x128),
    StableHlo.TRef.binary (.of main_v66 : StableHlo.TRef sig ⟨S50000x128, .f32⟩) (.of main_call2_v0 : StableHlo.TRef sig ⟨S50000x128, .f32⟩) (.of main_v67 : StableHlo.TRef sig ⟨S50000x128, .f32⟩) maximumf,
    StableHlo.nullary main_v68 (iotaInDim S50000 32 0),
    StableHlo.binary main_v1 main_v68 main_v69 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.binary main_v3 main_v68 main_v70 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst_14 (constant S_ .f32 0x3F800000#32),
    StableHlo.unary main_cst_14 main_v71 (broadcastInDim S850000 ![] bcast_S_S850000 : (⟨S_, .f32⟩ : BufTy).Contents (Elt F) → (⟨S850000, .f32⟩ : BufTy).Contents (Elt F)),
    StableHlo.nullary main_cst_15 (constant S_ .f32 0x00000000#32),
    StableHlo.unary main_cst_15 main_v72 (broadcastInDim S50000 ![] bcast_S_S50000 : (⟨S_, .f32⟩ : BufTy).Contents (Elt F) → (⟨S50000, .f32⟩ : BufTy).Contents (Elt F)),
    StableHlo.unary main_v70 main_v73 (broadcastInDim S850000x1 ![0] bcast_S850000_S850000x1_0 : (⟨S850000, .i32⟩ : BufTy).Contents (Elt F) → (⟨S850000x1, .i32⟩ : BufTy).Contents (Elt F)),
    StableHlo.ternary main_v72 main_v73 main_v71 main_v74 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_16 (constant S_ .f32 0x00000000#32),
    StableHlo.unary main_cst_16 main_v75 (broadcastInDim S50000 ![] bcast_S_S50000 : (⟨S_, .f32⟩ : BufTy).Contents (Elt F) → (⟨S50000, .f32⟩ : BufTy).Contents (Elt F)),
    StableHlo.binary main_v74 main_v75 main_v76 (cmpf .ogt : (⟨S50000, .f32⟩ : BufTy).Contents (Elt F) → (⟨S50000, .f32⟩ : BufTy).Contents (Elt F) → (⟨S50000, .i1⟩ : BufTy).Contents (Elt F)),
    StableHlo.nullary main_cst_17 (constant S_ .f32 0xBF000000#32),
    StableHlo.unary main_cst_17 main_v77 (broadcastInDim S50000 ![] bcast_S_S50000 : (⟨S_, .f32⟩ : BufTy).Contents (Elt F) → (⟨S50000, .f32⟩ : BufTy).Contents (Elt F)),
    StableHlo.binary main_v74 main_v77 main_v78 (Host.powf : (⟨S50000, .f32⟩ : BufTy).Contents (Elt F) → (⟨S50000, .f32⟩ : BufTy).Contents (Elt F) → (⟨S50000, .f32⟩ : BufTy).Contents (Elt F)),
    StableHlo.nullary main_cst_18 (constant S_ .f32 0x00000000#32),
    StableHlo.TRef.unary (.of main_cst_18 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S50000, .f32⟩) (broadcastInDim S50000 ![] bcast_S_S50000),
    StableHlo.TRef.ternary (.of main_v76 : StableHlo.TRef sig ⟨S50000, .i1⟩) (.of main_v78 : StableHlo.TRef sig ⟨S50000, .f32⟩) (.of main_call3_v1 : StableHlo.TRef sig ⟨S50000, .f32⟩) (.of main_v79 : StableHlo.TRef sig ⟨S50000, .f32⟩) select,
    StableHlo.nullary main_c_19 (constantI S_ 32 0#32),
    StableHlo.unary main_c_19 main_v80 (broadcastInDim S850000 ![] bcast_S_S850000 : (⟨S_, .i32⟩ : BufTy).Contents (Elt F) → (⟨S850000, .i32⟩ : BufTy).Contents (Elt F)),
    StableHlo.binary main_v69 main_v80 main_v81 (cmpi .slt : (⟨S850000, .i32⟩ : BufTy).Contents (Elt F) → (⟨S850000, .i32⟩ : BufTy).Contents (Elt F) → (⟨S850000, .i1⟩ : BufTy).Contents (Elt F)),
    StableHlo.nullary main_c_20 (constantI S_ 32 50000#32),
    StableHlo.unary main_c_20 main_v82 (broadcastInDim S850000 ![] bcast_S_S850000 : (⟨S_, .i32⟩ : BufTy).Contents (Elt F) → (⟨S850000, .i32⟩ : BufTy).Contents (Elt F)),
    StableHlo.binary main_v69 main_v82 main_v83 (addi : (⟨S850000, .i32⟩ : BufTy).Contents (Elt F) → (⟨S850000, .i32⟩ : BufTy).Contents (Elt F) → (⟨S850000, .i32⟩ : BufTy).Contents (Elt F)),
    StableHlo.ternary main_v81 main_v83 main_v69 main_v84 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v84 main_v85 (broadcastInDim S850000x1 ![0] bcast_S850000_S850000x1_0 : (⟨S850000, .i32⟩ : BufTy).Contents (Elt F) → (⟨S850000x1, .i32⟩ : BufTy).Contents (Elt F)),
    StableHlo.binary main_v79 main_v85 main_v86 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_21 (constantI S_ 32 0#32),
    StableHlo.unary main_c_21 main_v87 (broadcastInDim S850000 ![] bcast_S_S850000 : (⟨S_, .i32⟩ : BufTy).Contents (Elt F) → (⟨S850000, .i32⟩ : BufTy).Contents (Elt F)),
    StableHlo.binary main_v70 main_v87 main_v88 (cmpi .slt : (⟨S850000, .i32⟩ : BufTy).Contents (Elt F) → (⟨S850000, .i32⟩ : BufTy).Contents (Elt F) → (⟨S850000, .i1⟩ : BufTy).Contents (Elt F)),
    StableHlo.nullary main_c_22 (constantI S_ 32 50000#32),
    StableHlo.unary main_c_22 main_v89 (broadcastInDim S850000 ![] bcast_S_S850000 : (⟨S_, .i32⟩ : BufTy).Contents (Elt F) → (⟨S850000, .i32⟩ : BufTy).Contents (Elt F)),
    StableHlo.binary main_v70 main_v89 main_v90 (addi : (⟨S850000, .i32⟩ : BufTy).Contents (Elt F) → (⟨S850000, .i32⟩ : BufTy).Contents (Elt F) → (⟨S850000, .i32⟩ : BufTy).Contents (Elt F)),
    StableHlo.ternary main_v88 main_v90 main_v70 main_v91 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v91 main_v92 (broadcastInDim S850000x1 ![0] bcast_S850000_S850000x1_0 : (⟨S850000, .i32⟩ : BufTy).Contents (Elt F) → (⟨S850000x1, .i32⟩ : BufTy).Contents (Elt F)),
    StableHlo.binary main_v79 main_v92 main_v93 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v86 main_v93 main_v94 (mulf : (⟨S850000, .f32⟩ : BufTy).Contents (Elt F) → (⟨S850000, .f32⟩ : BufTy).Contents (Elt F) → (⟨S850000, .f32⟩ : BufTy).Contents (Elt F)) ]

/-- The buffers `ops1`'s operations write, in order. -/
abbrev W1 : List (Ref sig .tc) :=
  [main_cst_10, main_v48, main_cst_11, main_v49, main_v50, main_c_12, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v51, main_v52, main_v53, main_v54, main_cst_13, main_v55, main_v56, main_v57, main_v58, main_v59, main_v60, main_v61, main_v62, main_v63, main_v64, main_v65, main_v66, main_call2_cst, main_call2_v0, main_v67, main_v68, main_v69, main_v70, main_cst_14, main_v71, main_cst_15, main_v72, main_v73, main_v74, main_cst_16, main_v75, main_v76, main_cst_17, main_v77, main_v78, main_cst_18, main_call3_v0, main_call3_v1, main_v79, main_c_19, main_v80, main_v81, main_c_20, main_v82, main_v83, main_v84, main_v85, main_v86, main_c_21, main_v87, main_v88, main_c_22, main_v89, main_v90, main_v91, main_v92, main_v93, main_v94]

/-- Operations 148 … 214 (window `main_part2` of @main). -/
abbrev ops2 : List (HloOp τ sig (Elt F)) :=
  [ StableHlo.binary main_v67 main_arg6 main_v95 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_23 (constantI S_ 32 0#32),
    StableHlo.unary main_c_23 main_v96 (broadcastInDim S850000 ![] bcast_S_S850000 : (⟨S_, .i32⟩ : BufTy).Contents (Elt F) → (⟨S850000, .i32⟩ : BufTy).Contents (Elt F)),
    StableHlo.binary main_v69 main_v96 main_v97 (cmpi .slt : (⟨S850000, .i32⟩ : BufTy).Contents (Elt F) → (⟨S850000, .i32⟩ : BufTy).Contents (Elt F) → (⟨S850000, .i1⟩ : BufTy).Contents (Elt F)),
    StableHlo.nullary main_c_24 (constantI S_ 32 50000#32),
    StableHlo.unary main_c_24 main_v98 (broadcastInDim S850000 ![] bcast_S_S850000 : (⟨S_, .i32⟩ : BufTy).Contents (Elt F) → (⟨S850000, .i32⟩ : BufTy).Contents (Elt F)),
    StableHlo.binary main_v69 main_v98 main_v99 (addi : (⟨S850000, .i32⟩ : BufTy).Contents (Elt F) → (⟨S850000, .i32⟩ : BufTy).Contents (Elt F) → (⟨S850000, .i32⟩ : BufTy).Contents (Elt F)),
    StableHlo.ternary main_v97 main_v99 main_v69 main_v100 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v100 main_v101 (broadcastInDim S850000x1 ![0] bcast_S850000_S850000x1_0 : (⟨S850000, .i32⟩ : BufTy).Contents (Elt F) → (⟨S850000x1, .i32⟩ : BufTy).Contents (Elt F)),
    StableHlo.binary main_v95 main_v101 main_v102 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v94 main_v103 (broadcastInDim S850000x1 ![0] bcast_S850000_S850000x1_0 : (⟨S850000, .f32⟩ : BufTy).Contents (Elt F) → (⟨S850000x1, .f32⟩ : BufTy).Contents (Elt F)),
    StableHlo.unary main_v103 main_v104 (broadcastInDim S850000x128 ![0, 1] bcast_S850000x1_S850000x128_0_1 : (⟨S850000x1, .f32⟩ : BufTy).Contents (Elt F) → (⟨S850000x128, .f32⟩ : BufTy).Contents (Elt F)),
    StableHlo.binary main_v102 main_v104 main_v105 (mulf : (⟨S850000x128, .f32⟩ : BufTy).Contents (Elt F) → (⟨S850000x128, .f32⟩ : BufTy).Contents (Elt F) → (⟨S850000x128, .f32⟩ : BufTy).Contents (Elt F)),
    StableHlo.nullary main_cst_25 (constant S_ .f32 0x00000000#32),
    StableHlo.unary main_cst_25 main_v106 (broadcastInDim S50000x128 ![] bcast_S_S50000x128 : (⟨S_, .f32⟩ : BufTy).Contents (Elt F) → (⟨S50000x128, .f32⟩ : BufTy).Contents (Elt F)),
    StableHlo.unary main_v70 main_v107 (broadcastInDim S850000x1 ![0] bcast_S850000_S850000x1_0 : (⟨S850000, .i32⟩ : BufTy).Contents (Elt F) → (⟨S850000x1, .i32⟩ : BufTy).Contents (Elt F)),
    StableHlo.ternary main_v106 main_v107 main_v105 main_v108 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg7 main_v109 (broadcastInDim S1x128 ![1] bcast_S128_S1x128_1 : (⟨S128, .f32⟩ : BufTy).Contents (Elt F) → (⟨S1x128, .f32⟩ : BufTy).Contents (Elt F)),
    StableHlo.unary main_v109 main_v110 (broadcastInDim S50000x128 ![0, 1] bcast_S1x128_S50000x128_0_1 : (⟨S1x128, .f32⟩ : BufTy).Contents (Elt F) → (⟨S50000x128, .f32⟩ : BufTy).Contents (Elt F)),
    StableHlo.binary main_v108 main_v110 main_v111 (addf : (⟨S50000x128, .f32⟩ : BufTy).Contents (Elt F) → (⟨S50000x128, .f32⟩ : BufTy).Contents (Elt F) → (⟨S50000x128, .f32⟩ : BufTy).Contents (Elt F)),
    StableHlo.nullary main_cst_26 (constant S_ .f32 0x00000000#32),
    StableHlo.binary main_v111 main_cst_26 main_v112 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_27 (constant S_ .f32 0x47435000#32),
    StableHlo.unary main_cst_27 main_v113 (broadcastInDim S128 ![] bcast_S_S128 : (⟨S_, .f32⟩ : BufTy).Contents (Elt F) → (⟨S128, .f32⟩ : BufTy).Contents (Elt F)),
    StableHlo.binary main_v112 main_v113 main_v114 (Host.divf : (⟨S128, .f32⟩ : BufTy).Contents (Elt F) → (⟨S128, .f32⟩ : BufTy).Contents (Elt F) → (⟨S128, .f32⟩ : BufTy).Contents (Elt F)),
    StableHlo.nullary main_c_28 (constantI S_ 32 0#32),
    StableHlo.TRef.nullary (.of main_call4_cst : StableHlo.TRef sig ⟨S_, .f32⟩) (constant S_ .f32 0x00000000#32),
    StableHlo.TRef.binary (.of main_v111 : StableHlo.TRef sig ⟨S50000x128, .f32⟩) (.of main_call4_cst : StableHlo.TRef sig ⟨S_, .f32⟩) (.of main_call4_v0 : StableHlo.TRef sig ⟨S128, .f32⟩) (fun x v => Host.reduceAdd x v reducesTo_S50000x128_S128_d0 h_S_),
    StableHlo.TRef.unary (.of main_call4_v0 : StableHlo.TRef sig ⟨S128, .f32⟩) (.of main_call4_v1 : StableHlo.TRef sig ⟨S1x128, .f32⟩) (broadcastInDim S1x128 ![1] bcast_S128_S1x128_1),
    StableHlo.TRef.nullary (.of main_call4_cst_0 : StableHlo.TRef sig ⟨S_, .f32⟩) (constant S_ .f32 0x47435000#32),
    StableHlo.TRef.unary (.of main_call4_cst_0 : StableHlo.TRef sig ⟨S_, .f32⟩) (.of main_call4_v2 : StableHlo.TRef sig ⟨S1x128, .f32⟩) (broadcastInDim S1x128 ![] bcast_S_S1x128),
    StableHlo.TRef.binary (.of main_call4_v1 : StableHlo.TRef sig ⟨S1x128, .f32⟩) (.of main_call4_v2 : StableHlo.TRef sig ⟨S1x128, .f32⟩) (.of main_call4_v3 : StableHlo.TRef sig ⟨S1x128, .f32⟩) Host.divf,
    StableHlo.TRef.unary (.of main_call4_v3 : StableHlo.TRef sig ⟨S1x128, .f32⟩) (.of main_call4_v4 : StableHlo.TRef sig ⟨S50000x128, .f32⟩) (broadcastInDim S50000x128 ![0, 1] bcast_S1x128_S50000x128_0_1),
    StableHlo.TRef.binary (.of main_v111 : StableHlo.TRef sig ⟨S50000x128, .f32⟩) (.of main_call4_v4 : StableHlo.TRef sig ⟨S50000x128, .f32⟩) (.of main_call4_v5 : StableHlo.TRef sig ⟨S50000x128, .f32⟩) subf,
    StableHlo.TRef.binary (.of main_call4_v5 : StableHlo.TRef sig ⟨S50000x128, .f32⟩) (.of main_call4_v5 : StableHlo.TRef sig ⟨S50000x128, .f32⟩) (.of main_call4_v6 : StableHlo.TRef sig ⟨S50000x128, .f32⟩) mulf,
    StableHlo.TRef.unary (.of main_c_28 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x47435000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S50000x128, .f32⟩) (.of main_call4_cst_2 : StableHlo.TRef sig ⟨S_, .f32⟩) (.of main_call4_v9 : StableHlo.TRef sig ⟨S128, .f32⟩) (fun x v => Host.reduceAdd x v reducesTo_S50000x128_S128_d0 h_S_),
    StableHlo.TRef.unary (.of main_call4_v8 : StableHlo.TRef sig ⟨S_, .f32⟩) (.of main_call4_v10 : StableHlo.TRef sig ⟨S128, .f32⟩) (broadcastInDim S128 ![] bcast_S_S128),
    StableHlo.TRef.binary (.of main_call4_v9 : StableHlo.TRef sig ⟨S128, .f32⟩) (.of main_call4_v10 : StableHlo.TRef sig ⟨S128, .f32⟩) (.of main_call4_v11 : StableHlo.TRef sig ⟨S128, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S128, .f32⟩) (broadcastInDim S128 ![] bcast_S_S128),
    StableHlo.TRef.ternary (.of main_call4_v12 : StableHlo.TRef sig ⟨S_, .i1⟩) (.of main_call4_v11 : StableHlo.TRef sig ⟨S128, .f32⟩) (.of main_call4_call0_v1 : StableHlo.TRef sig ⟨S128, .f32⟩) (.of main_v115 : StableHlo.TRef sig ⟨S128, .f32⟩) (fun p a b => select (broadcastInDim S128 ![] bcast_S_S128 p) a b),
    StableHlo.unary main_v114 main_v116 (broadcastInDim S1x128 ![1] bcast_S128_S1x128_1 : (⟨S128, .f32⟩ : BufTy).Contents (Elt F) → (⟨S1x128, .f32⟩ : BufTy).Contents (Elt F)),
    StableHlo.unary main_v116 main_v117 (broadcastInDim S50000x128 ![0, 1] bcast_S1x128_S50000x128_0_1 : (⟨S1x128, .f32⟩ : BufTy).Contents (Elt F) → (⟨S50000x128, .f32⟩ : BufTy).Contents (Elt F)),
    StableHlo.binary main_v111 main_v117 main_v118 (subf : (⟨S50000x128, .f32⟩ : BufTy).Contents (Elt F) → (⟨S50000x128, .f32⟩ : BufTy).Contents (Elt F) → (⟨S50000x128, .f32⟩ : BufTy).Contents (Elt F)),
    StableHlo.nullary main_cst_29 (constant S_ .f32 0x3727C5AC#32),
    StableHlo.unary main_cst_29 main_v119 (broadcastInDim S128 ![] bcast_S_S128 : (⟨S_, .f32⟩ : BufTy).Contents (Elt F) → (⟨S128, .f32⟩ : BufTy).Contents (Elt F)),
    StableHlo.binary main_v115 main_v119 main_v120 (addf : (⟨S128, .f32⟩ : BufTy).Contents (Elt F) → (⟨S128, .f32⟩ : BufTy).Contents (Elt F) → (⟨S128, .f32⟩ : BufTy).Contents (Elt F)),
    StableHlo.unary main_v120 main_v121 (Host.rsqrt : (⟨S128, .f32⟩ : BufTy).Contents (Elt F) → (⟨S128, .f32⟩ : BufTy).Contents (Elt F)),
    StableHlo.unary main_v121 main_v122 (broadcastInDim S1x128 ![1] bcast_S128_S1x128_1 : (⟨S128, .f32⟩ : BufTy).Contents (Elt F) → (⟨S1x128, .f32⟩ : BufTy).Contents (Elt F)),
    StableHlo.unary main_v122 main_v123 (broadcastInDim S50000x128 ![0, 1] bcast_S1x128_S50000x128_0_1 : (⟨S1x128, .f32⟩ : BufTy).Contents (Elt F) → (⟨S50000x128, .f32⟩ : BufTy).Contents (Elt F)),
    StableHlo.binary main_v118 main_v123 main_v124 (mulf : (⟨S50000x128, .f32⟩ : BufTy).Contents (Elt F) → (⟨S50000x128, .f32⟩ : BufTy).Contents (Elt F) → (⟨S50000x128, .f32⟩ : BufTy).Contents (Elt F)),
    StableHlo.unary main_arg8 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S50000x128 ![0, 1] bcast_S1x128_S50000x128_0_1 : (⟨S1x128, .f32⟩ : BufTy).Contents (Elt F) → (⟨S50000x128, .f32⟩ : BufTy).Contents (Elt F)),
    StableHlo.binary main_v124 main_v126 main_v127 (mulf : (⟨S50000x128, .f32⟩ : BufTy).Contents (Elt F) → (⟨S50000x128, .f32⟩ : BufTy).Contents (Elt F) → (⟨S50000x128, .f32⟩ : BufTy).Contents (Elt F)),
    StableHlo.unary main_arg9 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S50000x128 ![0, 1] bcast_S1x128_S50000x128_0_1 : (⟨S1x128, .f32⟩ : BufTy).Contents (Elt F) → (⟨S50000x128, .f32⟩ : BufTy).Contents (Elt F)),
    StableHlo.binary main_v127 main_v129 main_v130 (addf : (⟨S50000x128, .f32⟩ : BufTy).Contents (Elt F) → (⟨S50000x128, .f32⟩ : BufTy).Contents (Elt F) → (⟨S50000x128, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x128, .f32⟩) (broadcastInDim S50000x128 ![] bcast_S_S50000x128),
    StableHlo.TRef.binary (.of main_v130 : StableHlo.TRef sig ⟨S50000x128, .f32⟩) (.of main_call5_v0 : StableHlo.TRef sig ⟨S50000x128, .f32⟩) (.of main_v131 : StableHlo.TRef sig ⟨S50000x128, .f32⟩) maximumf ]

/-- The buffers `ops2`'s operations write, in order. -/
abbrev W2 : List (Ref sig .tc) :=
  [main_v95, main_c_23, main_v96, main_v97, main_c_24, main_v98, main_v99, main_v100, main_v101, main_v102, main_v103, main_v104, main_v105, main_cst_25, main_v106, main_v107, main_v108, main_v109, main_v110, main_v111, main_cst_26, main_v112, main_cst_27, main_v113, main_v114, main_c_28, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v115, main_v116, main_v117, main_v118, main_cst_29, main_v119, main_v120, main_v121, main_v122, main_v123, main_v124, main_v125, main_v126, main_v127, main_v128, main_v129, main_v130, main_call5_cst, main_call5_v0, main_v131]

/-- @main's 214 operations, in order, calls inlined. -/
abbrev ops : List (HloOp τ sig (Elt F)) :=
  ops0 ++ (ops1 ++ (ops2))

end Cert.ReferenceIdeal.Hand

end
-- ==== Proof.Ref.MainEq.lean ====
/- The reference program's @main is the straight line of its operations: each window of @main is the sequence of
   its own list (the calls of outlined functions unfold to the callees' statements over the call's buffers, and
   sequencing re-associates), and @main, which runs the windows in order, is the sequence of the concatenation. -/
import proofs.«168650_j27212912787479_2_alg».proof.Proof.Ref.Ops

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

set_option maxRecDepth 8192 in
set_option maxHeartbeats 4000000 in
theorem main_part2_eq (c : Dev nD) : main_part2 (F := F) c = seq ops2 := rfl

set_option maxRecDepth 8192 in
/-- @main is the sequence of all its operations: the windows in order, joined by `seq_append`. -/
theorem main_eq (c : Dev nD) : main (F := F) c = seq ops := by
  simp only [ops, seq_append, ← main_part0_eq c, ← main_part1_eq c, ← main_part2_eq c]
  rfl

/-- The signature scopes no TensorCore buffer and no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

end Cert.ReferenceIdeal.Hand

end
-- ==== Proof.Ref.Basic.lean ====
/- Two facts about a straight line of host operations, stated for any signature: the buffer contents after two
   lines run one after the other are the second line's fold over the first's; and an operation whose one written
   buffer is a member of a list of references writes inside that list's image among the device buffers. -/
import Idealize.ShloMosaic.Lib.StableHlo.Run

namespace Cert.ReferenceIdeal.Hand

open Idealize.ShloMosaic Idealize.ShloMosaic.StableHlo

variable {τ : Topo} {sig : RefSig} {Val : EltTy → Type}

/-- The fold over a concatenation is the fold over the second list from the fold over the first. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- An operation that writes exactly the buffer of a reference in `W` writes inside `W`'s device buffers. -/
theorem writes_sub {W : List (Ref sig .tc)} {op : HloOp τ sig Val} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map_of_mem hy

end Cert.ReferenceIdeal.Hand
-- ==== Proof.Ref.OpsFacts.lean ====
/- Per window of the operation list, two tables with one entry per operation, in order: every buffer the operation
   touches is a TensorCore reference; the one buffer it writes is the entry at its place in the window's list of
   written buffers; it leaves no buffer at contents it does not determine. -/
import proofs.«168650_j27212912787479_2_alg».proof.Proof.Ref.Ops
import proofs.«168650_j27212912787479_2_alg».proof.Proof.Ref.Basic

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem ops0_sub : (ops0 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.nullary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub ..⟩

set_option maxRecDepth 8192 in
theorem ops0_writes : (ops0 : List (HloOp τ sig (Elt F))).Forall fun op => op.writes ⊆ (W0.map (Proc.devRef (τ := τ) .tc)).toFinset :=
  ⟨writes_sub main_v0 rfl (by decide),
   writes_sub main_v1 rfl (by decide),
   writes_sub main_v2 rfl (by decide),
   writes_sub main_v3 rfl (by decide),
   writes_sub main_v4 rfl (by decide),
   writes_sub main_v5 rfl (by decide),
   writes_sub main_v6 rfl (by decide),
   writes_sub main_cst rfl (by decide),
   writes_sub main_v7 rfl (by decide),
   writes_sub main_cst_0 rfl (by decide),
   writes_sub main_v8 rfl (by decide),
   writes_sub main_v9 rfl (by decide),
   writes_sub main_v10 rfl (by decide),
   writes_sub main_cst_1 rfl (by decide),
   writes_sub main_v11 rfl (by decide),
   writes_sub main_v12 rfl (by decide),
   writes_sub main_cst_2 rfl (by decide),
   writes_sub main_v13 rfl (by decide),
   writes_sub main_v14 rfl (by decide),
   writes_sub main_cst_3 rfl (by decide),
   writes_sub main_call0_v0 rfl (by decide),
   writes_sub main_call0_v1 rfl (by decide),
   writes_sub main_v15 rfl (by decide),
   writes_sub main_c rfl (by decide),
   writes_sub main_v16 rfl (by decide),
   writes_sub main_v17 rfl (by decide),
   writes_sub main_c_4 rfl (by decide),
   writes_sub main_v18 rfl (by decide),
   writes_sub main_v19 rfl (by decide),
   writes_sub main_v20 rfl (by decide),
   writes_sub main_v21 rfl (by decide),
   writes_sub main_v22 rfl (by decide),
   writes_sub main_c_5 rfl (by decide),
   writes_sub main_v23 rfl (by decide),
   writes_sub main_v24 rfl (by decide),
   writes_sub main_c_6 rfl (by decide),
   writes_sub main_v25 rfl (by decide),
   writes_sub main_v26 rfl (by decide),
   writes_sub main_v27 rfl (by decide),
   writes_sub main_v28 rfl (by decide),
   writes_sub main_v29 rfl (by decide),
   writes_sub main_v30 rfl (by decide),
   writes_sub main_v31 rfl (by decide),
   writes_sub main_c_7 rfl (by decide),
   writes_sub main_v32 rfl (by decide),
   writes_sub main_v33 rfl (by decide),
   writes_sub main_c_8 rfl (by decide),
   writes_sub main_v34 rfl (by decide),
   writes_sub main_v35 rfl (by decide),
   writes_sub main_v36 rfl (by decide),
   writes_sub main_v37 rfl (by decide),
   writes_sub main_v38 rfl (by decide),
   writes_sub main_v39 rfl (by decide),
   writes_sub main_v40 rfl (by decide),
   writes_sub main_v41 rfl (by decide),
   writes_sub main_cst_9 rfl (by decide),
   writes_sub main_v42 rfl (by decide),
   writes_sub main_v43 rfl (by decide),
   writes_sub main_v44 rfl (by decide),
   writes_sub main_v45 rfl (by decide),
   writes_sub main_v46 rfl (by decide),
   writes_sub main_v47 rfl (by decide)⟩

set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops1_sub : (ops1 : List (HloOp τ sig (Elt F))).Forall fun op => op.bufs ⊆ tcRefs τ sig :=
  ⟨StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩

set_option maxRecDepth 8192 in
theorem ops1_writes : (ops1 : List (HloOp τ sig (Elt F))).Forall fun op => op.writes ⊆ (W1.map (Proc.devRef (τ := τ) .tc)).toFinset :=
  ⟨writes_sub main_cst_10 rfl (by decide),
   writes_sub main_v48 rfl (by decide),
   writes_sub main_cst_11 rfl (by decide),
   writes_sub main_v49 rfl (by decide),
   writes_sub main_v50 rfl (by decide),
   writes_sub main_c_12 rfl (by decide),
   writes_sub main_call1_cst rfl (by decide),
   writes_sub main_call1_v0 rfl (by decide),
   writes_sub main_call1_v1 rfl (by decide),
   writes_sub main_call1_cst_0 rfl (by decide),
   writes_sub main_call1_v2 rfl (by decide),
   writes_sub main_call1_v3 rfl (by decide),
   writes_sub main_call1_v4 rfl (by decide),
   writes_sub main_call1_v5 rfl (by decide),
   writes_sub main_call1_v6 rfl (by decide),
   writes_sub main_call1_v7 rfl (by decide),
   writes_sub main_call1_cst_1 rfl (by decide),
   writes_sub main_call1_v8 rfl (by decide),
   writes_sub main_call1_cst_2 rfl (by decide),
   writes_sub main_call1_v9 rfl (by decide),
   writes_sub main_call1_v10 rfl (by decide),
   writes_sub main_call1_v11 rfl (by decide),
   writes_sub main_call1_cst_3 rfl (by decide),
   writes_sub main_call1_v12 rfl (by decide),
   writes_sub main_call1_cst_4 rfl (by decide),
   writes_sub main_call1_call0_v0 rfl (by decide),
   writes_sub main_call1_call0_v1 rfl (by decide),
   writes_sub main_v51 rfl (by decide),
   writes_sub main_v52 rfl (by decide),
   writes_sub main_v53 rfl (by decide),
   writes_sub main_v54 rfl (by decide),
   writes_sub main_cst_13 rfl (by decide),
   writes_sub main_v55 rfl (by decide),
   writes_sub main_v56 rfl (by decide),
   writes_sub main_v57 rfl (by decide),
   writes_sub main_v58 rfl (by decide),
   writes_sub main_v59 rfl (by decide),
   writes_sub main_v60 rfl (by decide),
   writes_sub main_v61 rfl (by decide),
   writes_sub main_v62 rfl (by decide),
   writes_sub main_v63 rfl (by decide),
   writes_sub main_v64 rfl (by decide),
   writes_sub main_v65 rfl (by decide),
   writes_sub main_v66 rfl (by decide),
   writes_sub main_call2_cst rfl (by decide),
   writes_sub main_call2_v0 rfl (by decide),
   writes_sub main_v67 rfl (by decide),
   writes_sub main_v68 rfl (by decide),
   writes_sub main_v69 rfl (by decide),
   writes_sub main_v70 rfl (by decide),
   writes_sub main_cst_14 rfl (by decide),
   writes_sub main_v71 rfl (by decide),
   writes_sub main_cst_15 rfl (by decide),
   writes_sub main_v72 rfl (by decide),
   writes_sub main_v73 rfl (by decide),
   writes_sub main_v74 rfl (by decide),
   writes_sub main_cst_16 rfl (by decide),
   writes_sub main_v75 rfl (by decide),
   writes_sub main_v76 rfl (by decide),
   writes_sub main_cst_17 rfl (by decide),
   writes_sub main_v77 rfl (by decide),
   writes_sub main_v78 rfl (by decide),
   writes_sub main_cst_18 rfl (by decide),
   writes_sub main_call3_v0 rfl (by decide),
   writes_sub main_call3_v1 rfl (by decide),
   writes_sub main_v79 rfl (by decide),
   writes_sub main_c_19 rfl (by decide),
   writes_sub main_v80 rfl (by decide),
   writes_sub main_v81 rfl (by decide),
   writes_sub main_c_20 rfl (by decide),
   writes_sub main_v82 rfl (by decide),
   writes_sub main_v83 rfl (by decide),
   writes_sub main_v84 rfl (by decide),
   writes_sub main_v85 rfl (by decide),
   writes_sub main_v86 rfl (by decide),
   writes_sub main_c_21 rfl (by decide),
   writes_sub main_v87 rfl (by decide),
   writes_sub main_v88 rfl (by decide),
   writes_sub main_c_22 rfl (by decide),
   writes_sub main_v89 rfl (by decide),
   writes_sub main_v90 rfl (by decide),
   writes_sub main_v91 rfl (by decide),
   writes_sub main_v92 rfl (by decide),
   writes_sub main_v93 rfl (by decide),
   writes_sub main_v94 rfl (by decide)⟩

set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_sub : (ops2 : List (HloOp τ sig (Elt F))).Forall fun op => op.bufs ⊆ tcRefs τ sig :=
  ⟨StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.binary_bufs_sub .., StableHlo.nullary_bufs_sub .., StableHlo.unary_bufs_sub .., StableHlo.binary_bufs_sub .., StableHlo.nullary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub ..⟩

set_option maxRecDepth 8192 in
theorem ops2_writes : (ops2 : List (HloOp τ sig (Elt F))).Forall fun op => op.writes ⊆ (W2.map (Proc.devRef (τ := τ) .tc)).toFinset :=
  ⟨writes_sub main_v95 rfl (by decide),
   writes_sub main_c_23 rfl (by decide),
   writes_sub main_v96 rfl (by decide),
   writes_sub main_v97 rfl (by decide),
   writes_sub main_c_24 rfl (by decide),
   writes_sub main_v98 rfl (by decide),
   writes_sub main_v99 rfl (by decide),
   writes_sub main_v100 rfl (by decide),
   writes_sub main_v101 rfl (by decide),
   writes_sub main_v102 rfl (by decide),
   writes_sub main_v103 rfl (by decide),
   writes_sub main_v104 rfl (by decide),
   writes_sub main_v105 rfl (by decide),
   writes_sub main_cst_25 rfl (by decide),
   writes_sub main_v106 rfl (by decide),
   writes_sub main_v107 rfl (by decide),
   writes_sub main_v108 rfl (by decide),
   writes_sub main_v109 rfl (by decide),
   writes_sub main_v110 rfl (by decide),
   writes_sub main_v111 rfl (by decide),
   writes_sub main_cst_26 rfl (by decide),
   writes_sub main_v112 rfl (by decide),
   writes_sub main_cst_27 rfl (by decide),
   writes_sub main_v113 rfl (by decide),
   writes_sub main_v114 rfl (by decide),
   writes_sub main_c_28 rfl (by decide),
   writes_sub main_call4_cst rfl (by decide),
   writes_sub main_call4_v0 rfl (by decide),
   writes_sub main_call4_v1 rfl (by decide),
   writes_sub main_call4_cst_0 rfl (by decide),
   writes_sub main_call4_v2 rfl (by decide),
   writes_sub main_call4_v3 rfl (by decide),
   writes_sub main_call4_v4 rfl (by decide),
   writes_sub main_call4_v5 rfl (by decide),
   writes_sub main_call4_v6 rfl (by decide),
   writes_sub main_call4_v7 rfl (by decide),
   writes_sub main_call4_cst_1 rfl (by decide),
   writes_sub main_call4_v8 rfl (by decide),
   writes_sub main_call4_cst_2 rfl (by decide),
   writes_sub main_call4_v9 rfl (by decide),
   writes_sub main_call4_v10 rfl (by decide),
   writes_sub main_call4_v11 rfl (by decide),
   writes_sub main_call4_cst_3 rfl (by decide),
   writes_sub main_call4_v12 rfl (by decide),
   writes_sub main_call4_cst_4 rfl (by decide),
   writes_sub main_call4_call0_v0 rfl (by decide),
   writes_sub main_call4_call0_v1 rfl (by decide),
   writes_sub main_v115 rfl (by decide),
   writes_sub main_v116 rfl (by decide),
   writes_sub main_v117 rfl (by decide),
   writes_sub main_v118 rfl (by decide),
   writes_sub main_cst_29 rfl (by decide),
   writes_sub main_v119 rfl (by decide),
   writes_sub main_v120 rfl (by decide),
   writes_sub main_v121 rfl (by decide),
   writes_sub main_v122 rfl (by decide),
   writes_sub main_v123 rfl (by decide),
   writes_sub main_v124 rfl (by decide),
   writes_sub main_v125 rfl (by decide),
   writes_sub main_v126 rfl (by decide),
   writes_sub main_v127 rfl (by decide),
   writes_sub main_v128 rfl (by decide),
   writes_sub main_v129 rfl (by decide),
   writes_sub main_v130 rfl (by decide),
   writes_sub main_call5_cst rfl (by decide),
   writes_sub main_call5_v0 rfl (by decide),
   writes_sub main_v131 rfl (by decide)⟩

set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

end Cert.ReferenceIdeal.Hand

end
-- ==== Proof.Ref.Run.lean ====
/- The reference program's run: on every device, for any float values, from any memory with zero counters, every
   weakly fair execution of @main terminates; the result buffer then holds the fold of the operation list over the
   launch contents, read at that buffer, and the ten argument buffers hold what they held at launch (no operation
   writes an argument: each is outside the three windows' lists of written buffers). -/
import proofs.«168650_j27212912787479_2_alg».proof.Proof.Ref.MainEq
import proofs.«168650_j27212912787479_2_alg».proof.Proof.Ref.OpsFacts

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Every operation of the whole list touches TensorCore references only: window by window. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

/-- Every operation of the whole list determines what it writes. -/
theorem ops_fresh (op : HloOp τ sig (Elt F)) (h : op ∈ (ops : List (HloOp τ sig (Elt F)))) : op.fresh = ∅ := by
  simp only [ops, List.mem_append] at h
  rcases h with h | h | h
  exacts [List.forall_iff_forall_mem.mp ops0_fresh op h, List.forall_iff_forall_mem.mp ops1_fresh op h,
    List.forall_iff_forall_mem.mp ops2_fresh op h]

/-- A reference outside the three windows' written buffers keeps its contents through the whole list. -/
theorem after_keep (V : Valuation τ sig (Elt F)) (r : Ref sig .tc) (h0 : r ∉ W0) (h1 : r ∉ W1) (h2 : r ∉ W2) :
    after (ops : List (HloOp τ sig (Elt F))) V (Proc.devRef .tc r) = V (Proc.devRef .tc r) := by
  show after (ops0 ++ (ops1 ++ ops2)) V _ = _
  rw [after_app, after_app, after_of_writes_sub ops2 _ ops2_writes h2, after_of_writes_sub ops1 _ ops1_writes h1,
    after_of_writes_sub ops0 _ ops0_writes h0]

/-- On every device, for any float values, from any memory with zero counters: every weakly fair execution of @main
    terminates with the result at the fold of the operations over the launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v131) = StableHlo.after ops (fun b => m (c, b)) (Proc.devRef .tc main_v131)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨h c main_v131,
      (h c main_arg0).trans (after_keep _ main_arg0 (by decide) (by decide) (by decide)),
      (h c main_arg1).trans (after_keep _ main_arg1 (by decide) (by decide) (by decide)),
      (h c main_arg2).trans (after_keep _ main_arg2 (by decide) (by decide) (by decide)),
      (h c main_arg3).trans (after_keep _ main_arg3 (by decide) (by decide) (by decide)),
      (h c main_arg4).trans (after_keep _ main_arg4 (by decide) (by decide) (by decide)),
      (h c main_arg5).trans (after_keep _ main_arg5 (by decide) (by decide) (by decide)),
      (h c main_arg6).trans (after_keep _ main_arg6 (by decide) (by decide) (by decide)),
      (h c main_arg7).trans (after_keep _ main_arg7 (by decide) (by decide) (by decide)),
      (h c main_arg8).trans (after_keep _ main_arg8 (by decide) (by decide) (by decide)),
      (h c main_arg9).trans (after_keep _ main_arg9 (by decide) (by decide) (by decide))⟩)
    (run_seq scopedRefs_eq scopedSems_eq defs main (fun _ => ops) main_eq (fun _ => ops_sub) m ρ (fun _ => ops_fresh))

end Cert.ReferenceIdeal.Hand

end
-- ==== Proof.Algebra.lean ====
/-
  The mathematics of the equivalence, over the reals.

  A graph-convolution layer sends node features `A` to `D^{-1/2} (Adj + I) D^{-1/2} (A · W) + b`.  Written edge by edge
  that is, at node `n` and column `j`, the sum over the edges `e` that land on `n` of
  `(A · W)[src e, j] · (dinv[src e] · dinv[dst e])`, plus `b[j]`.  Since every edge landing on `n` has `dst e = n`, the
  factor `dinv[dst e]` is the constant `dinv[n]` and comes out of the sum: scale the rows of `A · W` by `dinv` before
  the sum and the sum by `dinv[n]` after it (`layerK_eq_layerR`).  Batch normalisation needs the variance of a column
  over the `N` nodes: the mean of the squares minus the square of the mean is the mean of the squared deviations, and
  that is nonnegative, so clamping it at zero changes nothing (`varK_eq_varR`).  Everything else is the same formula
  on both sides.
-/
import Mathlib.Algebra.BigOperators.Field
import Mathlib.Algebra.Order.BigOperators.Ring.Finset
import Mathlib.Analysis.SpecialFunctions.Pow.Real
import Mathlib.Tactic

noncomputable section

namespace Cert.Gcn

open Finset

variable {N M C : ℕ}

/-- The projection `A · W`. -/
def proj (A : Fin N → Fin C → ℝ) (W : Fin C → Fin C → ℝ) (n : Fin N) (j : Fin C) : ℝ := ∑ k, A n k * W k j

/-- A layer with the symmetric normalisation split in two: rows scaled by `dinv` before the sum over the edges landing
    on a node, the sum scaled by the node's `dinv` after it. -/
def layerK (land : Fin N → Finset (Fin M)) (src : Fin M → Fin N) (dinv : Fin N → ℝ)
    (A : Fin N → Fin C → ℝ) (W : Fin C → Fin C → ℝ) (b : Fin C → ℝ) (n : Fin N) (j : Fin C) : ℝ :=
  (∑ e ∈ land n, proj A W (src e) j * dinv (src e)) * dinv n + b j

/-- A layer with each edge's message scaled by the product of the two ends' `dinv`. -/
def layerR (land : Fin N → Finset (Fin M)) (src dst : Fin M → Fin N) (dinv : Fin N → ℝ)
    (A : Fin N → Fin C → ℝ) (W : Fin C → Fin C → ℝ) (b : Fin C → ℝ) (n : Fin N) (j : Fin C) : ℝ :=
  (∑ e ∈ land n, proj A W (src e) j * (dinv (src e) * dinv (dst e))) + b j

/-- The two layers agree when every edge landing on a node has that node as its target. -/
theorem layerK_eq_layerR (land : Fin N → Finset (Fin M)) (src dst : Fin M → Fin N) (dinv : Fin N → ℝ)
    (hdst : ∀ n, ∀ e ∈ land n, dst e = n)
    (A : Fin N → Fin C → ℝ) (W : Fin C → Fin C → ℝ) (b : Fin C → ℝ) :
    layerK land src dinv A W b = layerR land src dst dinv A W b := by
  funext n j
  unfold layerK layerR
  rw [Finset.sum_mul]
  congr 1
  refine Finset.sum_congr rfl fun e he => ?_
  rw [hdst n e he]; ring

/-- The column mean over the `N` nodes, the divisor a real `c` (the programs' literal, which is `N`). -/
def mean (c : ℝ) (h : Fin N → Fin C → ℝ) (j : Fin C) : ℝ := (∑ n, h n j) / c

/-- The variance as the mean of the squares less the square of the mean, clamped at zero. -/
def varK (c : ℝ) (h : Fin N → Fin C → ℝ) (j : Fin C) : ℝ :=
  max ((∑ n, h n j * h n j) / c - mean c h j * mean c h j) 0

/-- The variance as the mean of the squared deviations from the mean. -/
def varR (c : ℝ) (h : Fin N → Fin C → ℝ) (j : Fin C) : ℝ :=
  (∑ n, (h n j - mean c h j) * (h n j - mean c h j)) / c

/-- The two variances agree when the divisor is the number of nodes. -/
theorem varK_eq_varR (c : ℝ) (hc : c = N) (hN : 0 < N) (h : Fin N → Fin C → ℝ) : varK c h = varR c h := by
  funext j
  have hc0 : (0 : ℝ) < c := by rw [hc]; exact_mod_cast hN
  have hne : c ≠ 0 := ne_of_gt hc0
  have key : (∑ n, h n j * h n j) / c - mean c h j * mean c h j = varR c h j := by
    unfold varR
    have hexp : ∀ n : Fin N, (h n j - mean c h j) * (h n j - mean c h j)
        = h n j * h n j - 2 * mean c h j * h n j + mean c h j * mean c h j := fun n => by ring
    simp only [hexp]
    rw [Finset.sum_add_distrib, Finset.sum_sub_distrib, ← Finset.mul_sum, Finset.sum_const, Finset.card_univ, Fintype.card_fin,
      nsmul_eq_mul, ← hc]
    have hm : ∑ n, h n j = mean c h j * c := by unfold mean; field_simp
    rw [hm]; field_simp; ring
  unfold varK
  rw [key]
  refine max_eq_left ?_
  unfold varR
  exact div_nonneg (Finset.sum_nonneg fun n _ => mul_self_nonneg _) hc0.le

/-- Batch normalisation followed by the rectifier, one element. -/
def bn (eps : ℝ) (h : Fin N → Fin C → ℝ) (mu var g be : Fin C → ℝ) (n : Fin N) (j : Fin C) : ℝ :=
  max ((h n j - mu j) * (Real.sqrt (var j + eps))⁻¹ * g j + be j) 0

/-- The whole network, normalisation split and variance by moments. -/
def outK (land : Fin N → Finset (Fin M)) (src : Fin M → Fin N) (dinv : Fin N → ℝ) (c eps : ℝ)
    (x : Fin N → Fin C → ℝ) (W1 : Fin C → Fin C → ℝ) (b1 g1 be1 : Fin C → ℝ) (W2 : Fin C → Fin C → ℝ) (b2 g2 be2 : Fin C → ℝ) :
    Fin N → Fin C → ℝ :=
  let h1 := layerK land src dinv x W1 b1
  let a1 := bn eps h1 (mean c h1) (varK c h1) g1 be1
  let h2 := layerK land src dinv a1 W2 b2
  bn eps h2 (mean c h2) (varK c h2) g2 be2

/-- The whole network, per-edge normalisation and variance by deviations. -/
def outR (land : Fin N → Finset (Fin M)) (src dst : Fin M → Fin N) (dinv : Fin N → ℝ) (c eps : ℝ)
    (x : Fin N → Fin C → ℝ) (W1 : Fin C → Fin C → ℝ) (b1 g1 be1 : Fin C → ℝ) (W2 : Fin C → Fin C → ℝ) (b2 g2 be2 : Fin C → ℝ) :
    Fin N → Fin C → ℝ :=
  let h1 := layerR land src dst dinv x W1 b1
  let a1 := bn eps h1 (mean c h1) (varR c h1) g1 be1
  let h2 := layerR land src dst dinv a1 W2 b2
  bn eps h2 (mean c h2) (varR c h2) g2 be2

/-- The two networks are one function. -/
theorem outK_eq_outR (land : Fin N → Finset (Fin M)) (src dst : Fin M → Fin N) (dinv : Fin N → ℝ) (c eps : ℝ)
    (hc : c = N) (hN : 0 < N) (hdst : ∀ n, ∀ e ∈ land n, dst e = n)
    (x : Fin N → Fin C → ℝ) (W1 : Fin C → Fin C → ℝ) (b1 g1 be1 : Fin C → ℝ) (W2 : Fin C → Fin C → ℝ) (b2 g2 be2 : Fin C → ℝ) :
    outK land src dinv c eps x W1 b1 g1 be1 W2 b2 g2 be2 = outR land src dst dinv c eps x W1 b1 g1 be1 W2 b2 g2 be2 := by
  unfold outK outR
  simp only [layerK_eq_layerR land src dst dinv hdst, varK_eq_varR c hc hN]

end Cert.Gcn

end
-- ==== Proof.Model.lean ====
/-
  What the two programs share, named once: how an edge list entry names a node, which edges a scatter-add lands on a
  node, the values of the float literals, and how the exact operations act on finite extended reals.

  An index `z` read off the edge list is first normalised as numpy does (a negative index counts from the end of the
  50000 nodes) and then, by the host gather, clamped into range: `nodeOf z`.  A scatter-add drops an update whose raw
  index is out of range and lands the others on the row the index reads: `land d n` is the set of edges whose target
  index reads `n`.  For such an edge the raw index is already in range, so normalising and clamping leave it alone:
  `nodeOf (d e) = n` — the one fact about indices the equivalence rests on.
-/
import proofs.«168650_j27212912787479_2_alg».proof.Proof.Algebra
import Idealize.ShloMosaic.PureOps.Ideal
import Idealize.ShloMosaic.Lib.ValueIdx

noncomputable section

namespace Cert.Gcn

open Idealize.ShloMosaic

/-- numpy's normalisation of one index into an axis of 50000: a negative index counts from the end. -/
def normIdx (z : BitVec 32) : BitVec 32 := Scalar.select (IntOp.cmpi .slt z 0#32) (IntOp.addi z 50000#32) z

/-- The node an index names once normalised and then clamped into `[0, 49999]`, as the host gather reads it. -/
def nodeOf (z : BitVec 32) : Fin 50000 := ⟨min (normIdx z).toInt.toNat (50000 - 1), by omega⟩

/-- The edges whose target index reads exactly `n`: the updates a scatter-add lands on row `n`. -/
def land (d : Fin 850000 → BitVec 32) (n : Fin 50000) : Finset (Fin 850000) :=
  Finset.univ.filter fun e => (d e).toInt = (n.val : Int)

/-- An edge that lands on node `n` names `n` after normalisation and clamping too. -/
theorem nodeOf_of_land (d : Fin 850000 → BitVec 32) (n : Fin 50000) (e : Fin 850000) (he : e ∈ land d n) :
    nodeOf (d e) = n := by
  have h : (d e).toInt = (n.val : Int) := (Finset.mem_filter.mp he).2
  have hn : n.val < 50000 := n.isLt
  have hslt : IntOp.cmpi .slt (d e) 0#32 = 0#1 := by
    unfold IntOp.cmpi
    have : (d e).slt 0#32 = false := by
      rw [BitVec.slt, decide_eq_false_iff_not, h]
      simp
    simp [this]
  have hnorm : normIdx (d e) = d e := by
    unfold normIdx; rw [hslt, ValueIdx.select_zero]
  refine Fin.ext ?_
  show min (normIdx (d e)).toInt.toNat (50000 - 1) = n.val
  rw [hnorm, h]
  simp only [Int.toNat_natCast]
  omega

/-! ## The float literals -/

theorem ofBits_zero : Ideal.ofBits .f32 0x00000000#32 = 0 := by
  simp [Ideal.ofBits, Ideal.ieee]

/-- `5.0e4` denotes the real 50000: the number of nodes. -/
theorem ofBits_5e4 : Ideal.ofBits .f32 0x47435000#32 = ((50000 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The normalisation's epsilon is a positive real (its exact value is never needed: both programs spell the same word). -/
theorem ofBits_eps : ∃ r : ℝ, 0 < r ∧ Ideal.ofBits .f32 0x3727C5AC#32 = (r : EReal) := by
  refine ⟨((2 ^ 23 + 2606508 : ℕ) : ℝ) * (2 : ℝ) ^ ((110 : Int) - (2 ^ (8 - 1) - 1) - 23), by positivity, ?_⟩
  simp [Ideal.ofBits, Ideal.ieee, -EReal.coe_mul]

/-! ## The exact operations on finite values -/

/-- A finite sum of finite values is the finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient by a nonzero real. -/
theorem div_coe_coe (a y : ℝ) (hy : y ≠ 0) : Ideal.div (a : EReal) (y : EReal) = ((a / y : ℝ) : EReal) := by
  rw [Ideal.div_coe hy, ← EReal.coe_mul]; congr 1; field_simp

/-- The reciprocal square root of a positive real. -/
theorem rsqrt_coe_pos (r : ℝ) (hr : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr hr.le), if_neg hr.ne']

/-- A real power of a real base. -/
theorem pow_coe_coe (x y : ℝ) : Ideal.pow (x : EReal) (y : EReal) = ((Real.rpow x y : ℝ) : EReal) := rfl

/-! ## The shared inputs of the real model -/

/-- The edge list with the self-loops appended, one row of `edge_index` followed by `0, 1, …, 49999`. -/
def edgeOf (row : Fin 2) (ei : (⟨2, ![2, 800000]⟩ : Shape).Idx → BitVec 32) (e : Fin 850000) : BitVec 32 :=
  if h : e.val < 800000 then ei (ValueIdx.ix2 row ⟨e.val, h⟩) else BitVec.ofNat 32 (e.val - 800000)

/-- The sources `s`. -/
abbrev sOf := edgeOf 0
/-- The targets `d`. -/
abbrev dOf := edgeOf 1

/-- `deg^{-1/2}` of a node, `deg` the number of edges landing on it (zero where there is none). -/
def dinvR (d : Fin 850000 → BitVec 32) (n : Fin 50000) : ℝ :=
  if (0 : ℝ) < ((land d n).card : ℝ) then Real.rpow ((land d n).card : ℝ) (-(1 / 2)) else 0

/-- The normalisation's epsilon as a real. -/
def epsR : ℝ := Classical.choose ofBits_eps
theorem epsR_pos : 0 < epsR := (Classical.choose_spec ofBits_eps).1
theorem ofBits_eps_eq : Ideal.ofBits .f32 0x3727C5AC#32 = (epsR : EReal) := (Classical.choose_spec ofBits_eps).2

/-- The network as the kernel program computes it, from real inputs and the raw edge index array. -/
def netK (ei : (⟨2, ![2, 800000]⟩ : Shape).Idx → BitVec 32)
    (x : Fin 50000 → Fin 128 → ℝ) (W1 : Fin 128 → Fin 128 → ℝ) (b1 g1 be1 : Fin 128 → ℝ) (W2 : Fin 128 → Fin 128 → ℝ) (b2 g2 be2 : Fin 128 → ℝ) :
    Fin 50000 → Fin 128 → ℝ :=
  outK (land (dOf ei)) (fun e => nodeOf (sOf ei e)) (dinvR (dOf ei)) 50000 epsR x W1 b1 g1 be1 W2 b2 g2 be2

/-- The network as the reference computes it. -/
def netR (ei : (⟨2, ![2, 800000]⟩ : Shape).Idx → BitVec 32)
    (x : Fin 50000 → Fin 128 → ℝ) (W1 : Fin 128 → Fin 128 → ℝ) (b1 g1 be1 : Fin 128 → ℝ) (W2 : Fin 128 → Fin 128 → ℝ) (b2 g2 be2 : Fin 128 → ℝ) :
    Fin 50000 → Fin 128 → ℝ :=
  outR (land (dOf ei)) (fun e => nodeOf (sOf ei e)) (fun e => nodeOf (dOf ei e)) (dinvR (dOf ei)) 50000 epsR x W1 b1 g1 be1 W2 b2 g2 be2

/-- The two are one function. -/
theorem netK_eq_netR (ei : (⟨2, ![2, 800000]⟩ : Shape).Idx → BitVec 32)
    (x : Fin 50000 → Fin 128 → ℝ) (W1 : Fin 128 → Fin 128 → ℝ) (b1 g1 be1 : Fin 128 → ℝ) (W2 : Fin 128 → Fin 128 → ℝ) (b2 g2 be2 : Fin 128 → ℝ) :
    netK ei x W1 b1 g1 be1 W2 b2 g2 be2 = netR ei x W1 b1 g1 be1 W2 b2 g2 be2 :=
  outK_eq_outR _ _ _ _ _ _ (by norm_num) (by norm_num) (fun n e he => nodeOf_of_land (dOf ei) n e he) _ _ _ _ _ _ _ _ _

end Cert.Gcn

end
-- ==== Proof.LibGatherScatter.lean ====
/-
  Index lemmas for the host gather and the host accumulating scatter at the dimension numbers of a row lookup
  `x[idx]` and of an accumulation `x.at[idx].add(u)` along axis 0, with the indices carried as a column `[M, 1]`
  (the index vector's axis is the last one and has size one). `N` is the number of rows of the operand, `M` the
  number of indices, `C` the number of columns. A gathered element is the operand's at the index read signed and
  clamped into `[0, N − 1]`; an update lands on row `n` exactly when its index, read signed and NOT clamped, is `n`;
  so at the exact sum an accumulated row is the operand's plus the sum of the updates whose index is that row.
-/
import Idealize.ShloMosaic.Lib.ValueIdx
import Idealize.ShloMosaic.PureOps.Ideal
import Idealize.ShloMosaic.PureOps.Ideal.Laws

noncomputable section

open scoped BigOperators

namespace Cert.GatherScatter

open Idealize.ShloMosaic Idealize.ShloMosaic.ValueIdx

/-! ## The gather of whole rows: operand `[N, C]`, indices `[M, 1]`, result `[M, C]` -/

/-- The dimension numbers of a gather of whole rows: operand `[N, C]`, start indices `[M, 1]`, result `[M, C]`;
    the result's axis 1 is the one offset axis, the operand's axis 0 is collapsed and is the one the start index
    names, a slice is one row `[1, C]`. The conditions `wf` are decided on a program's literal shapes. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: the operand's element in column `j` of the row whose number is the start
    index `idx[e, 0]`, read signed and clamped into `[0, N − 1]`. -/
theorem gather_row_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowGatherDims N M C wf) x idx (ix2 e j)
      = x (ix2 ⟨min (idx (ix2 e 0)).toInt.toNat (N - 1), by omega⟩ j) := by
  -- axis 0: no batching and no offset coordinate (the axis is collapsed); the start is the clamped index
  have h0 : (rowGatherDims N M C wf).start (ix2 e j) idx 0 + (rowGatherDims N M C wf).batchCoord (ix2 e j) 0
      + (rowGatherDims N M C wf).offCoord (ix2 e j) 0 = min (idx (ix2 e 0)).toInt.toNat (N - 1) := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    have hsi : (rowGatherDims N M C wf).siIdx (ix2 e j) ⟨List.idxOf (0 : Fin 2) (rowGatherDims N M C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  -- axis 1: the start index does not name it (start 0), no batching; the offset coordinate is the column
  have h1 : (rowGatherDims N M C wf).start (ix2 e j) idx 1 + (rowGatherDims N M C wf).batchCoord (ix2 e j) 1
      + (rowGatherDims N M C wf).offCoord (ix2 e j) 1 = j.val := by
    rw [GatherDims.batchCoord_eq_zero _ _ _ List.not_mem_nil]
    unfold GatherDims.start GatherDims.offCoord
    have hne : (1 : Fin 2) ∉ [(0 : Fin 2)] := by decide
    rw [dif_neg (show (1 : Fin 2) ∉ (rowGatherDims N M C wf).startIndexMap from hne),
      dif_pos ((GatherDims.mem_sKept _ _).mpr ⟨hne, List.not_mem_nil⟩)]
    simp only [Nat.add_zero, Nat.zero_add]
    rfl
  unfold Host.gather
  congr 1
  funext a
  refine Fin.ext ?_
  match a with
  | ⟨0, _⟩ => exact h0
  | ⟨1, _⟩ => exact h1

/-! ## The gather of single elements: operand `[N]`, indices `[M, 1]`, result `[M]` -/

/-- The dimension numbers of a gather of single elements of a flat operand: operand `[N]`, start indices `[M, 1]`,
    result `[M]`; no offset axis, the operand's one axis is collapsed and is the one the start index names, a slice
    is one element. The conditions `wf` are decided on a program's literal shapes. -/
abbrev flatGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand's element whose number is the start index `idx[e, 0]`, read signed and
    clamped into `[0, N − 1]`. -/
theorem gather_flat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (flatGatherDims N M wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (flatGatherDims N M wf).start (ix1 e) idx 0 + (flatGatherDims N M wf).batchCoord (ix1 e) 0
    + (flatGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGatherDims N M wf).startIndexMap from List.mem_singleton.mpr rfl)]
  have hsi : (flatGatherDims N M wf).siIdx (ix1 e) ⟨List.idxOf (0 : Fin 1) (flatGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## The accumulation of whole rows: operand `[N, C]`, indices `[M, 1]`, updates `[M, C]` -/

/-- The dimension numbers of a scatter of whole rows: operand `[N, C]`, scatter indices `[M, 1]`, updates `[M, C]`;
    the updates' axis 1 is the one window axis, the operand's axis 0 is inserted and is the one the scatter index
    names. The conditions `wf` are decided on a program's literal shapes. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section RowScatter
variable {N M C w : Nat} (wf : ScatterDims.WF ⟨2, ![N, C]⟩ ⟨2, ![M, 1]⟩ ⟨2, ![M, C]⟩ [1] [0] [0] 1)
  (idx : IVec ⟨2, ![M, 1]⟩ w) (e : Fin M) (j : Fin C)

/-- On the operand's axis 0 the window of update `(e, j)` starts at the scatter index `idx[e, 0]`, read signed. -/
theorem rowScatter_start_zero :
    (rowScatterDims N M C wf).start (ix2 e j) idx 0 = (idx (ix2 e 0)).toInt := by
  unfold ScatterDims.start
  rw [dif_pos (show (0 : Fin 2) ∈ (rowScatterDims N M C wf).scatterDimsToOperandDims from List.mem_singleton.mpr rfl)]
  have hsi : (rowScatterDims N M C wf).siIdx (ix2 e j)
      ⟨List.idxOf (0 : Fin 2) (rowScatterDims N M C wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- On the operand's axis 1, which the scatter index does not name, the window starts at `0`. -/
theorem rowScatter_start_one : (rowScatterDims N M C wf).start (ix2 e j) idx 1 = 0 := by
  unfold ScatterDims.start
  have hne : (1 : Fin 2) ∉ [(0 : Fin 2)] := by decide
  rw [dif_neg (show (1 : Fin 2) ∉ (rowScatterDims N M C wf).scatterDimsToOperandDims from hne)]

/-- The operand's axis 0 is inserted: the window coordinate there is `0`. -/
theorem rowScatter_window_zero : (rowScatterDims N M C wf).window (ix2 e j) 0 = 0 := by
  unfold ScatterDims.window
  have hk : (0 : Fin 2) ∉ (List.finRange 2).filter (· ∉ [(0 : Fin 2)]) := by decide
  rw [dif_neg (show (0 : Fin 2) ∉ (rowScatterDims N M C wf).sKept from hk)]

/-- On the operand's axis 1 the window coordinate of update `(e, j)` is the column `j`. -/
theorem rowScatter_window_one : (rowScatterDims N M C wf).window (ix2 e j) 1 = j.val := by
  unfold ScatterDims.window
  have hk : (1 : Fin 2) ∈ (List.finRange 2).filter (· ∉ [(0 : Fin 2)]) := by decide
  rw [dif_pos (show (1 : Fin 2) ∈ (rowScatterDims N M C wf).sKept from hk)]
  rfl

/-- WHERE A ROW UPDATE LANDS: update `(e, j)` lands on operand element `(n, j')` exactly when its scatter index
    `idx[e, 0]`, read signed (and not clamped), is `n` and the columns agree; an index outside `[0, N − 1]` lands
    nowhere. -/
theorem scatter_row_lands (n : Fin N) (j' : Fin C) :
    (rowScatterDims N M C wf).resultIdx? (ix2 e j) idx = some (ix2 n j')
      ↔ (idx (ix2 e 0)).toInt = (n.val : Int) ∧ j = j' := by
  have s0 := rowScatter_start_zero wf idx e j
  have s1 := rowScatter_start_one wf idx e j
  have w0 := rowScatter_window_zero wf e j
  have w1 := rowScatter_window_one wf e j
  unfold ScatterDims.resultIdx?
  split
  · rename_i h
    rw [Option.some.injEq]
    constructor
    · intro hf
      have h0 := h 0
      have e0 := congrArg Fin.val (congrFun hf 0)
      have e1 := congrArg Fin.val (congrFun hf 1)
      simp only [s0, s1, w0, w1] at h0 e0 e1
      refine ⟨?_, Fin.ext ?_⟩
      · have : ((idx (ix2 e 0)).toInt + ((0 : Nat) : Int)).toNat = n.val := e0
        omega
      · have : ((0 : Int) + (j.val : Int)).toNat = j'.val := e1
        omega
    · rintro ⟨hn, rfl⟩
      funext a
      refine Fin.ext ?_
      match a with
      | ⟨0, _⟩ =>
        show ((rowScatterDims N M C wf).start (ix2 e j) idx 0 + ((rowScatterDims N M C wf).window (ix2 e j) 0 : Nat)).toNat = n.val
        rw [s0, w0, hn]; omega
      | ⟨1, _⟩ =>
        show ((rowScatterDims N M C wf).start (ix2 e j) idx 1 + ((rowScatterDims N M C wf).window (ix2 e j) 1 : Nat)).toNat = j.val
        rw [s1, w1]; omega
  · rename_i h
    constructor
    · intro hf; exact absurd hf (by simp)
    · rintro ⟨hn, rfl⟩
      refine absurd (fun a => ?_) h
      match a with
      | ⟨0, _⟩ =>
        show 0 ≤ (rowScatterDims N M C wf).start (ix2 e j) idx 0 + ((rowScatterDims N M C wf).window (ix2 e j) 0 : Nat)
          ∧ (rowScatterDims N M C wf).start (ix2 e j) idx 0 + ((rowScatterDims N M C wf).window (ix2 e j) 0 : Nat) < (N : Int)
        rw [s0, w0, hn]; have := n.isLt; omega
      | ⟨1, _⟩ =>
        show 0 ≤ (rowScatterDims N M C wf).start (ix2 e j) idx 1 + ((rowScatterDims N M C wf).window (ix2 e j) 1 : Nat)
          ∧ (rowScatterDims N M C wf).start (ix2 e j) idx 1 + ((rowScatterDims N M C wf).window (ix2 e j) 1 : Nat) < (C : Int)
        rw [s1, w1]; have := j.isLt; omega

end RowScatter

/-- THE ROW ACCUMULATION READ AT `(n, j)`, at the exact sum: the operand's element plus the sum, over the updates
    `e` whose scatter index `idx[e, 0]` read signed is the row `n`, of the update's element in column `j`. -/
theorem scatterAdd_row_apply {N M C w : Nat}
    (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w)
    (upd : (⟨2, ![M, C]⟩ : Shape).Idx → EReal) (n : Fin N) (j : Fin C) :
    Ideal.hostScatterAdd (rowScatterDims N M C wf) x idx upd (ix2 n j)
      = x (ix2 n j) + ∑ e ∈ Finset.univ.filter (fun e : Fin M => (idx (ix2 e 0)).toInt = (n.val : Int)),
          upd (ix2 e j) := by
  unfold Ideal.hostScatterAdd
  refine congrArg (x (ix2 n j) + ·) ?_
  rw [Finset.sum_filter, sum_idx2, Finset.sum_filter]
  refine Finset.sum_congr rfl fun e _ => ?_
  simp only [scatter_row_lands]
  by_cases hn : (idx (ix2 e 0)).toInt = (n.val : Int)
  · simp only [hn, true_and, if_true]
    rw [Finset.sum_ite_eq' Finset.univ j (fun b => upd (ix2 e b)), if_pos (Finset.mem_univ j)]
  · simp only [hn, false_and, if_false, Finset.sum_const_zero]

/-! ## The accumulation of single elements: operand `[N]`, indices `[M, 1]`, updates `[M]` -/

/-- The dimension numbers of a scatter of single elements into a flat operand: operand `[N]`, scatter indices
    `[M, 1]`, updates `[M]`; no window axis, the operand's one axis is inserted and is the one the scatter index
    names. The conditions `wf` are decided on a program's literal shapes. -/
abbrev flatScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

section FlatScatter
variable {N M w : Nat} (wf : ScatterDims.WF ⟨1, ![N]⟩ ⟨2, ![M, 1]⟩ ⟨1, ![M]⟩ [] [0] [0] 1)
  (idx : IVec ⟨2, ![M, 1]⟩ w) (e : Fin M)

/-- On the operand's one axis the window of update `e` starts at the scatter index `idx[e, 0]`, read signed. -/
theorem flatScatter_start_zero :
    (flatScatterDims N M wf).start (ix1 e) idx 0 = (idx (ix2 e 0)).toInt := by
  unfold ScatterDims.start
  rw [dif_pos (show (0 : Fin 1) ∈ (flatScatterDims N M wf).scatterDimsToOperandDims from List.mem_singleton.mpr rfl)]
  have hsi : (flatScatterDims N M wf).siIdx (ix1 e)
      ⟨List.idxOf (0 : Fin 1) (flatScatterDims N M wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  rw [hsi]

/-- The operand's one axis is inserted: the window coordinate there is `0`. -/
theorem flatScatter_window_zero : (flatScatterDims N M wf).window (ix1 e) 0 = 0 := by
  unfold ScatterDims.window
  have hk : (0 : Fin 1) ∉ (List.finRange 1).filter (· ∉ [(0 : Fin 1)]) := by decide
  rw [dif_neg (show (0 : Fin 1) ∉ (flatScatterDims N M wf).sKept from hk)]

/-- WHERE A FLAT UPDATE LANDS: update `e` lands on operand element `n` exactly when its scatter index `idx[e, 0]`,
    read signed (and not clamped), is `n`; an index outside `[0, N − 1]` lands nowhere. -/
theorem scatter_flat_lands (n : Fin N) :
    (flatScatterDims N M wf).resultIdx? (ix1 e) idx = some (ix1 n) ↔ (idx (ix2 e 0)).toInt = (n.val : Int) := by
  have s0 := flatScatter_start_zero wf idx e
  have w0 := flatScatter_window_zero wf e
  unfold ScatterDims.resultIdx?
  split
  · rename_i h
    rw [Option.some.injEq]
    constructor
    · intro hf
      have h0 := h 0
      have e0 := congrArg Fin.val (congrFun hf 0)
      simp only [s0, w0] at h0 e0
      have : ((idx (ix2 e 0)).toInt + ((0 : Nat) : Int)).toNat = n.val := e0
      omega
    · intro hn
      funext a
      obtain rfl : a = 0 := Subsingleton.elim _ _
      refine Fin.ext ?_
      show ((flatScatterDims N M wf).start (ix1 e) idx 0 + ((flatScatterDims N M wf).window (ix1 e) 0 : Nat)).toNat = n.val
      rw [s0, w0, hn]; omega
  · rename_i h
    constructor
    · intro hf; exact absurd hf (by simp)
    · intro hn
      refine absurd (fun a => ?_) h
      obtain rfl : a = 0 := Subsingleton.elim _ _
      show 0 ≤ (flatScatterDims N M wf).start (ix1 e) idx 0 + ((flatScatterDims N M wf).window (ix1 e) 0 : Nat)
        ∧ (flatScatterDims N M wf).start (ix1 e) idx 0 + ((flatScatterDims N M wf).window (ix1 e) 0 : Nat) < (N : Int)
      rw [s0, w0, hn]; have := n.isLt; omega

end FlatScatter

/-- A sum over a rank-1 index set is the sum over its one coordinate. -/
theorem sum_idx1 {A : Type*} [AddCommMonoid A] {n : Nat} (f : (⟨1, ![n]⟩ : Shape).Idx → A) :
    ∑ i, f i = ∑ a : Fin n, f (ix1 a) := by
  refine Fintype.sum_equiv ⟨fun i => i 0, fun a => ix1 a, fun i => (eq_ix1 i).symm, fun _ => rfl⟩ _ _ fun i => ?_
  exact congrArg f (eq_ix1 i)

/-- THE FLAT ACCUMULATION READ AT `n`, at the exact sum: the operand's element plus the sum of the updates `e` whose
    scatter index `idx[e, 0]` read signed is `n`. -/
theorem scatterAdd_flat_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (n : Fin N) :
    Ideal.hostScatterAdd (flatScatterDims N M wf) x idx upd (ix1 n)
      = x (ix1 n) + ∑ e ∈ Finset.univ.filter (fun e : Fin M => (idx (ix2 e 0)).toInt = (n.val : Int)),
          upd (ix1 e) := by
  unfold Ideal.hostScatterAdd
  refine congrArg (x (ix1 n) + ·) ?_
  rw [Finset.sum_filter, sum_idx1, Finset.sum_filter]
  refine Finset.sum_congr rfl fun e _ => ?_
  simp only [scatter_flat_lands]

end Cert.GatherScatter

end
-- ==== Proof.LibGcnGlue.lean ====
/-
  The host stretches of the two programs read as real formulas: each lemma takes the operation term one stretch
  leaves and says what it is at an index, at the exact values. The indices of an edge are normalised as numpy does
  and clamped by the gather; an accumulation lands an update on the row its index reads; the degree of a node is the
  number of edges landing on it and its weight the inverse square root of that; the edge arrays are the given
  edges followed by one self-loop per node; the moments divide by the number of nodes.
-/
import proofs.«168650_j27212912787479_2_alg».proof.Proof.LibGatherScatter
import proofs.«168650_j27212912787479_2_alg».proof.Proof.Model
import Idealize.ShloMosaic.Lib.IdealHost
import Idealize.ShloMosaic.Lib.ValueLayout
import Idealize.ShloMosaic.Lib.Pipeline.Value

noncomputable section

open scoped BigOperators

namespace Cert.GcnGlue

open Idealize.ShloMosaic Idealize.ShloMosaic.ValueIdx Cert.GatherScatter

/-! ## Small readings shared by the stages -/

/-- An index array `[M]` broadcast to a column `[M, 1]` reads, at `(e, 0)`, the array at `e`. -/
theorem bcast_col_apply {α : Type} {M : Nat} (hb : (⟨1, ![M]⟩ : Shape).BroadcastsInDim ⟨2, ![M, 1]⟩ ![0])
    (v : (⟨1, ![M]⟩ : Shape).Idx → α) (e : Fin M) (u : Fin 1) :
    broadcastInDim ⟨2, ![M, 1]⟩ ![0] hb v (ix2 e u) = v (ix1 e) := by
  refine broadcastInDim_apply ![0] hb v (ix2 e u) (ix1 e) fun a => ?_
  match a with
  | ⟨0, _⟩ =>
    show e.val = if M = 1 then 0 else e.val
    split
    · have := e.isLt; omega
    · rfl

/-- The index normalisation read at an element: a negative index counts from the end of the 50000 nodes. -/
theorem normIdx_apply {S : Shape} (hb : (⟨0, ![]⟩ : Shape).BroadcastsInDim S ![]) (sI : IVec S 32) (i : S.Idx) :
    select (cmpi .slt sI (broadcastInDim S ![] hb (constantI ⟨0, ![]⟩ 32 0#32)))
      (addi sI (broadcastInDim S ![] hb (constantI ⟨0, ![]⟩ 32 50000#32))) sI i = Cert.Gcn.normIdx (sI i) := rfl

/-- The host's accumulating scatter at the exact sum is the sum form, whatever the dimension numbers. -/
theorem hostScatterAdd_ideal {s si su : Shape} {φ : FTy} {w : Nat} (d : ScatterDims s si su) (x : FVec Ideal s φ)
    (idx : IVec si w) (upd : FVec Ideal su φ) :
    Host.scatterAdd (F := Ideal) d x idx upd = Ideal.hostScatterAdd d x idx upd := rfl

/-- A row accumulation FROM ZERO read at `(n, j)`: the sum, over the updates whose scatter index read signed is the
    row `n`, of the update's element in column `j`. -/
theorem scatterAdd_row_zero_apply {N M C w : Nat}
    (wfS : ScatterDims.WF ⟨2, ![N, C]⟩ ⟨2, ![M, 1]⟩ ⟨2, ![M, C]⟩ [1] [0] [0] 1)
    (hb0 : (⟨0, ![]⟩ : Shape).BroadcastsInDim ⟨2, ![N, C]⟩ ![])
    (idx : IVec ⟨2, ![M, 1]⟩ w) (upd : FVec Ideal ⟨2, ![M, C]⟩ .f32) (n : Fin N) (j : Fin C) :
    Host.scatterAdd (F := Ideal) (rowScatterDims N M C wfS)
        (broadcastInDim ⟨2, ![N, C]⟩ ![] hb0 (constant ⟨0, ![]⟩ .f32 0#32)) idx upd (ix2 n j)
      = ∑ e ∈ Finset.univ.filter (fun e : Fin M => (idx (ix2 e 0)).toInt = (n.val : Int)), upd (ix2 e j) := by
  rw [hostScatterAdd_ideal]
  refine (scatterAdd_row_apply wfS (broadcastInDim ⟨2, ![N, C]⟩ ![] hb0 (constant (F := Ideal) ⟨0, ![]⟩ .f32 0#32))
    idx upd n j).trans ?_
  have hz : broadcastInDim ⟨2, ![N, C]⟩ ![] hb0 (constant (F := Ideal) ⟨0, ![]⟩ .f32 0#32) (ix2 n j) = 0 :=
    Cert.Gcn.ofBits_zero
  rw [hz, zero_add]

/-! ## The gather → accumulate stage of the kernel program -/

/-- THE GATHER → ACCUMULATE STAGE READ AT `(n, j)`: with the projected rows finite reals `hs`, the sources `sI`
    normalised and then clamped by the gather, and the updates accumulated from zero at the rows the targets `dI`
    read, the result at `(n, j)` is the finite sum, over the edges landing on `n`, of column `j` of the source's row. -/
theorem gather_scatter_kernel_apply
    (wfS : ScatterDims.WF ⟨2, ![50000, 128]⟩ ⟨2, ![850000, 1]⟩ ⟨2, ![850000, 128]⟩ [1] [0] [0] 1)
    (wfG : GatherDims.WF ⟨2, ![50000, 128]⟩ ⟨2, ![850000, 1]⟩ ⟨2, ![850000, 128]⟩ [1] [0] [] [0] [] 1 ![1, 128])
    (hb0 : (⟨0, ![]⟩ : Shape).BroadcastsInDim ⟨2, ![50000, 128]⟩ ![])
    (hb1 : (⟨1, ![850000]⟩ : Shape).BroadcastsInDim ⟨2, ![850000, 1]⟩ ![0])
    (hb2 : (⟨0, ![]⟩ : Shape).BroadcastsInDim ⟨1, ![850000]⟩ ![])
    (hlt : FTy.bits .bf16 < FTy.bits .f32)
    (A : FVec Ideal ⟨2, ![50000, 128]⟩ .bf16) (sI dI : IVec ⟨1, ![850000]⟩ 32)
    (hs : Fin 50000 → Fin 128 → ℝ) (hA : ∀ (n : Fin 50000) (j : Fin 128), A (ix2 n j) = ((hs n j : ℝ) : EReal))
    (n : Fin 50000) (j : Fin 128) :
    Host.scatterAdd (F := Ideal) (rowScatterDims 50000 850000 128 wfS)
        (broadcastInDim ⟨2, ![50000, 128]⟩ ![] hb0 (constant ⟨0, ![]⟩ .f32 0#32))
        (broadcastInDim ⟨2, ![850000, 1]⟩ ![0] hb1 dI)
        (extf .f32 (Host.gather (rowGatherDims 50000 850000 128 wfG) A
          (broadcastInDim ⟨2, ![850000, 1]⟩ ![0] hb1
            (select (cmpi .slt sI (broadcastInDim ⟨1, ![850000]⟩ ![] hb2 (constantI ⟨0, ![]⟩ 32 0#32)))
              (addi sI (broadcastInDim ⟨1, ![850000]⟩ ![] hb2 (constantI ⟨0, ![]⟩ 32 50000#32))) sI))) hlt)
        (ix2 n j)
      = ((∑ e ∈ Cert.Gcn.land (fun e => dI (ix1 e)) n, hs (Cert.Gcn.nodeOf (sI (ix1 e))) j : ℝ) : EReal) := by
  refine (scatterAdd_row_zero_apply wfS hb0 _ _ n j).trans ?_
  rw [Cert.Gcn.coe_sum]
  have hset : Finset.univ.filter (fun e : Fin 850000 =>
        (broadcastInDim ⟨2, ![850000, 1]⟩ ![0] hb1 dI (ix2 e 0)).toInt = (n.val : Int))
      = Cert.Gcn.land (fun e => dI (ix1 e)) n := by
    unfold Cert.Gcn.land
    exact Finset.filter_congr fun e _ => by rw [bcast_col_apply]
  refine Finset.sum_congr hset fun e _ => ?_
  refine (extf_apply _ hlt (ix2 e j)).trans ?_
  refine (gather_row_apply (by omega) wfG A _ e j).trans ?_
  rw [hA]
  refine congrArg (fun k => ((hs k j : ℝ) : EReal)) (Fin.ext ?_)
  show min (broadcastInDim ⟨2, ![850000, 1]⟩ ![0] hb1
      (select (cmpi .slt sI (broadcastInDim ⟨1, ![850000]⟩ ![] hb2 (constantI ⟨0, ![]⟩ 32 0#32)))
        (addi sI (broadcastInDim ⟨1, ![850000]⟩ ![] hb2 (constantI ⟨0, ![]⟩ 32 50000#32))) sI) (ix2 e 0)).toInt.toNat (50000 - 1)
    = min (Cert.Gcn.normIdx (sI (ix1 e))).toInt.toNat (50000 - 1)
  rw [bcast_col_apply, normIdx_apply]

/-- The same as an equation of arrays, from the projected rows given as one function of the index. -/
theorem gather_scatter_kernel
    (wfS : ScatterDims.WF ⟨2, ![50000, 128]⟩ ⟨2, ![850000, 1]⟩ ⟨2, ![850000, 128]⟩ [1] [0] [0] 1)
    (wfG : GatherDims.WF ⟨2, ![50000, 128]⟩ ⟨2, ![850000, 1]⟩ ⟨2, ![850000, 128]⟩ [1] [0] [] [0] [] 1 ![1, 128])
    (hb0 : (⟨0, ![]⟩ : Shape).BroadcastsInDim ⟨2, ![50000, 128]⟩ ![])
    (hb1 : (⟨1, ![850000]⟩ : Shape).BroadcastsInDim ⟨2, ![850000, 1]⟩ ![0])
    (hb2 : (⟨0, ![]⟩ : Shape).BroadcastsInDim ⟨1, ![850000]⟩ ![])
    (hlt : FTy.bits .bf16 < FTy.bits .f32)
    (A : FVec Ideal ⟨2, ![50000, 128]⟩ .bf16) (sI dI : IVec ⟨1, ![850000]⟩ 32)
    (hs : Fin 50000 → Fin 128 → ℝ) (hA : A = fun i => ((hs (i 0) (i 1) : ℝ) : EReal)) :
    Host.scatterAdd (F := Ideal) (rowScatterDims 50000 850000 128 wfS)
        (broadcastInDim ⟨2, ![50000, 128]⟩ ![] hb0 (constant ⟨0, ![]⟩ .f32 0#32))
        (broadcastInDim ⟨2, ![850000, 1]⟩ ![0] hb1 dI)
        (extf .f32 (Host.gather (rowGatherDims 50000 850000 128 wfG) A
          (broadcastInDim ⟨2, ![850000, 1]⟩ ![0] hb1
            (select (cmpi .slt sI (broadcastInDim ⟨1, ![850000]⟩ ![] hb2 (constantI ⟨0, ![]⟩ 32 0#32)))
              (addi sI (broadcastInDim ⟨1, ![850000]⟩ ![] hb2 (constantI ⟨0, ![]⟩ 32 50000#32))) sI))) hlt)
      = fun i => ((∑ e ∈ Cert.Gcn.land (fun e => dI (ix1 e)) (i 0), hs (Cert.Gcn.nodeOf (sI (ix1 e))) (i 1) : ℝ) : EReal) := by
  have hA' : ∀ (n : Fin 50000) (j : Fin 128), A (ix2 n j) = ((hs n j : ℝ) : EReal) :=
    fun n j => congrFun hA (ix2 n j)
  funext i
  obtain ⟨n, j, rfl⟩ : ∃ (n : Fin 50000) (j : Fin 128), i = ix2 n j := ⟨i 0, i 1, eq_ix2 i⟩
  exact gather_scatter_kernel_apply wfS wfG hb0 hb1 hb2 hlt A sI dI hs hA' n j

/-! ## The degree of a node and its weight -/

/-- A finite sum of ones is the number of terms. -/
theorem sum_one_coe {ι : Type} (s : Finset ι) : ∑ _e ∈ s, ((1 : ℝ) : EReal) = ((s.card : ℝ) : EReal) := by
  rw [← Cert.Gcn.coe_sum s (fun _ => (1 : ℝ)), Finset.sum_const, nsmul_eq_mul, mul_one]

/-- A flat accumulation FROM ZERO read at `n`: the sum of the updates whose scatter index read signed is `n`. -/
theorem scatterAdd_flat_zero_apply {N M w : Nat}
    (wf : ScatterDims.WF ⟨1, ![N]⟩ ⟨2, ![M, 1]⟩ ⟨1, ![M]⟩ [] [0] [0] 1)
    (hb : (⟨0, ![]⟩ : Shape).BroadcastsInDim ⟨1, ![N]⟩ ![])
    (idx : IVec ⟨2, ![M, 1]⟩ w) (upd : FVec Ideal ⟨1, ![M]⟩ .f32) (n : Fin N) :
    Host.scatterAdd (F := Ideal) (flatScatterDims N M wf)
        (broadcastInDim ⟨1, ![N]⟩ ![] hb (constant ⟨0, ![]⟩ .f32 0#32)) idx upd (ix1 n)
      = ∑ e ∈ Finset.univ.filter (fun e : Fin M => (idx (ix2 e 0)).toInt = (n.val : Int)), upd (ix1 e) := by
  rw [hostScatterAdd_ideal]
  refine (scatterAdd_flat_apply wf (broadcastInDim ⟨1, ![N]⟩ ![] hb (constant (F := Ideal) ⟨0, ![]⟩ .f32 0#32))
    idx upd n).trans ?_
  have hz : broadcastInDim ⟨1, ![N]⟩ ![] hb (constant (F := Ideal) ⟨0, ![]⟩ .f32 0#32) (ix1 n) = 0 :=
    Cert.Gcn.ofBits_zero
  rw [hz, zero_add]

/-- The edges whose target, carried as a column, reads `n` are the edges landing on `n`. -/
theorem filter_bcast_col_eq_land (hb1 : (⟨1, ![850000]⟩ : Shape).BroadcastsInDim ⟨2, ![850000, 1]⟩ ![0])
    (dI : IVec ⟨1, ![850000]⟩ 32) (n : Fin 50000) :
    Finset.univ.filter (fun e : Fin 850000 =>
        (broadcastInDim ⟨2, ![850000, 1]⟩ ![0] hb1 dI (ix2 e 0)).toInt = (n.val : Int))
      = Cert.Gcn.land (fun e => dI (ix1 e)) n := by
  unfold Cert.Gcn.land
  exact Finset.filter_congr fun e _ => by rw [bcast_col_apply]

/-- THE DEGREE READ AT `n`: ones accumulated from zero at the elements the targets `dI` read give, at node `n`, the
    number of edges landing on `n`. -/
theorem deg_apply
    (wf : ScatterDims.WF ⟨1, ![50000]⟩ ⟨2, ![850000, 1]⟩ ⟨1, ![850000]⟩ [] [0] [0] 1)
    (hb : (⟨0, ![]⟩ : Shape).BroadcastsInDim ⟨1, ![50000]⟩ ![])
    (hb1 : (⟨1, ![850000]⟩ : Shape).BroadcastsInDim ⟨2, ![850000, 1]⟩ ![0])
    (hb2 : (⟨0, ![]⟩ : Shape).BroadcastsInDim ⟨1, ![850000]⟩ ![])
    (dI : IVec ⟨1, ![850000]⟩ 32) (n : Fin 50000) :
    Host.scatterAdd (F := Ideal) (flatScatterDims 50000 850000 wf)
        (broadcastInDim ⟨1, ![50000]⟩ ![] hb (constant ⟨0, ![]⟩ .f32 0#32))
        (broadcastInDim ⟨2, ![850000, 1]⟩ ![0] hb1 dI)
        (broadcastInDim ⟨1, ![850000]⟩ ![] hb2 (constant ⟨0, ![]⟩ .f32 0x3F800000#32)) (ix1 n)
      = (((Cert.Gcn.land (fun e => dI (ix1 e)) n).card : ℝ) : EReal) := by
  refine (scatterAdd_flat_zero_apply wf hb _ _ n).trans ?_
  rw [filter_bcast_col_eq_land, ← sum_one_coe]
  refine Finset.sum_congr rfl fun e _ => ?_
  exact Cert.Gcn.ofBits_one

/-- THE WEIGHT FROM THE DEGREE, at one element: where the degree is the real `r`, the selection "`r^(-1/2)` where the
    degree is positive, zero elsewhere" is the real `if 0 < r then r^(-1/2) else 0`. -/
theorem dinv_of_deg {N : Nat} (hb : (⟨0, ![]⟩ : Shape).BroadcastsInDim ⟨1, ![N]⟩ ![])
    (deg : FVec Ideal ⟨1, ![N]⟩ .f32) (n : Fin N) (r : ℝ) (hr : deg (ix1 n) = ((r : ℝ) : EReal)) :
    select (cmpf .ogt deg (broadcastInDim ⟨1, ![N]⟩ ![] hb (constant ⟨0, ![]⟩ .f32 0#32)))
        (Host.powf deg (broadcastInDim ⟨1, ![N]⟩ ![] hb (constant ⟨0, ![]⟩ .f32 0xBF000000#32)))
        (broadcastInDim ⟨1, ![N]⟩ ![] hb (constant ⟨0, ![]⟩ .f32 0#32)) (ix1 n)
      = (((if (0 : ℝ) < r then Real.rpow r (-(1 / 2)) else 0 : ℝ)) : EReal) := by
  have hsel : select (cmpf .ogt deg (broadcastInDim ⟨1, ![N]⟩ ![] hb (constant ⟨0, ![]⟩ .f32 0#32)))
        (Host.powf deg (broadcastInDim ⟨1, ![N]⟩ ![] hb (constant ⟨0, ![]⟩ .f32 0xBF000000#32)))
        (broadcastInDim ⟨1, ![N]⟩ ![] hb (constant ⟨0, ![]⟩ .f32 0#32)) (ix1 n)
      = Scalar.select (BitVec.ofBool (decide (Ideal.ofBits .f32 0#32 < deg (ix1 n))))
          (Ideal.pow (deg (ix1 n)) (Ideal.ofBits .f32 0xBF000000#32)) (Ideal.ofBits .f32 0#32) := rfl
  rw [hsel, hr, Cert.Gcn.ofBits_zero, Cert.Gcn.ofBits_neg_half, Cert.Gcn.pow_coe_coe]
  by_cases h : (0 : ℝ) < r
  · rw [if_pos h, decide_eq_true (EReal.coe_pos.mpr h)]
    exact select_one _ _
  · rw [if_neg h, decide_eq_false (fun h' => h (EReal.coe_pos.mp h'))]
    exact (select_zero _ _).trans EReal.coe_zero.symm

/-- THE WEIGHT READ AT `n`: the inverse square root of the number of edges landing on `n`, zero where there is
    none. -/
theorem dinv_apply
    (wf : ScatterDims.WF ⟨1, ![50000]⟩ ⟨2, ![850000, 1]⟩ ⟨1, ![850000]⟩ [] [0] [0] 1)
    (hb : (⟨0, ![]⟩ : Shape).BroadcastsInDim ⟨1, ![50000]⟩ ![])
    (hb1 : (⟨1, ![850000]⟩ : Shape).BroadcastsInDim ⟨2, ![850000, 1]⟩ ![0])
    (hb2 : (⟨0, ![]⟩ : Shape).BroadcastsInDim ⟨1, ![850000]⟩ ![])
    (dI : IVec ⟨1, ![850000]⟩ 32) (n : Fin 50000) :
    select (cmpf .ogt
          (Host.scatterAdd (F := Ideal) (flatScatterDims 50000 850000 wf)
            (broadcastInDim ⟨1, ![50000]⟩ ![] hb (constant ⟨0, ![]⟩ .f32 0#32))
            (broadcastInDim ⟨2, ![850000, 1]⟩ ![0] hb1 dI)
            (broadcastInDim ⟨1, ![850000]⟩ ![] hb2 (constant ⟨0, ![]⟩ .f32 0x3F800000#32)))
          (broadcastInDim ⟨1, ![50000]⟩ ![] hb (constant ⟨0, ![]⟩ .f32 0#32)))
        (Host.powf
          (Host.scatterAdd (F := Ideal) (flatScatterDims 50000 850000 wf)
            (broadcastInDim ⟨1, ![50000]⟩ ![] hb (constant ⟨0, ![]⟩ .f32 0#32))
            (broadcastInDim ⟨2, ![850000, 1]⟩ ![0] hb1 dI)
            (broadcastInDim ⟨1, ![850000]⟩ ![] hb2 (constant ⟨0, ![]⟩ .f32 0x3F800000#32)))
          (broadcastInDim ⟨1, ![50000]⟩ ![] hb (constant ⟨0, ![]⟩ .f32 0xBF000000#32)))
        (broadcastInDim ⟨1, ![50000]⟩ ![] hb (constant ⟨0, ![]⟩ .f32 0#32)) (ix1 n)
      = ((Cert.Gcn.dinvR (fun e => dI (ix1 e)) n : ℝ) : EReal) :=
  dinv_of_deg hb _ n _ (deg_apply wf hb hb1 hb2 dI n)

/-- A vector `[a]` cast to a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The weight reshaped to a column reads, at `(n, 0)`, the weight of `n`. -/
theorem dinv_col_apply
    (wf : ScatterDims.WF ⟨1, ![50000]⟩ ⟨2, ![850000, 1]⟩ ⟨1, ![850000]⟩ [] [0] [0] 1)
    (hb : (⟨0, ![]⟩ : Shape).BroadcastsInDim ⟨1, ![50000]⟩ ![])
    (hb1 : (⟨1, ![850000]⟩ : Shape).BroadcastsInDim ⟨2, ![850000, 1]⟩ ![0])
    (hb2 : (⟨0, ![]⟩ : Shape).BroadcastsInDim ⟨1, ![850000]⟩ ![])
    (hsc : (⟨1, ![50000]⟩ : Shape).ShapeCasts ⟨2, ![50000, 1]⟩)
    (dI : IVec ⟨1, ![850000]⟩ 32) (n : Fin 50000) (u : Fin 1) :
    shapeCast ⟨2, ![50000, 1]⟩
        (select (cmpf .ogt
            (Host.scatterAdd (F := Ideal) (flatScatterDims 50000 850000 wf)
              (broadcastInDim ⟨1, ![50000]⟩ ![] hb (constant ⟨0, ![]⟩ .f32 0#32))
              (broadcastInDim ⟨2, ![850000, 1]⟩ ![0] hb1 dI)
              (broadcastInDim ⟨1, ![850000]⟩ ![] hb2 (constant ⟨0, ![]⟩ .f32 0x3F800000#32)))
            (broadcastInDim ⟨1, ![50000]⟩ ![] hb (constant ⟨0, ![]⟩ .f32 0#32)))
          (Host.powf
            (Host.scatterAdd (F := Ideal) (flatScatterDims 50000 850000 wf)
              (broadcastInDim ⟨1, ![50000]⟩ ![] hb (constant ⟨0, ![]⟩ .f32 0#32))
              (broadcastInDim ⟨2, ![850000, 1]⟩ ![0] hb1 dI)
              (broadcastInDim ⟨1, ![850000]⟩ ![] hb2 (constant ⟨0, ![]⟩ .f32 0x3F800000#32)))
            (broadcastInDim ⟨1, ![50000]⟩ ![] hb (constant ⟨0, ![]⟩ .f32 0xBF000000#32)))
          (broadcastInDim ⟨1, ![50000]⟩ ![] hb (constant ⟨0, ![]⟩ .f32 0#32))) hsc (ix2 n u)
      = ((Cert.Gcn.dinvR (fun e => dI (ix1 e)) n : ℝ) : EReal) :=
  (shapeCast_a_a1_apply _ hsc n u).trans (dinv_apply wf hb hb1 hb2 dI n)

/-! ## The edge arrays: one row of the edge list, then one self-loop per node -/

/-- Two vectors laid end to end, read inside the FIRST: the first vector at the same position. -/
theorem concat1_left {α : Type} {n1 n2 n : Nat} (x1 : (⟨1, ![n1]⟩ : Shape).Idx → α) (x2 : (⟨1, ![n2]⟩ : Shape).Idx → α)
    (hcc : Shape.Concatenates [(⟨1, ![n1]⟩ : Shape), ⟨1, ![n2]⟩] ⟨1, ![n]⟩ 0) (e : Fin n) (h : e.val < n1) :
    concatenate ⟨1, ![n]⟩ 0 [⟨⟨1, ![n1]⟩, x1⟩, ⟨⟨1, ![n2]⟩, x2⟩] hcc (ix1 e) = x1 (ix1 ⟨e.val, h⟩) :=
  concatenate_pair_apply_left 0 x1 x2 hcc (ix1 e) rfl (ix1 ⟨e.val, h⟩) (fun b => match b with | ⟨0, _⟩ => rfl)

/-- Two vectors laid end to end, read past the first: the second vector at the position less the first's length. -/
theorem concat1_right {α : Type} {n1 n2 n : Nat} (x1 : (⟨1, ![n1]⟩ : Shape).Idx → α) (x2 : (⟨1, ![n2]⟩ : Shape).Idx → α)
    (hcc : Shape.Concatenates [(⟨1, ![n1]⟩ : Shape), ⟨1, ![n2]⟩] ⟨1, ![n]⟩ 0) (e : Fin n) (k : Fin n2)
    (hk : k.val + n1 = e.val) :
    concatenate ⟨1, ![n]⟩ 0 [⟨⟨1, ![n1]⟩, x1⟩, ⟨⟨1, ![n2]⟩, x2⟩] hcc (ix1 e) = x2 (ix1 k) :=
  concatenate_pair_apply_right 0 x1 x2 hcc (ix1 e) rfl rfl (ix1 k)
    (fun b hb => absurd (Subsingleton.elim _ _) hb) hk

/-- The lengths of two vectors laid end to end add up to the length of the result. -/
theorem concat1_len {n1 n2 n : Nat}
    (hcc : Shape.Concatenates [(⟨1, ![n1]⟩ : Shape), ⟨1, ![n2]⟩] ⟨1, ![n]⟩ 0) : n1 + n2 = n := by
  have h := hcc.2.2
  simpa using h

/-- A vector followed by the count `0, 1, …`: inside the vector the vector, past it the position less the vector's
    length, as a word. -/
theorem concat_iota_apply {n1 n2 n : Nat} (a : IVec ⟨1, ![n1]⟩ 32)
    (hcc : Shape.Concatenates [(⟨1, ![n1]⟩ : Shape), ⟨1, ![n2]⟩] ⟨1, ![n]⟩ 0) (e : Fin n) :
    concatenate ⟨1, ![n]⟩ 0 [⟨⟨1, ![n1]⟩, a⟩, ⟨⟨1, ![n2]⟩, iotaInDim ⟨1, ![n2]⟩ 32 0⟩] hcc (ix1 e)
      = if h : e.val < n1 then a (ix1 ⟨e.val, h⟩) else BitVec.ofNat 32 (e.val - n1) := by
  have hlen := concat1_len hcc
  by_cases h : e.val < n1
  · rw [dif_pos h]; exact concat1_left a _ hcc e h
  · rw [dif_neg h]
    have hk : e.val - n1 < n2 := by have := e.isLt; omega
    exact concat1_right a _ hcc e ⟨e.val - n1, hk⟩ (by show e.val - n1 + n1 = e.val; omega)

/-- One row of a two-row array, cut out and flattened, reads at `k` the array at `(r, k)`. -/
theorem row_of_two_apply {α : Type} {m : Nat} (r : Nat) (hr : r < 2) (ei : (⟨2, ![2, m]⟩ : Shape).Idx → α)
    (hsl : (⟨2, ![2, m]⟩ : Shape).Slices ![r, 0] ⟨2, ![1, m]⟩)
    (hsc : (⟨2, ![1, m]⟩ : Shape).ShapeCasts ⟨1, ![m]⟩) (k : Fin m) :
    shapeCast ⟨1, ![m]⟩ (extractStridedSlice ⟨2, ![1, m]⟩ ![r, 0] ei hsl) hsc (ix1 k) = ei (ix2 ⟨r, hr⟩ k) :=
  (shapeCast_1a_a_apply _ hsc k).trans (slice2_axis0_apply r ei hsl (0 : Fin 1) k ⟨r, hr⟩ rfl)

/-- THE EDGE ARRAY READ AT `e`: row `r` of the edge list followed by the nodes' own numbers is `Cert.Gcn.edgeOf`. -/
theorem edge_apply (r : Nat) (hr : r < 2) (ei : (⟨2, ![2, 800000]⟩ : Shape).Idx → BitVec 32)
    (hsl : (⟨2, ![2, 800000]⟩ : Shape).Slices ![r, 0] ⟨2, ![1, 800000]⟩)
    (hsc : (⟨2, ![1, 800000]⟩ : Shape).ShapeCasts ⟨1, ![800000]⟩)
    (hcc : Shape.Concatenates [(⟨1, ![800000]⟩ : Shape), ⟨1, ![50000]⟩] ⟨1, ![850000]⟩ 0) (e : Fin 850000) :
    concatenate ⟨1, ![850000]⟩ 0
        [⟨⟨1, ![800000]⟩, shapeCast ⟨1, ![800000]⟩ (extractStridedSlice ⟨2, ![1, 800000]⟩ ![r, 0] ei hsl) hsc⟩,
         ⟨⟨1, ![50000]⟩, iotaInDim ⟨1, ![50000]⟩ 32 0⟩] hcc (ix1 e)
      = Cert.Gcn.edgeOf ⟨r, hr⟩ ei e := by
  refine (concat_iota_apply _ hcc e).trans ?_
  unfold Cert.Gcn.edgeOf
  by_cases h : e.val < 800000
  · rw [dif_pos h, dif_pos h]; exact row_of_two_apply r hr ei hsl hsc ⟨e.val, h⟩
  · rw [dif_neg h, dif_neg h]

end Cert.GcnGlue

end
-- ==== Proof.KI.ReadAt.lean ====
/- Operations read at an index, shared by the regions' value legs: a column of entries broadcast along the rows, and the
   product of a 2000 x 128 block with the 128 x 128 weight matrix, which at the ideal values is the plain sum over the
   contracted coordinate. -/
import proofs.«168650_j27212912787479_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic
open Idealize.ShloMosaic.ValueIdx
open Cert.KernelIdeal
open scoped BigOperators

/-- The zero offsets of a rank-2 rectangle, spelt as the constant function. -/
theorem zeros2 : (![0, 0] : Fin 2 → Nat) = fun _ => 0 := funext fun a => by fin_cases a <;> rfl

/-- An `[a, 1]` column broadcast to `[a, b]` reads, at `(p, c)`, the column's entry at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The block's product with the weight matrix into a zero accumulator, at row `p` and column `q`: the sum over the
    contracted coordinate `k` of the block's entry at `(p, k)` times the matrix's at `(k, q)`. -/
theorem matmul_rows_at {φ₁ φ₂ : FTy} (A : FVec Ideal S2000x128 φ₁) (B : FVec Ideal S128x128 φ₂) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  show FloatOps.matmul dot_S2000x128_S128x128_S2000x128_1_0_0_1_n_n none A B (constant (F := Ideal) S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have c2 := contrEquiv1_symm_val dot_S2000x128_S128x128_S2000x128_1_0_0_1_n_n 128 rfl rfl k
  have l2 : dot_S2000x128_S128x128_S2000x128_1_0_0_1_n_n.lhsIdx (ix2 p q) ((contrEquiv1 dot_S2000x128_S128x128_S2000x128_1_0_0_1_n_n 128 rfl rfl).symm k) = ix2 p k := by
    funext ax; apply Fin.ext
    match ax with
    | ⟨0, _⟩ => simp [DotDims.lhsIdx, dot_S2000x128_S128x128_S2000x128_1_0_0_1_n_n]; rfl
    | ⟨1, _⟩ => simp [DotDims.lhsIdx, dot_S2000x128_S128x128_S2000x128_1_0_0_1_n_n]; exact c2
  have r2 : dot_S2000x128_S128x128_S2000x128_1_0_0_1_n_n.rhsIdx (ix2 p q) ((contrEquiv1 dot_S2000x128_S128x128_S2000x128_1_0_0_1_n_n 128 rfl rfl).symm k) = ix2 k q := by
    funext ax; apply Fin.ext
    match ax with
    | ⟨0, _⟩ => simp [DotDims.rhsIdx, dot_S2000x128_S128x128_S2000x128_1_0_0_1_n_n]; exact c2
    | ⟨1, _⟩ => simp [DotDims.rhsIdx, dot_S2000x128_S128x128_S2000x128_1_0_0_1_n_n]; rfl
  rw [l2, r2]

end Cert.KernelIdeal.Hand

end
-- ==== Proof.KI.Val1.lean ====
/- The values of regions 1 and 3 at the ideal instance: what the three output arrays of the first statistics kernel hold
   after its region, as functions of the arrays the region finds. Output 3 is `h = agg · dinv + b` row by row; outputs
   4 and 5 are the column sums of `h` and of `h · h` over all the rows, accumulated block by block. -/
import proofs.«168650_j27212912787479_2_alg».proof.Proof.KI.Reg1
import Idealize.ShloMosaic.Lib.Pipeline.Value
import Idealize.ShloMosaic.Lib.ValueIdx
import Idealize.ShloMosaic.Lib.ValueLayout
import Idealize.ShloMosaic.PureOps.Ideal.Laws
import proofs.«168650_j27212912787479_2_alg».proof.Proof.KI.ReadAt
import proofs.«168650_j27212912787479_2_alg».proof.Proof.Model
set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

/-- `h = agg · dinv + b` over the whole node array: row `n`, feature `f` is `agg[n, f] · dinv[n] + b[f]`. -/
def G1h (agg : S50000x128.Idx → EReal) (dv : S50000x1.Idx → EReal) (b : S1x128.Idx → EReal) : S50000x128.Idx → EReal :=
  fun i => agg i * dv (ix2 (i 0) 0) + b (ix2 0 (i 1))

/-- The stored block at row `p`, feature `q`: `agg · dinv + b` of the loaded blocks there. -/
theorem pay1_3_apply (x0 : Vec Ideal S2000x128 .f32) (x1 : Vec Ideal S2000x1 .f32) (x2 : Vec Ideal S1x128 .f32) (p : Fin 2000) (q : Fin 128) :
    k1_pay3 (F := Ideal) x0 x1 x2 (ix2 p q) = x0 (ix2 p q) * x1 (ix2 p 0) + x2 (ix2 0 q) := by
  unfold k1_pay3
  rw [addf_apply, mulf_apply, shapeCast_self, shapeCast_self, shapeCast_self, broadcastTo_a1_ab_apply, broadcastTo_1b_ab_apply]

/-- The column sums of a node array: at feature `f`, the sum over the 50000 rows. -/
def colSum (h : S50000x128.Idx → EReal) : S1x128.Idx → EReal := fun j => ∑ n : Fin 50000, h (ix2 n (j 1))
/-- The column sums of its squares. -/
def colSumSq (h : S50000x128.Idx → EReal) : S1x128.Idx → EReal := fun j => ∑ n : Fin 50000, h (ix2 n (j 1)) * h (ix2 n (j 1))

theorem colSum_eq (h : S50000x128.Idx → EReal) : colSum h = fun j => ∑ n : Fin 50000, h (ix2 n (j 1)) := rfl
theorem colSumSq_eq (h : S50000x128.Idx → EReal) : colSumSq h = fun j => ∑ n : Fin 50000, h (ix2 n (j 1)) * h (ix2 n (j 1)) := rfl
theorem colSum_ix2 (h : S50000x128.Idx → EReal) (u : Fin 1) (q : Fin 128) : colSum h (ix2 u q) = ∑ n : Fin 50000, h (ix2 n q) := rfl
theorem colSumSq_ix2 (h : S50000x128.Idx → EReal) (u : Fin 1) (q : Fin 128) :
    colSumSq h (ix2 u q) = ∑ n : Fin 50000, h (ix2 n q) * h (ix2 n q) := rfl
-- a sum over the 50000 rows is never to be unfolded by the unifier: the four equations above open it
attribute [irreducible] colSum colSumSq

variable (V : (c : Dev nD) → (b : Ref sig .tc) → Buf (Elt Ideal) ((c : Thread nD τ).loc b))

/-- The printed index maps over the grid: the three row-blocked windows sit at block `t` of the row axis, the three
    one-row windows at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

theorem lt25_1 (t : Fin cfg1.N) : t.val < 25 := lt_of_lt_of_eq t.isLt (show cfg1.N = 25 from N_1)

/-- Row `p` of block `t`, as a row of the node array. -/
def row1 (t : Fin cfg1.N) (p : Fin 2000) : Fin 50000 := ⟨2000 * t.val + p.val, by have := lt25_1 t; have := p.isLt; omega⟩

/-- The `agg` block at point `t` reads the array's rows `2000 t + p`; -/
theorem iblk1_0_apply (c : Dev nD) (t : Fin cfg1.N) (p : Fin 2000) (q : Fin 128) :
    (iblk1 V c 0 t : Vec Ideal S2000x128 .f32) (ix2 p q) = (V c main_v28 : S50000x128.Idx → EReal) (ix2 (row1 t p) q) := by
  obtain ⟨e0, e1, -⟩ := idx_facts1 t
  show (V c main_v28 : S50000x128.Idx → EReal) (((cfg1.win 0).blk t).view.emb (ix2 p q)) = _
  refine congrArg _ (funext fun a => Fin.ext ?_)
  match a with
  | ⟨0, _⟩ => show win1_0.index t (0 : Fin 2) * 2000 + 1 * p.val = 2000 * t.val + p.val; rw [e0]; omega
  | ⟨1, _⟩ => show win1_0.index t (1 : Fin 2) * 128 + 1 * q.val = q.val; rw [e1]; omega

/-- the `dinv` block likewise; -/
theorem iblk1_1_apply (c : Dev nD) (t : Fin cfg1.N) (p : Fin 2000) (u : Fin 1) :
    (iblk1 V c 1 t : Vec Ideal S2000x1 .f32) (ix2 p u) = (V c main_v16 : S50000x1.Idx → EReal) (ix2 (row1 t p) 0) := by
  obtain ⟨-, -, e0, e1, -⟩ := idx_facts1 t
  show (V c main_v16 : S50000x1.Idx → EReal) (((cfg1.win 1).blk t).view.emb (ix2 p u)) = _
  refine congrArg _ (funext fun a => Fin.ext ?_)
  match a with
  | ⟨0, _⟩ => show win1_1.index t (0 : Fin 2) * 2000 + 1 * p.val = 2000 * t.val + p.val; rw [e0]; omega
  | ⟨1, _⟩ => show win1_1.index t (1 : Fin 2) * 1 + 1 * u.val = 0; rw [e1]; omega

/-- and the bias block is the bias row at every point. -/
theorem iblk1_2_apply (c : Dev nD) (t : Fin cfg1.N) (u : Fin 1) (q : Fin 128) :
    (iblk1 V c 2 t : Vec Ideal S1x128 .f32) (ix2 u q) = (V c main_v29 : S1x128.Idx → EReal) (ix2 0 q) := by
  obtain ⟨-, -, -, -, e0, e1, -⟩ := idx_facts1 t
  show (V c main_v29 : S1x128.Idx → EReal) (((cfg1.win 2).blk t).view.emb (ix2 u q)) = _
  refine congrArg _ (funext fun a => Fin.ext ?_)
  match a with
  | ⟨0, _⟩ => show win1_2.index t (0 : Fin 2) * 1 + 1 * u.val = 0; rw [e0]; omega
  | ⟨1, _⟩ => show win1_2.index t (1 : Fin 2) * 128 + 1 * q.val = q.val; rw [e1]; omega

/-- What the body stores at point `t`, at row `p` and feature `q` of the block: `h` at row `2000 t + p`. -/
theorem pay1_3_blk (c : Dev nD) (t : Fin cfg1.N) (p : Fin 2000) (q : Fin 128) :
    k1_pay3 (F := Ideal) (iblk1 V c 0 t) (iblk1 V c 1 t) (iblk1 V c 2 t) (ix2 p q)
      = G1h (V c main_v28) (V c main_v16) (V c main_v29) (ix2 (row1 t p) q) := by
  rw [pay1_3_apply, iblk1_0_apply, iblk1_1_apply, iblk1_2_apply]
  rfl

/-! ## Output 3: the array ends at `h` -/

/-- What point `t` writes back is block `t` of `h` of the entry arrays. -/
theorem flushed1_3_eq (c : Dev nD) (t : Fin cfg1.N) :
    (dat1 V c).flushed 3 t = ((cfg1.win 3).blk t).view.read (Elt Ideal) (G1h (V c main_v28) (V c main_v16) (V c main_v29)) := by
  show (cfg1.win 3).cut (grid1.coords t) ((dat1 V c).after 3 t) = _
  rw [after1_3_val]
  funext j
  obtain ⟨p, q, rfl⟩ : ∃ (p : Fin 2000) (q : Fin 128), j = ix2 p q := ⟨j 0, j 1, eq_ix2 j⟩
  show k1_pay3 (F := Ideal) (iblk1 V c 0 t) (iblk1 V c 1 t) (iblk1 V c 2 t) (ix2 p q)
    = G1h (V c main_v28) (V c main_v16) (V c main_v29) (((cfg1.win 3).blk t).view.emb (ix2 p q))
  rw [pay1_3_blk]
  obtain ⟨-, -, -, -, -, -, e0, e1, -⟩ := idx_facts1 t
  refine congrArg _ (funext fun a => Fin.ext ?_)
  match a with
  | ⟨0, _⟩ => show 2000 * t.val + p.val = win1_3.index t (0 : Fin 2) * 2000 + 1 * p.val; rw [e0]; omega
  | ⟨1, _⟩ => show q.val = win1_3.index t (1 : Fin 2) * 128 + 1 * q.val; rw [e1]; omega

/-- An index of the array is in point `t`'s block iff each coordinate is in the block's range on its axis. -/
theorem mem_blk1_3 (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v30_0).slice (win1_3.rect t)).set ↔ _
  rw [View.set_slice_whole, Rect.mem_set_unit]
  exact Iff.rfl

/-- Every row of the array is in the block of the point `row / 2000`. -/
theorem cover1_3 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  have ht : (i 0).val / 2000 < cfg1.N := by rw [show cfg1.N = 25 from N_1]; omega
  obtain ⟨-, -, -, -, -, -, e0, e1, -⟩ := idx_facts1 ⟨(i 0).val / 2000, ht⟩
  refine ⟨⟨(i 0).val / 2000, ht⟩, flush1_3 _, ?_⟩
  rw [mem_blk1_3]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e0]; dsimp only; omega
  | ⟨1, _⟩ =>
    show win1_3.index ⟨(i 0).val / 2000, ht⟩ (1 : Fin 2) * 128 ≤ (i 1).val ∧ (i 1).val < win1_3.index ⟨(i 0).val / 2000, ht⟩ (1 : Fin 2) * 128 + 128
    rw [e1]; omega

/-- THE ARRAY of output 3 after the region: `h = agg · dinv + b` of the entry arrays. -/
theorem final1_3 (c : Dev nD) : (dat1 V c).arrAt 3 cfg1.N = G1h (V c main_v28) (V c main_v16) (V c main_v29) :=
  (dat1 V c).arrAt_eq_of_cover 3 (G1h (V c main_v28) (V c main_v16) (V c main_v29)) (fun t _ => flushed1_3_eq V c t) cover1_3

/-! ## The two accumulators at the ideal instance -/

/-- The zero row the reset stores. -/
theorem pay1_1_apply (u : Fin 1) (q : Fin 128) : k1_pay1 (F := Ideal) (ix2 u q) = 0 := by
  unfold k1_pay1
  rw [shapeCast_self, broadcast_apply]
  exact Ideal.ofBits_zero_f32

theorem pay1_2_apply (u : Fin 1) (q : Fin 128) : k1_pay2 (F := Ideal) (ix2 u q) = 0 := by
  unfold k1_pay2
  rw [shapeCast_self, broadcast_apply]
  exact Ideal.ofBits_zero_f32

/-- The first accumulator's update at feature `q`: what it held plus the block's column sum of `h`. -/
theorem pay1_4_apply (x0 : Vec Ideal S2000x128 .f32) (x1 : Vec Ideal S2000x1 .f32) (x2 : Vec Ideal S1x128 .f32)
    (s : Vec Ideal S1x128 .f32) (u : Fin 1) (q : Fin 128) :
    k1_pay4 (F := Ideal) x0 x1 x2 s (ix2 u q) = s (ix2 u q) + ∑ k : Fin 2000, k1_pay3 (F := Ideal) x0 x1 x2 (ix2 k q) := by
  unfold k1_pay4
  rw [shapeCast_self, addf_apply, shapeCast_a_1a_apply]
  refine congrArg (s (ix2 u q) + ·) ?_
  refine (Ideal.multiReduction_add_single (k1_pay3 (F := Ideal) x0 x1 x2) 0x00000000#32 reduces_S2000x128_S128 (.inl rfl) rfl (ix1 q)).trans ?_
  refine Finset.sum_congr rfl fun k _ => congrArg _ (funext fun a => Fin.ext ?_)
  match a with
  | ⟨0, _⟩ => rfl
  | ⟨1, _⟩ => rfl

/-- The second accumulator's update: what it held plus the block's column sum of `h · h`. -/
theorem pay1_5_apply (x0 : Vec Ideal S2000x128 .f32) (x1 : Vec Ideal S2000x1 .f32) (x2 : Vec Ideal S1x128 .f32)
    (s : Vec Ideal S1x128 .f32) (u : Fin 1) (q : Fin 128) :
    k1_pay5 (F := Ideal) x0 x1 x2 s (ix2 u q)
      = s (ix2 u q) + ∑ k : Fin 2000, k1_pay3 (F := Ideal) x0 x1 x2 (ix2 k q) * k1_pay3 (F := Ideal) x0 x1 x2 (ix2 k q) := by
  unfold k1_pay5
  rw [shapeCast_self, addf_apply, shapeCast_a_1a_apply]
  refine congrArg (s (ix2 u q) + ·) ?_
  refine (Ideal.multiReduction_add_single (mulf (k1_pay3 (F := Ideal) x0 x1 x2) (k1_pay3 (F := Ideal) x0 x1 x2)) 0x00000000#32 reduces_S2000x128_S128 (.inl rfl) rfl (ix1 q)).trans ?_
  refine Finset.sum_congr rfl fun k _ => ?_
  rw [mulf_apply]
  have e : reduces_S2000x128_S128.lift (ix1 q) k = ix2 k q := funext fun a => Fin.ext (by
    match a with
    | ⟨0, _⟩ => rfl
    | ⟨1, _⟩ => rfl)
  rw [e]
  all_goals rfl

/-! ## Rows of the node array, block by block -/

/-- Row `p` of block `t` ↔ row `2000 t + p` of the array: the 25 blocks of 2000 rows are the 50000 rows. -/
def rowEquiv1 : Fin cfg1.N × Fin 2000 ≃ Fin 50000 where
  toFun x := row1 x.1 x.2
  invFun n := (⟨n.val / 2000, by rw [show cfg1.N = 25 from N_1]; have := n.isLt; omega⟩, ⟨n.val % 2000, Nat.mod_lt _ (by decide)⟩)
  left_inv := fun ⟨t, k⟩ => by
    have := lt25_1 t; have := k.isLt
    refine Prod.ext (Fin.ext ?_) (Fin.ext ?_)
    · show (2000 * t.val + k.val) / 2000 = t.val; omega
    · show (2000 * t.val + k.val) % 2000 = k.val; omega
  right_inv := fun n => Fin.ext (by show 2000 * (n.val / 2000) + n.val % 2000 = n.val; omega)

/-- A sum over the blocks of the sums over each block's rows is the sum over all the rows. -/
theorem sum_rows1 (f : Fin 50000 → EReal) : ∑ t : Fin cfg1.N, ∑ k : Fin 2000, f (row1 t k) = ∑ n : Fin 50000, f n := by
  rw [← Fintype.sum_prod_type' (fun t k => f (row1 t k))]
  exact Fintype.sum_equiv rowEquiv1 _ _ (fun _ => rfl)

/-- The points up to `n + 1` are the points up to `n` and the point `n + 1`. -/
theorem upto1_succ (n : ℕ) (hn : n + 1 < cfg1.N) :
    Finset.univ.filter (fun t : Fin cfg1.N => t.val ≤ n + 1) = insert ⟨n + 1, hn⟩ (Finset.univ.filter (fun t : Fin cfg1.N => t.val ≤ n)) := by
  ext t
  simp only [Finset.mem_filter, Finset.mem_univ, true_and, Finset.mem_insert, Fin.ext_iff]
  omega

theorem upto1_zero (hn : 0 < cfg1.N) : Finset.univ.filter (fun t : Fin cfg1.N => t.val ≤ 0) = {⟨0, hn⟩} := by
  ext t
  simp only [Finset.mem_filter, Finset.mem_univ, true_and, Finset.mem_singleton, Fin.ext_iff]
  omega

/-- THE FIRST RUNNING SUM after point `n`, at feature `q`: the column sums of `h` over the blocks up to `n`. -/
theorem acc1_fst_apply (c : Dev nD) (u : Fin 1) (q : Fin 128) : ∀ (n : ℕ) (hn : n < cfg1.N),
    (acc1 V c n hn).1 (ix2 u q)
      = ∑ t ∈ Finset.univ.filter (fun t : Fin cfg1.N => t.val ≤ n), ∑ k : Fin 2000,
          G1h (V c main_v28) (V c main_v16) (V c main_v29) (ix2 (row1 t k) q)
  | 0, hn => by
    rw [acc1_zero_eq]; dsimp only
    rw [pay1_4_apply, pay1_1_apply, zero_add, upto1_zero hn, Finset.sum_singleton]
    exact Finset.sum_congr rfl fun k _ => pay1_3_blk V c ⟨0, hn⟩ k q
  | n + 1, hn => by
    rw [acc1_succ_eq]; dsimp only
    rw [pay1_4_apply, acc1_fst_apply c u q n (Nat.lt_of_succ_lt hn), upto1_succ n hn,
      Finset.sum_insert (by simp only [Finset.mem_filter, Finset.mem_univ, true_and]; omega), add_comm]
    refine congrArg (· + _) ?_
    exact Finset.sum_congr rfl fun k _ => pay1_3_blk V c ⟨n + 1, hn⟩ k q

/-- THE SECOND RUNNING SUM: the column sums of `h · h`. -/
theorem acc1_snd_apply (c : Dev nD) (u : Fin 1) (q : Fin 128) : ∀ (n : ℕ) (hn : n < cfg1.N),
    (acc1 V c n hn).2 (ix2 u q)
      = ∑ t ∈ Finset.univ.filter (fun t : Fin cfg1.N => t.val ≤ n), ∑ k : Fin 2000,
          G1h (V c main_v28) (V c main_v16) (V c main_v29) (ix2 (row1 t k) q) * G1h (V c main_v28) (V c main_v16) (V c main_v29) (ix2 (row1 t k) q)
  | 0, hn => by
    rw [acc1_zero_eq]; dsimp only
    rw [pay1_5_apply, pay1_2_apply, zero_add, upto1_zero hn, Finset.sum_singleton]
    exact Finset.sum_congr rfl fun k _ => by rw [pay1_3_blk V c ⟨0, hn⟩ k q]
  | n + 1, hn => by
    rw [acc1_succ_eq]; dsimp only
    rw [pay1_5_apply, acc1_snd_apply c u q n (Nat.lt_of_succ_lt hn), upto1_succ n hn,
      Finset.sum_insert (by simp only [Finset.mem_filter, Finset.mem_univ, true_and]; omega), add_comm]
    refine congrArg (· + _) ?_
    exact Finset.sum_congr rfl fun k _ => by rw [pay1_3_blk V c ⟨n + 1, hn⟩ k q]

/-! ## Outputs 4 and 5: the arrays end at the column sums over all the rows -/

/-- An index of output 4's one-row array is in point `t`'s block iff each coordinate is in the block's range. -/
theorem mem_blk1_4 (t : Fin cfg1.N) (i : S1x128.Idx) :
    i ∈ ((cfg1.win 4).blk t).view.set ↔ ∀ a : Fin 2, win1_4.index t a * S1x128.size a ≤ (i a).val ∧ (i a).val < win1_4.index t a * S1x128.size a + S1x128.size a := by
  show i ∈ ((View.whole main_v30_1).slice (win1_4.rect t)).set ↔ _
  rw [View.set_slice_whole, Rect.mem_set_unit]
  exact Iff.rfl

/-- The one write-back of output 4, at the last point, writes the running sum after all 25 blocks: the column sums
    over every row of the node array. -/
theorem flushed1_4_eq (c : Dev nD) (t : Fin cfg1.N) (hf : (cfg1.win 4).flush t = true) :
    (dat1 V c).flushed 4 t = ((cfg1.win 4).blk t).view.read (Elt Ideal) (colSum (G1h (V c main_v28) (V c main_v16) (V c main_v29))) := by
  have h24 : t.val = 24 := by have := (flush1_4 t).mp hf; have := lt25_1 t; omega
  show (cfg1.win 4).cut (grid1.coords t) ((dat1 V c).after 4 t) = _
  rw [after1_4]
  funext j
  obtain ⟨u, q, rfl⟩ : ∃ (u : Fin 1) (q : Fin 128), j = ix2 u q := ⟨j 0, j 1, eq_ix2 j⟩
  have e : ((cfg1.win 4).blk t).view.emb (ix2 u q) = (ix2 (0 : Fin 1) q : S1x128.Idx) := by
    obtain ⟨-, -, -, -, -, -, -, -, e0, e1, -⟩ := idx_facts1 t
    have hu : u.val = 0 := by omega
    refine funext fun a => Fin.ext ?_
    match a with
    | ⟨0, _⟩ => show win1_4.index t (0 : Fin 2) * 1 + 1 * u.val = 0; rw [e0]; omega
    | ⟨1, _⟩ => show win1_4.index t (1 : Fin 2) * 128 + 1 * q.val = q.val; rw [e1]; omega
  show (acc1 V c t.val t.isLt).1 (ix2 u q) = colSum (G1h (V c main_v28) (V c main_v16) (V c main_v29)) (((cfg1.win 4).blk t).view.emb (ix2 u q))
  rw [e, colSum_ix2, acc1_fst_apply V c u q t.val t.isLt,
    Finset.filter_true_of_mem (fun t' _ => by have := lt25_1 t'; omega)]
  exact sum_rows1 (fun n => G1h (V c main_v28) (V c main_v16) (V c main_v29) (ix2 n q))

/-- The last point's block is the whole one-row array. -/
theorem cover1_4 (i : S1x128.Idx) : ∃ t : Fin cfg1.N, (cfg1.win 4).flush t = true ∧ i ∈ ((cfg1.win 4).blk t).view.set := by
  have h : 24 < cfg1.N := by rw [show cfg1.N = 25 from N_1]; omega
  have hi0 : (i 0).val < 1 := (i 0).isLt
  have hi1 : (i 1).val < 128 := (i 1).isLt
  obtain ⟨-, -, -, -, -, -, -, -, e0, e1, -⟩ := idx_facts1 ⟨24, h⟩
  refine ⟨⟨24, h⟩, (flush1_4 _).mpr rfl, ?_⟩
  rw [mem_blk1_4]
  intro a
  match a with
  | ⟨0, _⟩ =>
    show win1_4.index ⟨24, h⟩ (0 : Fin 2) * 1 ≤ (i 0).val ∧ (i 0).val < win1_4.index ⟨24, h⟩ (0 : Fin 2) * 1 + 1
    rw [e0]; omega
  | ⟨1, _⟩ =>
    show win1_4.index ⟨24, h⟩ (1 : Fin 2) * 128 ≤ (i 1).val ∧ (i 1).val < win1_4.index ⟨24, h⟩ (1 : Fin 2) * 128 + 128
    rw [e1]; omega

/-- THE ARRAY of output 4 after the region: the column sums of `h` over the 50000 rows. -/
theorem final1_4 (c : Dev nD) : (dat1 V c).arrAt 4 cfg1.N = colSum (G1h (V c main_v28) (V c main_v16) (V c main_v29)) :=
  (dat1 V c).arrAt_eq_of_cover 4 (colSum (G1h (V c main_v28) (V c main_v16) (V c main_v29))) (fun t hf => flushed1_4_eq V c t hf) cover1_4

/-- An index of output 5's one-row array is in point `t`'s block iff each coordinate is in the block's range. -/
theorem mem_blk1_5 (t : Fin cfg1.N) (i : S1x128.Idx) :
    i ∈ ((cfg1.win 5).blk t).view.set ↔ ∀ a : Fin 2, win1_5.index t a * S1x128.size a ≤ (i a).val ∧ (i a).val < win1_5.index t a * S1x128.size a + S1x128.size a := by
  show i ∈ ((View.whole main_v30_2).slice (win1_5.rect t)).set ↔ _
  rw [View.set_slice_whole, Rect.mem_set_unit]
  exact Iff.rfl

/-- The one write-back of output 5, at the last point, writes the running sum after all 25 blocks: the column sums
    over every row of the node array. -/
theorem flushed1_5_eq (c : Dev nD) (t : Fin cfg1.N) (hf : (cfg1.win 5).flush t = true) :
    (dat1 V c).flushed 5 t = ((cfg1.win 5).blk t).view.read (Elt Ideal) (colSumSq (G1h (V c main_v28) (V c main_v16) (V c main_v29))) := by
  have h24 : t.val = 24 := by have := (flush1_5 t).mp hf; have := lt25_1 t; omega
  show (cfg1.win 5).cut (grid1.coords t) ((dat1 V c).after 5 t) = _
  rw [after1_5]
  funext j
  obtain ⟨u, q, rfl⟩ : ∃ (u : Fin 1) (q : Fin 128), j = ix2 u q := ⟨j 0, j 1, eq_ix2 j⟩
  have e : ((cfg1.win 5).blk t).view.emb (ix2 u q) = (ix2 (0 : Fin 1) q : S1x128.Idx) := by
    obtain ⟨-, -, -, -, -, -, -, -, -, -, e0, e1⟩ := idx_facts1 t
    have hu : u.val = 0 := by omega
    refine funext fun a => Fin.ext ?_
    match a with
    | ⟨0, _⟩ => show win1_5.index t (0 : Fin 2) * 1 + 1 * u.val = 0; rw [e0]; omega
    | ⟨1, _⟩ => show win1_5.index t (1 : Fin 2) * 128 + 1 * q.val = q.val; rw [e1]; omega
  show (acc1 V c t.val t.isLt).2 (ix2 u q) = colSumSq (G1h (V c main_v28) (V c main_v16) (V c main_v29)) (((cfg1.win 5).blk t).view.emb (ix2 u q))
  rw [e, colSumSq_ix2, acc1_snd_apply V c u q t.val t.isLt,
    Finset.filter_true_of_mem (fun t' _ => by have := lt25_1 t'; omega)]
  exact sum_rows1 (fun n => G1h (V c main_v28) (V c main_v16) (V c main_v29) (ix2 n q) * G1h (V c main_v28) (V c main_v16) (V c main_v29) (ix2 n q))

/-- The last point's block is the whole one-row array. -/
theorem cover1_5 (i : S1x128.Idx) : ∃ t : Fin cfg1.N, (cfg1.win 5).flush t = true ∧ i ∈ ((cfg1.win 5).blk t).view.set := by
  have h : 24 < cfg1.N := by rw [show cfg1.N = 25 from N_1]; omega
  have hi0 : (i 0).val < 1 := (i 0).isLt
  have hi1 : (i 1).val < 128 := (i 1).isLt
  obtain ⟨-, -, -, -, -, -, -, -, -, -, e0, e1⟩ := idx_facts1 ⟨24, h⟩
  refine ⟨⟨24, h⟩, (flush1_5 _).mpr rfl, ?_⟩
  rw [mem_blk1_5]
  intro a
  match a with
  | ⟨0, _⟩ =>
    show win1_5.index ⟨24, h⟩ (0 : Fin 2) * 1 ≤ (i 0).val ∧ (i 0).val < win1_5.index ⟨24, h⟩ (0 : Fin 2) * 1 + 1
    rw [e0]; omega
  | ⟨1, _⟩ =>
    show win1_5.index ⟨24, h⟩ (1 : Fin 2) * 128 ≤ (i 1).val ∧ (i 1).val < win1_5.index ⟨24, h⟩ (1 : Fin 2) * 128 + 128
    rw [e1]; omega

/-- THE ARRAY of output 5 after the region: the column sums of `h · h` over the 50000 rows. -/
theorem final1_5 (c : Dev nD) : (dat1 V c).arrAt 5 cfg1.N = colSumSq (G1h (V c main_v28) (V c main_v16) (V c main_v29)) :=
  (dat1 V c).arrAt_eq_of_cover 5 (colSumSq (G1h (V c main_v28) (V c main_v16) (V c main_v29))) (fun t hf => flushed1_5_eq V c t hf) cover1_5

/-! ## Over real arrays: the three closed forms of coercions are coercions -/

theorem G1h_coe (agg : Fin 50000 → Fin 128 → ℝ) (dv : Fin 50000 → ℝ) (b : Fin 128 → ℝ) :
    G1h (fun i => ((agg (i 0) (i 1) : ℝ) : EReal)) (fun i => ((dv (i 0) : ℝ) : EReal)) (fun i => ((b (i 1) : ℝ) : EReal))
      = fun i => ((agg (i 0) (i 1) * dv (i 0) + b (i 1) : ℝ) : EReal) := by
  funext i
  show ((agg (i 0) (i 1) : ℝ) : EReal) * ((dv (i 0) : ℝ) : EReal) + ((b (i 1) : ℝ) : EReal) = _
  rw [← EReal.coe_mul, ← EReal.coe_add]

theorem colSum_coe (f : Fin 50000 → Fin 128 → ℝ) :
    colSum (fun i => ((f (i 0) (i 1) : ℝ) : EReal)) = fun j => ((∑ n : Fin 50000, f n (j 1) : ℝ) : EReal) := by
  rw [colSum_eq]
  funext j
  exact (Cert.Gcn.coe_sum Finset.univ fun n => f n (j 1)).symm

theorem colSumSq_coe (f : Fin 50000 → Fin 128 → ℝ) :
    colSumSq (fun i => ((f (i 0) (i 1) : ℝ) : EReal)) = fun j => ((∑ n : Fin 50000, f n (j 1) * f n (j 1) : ℝ) : EReal) := by
  rw [colSumSq_eq]
  funext j
  exact (Finset.sum_congr rfl fun n _ => (EReal.coe_mul _ _).symm).trans
    (Cert.Gcn.coe_sum Finset.univ fun n => f n (j 1) * f n (j 1)).symm

end Cert.KernelIdeal.Hand

end
-- ==== Proof.KI.Val3.lean ====
/- The values of region 3 at the ideal instance: what the three output arrays of the second statistics kernel hold after
   its region, as functions of the arrays the region finds — `h = agg · dinv + b` row by row, and the column sums of
   `h` and of `h · h` over all the rows. -/
import proofs.«168650_j27212912787479_2_alg».proof.Proof.KI.Reg3
import Idealize.ShloMosaic.Lib.Pipeline.Value
import Idealize.ShloMosaic.Lib.ValueIdx
import Idealize.ShloMosaic.Lib.ValueLayout
import Idealize.ShloMosaic.PureOps.Ideal.Laws
import proofs.«168650_j27212912787479_2_alg».proof.Proof.KI.Val1
set_option maxRecDepth 16384

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

/-- The stored block at row `p`, feature `q`: `agg · dinv + b` of the loaded blocks there. -/
theorem pay3_3_apply (x0 : Vec Ideal S2000x128 .f32) (x1 : Vec Ideal S2000x1 .f32) (x2 : Vec Ideal S1x128 .f32) (p : Fin 2000) (q : Fin 128) :
    k3_pay3 (F := Ideal) x0 x1 x2 (ix2 p q) = x0 (ix2 p q) * x1 (ix2 p 0) + x2 (ix2 0 q) := by
  unfold k3_pay3
  rw [addf_apply, mulf_apply, shapeCast_self, shapeCast_self, shapeCast_self, broadcastTo_a1_ab_apply, broadcastTo_1b_ab_apply]

variable (V : (c : Dev nD) → (b : Ref sig .tc) → Buf (Elt Ideal) ((c : Thread nD τ).loc b))

/-- The printed index maps over the grid: the three row-blocked windows sit at block `t` of the row axis, the three
    one-row windows at block 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

theorem lt25_3 (t : Fin cfg3.N) : t.val < 25 := lt_of_lt_of_eq t.isLt (show cfg3.N = 25 from N_3)

/-- Row `p` of block `t`, as a row of the node array. -/
def row3 (t : Fin cfg3.N) (p : Fin 2000) : Fin 50000 := ⟨2000 * t.val + p.val, by have := lt25_3 t; have := p.isLt; omega⟩

/-- The `agg` block at point `t` reads the array's rows `2000 t + p`; -/
theorem iblk3_0_apply (c : Dev nD) (t : Fin cfg3.N) (p : Fin 2000) (q : Fin 128) :
    (iblk3 V c 0 t : Vec Ideal S2000x128 .f32) (ix2 p q) = (V c main_v52 : S50000x128.Idx → EReal) (ix2 (row3 t p) q) := by
  obtain ⟨e0, e1, -⟩ := idx_facts3 t
  show (V c main_v52 : S50000x128.Idx → EReal) (((cfg3.win 0).blk t).view.emb (ix2 p q)) = _
  refine congrArg _ (funext fun a => Fin.ext ?_)
  match a with
  | ⟨0, _⟩ => show win3_0.index t (0 : Fin 2) * 2000 + 1 * p.val = 2000 * t.val + p.val; rw [e0]; omega
  | ⟨1, _⟩ => show win3_0.index t (1 : Fin 2) * 128 + 1 * q.val = q.val; rw [e1]; omega

/-- the `dinv` block likewise; -/
theorem iblk3_1_apply (c : Dev nD) (t : Fin cfg3.N) (p : Fin 2000) (u : Fin 1) :
    (iblk3 V c 1 t : Vec Ideal S2000x1 .f32) (ix2 p u) = (V c main_v16 : S50000x1.Idx → EReal) (ix2 (row3 t p) 0) := by
  obtain ⟨-, -, e0, e1, -⟩ := idx_facts3 t
  show (V c main_v16 : S50000x1.Idx → EReal) (((cfg3.win 1).blk t).view.emb (ix2 p u)) = _
  refine congrArg _ (funext fun a => Fin.ext ?_)
  match a with
  | ⟨0, _⟩ => show win3_1.index t (0 : Fin 2) * 2000 + 1 * p.val = 2000 * t.val + p.val; rw [e0]; omega
  | ⟨1, _⟩ => show win3_1.index t (1 : Fin 2) * 1 + 1 * u.val = 0; rw [e1]; omega

/-- and the bias block is the bias row at every point. -/
theorem iblk3_2_apply (c : Dev nD) (t : Fin cfg3.N) (u : Fin 1) (q : Fin 128) :
    (iblk3 V c 2 t : Vec Ideal S1x128 .f32) (ix2 u q) = (V c main_v53 : S1x128.Idx → EReal) (ix2 0 q) := by
  obtain ⟨-, -, -, -, e0, e1, -⟩ := idx_facts3 t
  show (V c main_v53 : S1x128.Idx → EReal) (((cfg3.win 2).blk t).view.emb (ix2 u q)) = _
  refine congrArg _ (funext fun a => Fin.ext ?_)
  match a with
  | ⟨0, _⟩ => show win3_2.index t (0 : Fin 2) * 1 + 1 * u.val = 0; rw [e0]; omega
  | ⟨1, _⟩ => show win3_2.index t (1 : Fin 2) * 128 + 1 * q.val = q.val; rw [e1]; omega

/-- What the body stores at point `t`, at row `p` and feature `q` of the block: `h` at row `2000 t + p`. -/
theorem pay3_3_blk (c : Dev nD) (t : Fin cfg3.N) (p : Fin 2000) (q : Fin 128) :
    k3_pay3 (F := Ideal) (iblk3 V c 0 t) (iblk3 V c 1 t) (iblk3 V c 2 t) (ix2 p q)
      = G1h (V c main_v52) (V c main_v16) (V c main_v53) (ix2 (row3 t p) q) := by
  rw [pay3_3_apply, iblk3_0_apply, iblk3_1_apply, iblk3_2_apply]
  rfl

/-! ## Output 3: the array ends at `h` -/

/-- What point `t` writes back is block `t` of `h` of the entry arrays. -/
theorem flushed3_3_eq (c : Dev nD) (t : Fin cfg3.N) :
    (dat3 V c).flushed 3 t = ((cfg3.win 3).blk t).view.read (Elt Ideal) (G1h (V c main_v52) (V c main_v16) (V c main_v53)) := by
  show (cfg3.win 3).cut (grid3.coords t) ((dat3 V c).after 3 t) = _
  rw [after3_3_val]
  funext j
  obtain ⟨p, q, rfl⟩ : ∃ (p : Fin 2000) (q : Fin 128), j = ix2 p q := ⟨j 0, j 1, eq_ix2 j⟩
  show k3_pay3 (F := Ideal) (iblk3 V c 0 t) (iblk3 V c 1 t) (iblk3 V c 2 t) (ix2 p q)
    = G1h (V c main_v52) (V c main_v16) (V c main_v53) (((cfg3.win 3).blk t).view.emb (ix2 p q))
  rw [pay3_3_blk]
  obtain ⟨-, -, -, -, -, -, e0, e1, -⟩ := idx_facts3 t
  refine congrArg _ (funext fun a => Fin.ext ?_)
  match a with
  | ⟨0, _⟩ => show 2000 * t.val + p.val = win3_3.index t (0 : Fin 2) * 2000 + 1 * p.val; rw [e0]; omega
  | ⟨1, _⟩ => show q.val = win3_3.index t (1 : Fin 2) * 128 + 1 * q.val; rw [e1]; omega

/-- An index of the array is in point `t`'s block iff each coordinate is in the block's range on its axis. -/
theorem mem_blk3_3 (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v54_0).slice (win3_3.rect t)).set ↔ _
  rw [View.set_slice_whole, Rect.mem_set_unit]
  exact Iff.rfl

/-- Every row of the array is in the block of the point `row / 2000`. -/
theorem cover3_3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  have ht : (i 0).val / 2000 < cfg3.N := by rw [show cfg3.N = 25 from N_3]; omega
  obtain ⟨-, -, -, -, -, -, e0, e1, -⟩ := idx_facts3 ⟨(i 0).val / 2000, ht⟩
  refine ⟨⟨(i 0).val / 2000, ht⟩, flush3_3 _, ?_⟩
  rw [mem_blk3_3]
  intro a
  match a with
  | ⟨0, _⟩ =>
    show win3_3.index ⟨(i 0).val / 2000, ht⟩ (0 : Fin 2) * 2000 ≤ (i 0).val ∧ (i 0).val < win3_3.index ⟨(i 0).val / 2000, ht⟩ (0 : Fin 2) * 2000 + 2000
    rw [e0]; dsimp only; omega
  | ⟨1, _⟩ =>
    show win3_3.index ⟨(i 0).val / 2000, ht⟩ (1 : Fin 2) * 128 ≤ (i 1).val ∧ (i 1).val < win3_3.index ⟨(i 0).val / 2000, ht⟩ (1 : Fin 2) * 128 + 128
    rw [e1]; omega

/-- THE ARRAY of output 3 after the region: `h = agg · dinv + b` of the entry arrays. -/
theorem final3_3 (c : Dev nD) : (dat3 V c).arrAt 3 cfg3.N = G1h (V c main_v52) (V c main_v16) (V c main_v53) :=
  (dat3 V c).arrAt_eq_of_cover 3 (G1h (V c main_v52) (V c main_v16) (V c main_v53)) (fun t _ => flushed3_3_eq V c t) cover3_3

/-! ## The two accumulators at the ideal instance -/

/-- The zero row the reset stores. -/
theorem pay3_1_apply (u : Fin 1) (q : Fin 128) : k3_pay1 (F := Ideal) (ix2 u q) = 0 := by
  unfold k3_pay1
  rw [shapeCast_self, broadcast_apply]
  exact Ideal.ofBits_zero_f32

theorem pay3_2_apply (u : Fin 1) (q : Fin 128) : k3_pay2 (F := Ideal) (ix2 u q) = 0 := by
  unfold k3_pay2
  rw [shapeCast_self, broadcast_apply]
  exact Ideal.ofBits_zero_f32

/-- The first accumulator's update at feature `q`: what it held plus the block's column sum of `h`. -/
theorem pay3_4_apply (x0 : Vec Ideal S2000x128 .f32) (x1 : Vec Ideal S2000x1 .f32) (x2 : Vec Ideal S1x128 .f32)
    (s : Vec Ideal S1x128 .f32) (u : Fin 1) (q : Fin 128) :
    k3_pay4 (F := Ideal) x0 x1 x2 s (ix2 u q) = s (ix2 u q) + ∑ k : Fin 2000, k3_pay3 (F := Ideal) x0 x1 x2 (ix2 k q) := by
  unfold k3_pay4
  rw [shapeCast_self, addf_apply, shapeCast_a_1a_apply]
  refine congrArg (s (ix2 u q) + ·) ?_
  refine (Ideal.multiReduction_add_single (k3_pay3 (F := Ideal) x0 x1 x2) 0x00000000#32 reduces_S2000x128_S128 (.inl rfl) rfl (ix1 q)).trans ?_
  refine Finset.sum_congr rfl fun k _ => congrArg _ (funext fun a => Fin.ext ?_)
  match a with
  | ⟨0, _⟩ => rfl
  | ⟨1, _⟩ => rfl

/-- The second accumulator's update: what it held plus the block's column sum of `h · h`. -/
theorem pay3_5_apply (x0 : Vec Ideal S2000x128 .f32) (x1 : Vec Ideal S2000x1 .f32) (x2 : Vec Ideal S1x128 .f32)
    (s : Vec Ideal S1x128 .f32) (u : Fin 1) (q : Fin 128) :
    k3_pay5 (F := Ideal) x0 x1 x2 s (ix2 u q)
      = s (ix2 u q) + ∑ k : Fin 2000, k3_pay3 (F := Ideal) x0 x1 x2 (ix2 k q) * k3_pay3 (F := Ideal) x0 x1 x2 (ix2 k q) := by
  unfold k3_pay5
  rw [shapeCast_self, addf_apply, shapeCast_a_1a_apply]
  refine congrArg (s (ix2 u q) + ·) ?_
  refine (Ideal.multiReduction_add_single (mulf (k3_pay3 (F := Ideal) x0 x1 x2) (k3_pay3 (F := Ideal) x0 x1 x2)) 0x00000000#32 reduces_S2000x128_S128 (.inl rfl) rfl (ix1 q)).trans ?_
  refine Finset.sum_congr rfl fun k _ => ?_
  rw [mulf_apply]
  have e : reduces_S2000x128_S128.lift (ix1 q) k = ix2 k q := funext fun a => Fin.ext (by
    match a with
    | ⟨0, _⟩ => rfl
    | ⟨1, _⟩ => rfl)
  rw [e]
  all_goals rfl

/-! ## Rows of the node array, block by block -/

/-- Row `p` of block `t` ↔ row `2000 t + p` of the array: the 25 blocks of 2000 rows are the 50000 rows. -/
def rowEquiv3 : Fin cfg3.N × Fin 2000 ≃ Fin 50000 where
  toFun x := row3 x.1 x.2
  invFun n := (⟨n.val / 2000, by rw [show cfg3.N = 25 from N_3]; have := n.isLt; omega⟩, ⟨n.val % 2000, Nat.mod_lt _ (by decide)⟩)
  left_inv := fun ⟨t, k⟩ => by
    have := lt25_3 t; have := k.isLt
    refine Prod.ext (Fin.ext ?_) (Fin.ext ?_)
    · show (2000 * t.val + k.val) / 2000 = t.val; omega
    · show (2000 * t.val + k.val) % 2000 = k.val; omega
  right_inv := fun n => Fin.ext (by show 2000 * (n.val / 2000) + n.val % 2000 = n.val; omega)

/-- A sum over the blocks of the sums over each block's rows is the sum over all the rows. -/
theorem sum_rows3 (f : Fin 50000 → EReal) : ∑ t : Fin cfg3.N, ∑ k : Fin 2000, f (row3 t k) = ∑ n : Fin 50000, f n := by
  rw [← Fintype.sum_prod_type' (fun t k => f (row3 t k))]
  exact Fintype.sum_equiv rowEquiv3 _ _ (fun _ => rfl)

/-- The points up to `n + 1` are the points up to `n` and the point `n + 1`. -/
theorem upto3_succ (n : ℕ) (hn : n + 1 < cfg3.N) :
    Finset.univ.filter (fun t : Fin cfg3.N => t.val ≤ n + 1) = insert ⟨n + 1, hn⟩ (Finset.univ.filter (fun t : Fin cfg3.N => t.val ≤ n)) := by
  ext t
  simp only [Finset.mem_filter, Finset.mem_univ, true_and, Finset.mem_insert, Fin.ext_iff]
  omega

theorem upto3_zero (hn : 0 < cfg3.N) : Finset.univ.filter (fun t : Fin cfg3.N => t.val ≤ 0) = {⟨0, hn⟩} := by
  ext t
  simp only [Finset.mem_filter, Finset.mem_univ, true_and, Finset.mem_singleton, Fin.ext_iff]
  omega

/-- THE FIRST RUNNING SUM after point `n`, at feature `q`: the column sums of `h` over the blocks up to `n`. -/
theorem acc3_fst_apply (c : Dev nD) (u : Fin 1) (q : Fin 128) : ∀ (n : ℕ) (hn : n < cfg3.N),
    (acc3 V c n hn).1 (ix2 u q)
      = ∑ t ∈ Finset.univ.filter (fun t : Fin cfg3.N => t.val ≤ n), ∑ k : Fin 2000,
          G1h (V c main_v52) (V c main_v16) (V c main_v53) (ix2 (row3 t k) q)
  | 0, hn => by
    rw [acc3_zero_eq]; dsimp only
    rw [pay3_4_apply, pay3_1_apply, zero_add, upto3_zero hn, Finset.sum_singleton]
    exact Finset.sum_congr rfl fun k _ => pay3_3_blk V c ⟨0, hn⟩ k q
  | n + 1, hn => by
    rw [acc3_succ_eq]; dsimp only
    rw [pay3_4_apply, acc3_fst_apply c u q n (Nat.lt_of_succ_lt hn), upto3_succ n hn,
      Finset.sum_insert (by simp only [Finset.mem_filter, Finset.mem_univ, true_and]; omega), add_comm]
    refine congrArg (· + _) ?_
    exact Finset.sum_congr rfl fun k _ => pay3_3_blk V c ⟨n + 1, hn⟩ k q

/-- THE SECOND RUNNING SUM: the column sums of `h · h`. -/
theorem acc3_snd_apply (c : Dev nD) (u : Fin 1) (q : Fin 128) : ∀ (n : ℕ) (hn : n < cfg3.N),
    (acc3 V c n hn).2 (ix2 u q)
      = ∑ t ∈ Finset.univ.filter (fun t : Fin cfg3.N => t.val ≤ n), ∑ k : Fin 2000,
          G1h (V c main_v52) (V c main_v16) (V c main_v53) (ix2 (row3 t k) q) * G1h (V c main_v52) (V c main_v16) (V c main_v53) (ix2 (row3 t k) q)
  | 0, hn => by
    rw [acc3_zero_eq]; dsimp only
    rw [pay3_5_apply, pay3_2_apply, zero_add, upto3_zero hn, Finset.sum_singleton]
    exact Finset.sum_congr rfl fun k _ => by rw [pay3_3_blk V c ⟨0, hn⟩ k q]
  | n + 1, hn => by
    rw [acc3_succ_eq]; dsimp only
    rw [pay3_5_apply, acc3_snd_apply c u q n (Nat.lt_of_succ_lt hn), upto3_succ n hn,
      Finset.sum_insert (by simp only [Finset.mem_filter, Finset.mem_univ, true_and]; omega), add_comm]
    refine congrArg (· + _) ?_
    exact Finset.sum_congr rfl fun k _ => by rw [pay3_3_blk V c ⟨n + 1, hn⟩ k q]

/-! ## Outputs 4 and 5: the arrays end at the column sums over all the rows -/

/-- An index of output 4's one-row array is in point `t`'s block iff each coordinate is in the block's range. -/
theorem mem_blk3_4 (t : Fin cfg3.N) (i : S1x128.Idx) :
    i ∈ ((cfg3.win 4).blk t).view.set ↔ ∀ a : Fin 2, win3_4.index t a * S1x128.size a ≤ (i a).val ∧ (i a).val < win3_4.index t a * S1x128.size a + S1x128.size a := by
  show i ∈ ((View.whole main_v54_1).slice (win3_4.rect t)).set ↔ _
  rw [View.set_slice_whole, Rect.mem_set_unit]
  exact Iff.rfl

/-- The one write-back of output 4, at the last point, writes the running sum after all 25 blocks: the column sums
    over every row of the node array. -/
theorem flushed3_4_eq (c : Dev nD) (t : Fin cfg3.N) (hf : (cfg3.win 4).flush t = true) :
    (dat3 V c).flushed 4 t = ((cfg3.win 4).blk t).view.read (Elt Ideal) (colSum (G1h (V c main_v52) (V c main_v16) (V c main_v53))) := by
  have h24 : t.val = 24 := by have := (flush3_4 t).mp hf; have := lt25_3 t; omega
  show (cfg3.win 4).cut (grid3.coords t) ((dat3 V c).after 4 t) = _
  rw [after3_4]
  funext j
  obtain ⟨u, q, rfl⟩ : ∃ (u : Fin 1) (q : Fin 128), j = ix2 u q := ⟨j 0, j 1, eq_ix2 j⟩
  have e : ((cfg3.win 4).blk t).view.emb (ix2 u q) = (ix2 (0 : Fin 1) q : S1x128.Idx) := by
    obtain ⟨-, -, -, -, -, -, -, -, e0, e1, -⟩ := idx_facts3 t
    have hu : u.val = 0 := by omega
    refine funext fun a => Fin.ext ?_
    match a with
    | ⟨0, _⟩ => show win3_4.index t (0 : Fin 2) * 1 + 1 * u.val = 0; rw [e0]; omega
    | ⟨1, _⟩ => show win3_4.index t (1 : Fin 2) * 128 + 1 * q.val = q.val; rw [e1]; omega
  show (acc3 V c t.val t.isLt).1 (ix2 u q) = colSum (G1h (V c main_v52) (V c main_v16) (V c main_v53)) (((cfg3.win 4).blk t).view.emb (ix2 u q))
  rw [e, colSum_ix2, acc3_fst_apply V c u q t.val t.isLt,
    Finset.filter_true_of_mem (fun t' _ => by have := lt25_3 t'; omega)]
  exact sum_rows3 (fun n => G1h (V c main_v52) (V c main_v16) (V c main_v53) (ix2 n q))

/-- The last point's block is the whole one-row array. -/
theorem cover3_4 (i : S1x128.Idx) : ∃ t : Fin cfg3.N, (cfg3.win 4).flush t = true ∧ i ∈ ((cfg3.win 4).blk t).view.set := by
  have h : 24 < cfg3.N := by rw [show cfg3.N = 25 from N_3]; omega
  have hi0 : (i 0).val < 1 := (i 0).isLt
  have hi1 : (i 1).val < 128 := (i 1).isLt
  obtain ⟨-, -, -, -, -, -, -, -, e0, e1, -⟩ := idx_facts3 ⟨24, h⟩
  refine ⟨⟨24, h⟩, (flush3_4 _).mpr rfl, ?_⟩
  rw [mem_blk3_4]
  intro a
  match a with
  | ⟨0, _⟩ =>
    show win3_4.index ⟨24, h⟩ (0 : Fin 2) * 1 ≤ (i 0).val ∧ (i 0).val < win3_4.index ⟨24, h⟩ (0 : Fin 2) * 1 + 1
    rw [e0]; omega
  | ⟨1, _⟩ =>
    show win3_4.index ⟨24, h⟩ (1 : Fin 2) * 128 ≤ (i 1).val ∧ (i 1).val < win3_4.index ⟨24, h⟩ (1 : Fin 2) * 128 + 128
    rw [e1]; omega

/-- THE ARRAY of output 4 after the region: the column sums of `h` over the 50000 rows. -/
theorem final3_4 (c : Dev nD) : (dat3 V c).arrAt 4 cfg3.N = colSum (G1h (V c main_v52) (V c main_v16) (V c main_v53)) :=
  (dat3 V c).arrAt_eq_of_cover 4 (colSum (G1h (V c main_v52) (V c main_v16) (V c main_v53))) (fun t hf => flushed3_4_eq V c t hf) cover3_4

/-- An index of output 5's one-row array is in point `t`'s block iff each coordinate is in the block's range. -/
theorem mem_blk3_5 (t : Fin cfg3.N) (i : S1x128.Idx) :
    i ∈ ((cfg3.win 5).blk t).view.set ↔ ∀ a : Fin 2, win3_5.index t a * S1x128.size a ≤ (i a).val ∧ (i a).val < win3_5.index t a * S1x128.size a + S1x128.size a := by
  show i ∈ ((View.whole main_v54_2).slice (win3_5.rect t)).set ↔ _
  rw [View.set_slice_whole, Rect.mem_set_unit]
  exact Iff.rfl

/-- The one write-back of output 5, at the last point, writes the running sum after all 25 blocks: the column sums
    over every row of the node array. -/
theorem flushed3_5_eq (c : Dev nD) (t : Fin cfg3.N) (hf : (cfg3.win 5).flush t = true) :
    (dat3 V c).flushed 5 t = ((cfg3.win 5).blk t).view.read (Elt Ideal) (colSumSq (G1h (V c main_v52) (V c main_v16) (V c main_v53))) := by
  have h24 : t.val = 24 := by have := (flush3_5 t).mp hf; have := lt25_3 t; omega
  show (cfg3.win 5).cut (grid3.coords t) ((dat3 V c).after 5 t) = _
  rw [after3_5]
  funext j
  obtain ⟨u, q, rfl⟩ : ∃ (u : Fin 1) (q : Fin 128), j = ix2 u q := ⟨j 0, j 1, eq_ix2 j⟩
  have e : ((cfg3.win 5).blk t).view.emb (ix2 u q) = (ix2 (0 : Fin 1) q : S1x128.Idx) := by
    obtain ⟨-, -, -, -, -, -, -, -, -, -, e0, e1⟩ := idx_facts3 t
    have hu : u.val = 0 := by omega
    refine funext fun a => Fin.ext ?_
    match a with
    | ⟨0, _⟩ => show win3_5.index t (0 : Fin 2) * 1 + 1 * u.val = 0; rw [e0]; omega
    | ⟨1, _⟩ => show win3_5.index t (1 : Fin 2) * 128 + 1 * q.val = q.val; rw [e1]; omega
  show (acc3 V c t.val t.isLt).2 (ix2 u q) = colSumSq (G1h (V c main_v52) (V c main_v16) (V c main_v53)) (((cfg3.win 5).blk t).view.emb (ix2 u q))
  rw [e, colSumSq_ix2, acc3_snd_apply V c u q t.val t.isLt,
    Finset.filter_true_of_mem (fun t' _ => by have := lt25_3 t'; omega)]
  exact sum_rows3 (fun n => G1h (V c main_v52) (V c main_v16) (V c main_v53) (ix2 n q) * G1h (V c main_v52) (V c main_v16) (V c main_v53) (ix2 n q))

/-- The last point's block is the whole one-row array. -/
theorem cover3_5 (i : S1x128.Idx) : ∃ t : Fin cfg3.N, (cfg3.win 5).flush t = true ∧ i ∈ ((cfg3.win 5).blk t).view.set := by
  have h : 24 < cfg3.N := by rw [show cfg3.N = 25 from N_3]; omega
  have hi0 : (i 0).val < 1 := (i 0).isLt
  have hi1 : (i 1).val < 128 := (i 1).isLt
  obtain ⟨-, -, -, -, -, -, -, -, -, -, e0, e1⟩ := idx_facts3 ⟨24, h⟩
  refine ⟨⟨24, h⟩, (flush3_5 _).mpr rfl, ?_⟩
  rw [mem_blk3_5]
  intro a
  match a with
  | ⟨0, _⟩ =>
    show win3_5.index ⟨24, h⟩ (0 : Fin 2) * 1 ≤ (i 0).val ∧ (i 0).val < win3_5.index ⟨24, h⟩ (0 : Fin 2) * 1 + 1
    rw [e0]; omega
  | ⟨1, _⟩ =>
    show win3_5.index ⟨24, h⟩ (1 : Fin 2) * 128 ≤ (i 1).val ∧ (i 1).val < win3_5.index ⟨24, h⟩ (1 : Fin 2) * 128 + 128
    rw [e1]; omega

/-- THE ARRAY of output 5 after the region: the column sums of `h · h` over the 50000 rows. -/
theorem final3_5 (c : Dev nD) : (dat3 V c).arrAt 5 cfg3.N = colSumSq (G1h (V c main_v52) (V c main_v16) (V c main_v53)) :=
  (dat3 V c).arrAt_eq_of_cover 5 (colSumSq (G1h (V c main_v52) (V c main_v16) (V c main_v53))) (fun t hf => flushed3_5_eq V c t hf) cover3_5

end Cert.KernelIdeal.Hand

end
-- ==== Proof.Ref.ValueDefs.lean ====
/- The reference's computation as eight pure functions of arrays at the exact values, one per mathematical stage,
   each spelt with the program's own operations in the program's order: the edge list with the self-loops appended
   (`srcV`, `dstV`), the index normalisation (`normV`: a negative index counts from the end), an array viewed as one column (`colV`), the degree and
   its inverse square root (`degV`, `dinvV`), an edge's normalisation factor (`normE`), one graph-convolution layer
   (`layerV`), a row broadcast over the nodes (`rowV`), the column mean and variance (`meanV`, `mu1V`, `devV`, `varV`), and batch
   normalisation followed by the rectifier (`bnV`). Both layers are these functions at different arrays. -/
import proofs.«168650_j27212912787479_2_alg».proof.ReferenceIdeal
import proofs.«168650_j27212912787479_2_alg».proof.Proof.Gen.ReferenceIdeal
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

/-- Row 0 of the edge index array followed by `0, 1, …, 49999`. -/
def srcV (ei : IVec S2x800000 32) : IVec S850000 32 :=
  concatenate S850000 0 [⟨S800000, fun i => shapeCast S800000 (extractStridedSlice S1x800000 ![0, 0] ei slices_S2x800000_S1x800000_0_0) shapeCasts_S1x800000_S800000 i⟩, ⟨S50000, iotaInDim S50000 32 0⟩] concatenates_S800000_S50000_S850000_d0

/-- Row 1 of the edge index array followed by `0, 1, …, 49999`. -/
def dstV (ei : IVec S2x800000 32) : IVec S850000 32 :=
  concatenate S850000 0 [⟨S800000, fun i => shapeCast S800000 (extractStridedSlice S1x800000 ![1, 0] ei slices_S2x800000_S1x800000_1_0) shapeCasts_S1x800000_S800000 i⟩, ⟨S50000, iotaInDim S50000 32 0⟩] concatenates_S800000_S50000_S850000_d0

/-- A negative index counts from the end of the 50000 nodes. -/
def normV (z : IVec S850000 32) : IVec S850000 32 :=
  select (cmpi .slt z (broadcastInDim S850000 ![] bcast_S_S850000 (constantI S_ 32 0#32)))
    (addi z (broadcastInDim S850000 ![] bcast_S_S850000 (constantI S_ 32 50000#32))) z

/-- An array over the edges as one column. -/
def colV {α : Type} (z : S850000.Idx → α) : S850000x1.Idx → α :=
  broadcastInDim S850000x1 ![0] bcast_S850000_S850000x1_0 z

/-- The degree: ones accumulated at the targets. -/
def degV (d : IVec S850000 32) : FVec Ideal S50000 .f32 :=
  Host.scatterAdd scatter_S50000_S850000x1_S850000_n_0_0_1
    (broadcastInDim S50000 ![] bcast_S_S50000 (constant S_ .f32 0x00000000#32)) (colV d)
    (broadcastInDim S850000 ![] bcast_S_S850000 (constant S_ .f32 0x3F800000#32))

/-- The degree to the power `-1/2` where it is positive, zero elsewhere. -/
def dinvV (d : IVec S850000 32) : FVec Ideal S50000 .f32 :=
  select (cmpf .ogt (degV d) (broadcastInDim S50000 ![] bcast_S_S50000 (constant S_ .f32 0x00000000#32)))
    (Host.powf (degV d) (broadcastInDim S50000 ![] bcast_S_S50000 (constant S_ .f32 0xBF000000#32)))
    (broadcastInDim S50000 ![] bcast_S_S50000 (constant S_ .f32 0x00000000#32))

/-- An edge's factor: the product of its two ends' inverse square root degrees. -/
def normE (s d : IVec S850000 32) : FVec Ideal S850000 .f32 :=
  mulf (Host.gather gather_S50000_S850000x1_S850000_n_0_n_n_0_1_1 (dinvV d) (colV (normV s)))
    (Host.gather gather_S50000_S850000x1_S850000_n_0_n_n_0_1_1 (dinvV d) (colV (normV d)))

/-- A row of 128 values broadcast over the 50000 nodes. -/
def rowV (b : FVec Ideal S128 .f32) : FVec Ideal S50000x128 .f32 :=
  broadcastInDim S50000x128 ![0, 1] bcast_S1x128_S50000x128_0_1 (broadcastInDim S1x128 ![1] bcast_S128_S1x128_1 b)

/-- One layer: project, gather the sources' rows, scale each by its edge's factor, accumulate at the targets, add
    the bias. -/
def layerV (s d : IVec S850000 32) (A : FVec Ideal S50000x128 .f32) (W : FVec Ideal S128x128 .f32)
    (b : FVec Ideal S128 .f32) : FVec Ideal S50000x128 .f32 :=
  addf (Host.scatterAdd scatter_S50000x128_S850000x1_S850000x128_1_0_0_1
      (broadcastInDim S50000x128 ![] bcast_S_S50000x128 (constant S_ .f32 0x00000000#32)) (colV d)
      (mulf (Host.gather gather_S50000x128_S850000x1_S850000x128_1_0_n_n_0_1_1128
          (Host.dotGeneral dot_S50000x128_S128x128_S50000x128_1_0_0_1_n_n none A W) (colV (normV s)))
        (broadcastInDim S850000x128 ![0, 1] bcast_S850000x1_S850000x128_0_1 (colV (normE s d)))))
    (rowV b)

/-- The column mean over the nodes. -/
def meanV (h : FVec Ideal S50000x128 .f32) : FVec Ideal S128 .f32 :=
  Host.divf (Host.reduceAdd h (constant S_ .f32 0x00000000#32) reducesTo_S50000x128_S128_d0 h_S_)
    (broadcastInDim S128 ![] bcast_S_S128 (constant S_ .f32 0x47435000#32))

/-- The number of nodes less the correction `0`, the variance's divisor. -/
def cntV : FVec Ideal S_ .f32 :=
  subf (constant S_ .f32 0x47435000#32) (sitofp .f32 (constantI S_ 32 0#32))

/-- The column mean once more, as one row. -/
def mu1V (h : FVec Ideal S50000x128 .f32) : FVec Ideal S1x128 .f32 :=
  Host.divf (broadcastInDim S1x128 ![1] bcast_S128_S1x128_1
      (Host.reduceAdd h (constant S_ .f32 0x00000000#32) reducesTo_S50000x128_S128_d0 h_S_))
    (broadcastInDim S1x128 ![] bcast_S_S1x128 (constant S_ .f32 0x47435000#32))

/-- The deviations from the column mean. -/
def devV (h : FVec Ideal S50000x128 .f32) : FVec Ideal S50000x128 .f32 :=
  subf h (broadcastInDim S50000x128 ![0, 1] bcast_S1x128_S50000x128_0_1 (mu1V h))

/-- The column variance as the mean squared deviation (selected, since the divisor is positive). -/
def varV (h : FVec Ideal S50000x128 .f32) : FVec Ideal S128 .f32 :=
  select (broadcastInDim S128 ![] bcast_S_S128 (cmpf .ogt cntV (constant S_ .f32 0x00000000#32)))
    (Host.divf
      (Host.reduceAdd (mulf (devV h) (devV h)) (constant S_ .f32 0x00000000#32) reducesTo_S50000x128_S128_d0 h_S_)
      (broadcastInDim S128 ![] bcast_S_S128 cntV))
    (broadcastInDim S128 ![] bcast_S_S128 (constant S_ .f32 0x7FC00000#32))

/-- Batch normalisation with the statistics of the array itself, then the rectifier. -/
def bnV (h : FVec Ideal S50000x128 .f32) (g be : FVec Ideal S128 .f32) : FVec Ideal S50000x128 .f32 :=
  maximumf
    (addf
      (mulf
        (mulf (subf h (rowV (meanV h)))
          (rowV (Host.rsqrt (addf (varV h) (broadcastInDim S128 ![] bcast_S_S128 (constant S_ .f32 0x3727C5AC#32))))))
        (rowV g))
      (rowV be))
    (broadcastInDim S50000x128 ![] bcast_S_S50000x128 (constant S_ .f32 0x00000000#32))

end Cert.ReferenceIdeal.Hand

end
-- ==== Proof.Ref.ValueMath1.lean ====
/- The index arrays read at an element: the two edge arrays are the model's `sOf` / `dOf`, the normalisation is
   `normIdx` elementwise, a column view and a row broadcast read the array they view. -/
import proofs.«168650_j27212912787479_2_alg».proof.Proof.Ref.ValueDefs
import proofs.«168650_j27212912787479_2_alg».proof.Proof.Model
import proofs.«168650_j27212912787479_2_alg».proof.Proof.LibGatherScatter
import Idealize.ShloMosaic.Lib.Pipeline.Value
import Idealize.ShloMosaic.Lib.ValueLayout

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx Cert.Gcn Cert.GatherScatter

/-- A column view reads the array at the row. -/
theorem colV_apply {α : Type} (z : S850000.Idx → α) (e : Fin 850000) (u : Fin 1) : colV z (ix2 e u) = z (ix1 e) :=
  broadcastInDim_apply _ _ z (ix2 e u) (ix1 e) (fun a => by
    match a with
    | ⟨0, _⟩ => rfl)

/-- A row broadcast over the nodes reads the row at the column. -/
theorem rowV_apply (b : FVec Ideal S128 .f32) (n : Fin 50000) (j : Fin 128) : rowV b (ix2 n j) = b (ix1 j) := by
  unfold rowV
  rw [broadcastInDim_apply _ _ _ (ix2 n j) (ix2 (0 : Fin 1) j) (fun a => by
    match a with
    | ⟨0, _⟩ => rfl
    | ⟨1, _⟩ => rfl)]
  exact broadcastInDim_apply _ _ b (ix2 (0 : Fin 1) j) (ix1 j) (fun a => by
    match a with
    | ⟨0, _⟩ => rfl)

/-- The normalisation at an element. -/
theorem normV_apply (z : IVec S850000 32) (e : Fin 850000) : normV z (ix1 e) = normIdx (z (ix1 e)) := rfl

/-- Row `r` of the edge index array with the self-loops appended is the model's edge list (row 0). -/
theorem srcV_apply (ei : IVec S2x800000 32) (e : Fin 850000) : srcV ei (ix1 e) = sOf ei e := by
  unfold srcV sOf edgeOf
  by_cases h : e.val < 800000
  · rw [dif_pos h,
      concatenate_pair_apply_left (t := S850000) (s₁ := S800000) (s₂ := S50000) (0 : Fin 1) _ _ concatenates_S800000_S50000_S850000_d0 (ix1 e) rfl (ix1 ⟨e.val, h⟩)
        (fun b => by match b with | ⟨0, _⟩ => rfl)]
    show shapeCast S800000 _ shapeCasts_S1x800000_S800000 (ix1 ⟨e.val, h⟩) = _
    rw [shapeCast_1a_a_apply]
    exact slice2_axis0_apply 0 ei slices_S2x800000_S1x800000_0_0 (0 : Fin 1) ⟨e.val, h⟩ (0 : Fin 2) rfl
  · rw [dif_neg h,
      concatenate_pair_apply_right (t := S850000) (s₁ := S800000) (s₂ := S50000) (0 : Fin 1) _ _ concatenates_S800000_S50000_S850000_d0 (ix1 e) rfl rfl
        (ix1 ⟨e.val - 800000, by have := e.isLt; omega⟩)
        (fun b hb => by match b with | ⟨0, _⟩ => exact absurd rfl hb)
        (by show e.val - 800000 + 800000 = e.val; omega)]
    rfl

/-- Row 1 likewise. -/
theorem dstV_apply (ei : IVec S2x800000 32) (e : Fin 850000) : dstV ei (ix1 e) = dOf ei e := by
  unfold dstV dOf edgeOf
  by_cases h : e.val < 800000
  · rw [dif_pos h,
      concatenate_pair_apply_left (t := S850000) (s₁ := S800000) (s₂ := S50000) (0 : Fin 1) _ _ concatenates_S800000_S50000_S850000_d0 (ix1 e) rfl (ix1 ⟨e.val, h⟩)
        (fun b => by match b with | ⟨0, _⟩ => rfl)]
    show shapeCast S800000 _ shapeCasts_S1x800000_S800000 (ix1 ⟨e.val, h⟩) = _
    rw [shapeCast_1a_a_apply]
    exact slice2_axis0_apply 1 ei slices_S2x800000_S1x800000_1_0 (0 : Fin 1) ⟨e.val, h⟩ (1 : Fin 2) rfl
  · rw [dif_neg h,
      concatenate_pair_apply_right (t := S850000) (s₁ := S800000) (s₂ := S50000) (0 : Fin 1) _ _ concatenates_S800000_S50000_S850000_d0 (ix1 e) rfl rfl
        (ix1 ⟨e.val - 800000, by have := e.isLt; omega⟩)
        (fun b hb => by match b with | ⟨0, _⟩ => exact absurd rfl hb)
        (by show e.val - 800000 + 800000 = e.val; omega)]
    rfl

end Cert.ReferenceIdeal.Hand

end
-- ==== Proof.Ref.Stage.lean ====
/- Reading a straight line of single-assignment host operations stage by stage, for any signature. When the k-th
   operation of a list writes exactly the k-th reference of a list `W` (the two lists aligned), a reference that does
   not occur in `W` from place j on holds, after the whole list, what it held after the first j operations; so the
   buffer written at place j (and nowhere later) holds the j-th operation's function of what its operands' buffers
   hold after the whole list, provided no operand is written at place j or later. -/
import Idealize.ShloMosaic.Lib.StableHlo.Run
import proofs.«168650_j27212912787479_2_alg».proof.Proof.Ref.Basic

namespace Cert.ReferenceIdeal.Hand

open Idealize.ShloMosaic Idealize.ShloMosaic.StableHlo

variable {τ : Topo} {sig : RefSig} {Val : EltTy → Type}

/-- The operations and the references aligned: the k-th operation writes exactly the k-th reference's buffer. -/
abbrev Aligned (ops : List (HloOp τ sig Val)) (W : List (Ref sig .tc)) : Prop :=
  List.Forall₂ (fun op y => op.writes = {Proc.devRef (τ := τ) .tc y}) ops W

theorem aligned_append {l₁ l₂ : List (HloOp τ sig Val)} {W₁ W₂ : List (Ref sig .tc)} :
    Aligned l₁ W₁ → Aligned l₂ W₂ → Aligned (l₁ ++ l₂) (W₁ ++ W₂)
  | .nil, h₂ => h₂
  | .cons hw h₁, h₂ => .cons hw (aligned_append h₁ h₂)

theorem aligned_drop : ∀ {ops : List (HloOp τ sig Val)} {W : List (Ref sig .tc)} (j : Nat),
    Aligned ops W → Aligned (ops.drop j) (W.drop j)
  | _, _, 0, h => h
  | _, _, _ + 1, .nil => .nil
  | _, _, j + 1, .cons _ h => aligned_drop j h

/-- A reference that is not among the written ones keeps its contents through the list. -/
theorem aligned_keep {ops : List (HloOp τ sig Val)} {W : List (Ref sig .tc)} (h : Aligned ops W) :
    ∀ (V : Valuation τ sig Val) (r : Ref sig .tc), r ∉ W → after ops V (Proc.devRef .tc r) = V (Proc.devRef .tc r) := by
  induction h with
  | nil => intro V r _; rfl
  | @cons op y ops W hw _ ih =>
    intro V r hr
    rw [after_cons, ih _ r (fun h' => hr (List.mem_cons_of_mem _ h'))]
    exact op.result_of_not_mem V (by
      rw [hw, Finset.mem_singleton]
      exact devRef_ne_of_ne (fun e => hr (e ▸ List.mem_cons_self)))

/-- The fold over a list is the fold over what is left after j operations, from the fold over the first j. -/
theorem after_take_drop (ops : List (HloOp τ sig Val)) (j : Nat) (V : Valuation τ sig Val) :
    after ops V = after (ops.drop j) (after (ops.take j) V) := by
  rw [← after_app, List.take_append_drop]

/-- A reference not written from place j on holds after the whole list what it held after the first j operations. -/
theorem read_before {ops : List (HloOp τ sig Val)} {W : List (Ref sig .tc)} (h : Aligned ops W) (j : Nat)
    (V : Valuation τ sig Val) (a : Ref sig .tc) (ha : a ∉ W.drop j) :
    after ops V (Proc.devRef .tc a) = after (ops.take j) V (Proc.devRef .tc a) := by
  rw [after_take_drop ops j V]
  exact aligned_keep (aligned_drop j h) _ a ha

/-- The buffer written at place j and nowhere later holds the j-th operation's result over the first j operations' fold. -/
theorem stage {ops : List (HloOp τ sig Val)} {W : List (Ref sig .tc)} (h : Aligned ops W) (j : Nat)
    (V : Valuation τ sig Val) (op : HloOp τ sig Val) (y : Ref sig .tc) (hop : ops[j]? = some op)
    (hy : y ∉ W.drop (j + 1)) :
    after ops V (Proc.devRef .tc y) = op.result (after (ops.take j) V) (Proc.devRef .tc y) := by
  obtain ⟨hlt, rfl⟩ := List.getElem?_eq_some_iff.mp hop
  rw [after_take_drop ops j V, List.drop_eq_getElem_cons hlt, after_cons]
  exact aligned_keep (aligned_drop (j + 1) h) _ y hy

section Kinds

variable {ops : List (HloOp τ sig Val)} {W : List (Ref sig .tc)} (h : Aligned ops W) (j : Nat) (V : Valuation τ sig Val)
include h

theorem stage_nullary (y : Ref sig .tc) (v : y.ty.Contents Val) {hy}
    (hop : ops[j]? = some (nullary y v hy)) (hy' : y ∉ W.drop (j + 1)) :
    after ops V (Proc.devRef .tc y) = v := by
  rw [stage h j V _ y hop hy', nullary_result]

theorem stage_unary (x y : Ref sig .tc) (f : x.ty.Contents Val → y.ty.Contents Val) {hx hy}
    (hop : ops[j]? = some (unary x y f hx hy)) (hy' : y ∉ W.drop (j + 1)) (hx' : x ∉ W.drop j) :
    after ops V (Proc.devRef .tc y) = f (after ops V (Proc.devRef .tc x)) := by
  rw [stage h j V _ y hop hy', unary_result, ← read_before h j V x hx']

theorem stage_binary (a b y : Ref sig .tc) (f : a.ty.Contents Val → b.ty.Contents Val → y.ty.Contents Val) {ha hb hy}
    (hop : ops[j]? = some (binary a b y f ha hb hy)) (hy' : y ∉ W.drop (j + 1)) (ha' : a ∉ W.drop j) (hb' : b ∉ W.drop j) :
    after ops V (Proc.devRef .tc y) = f (after ops V (Proc.devRef .tc a)) (after ops V (Proc.devRef .tc b)) := by
  rw [stage h j V _ y hop hy', binary_result, ← read_before h j V a ha', ← read_before h j V b hb']

theorem stage_ternary (c a b y : Ref sig .tc)
    (f : c.ty.Contents Val → a.ty.Contents Val → b.ty.Contents Val → y.ty.Contents Val) {hc ha hb hy}
    (hop : ops[j]? = some (ternary c a b y f hc ha hb hy)) (hy' : y ∉ W.drop (j + 1))
    (hc' : c ∉ W.drop j) (ha' : a ∉ W.drop j) (hb' : b ∉ W.drop j) :
    after ops V (Proc.devRef .tc y)
      = f (after ops V (Proc.devRef .tc c)) (after ops V (Proc.devRef .tc a)) (after ops V (Proc.devRef .tc b)) := by
  rw [stage h j V _ y hop hy', ternary_result, ← read_before h j V c hc', ← read_before h j V a ha',
    ← read_before h j V b hb']

theorem stage_reshape (x y : Ref sig .tc) {he hn hx hy}
    (hop : ops[j]? = some (reshape (Val := Val) x y he hn hx hy)) (hy' : y ∉ W.drop (j + 1)) (hx' : x ∉ W.drop j) :
    after ops V (Proc.devRef .tc y)
      = fun i => he ▸ shapeCast y.ty.shape (after ops V (Proc.devRef .tc x)) hn i := by
  rw [stage h j V _ y hop hy', reshape_result, ← read_before h j V x hx']

end Kinds

end Cert.ReferenceIdeal.Hand
-- ==== Proof.KI.PrefixAligned.lean ====
/- The kernel program's first three stretches of host operations (the edge lists with the self-loops appended, the
   degree, its inverse square root as a column), laid end to end as one list: the list and the buffers it writes are
   aligned (the k-th operation writes exactly the k-th buffer), and folding the three stretches one after the other
   is folding the one list. -/
import proofs.«168650_j27212912787479_2_alg».proof.Proof.Gen.KernelIdeal.Launch
import proofs.«168650_j27212912787479_2_alg».proof.Proof.Ref.Stage

noncomputable section

namespace Cert.KernelIdeal.Hand

open Cert.KernelIdeal Cert.KernelIdeal.Gen Idealize.ShloMosaic Idealize.ShloMosaic.TcCoe Idealize.SL.Sem
open Cert.ReferenceIdeal.Hand (Aligned aligned_append aligned_keep after_app)

variable {F : FTy → Type} [FloatOps F]

/-- The three stretches laid end to end. -/
abbrev prefixOps : List (HloOp τ sig (Elt F)) := hostOps0 ++ (hostOps0_1 ++ hostOps0_2)

/-- The buffers they write, in order. -/
abbrev prefixW : List (Ref sig .tc) :=
  [main_v0, main_v1, main_v2, main_v3, main_v4, main_v5, main_v6, main_cst, main_v7, main_cst_0, main_v8, main_v9, main_v10, main_cst_1, main_v11, main_v12, main_cst_2, main_v13, main_v14, main_cst_3, main_call0_v0, main_call0_v1, main_v15, main_v16]

set_option maxRecDepth 8192 in
theorem prefix_aligned : Aligned (prefixOps : List (HloOp τ sig (Elt F))) prefixW := by
  repeat (first | exact List.Forall₂.nil | refine List.Forall₂.cons rfl ?_)

/-- Folding the three stretches in turn is folding the one list. -/
theorem prefix_eq (V : Valuation τ sig (Elt F)) :
    StableHlo.after hostOps0_2 (StableHlo.after hostOps0_1 (StableHlo.after hostOps0 V)) = StableHlo.after prefixOps V := by
  show _ = StableHlo.after (hostOps0 ++ (hostOps0_1 ++ hostOps0_2)) V
  rw [after_app, after_app]

/-- A buffer none of the three stretches writes holds after them what it held before. -/
theorem prefix_keep (V : Valuation τ sig (Elt F)) (r : Ref sig .tc) (h : r ∉ prefixW) :
    StableHlo.after hostOps0_2 (StableHlo.after hostOps0_1 (StableHlo.after hostOps0 V)) (Proc.devRef .tc r)
      = V (Proc.devRef .tc r) := by
  rw [prefix_eq V]
  exact aligned_keep prefix_aligned V r h

end Cert.KernelIdeal.Hand

end
-- ==== Proof.KI.PrefixStage.lean ====
/- The kernel program's first three stretches of host operations read stage by stage: one equation per operation, in
   program order. After the three stretches, the buffer an operation writes holds the operation's function of what its
   operands' buffers hold after the three stretches (every buffer is written once, after its operands). Each is the
   stage lemma of its kind at the operation's place in the three stretches laid end to end. -/
import proofs.«168650_j27212912787479_2_alg».proof.Proof.KI.PrefixAligned

noncomputable section

namespace Cert.KernelIdeal.Hand

open Cert.KernelIdeal Cert.KernelIdeal.Gen Idealize.ShloMosaic Idealize.ShloMosaic.TcCoe Idealize.SL.Sem
open Cert.ReferenceIdeal.Hand (stage_nullary stage_unary stage_binary stage_ternary stage_reshape)

variable {F : FTy → Type} [FloatOps F] (V : Valuation τ sig (Elt F))

theorem at_main_v0 : StableHlo.after hostOps0_2 (StableHlo.after hostOps0_1 (StableHlo.after hostOps0 V)) (Proc.devRef .tc main_v0) = extractStridedSlice S1x800000 ![0, 0] (StableHlo.after hostOps0_2 (StableHlo.after hostOps0_1 (StableHlo.after hostOps0 V)) (Proc.devRef .tc main_arg1) : (⟨S2x800000, .i32⟩ : BufTy).Contents (Elt F)) slices_S2x800000_S1x800000_0_0 := by
  rw [prefix_eq V]
  exact stage_unary prefix_aligned 0 V main_arg1 main_v0 _ rfl (by decide) (by decide)

theorem at_main_v1 : StableHlo.after hostOps0_2 (StableHlo.after hostOps0_1 (StableHlo.after hostOps0 V)) (Proc.devRef .tc main_v1) = fun i => shapeCast S800000 (StableHlo.after hostOps0_2 (StableHlo.after hostOps0_1 (StableHlo.after hostOps0 V)) (Proc.devRef .tc main_v0) : (⟨S1x800000, .i32⟩ : BufTy).Contents (Elt F)) shapeCasts_S1x800000_S800000 i := by
  rw [prefix_eq V]
  exact stage_reshape prefix_aligned 1 V main_v0 main_v1 rfl (by decide) (by decide)

theorem at_main_v2 : StableHlo.after hostOps0_2 (StableHlo.after hostOps0_1 (StableHlo.after hostOps0 V)) (Proc.devRef .tc main_v2) = extractStridedSlice S1x800000 ![1, 0] (StableHlo.after hostOps0_2 (StableHlo.after hostOps0_1 (StableHlo.after hostOps0 V)) (Proc.devRef .tc main_arg1) : (⟨S2x800000, .i32⟩ : BufTy).Contents (Elt F)) slices_S2x800000_S1x800000_1_0 := by
  rw [prefix_eq V]
  exact stage_unary prefix_aligned 2 V main_arg1 main_v2 _ rfl (by decide) (by decide)

theorem at_main_v3 : StableHlo.after hostOps0_2 (StableHlo.after hostOps0_1 (StableHlo.after hostOps0 V)) (Proc.devRef .tc main_v3) = fun i => shapeCast S800000 (StableHlo.after hostOps0_2 (StableHlo.after hostOps0_1 (StableHlo.after hostOps0 V)) (Proc.devRef .tc main_v2) : (⟨S1x800000, .i32⟩ : BufTy).Contents (Elt F)) shapeCasts_S1x800000_S800000 i := by
  rw [prefix_eq V]
  exact stage_reshape prefix_aligned 3 V main_v2 main_v3 rfl (by decide) (by decide)

theorem at_main_v4 : StableHlo.after hostOps0_2 (StableHlo.after hostOps0_1 (StableHlo.after hostOps0 V)) (Proc.devRef .tc main_v4) = iotaInDim S50000 32 0 := by
  rw [prefix_eq V]
  exact stage_nullary prefix_aligned 4 V main_v4 _ rfl (by decide)

theorem at_main_v5 : StableHlo.after hostOps0_2 (StableHlo.after hostOps0_1 (StableHlo.after hostOps0 V)) (Proc.devRef .tc main_v5) = concatenate S850000 0 [⟨S800000, (StableHlo.after hostOps0_2 (StableHlo.after hostOps0_1 (StableHlo.after hostOps0 V)) (Proc.devRef .tc main_v1) : (⟨S800000, .i32⟩ : BufTy).Contents (Elt F))⟩, ⟨S50000, (StableHlo.after hostOps0_2 (StableHlo.after hostOps0_1 (StableHlo.after hostOps0 V)) (Proc.devRef .tc main_v4) : (⟨S50000, .i32⟩ : BufTy).Contents (Elt F))⟩] concatenates_S800000_S50000_S850000_d0 := by
  rw [prefix_eq V]
  exact stage_binary prefix_aligned 5 V main_v1 main_v4 main_v5 _ rfl (by decide) (by decide) (by decide)

theorem at_main_v6 : StableHlo.after hostOps0_2 (StableHlo.after hostOps0_1 (StableHlo.after hostOps0 V)) (Proc.devRef .tc main_v6) = concatenate S850000 0 [⟨S800000, (StableHlo.after hostOps0_2 (StableHlo.after hostOps0_1 (StableHlo.after hostOps0 V)) (Proc.devRef .tc main_v3) : (⟨S800000, .i32⟩ : BufTy).Contents (Elt F))⟩, ⟨S50000, (StableHlo.after hostOps0_2 (StableHlo.after hostOps0_1 (StableHlo.after hostOps0 V)) (Proc.devRef .tc main_v4) : (⟨S50000, .i32⟩ : BufTy).Contents (Elt F))⟩] concatenates_S800000_S50000_S850000_d0 := by
  rw [prefix_eq V]
  exact stage_binary prefix_aligned 6 V main_v3 main_v4 main_v6 _ rfl (by decide) (by decide) (by decide)

theorem at_main_cst : StableHlo.after hostOps0_2 (StableHlo.after hostOps0_1 (StableHlo.after hostOps0 V)) (Proc.devRef .tc main_cst) = constant S_ .f32 0x3F800000#32 := by
  rw [prefix_eq V]
  exact stage_nullary prefix_aligned 7 V main_cst _ rfl (by decide)

theorem at_main_v7 : StableHlo.after hostOps0_2 (StableHlo.after hostOps0_1 (StableHlo.after hostOps0 V)) (Proc.devRef .tc main_v7) = broadcastInDim S850000 ![] bcast_S_S850000 (StableHlo.after hostOps0_2 (StableHlo.after hostOps0_1 (StableHlo.after hostOps0 V)) (Proc.devRef .tc main_cst) : (⟨S_, .f32⟩ : BufTy).Contents (Elt F)) := by
  rw [prefix_eq V]
  exact stage_unary prefix_aligned 8 V main_cst main_v7 _ rfl (by decide) (by decide)

theorem at_main_cst_0 : StableHlo.after hostOps0_2 (StableHlo.after hostOps0_1 (StableHlo.after hostOps0 V)) (Proc.devRef .tc main_cst_0) = constant S_ .f32 0x00000000#32 := by
  rw [prefix_eq V]
  exact stage_nullary prefix_aligned 9 V main_cst_0 _ rfl (by decide)

theorem at_main_v8 : StableHlo.after hostOps0_2 (StableHlo.after hostOps0_1 (StableHlo.after hostOps0 V)) (Proc.devRef .tc main_v8) = broadcastInDim S50000 ![] bcast_S_S50000 (StableHlo.after hostOps0_2 (StableHlo.after hostOps0_1 (StableHlo.after hostOps0 V)) (Proc.devRef .tc main_cst_0) : (⟨S_, .f32⟩ : BufTy).Contents (Elt F)) := by
  rw [prefix_eq V]
  exact stage_unary prefix_aligned 10 V main_cst_0 main_v8 _ rfl (by decide) (by decide)

theorem at_main_v9 : StableHlo.after hostOps0_2 (StableHlo.after hostOps0_1 (StableHlo.after hostOps0 V)) (Proc.devRef .tc main_v9) = broadcastInDim S850000x1 ![0] bcast_S850000_S850000x1_0 (StableHlo.after hostOps0_2 (StableHlo.after hostOps0_1 (StableHlo.after hostOps0 V)) (Proc.devRef .tc main_v6) : (⟨S850000, .i32⟩ : BufTy).Contents (Elt F)) := by
  rw [prefix_eq V]
  exact stage_unary prefix_aligned 11 V main_v6 main_v9 _ rfl (by decide) (by decide)

theorem at_main_v10 : StableHlo.after hostOps0_2 (StableHlo.after hostOps0_1 (StableHlo.after hostOps0 V)) (Proc.devRef .tc main_v10) = Host.scatterAdd scatter_S50000_S850000x1_S850000_n_0_0_1 (StableHlo.after hostOps0_2 (StableHlo.after hostOps0_1 (StableHlo.after hostOps0 V)) (Proc.devRef .tc main_v8) : (⟨S50000, .f32⟩ : BufTy).Contents (Elt F)) (StableHlo.after hostOps0_2 (StableHlo.after hostOps0_1 (StableHlo.after hostOps0 V)) (Proc.devRef .tc main_v9) : (⟨S850000x1, .i32⟩ : BufTy).Contents (Elt F)) (StableHlo.after hostOps0_2 (StableHlo.after hostOps0_1 (StableHlo.after hostOps0 V)) (Proc.devRef .tc main_v7) : (⟨S850000, .f32⟩ : BufTy).Contents (Elt F)) := by
  rw [prefix_eq V]
  exact stage_ternary prefix_aligned 12 V main_v8 main_v9 main_v7 main_v10 _ rfl (by decide) (by decide) (by decide) (by decide)

theorem at_main_cst_1 : StableHlo.after hostOps0_2 (StableHlo.after hostOps0_1 (StableHlo.after hostOps0 V)) (Proc.devRef .tc main_cst_1) = constant S_ .f32 0x00000000#32 := by
  rw [prefix_eq V]
  exact stage_nullary prefix_aligned 13 V main_cst_1 _ rfl (by decide)

theorem at_main_v11 : StableHlo.after hostOps0_2 (StableHlo.after hostOps0_1 (StableHlo.after hostOps0 V)) (Proc.devRef .tc main_v11) = broadcastInDim S50000 ![] bcast_S_S50000 (StableHlo.after hostOps0_2 (StableHlo.after hostOps0_1 (StableHlo.after hostOps0 V)) (Proc.devRef .tc main_cst_1) : (⟨S_, .f32⟩ : BufTy).Contents (Elt F)) := by
  rw [prefix_eq V]
  exact stage_unary prefix_aligned 14 V main_cst_1 main_v11 _ rfl (by decide) (by decide)

theorem at_main_v12 : StableHlo.after hostOps0_2 (StableHlo.after hostOps0_1 (StableHlo.after hostOps0 V)) (Proc.devRef .tc main_v12) = cmpf .ogt (StableHlo.after hostOps0_2 (StableHlo.after hostOps0_1 (StableHlo.after hostOps0 V)) (Proc.devRef .tc main_v10) : (⟨S50000, .f32⟩ : BufTy).Contents (Elt F)) (StableHlo.after hostOps0_2 (StableHlo.after hostOps0_1 (StableHlo.after hostOps0 V)) (Proc.devRef .tc main_v11) : (⟨S50000, .f32⟩ : BufTy).Contents (Elt F)) := by
  rw [prefix_eq V]
  exact stage_binary prefix_aligned 15 V main_v10 main_v11 main_v12 _ rfl (by decide) (by decide) (by decide)

theorem at_main_cst_2 : StableHlo.after hostOps0_2 (StableHlo.after hostOps0_1 (StableHlo.after hostOps0 V)) (Proc.devRef .tc main_cst_2) = constant S_ .f32 0xBF000000#32 := by
  rw [prefix_eq V]
  exact stage_nullary prefix_aligned 16 V main_cst_2 _ rfl (by decide)

theorem at_main_v13 : StableHlo.after hostOps0_2 (StableHlo.after hostOps0_1 (StableHlo.after hostOps0 V)) (Proc.devRef .tc main_v13) = broadcastInDim S50000 ![] bcast_S_S50000 (StableHlo.after hostOps0_2 (StableHlo.after hostOps0_1 (StableHlo.after hostOps0 V)) (Proc.devRef .tc main_cst_2) : (⟨S_, .f32⟩ : BufTy).Contents (Elt F)) := by
  rw [prefix_eq V]
  exact stage_unary prefix_aligned 17 V main_cst_2 main_v13 _ rfl (by decide) (by decide)

theorem at_main_v14 : StableHlo.after hostOps0_2 (StableHlo.after hostOps0_1 (StableHlo.after hostOps0 V)) (Proc.devRef .tc main_v14) = Host.powf (StableHlo.after hostOps0_2 (StableHlo.after hostOps0_1 (StableHlo.after hostOps0 V)) (Proc.devRef .tc main_v10) : (⟨S50000, .f32⟩ : BufTy).Contents (Elt F)) (StableHlo.after hostOps0_2 (StableHlo.after hostOps0_1 (StableHlo.after hostOps0 V)) (Proc.devRef .tc main_v13) : (⟨S50000, .f32⟩ : BufTy).Contents (Elt F)) := by
  rw [prefix_eq V]
  exact stage_binary prefix_aligned 18 V main_v10 main_v13 main_v14 _ rfl (by decide) (by decide) (by decide)

theorem at_main_cst_3 : StableHlo.after hostOps0_2 (StableHlo.after hostOps0_1 (StableHlo.after hostOps0 V)) (Proc.devRef .tc main_cst_3) = constant S_ .f32 0x00000000#32 := by
  rw [prefix_eq V]
  exact stage_nullary prefix_aligned 19 V main_cst_3 _ rfl (by decide)

theorem at_main_call0_v0 : StableHlo.after hostOps0_2 (StableHlo.after hostOps0_1 (StableHlo.after hostOps0 V)) (Proc.devRef .tc main_call0_v0) = (StableHlo.after hostOps0_2 (StableHlo.after hostOps0_1 (StableHlo.after hostOps0 V)) (Proc.devRef .tc main_cst_3) : (⟨S_, .f32⟩ : BufTy).Contents (Elt F)) := by
  rw [prefix_eq V]
  exact stage_unary prefix_aligned 20 V main_cst_3 main_call0_v0 _ rfl (by decide) (by decide)

theorem at_main_call0_v1 : StableHlo.after hostOps0_2 (StableHlo.after hostOps0_1 (StableHlo.after hostOps0 V)) (Proc.devRef .tc main_call0_v1) = broadcastInDim S50000 ![] bcast_S_S50000 (StableHlo.after hostOps0_2 (StableHlo.after hostOps0_1 (StableHlo.after hostOps0 V)) (Proc.devRef .tc main_call0_v0) : (⟨S_, .f32⟩ : BufTy).Contents (Elt F)) := by
  rw [prefix_eq V]
  exact stage_unary prefix_aligned 21 V main_call0_v0 main_call0_v1 _ rfl (by decide) (by decide)

theorem at_main_v15 : StableHlo.after hostOps0_2 (StableHlo.after hostOps0_1 (StableHlo.after hostOps0 V)) (Proc.devRef .tc main_v15) = select (StableHlo.after hostOps0_2 (StableHlo.after hostOps0_1 (StableHlo.after hostOps0 V)) (Proc.devRef .tc main_v12) : (⟨S50000, .i1⟩ : BufTy).Contents (Elt F)) (StableHlo.after hostOps0_2 (StableHlo.after hostOps0_1 (StableHlo.after hostOps0 V)) (Proc.devRef .tc main_v14) : (⟨S50000, .f32⟩ : BufTy).Contents (Elt F)) (StableHlo.after hostOps0_2 (StableHlo.after hostOps0_1 (StableHlo.after hostOps0 V)) (Proc.devRef .tc main_call0_v1) : (⟨S50000, .f32⟩ : BufTy).Contents (Elt F)) := by
  rw [prefix_eq V]
  exact stage_ternary prefix_aligned 22 V main_v12 main_v14 main_call0_v1 main_v15 _ rfl (by decide) (by decide) (by decide) (by decide)

theorem at_main_v16 : StableHlo.after hostOps0_2 (StableHlo.after hostOps0_1 (StableHlo.after hostOps0 V)) (Proc.devRef .tc main_v16) = fun i => shapeCast S50000x1 (StableHlo.after hostOps0_2 (StableHlo.after hostOps0_1 (StableHlo.after hostOps0 V)) (Proc.devRef .tc main_v15) : (⟨S50000, .f32⟩ : BufTy).Contents (Elt F)) shapeCasts_S50000_S50000x1 i := by
  rw [prefix_eq V]
  exact stage_reshape prefix_aligned 23 V main_v15 main_v16 rfl (by decide) (by decide)

end Cert.KernelIdeal.Hand

end
-- ==== Proof.Ref.ValueMath2.lean ====
/- The degree and the edge factors read at an element: a flat accumulation adds, at a node, the updates of the edges
   landing on it; the degree of a node is the number of those edges; its inverse square root is the model's
   `dinvR`; an edge's factor is the product of its two ends' (each end read normalised and clamped). -/
import proofs.«168650_j27212912787479_2_alg».proof.Proof.Ref.ValueMath1

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx Cert.Gcn Cert.GatherScatter
/-- The flat accumulation at a node: the operand there plus the updates of the edges landing on it. -/
theorem flatScatter_apply (x : FVec Ideal S50000 .f32) (d : IVec S850000 32) (u : FVec Ideal S850000 .f32) (n : Fin 50000) :
    Host.scatterAdd scatter_S50000_S850000x1_S850000_n_0_0_1 x (colV d) u (ix1 n)
      = x (ix1 n) + ∑ e ∈ land (fun e => d (ix1 e)) n, u (ix1 e) := by
  have h := scatterAdd_flat_apply scatter_S50000_S850000x1_S850000_n_0_0_1_wf x (colV d) u n
  rw [show (Finset.univ.filter fun e : Fin 850000 => (colV d (ix2 e 0)).toInt = (n.val : Int))
      = land (fun e => d (ix1 e)) n from Finset.filter_congr (fun e _ => by rw [colV_apply])] at h
  exact h

/-- The degree of a node: the number of edges whose target reads it. -/
theorem degV_apply (d : IVec S850000 32) (n : Fin 50000) :
    degV d (ix1 n) = (((land (fun e => d (ix1 e)) n).card : ℝ) : EReal) := by
  have h0 : (broadcastInDim S50000 ![] bcast_S_S50000 (constant (F := Ideal) S_ .f32 0x00000000#32)) (ix1 n) = 0 := ofBits_zero
  have h1 : ∀ e : Fin 850000,
      (broadcastInDim S850000 ![] bcast_S_S850000 (constant (F := Ideal) S_ .f32 0x3F800000#32)) (ix1 e) = ((1 : ℝ) : EReal) :=
    fun _ => ofBits_one
  unfold degV
  rw [flatScatter_apply, h0, zero_add, Finset.sum_congr rfl (fun e _ => h1 e), ← coe_sum, Finset.sum_const, nsmul_eq_mul,
    mul_one]

/-- On a finite degree: the power where the degree is positive, zero elsewhere. -/
theorem dinv_scalar (c : ℝ) :
    Scalar.select (FloatOps.cmpf (F := Ideal) (φ := .f32) .ogt (c : EReal) (Ideal.ofBits .f32 0x00000000#32))
        (FloatOps.hostPowf (F := Ideal) (φ := .f32) (c : EReal) (Ideal.ofBits .f32 0xBF000000#32))
        (Ideal.ofBits .f32 0x00000000#32)
      = ((if (0 : ℝ) < c then Real.rpow c (-(1 / 2)) else 0 : ℝ) : EReal) := by
  rw [ofBits_zero, ofBits_neg_half]
  by_cases h : (0 : ℝ) < c
  · rw [if_pos h]
    have hc : FloatOps.cmpf (F := Ideal) (φ := .f32) .ogt (c : EReal) 0 = 1#1 := by
      show BitVec.ofBool (decide ((0 : EReal) < (c : EReal))) = 1#1
      rw [decide_eq_true (EReal.coe_pos.mpr h)]; rfl
    rw [hc, select_one]; rfl
  · rw [if_neg h]
    have hc : FloatOps.cmpf (F := Ideal) (φ := .f32) .ogt (c : EReal) 0 = 0#1 := by
      show BitVec.ofBool (decide ((0 : EReal) < (c : EReal))) = 0#1
      rw [decide_eq_false (fun h' => h (EReal.coe_pos.mp h'))]; rfl
    rw [hc, select_zero]; rfl

/-- The inverse square root of the degree where there is one, zero elsewhere. -/
theorem dinvV_apply (d : IVec S850000 32) (n : Fin 50000) :
    dinvV d (ix1 n) = ((dinvR (fun e => d (ix1 e)) n : ℝ) : EReal) := by
  have hp : ∀ (x y : FVec Ideal S50000 .f32) (i : S50000.Idx), Host.powf x y i = FloatOps.hostPowf (x i) (y i) := fun _ _ _ => rfl
  have h0 : (broadcastInDim S50000 ![] bcast_S_S50000 (constant (F := Ideal) S_ .f32 0x00000000#32)) (ix1 n)
      = Ideal.ofBits .f32 0x00000000#32 := rfl
  have h1 : (broadcastInDim S50000 ![] bcast_S_S50000 (constant (F := Ideal) S_ .f32 0xBF000000#32)) (ix1 n)
      = Ideal.ofBits .f32 0xBF000000#32 := rfl
  unfold dinvV dinvR
  rw [select_apply, cmpf_apply, hp, h0, h1, degV_apply]
  exact dinv_scalar _

/-- A flat gather at the normalised index column reads the node the index names. -/
theorem flatGather_apply (x : FVec Ideal S50000 .f32) (z : IVec S850000 32) (e : Fin 850000) :
    Host.gather gather_S50000_S850000x1_S850000_n_0_n_n_0_1_1 x (colV (normV z)) (ix1 e) = x (ix1 (nodeOf (z (ix1 e)))) :=
  (gather_flat_apply (N := 50000) (by norm_num) gather_S50000_S850000x1_S850000_n_0_n_n_0_1_1_wf x (colV (normV z)) e).trans
    (congrArg (fun a => x (ix1 a)) (Fin.ext (by
      show min (colV (normV z) (ix2 e 0)).toInt.toNat (50000 - 1) = min (normIdx (z (ix1 e))).toInt.toNat (50000 - 1)
      rw [colV_apply, normV_apply])))

/-- An edge's factor: the product of its two ends' inverse square root degrees. -/
theorem normE_apply (s d : IVec S850000 32) (e : Fin 850000) :
    normE s d (ix1 e)
      = ((dinvR (fun e => d (ix1 e)) (nodeOf (s (ix1 e))) * dinvR (fun e => d (ix1 e)) (nodeOf (d (ix1 e))) : ℝ) : EReal) := by
  unfold normE
  rw [mulf_apply, flatGather_apply, flatGather_apply, dinvV_apply, dinvV_apply, EReal.coe_mul]

end Cert.ReferenceIdeal.Hand

end
-- ==== Proof.KI.PrefixValue.lean ====
/- The kernel program's inverse square root degree column, over the reals. After the first three stretches of host
   operations the target edge array is the reference's `dstV` of the launch's edge index array, the buffer before the
   final reshape is the reference's `dinvV` of that edge array (the same operations in the same order), and so the
   reshaped column at (n, 0) is the model's `dinvR` of the model's targets at n. -/
import proofs.«168650_j27212912787479_2_alg».proof.Proof.KI.PrefixStage
import proofs.«168650_j27212912787479_2_alg».proof.Proof.KI.Run
import proofs.«168650_j27212912787479_2_alg».proof.Proof.Ref.ValueMath2
import proofs.«168650_j27212912787479_2_alg».proof.Proof.LibGcnGlue

noncomputable section

namespace Cert.KernelIdeal.Hand

open Cert.KernelIdeal Cert.KernelIdeal.Gen Idealize.ShloMosaic Idealize.ShloMosaic.TcCoe Idealize.SL.Sem
open Idealize.ShloMosaic.ValueIdx

/-- The target edge array after the three stretches: the edge index array's row 1 with the self-loops appended. -/
theorem prefix_v6_eq (V : Valuation τ sig (Elt Ideal)) :
    StableHlo.after hostOps0_2 (StableHlo.after hostOps0_1 (StableHlo.after hostOps0 V)) (Proc.devRef .tc main_v6)
      = Cert.ReferenceIdeal.Hand.dstV (V (Proc.devRef .tc main_arg1)) := by
  rw [at_main_v6 V, at_main_v4 V, at_main_v3 V, at_main_v2 V, prefix_keep V main_arg1 (by decide)]
  rfl

/-- The inverse square root degree after the three stretches, as a function of the target edge array. -/
theorem prefix_v15_eq (V : Valuation τ sig (Elt Ideal)) :
    StableHlo.after hostOps0_2 (StableHlo.after hostOps0_1 (StableHlo.after hostOps0 V)) (Proc.devRef .tc main_v15)
      = Cert.ReferenceIdeal.Hand.dinvV (StableHlo.after hostOps0_2 (StableHlo.after hostOps0_1 (StableHlo.after hostOps0 V)) (Proc.devRef .tc main_v6)) := by
  rw [at_main_v15 V, at_main_call0_v1 V, at_main_call0_v0 V, at_main_cst_3 V, at_main_v14 V, at_main_v13 V, at_main_cst_2 V,
    at_main_v12 V, at_main_v11 V, at_main_cst_1 V, at_main_v10 V, at_main_v9 V, at_main_v8 V, at_main_cst_0 V, at_main_v7 V,
    at_main_cst V]
  rfl

variable (m : (ℓ : Loc nD τ sig) → Buf (Elt Ideal) ℓ)

/-- THE COLUMN'S VALUE: at (n, 0) the model's inverse square root degree of node n. -/
theorem main_v16_value (c : Dev nD) :
    (W3 m c (Proc.devRef .tc main_v16) : S50000x1.Idx → EReal)
      = fun i => ((Cert.Gcn.dinvR (Cert.Gcn.dOf (m ((c.tc : Thread nD τ).loc main_arg1))) (i 0) : ℝ) : EReal) := by
  have hd : (fun e => Cert.ReferenceIdeal.Hand.dstV (m ((c.tc : Thread nD τ).loc main_arg1)) (ix1 e))
      = Cert.Gcn.dOf (m ((c.tc : Thread nD τ).loc main_arg1)) :=
    funext (Cert.ReferenceIdeal.Hand.dstV_apply _)
  funext i
  obtain ⟨n, u, rfl⟩ : ∃ (n : Fin 50000) (u : Fin 1), i = ix2 n u := ⟨i 0, i 1, eq_ix2 i⟩
  show StableHlo.after hostOps0_2 (StableHlo.after hostOps0_1 (StableHlo.after hostOps0 (W0 m c))) (Proc.devRef .tc main_v16) (ix2 n u) = _
  rw [at_main_v16 (W0 m c)]
  show shapeCast S50000x1 _ shapeCasts_S50000_S50000x1 (ix2 n u) = _
  rw [Cert.GcnGlue.shapeCast_a_a1_apply, prefix_v15_eq, prefix_v6_eq, Cert.ReferenceIdeal.Hand.dinvV_apply]
  show ((Cert.Gcn.dinvR (fun e => Cert.ReferenceIdeal.Hand.dstV (m ((c.tc : Thread nD τ).loc main_arg1)) (ix1 e)) n : ℝ) : EReal) = _
  rw [hd]
  rfl

end Cert.KernelIdeal.Hand

end
-- ==== Proof.KI.Val0.lean ====
/- Region 0 read as one function: after the region, the result array is the feature array times the weight matrix, each
   row scaled by its entry of the degree column. The kernel's stored value is read at an index of a block; each input
   block is the matching part of its array (the features' and the degree column's blocks move down the rows with the
   output's, the weights are one block); the 25 blocks of 2000 rows fill the 50000 rows. -/
import proofs.«168650_j27212912787479_2_alg».proof.Proof.KI.Reg0
import proofs.«168650_j27212912787479_2_alg».proof.Proof.KI.ReadAt
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

variable (V : (c : Dev nD) → (b : Ref sig .tc) → Buf (Elt Ideal) ((c : Thread nD τ).loc b))

/-! ## The specification -/

/-- Region 0's result array: entry `(r, q)` is row `r` of the features times column `q` of the weights, scaled by row
    `r`'s entry of the degree column. -/
def G0 (x : S50000x128.Idx → EReal) (w : S128x128.Idx → EReal) (dv : S50000x1.Idx → EReal) : S50000x128.Idx → EReal :=
  fun i => (∑ k : Fin 128, x (ix2 (i 0) k) * w (ix2 k (i 1))) * dv (ix2 (i 0) 0)

/-- `G0` at an index whose row is `r` and column `q`. -/
theorem G0_at (x : S50000x128.Idx → EReal) (w : S128x128.Idx → EReal) (dv : S50000x1.Idx → EReal) (i : S50000x128.Idx)
    (r : Fin 50000) (q : Fin 128) (hr : (i 0).val = r.val) (hq : (i 1).val = q.val) :
    G0 x w dv i = (∑ k : Fin 128, x (ix2 r k) * w (ix2 k q)) * dv (ix2 r 0) := by
  have e0 : (i 0 : Fin 50000) = r := Fin.ext hr
  have e1 : (i 1 : Fin 128) = q := Fin.ext hq
  show (∑ k : Fin 128, x (ix2 (i 0) k) * w (ix2 k (i 1))) * dv (ix2 (i 0) 0) = _
  rw [e0, e1]

/-! ## The payload at an index -/

/-- The kernel's stored value at row `p`, column `q` of a block: the block's row `p` times the weights' column `q`,
    scaled by the degree column's entry at row `p`. The changes of float format are the identity on the extended reals. -/
theorem pay0_at (x : Vec Ideal S2000x128 .f32) (w : Vec Ideal S128x128 .f32) (dv : Vec Ideal S2000x1 .f32) (p : Fin 2000) (q : Fin 128) :
    k0_pay1 x w dv (ix2 p q) = (∑ k : Fin 128, x (ix2 p k) * w (ix2 k q)) * dv (ix2 p 0) := by
  unfold k0_pay1
  simp only [shapeCast_self, truncf_apply, mulf_apply, matmul_rows_at, broadcastTo_a1_ab_apply]

/-! ## From blocks to the array -/

/-- The block indices over the grid: the features' and the degree column's blocks move with the output's, down the rows;
    the weights stay at their one block. -/
theorem idx0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) ≤ 24 ∧ win0_3.index t (1 : Fin 2) = 0 :=
  (by decide +kernel : ∀ t : Fin grid0.N, _)

/-- Each of the 25 row blocks of the output is some point's. -/
theorem onto0 : ∀ q0 : Fin 25, ∃ t : Fin cfg0.N, win0_3.index t = ![q0.val, 0] :=
  (by decide +kernel : ∀ q0 : Fin 25, ∃ t : Fin grid0.N, win0_3.index t = ![q0.val, 0])

/-- Window 0's block at point `t` is rows `2000 * (block index) ...` of its array: entry `(p, k)` of the block is the array's
    entry `(r, k)` for the row `r` the block index puts `p` at. -/
theorem blk0_0 (c : Dev nD) (t : Fin cfg0.N) (p : Fin 2000) (k : Fin 128) (r : Fin 50000)
    (hr : r.val = win0_0.index t (0 : Fin 2) * 2000 + p.val) (hz : win0_0.index t (1 : Fin 2) = 0) :
    (iblk0 V c 0 t : Vec Ideal S2000x128 .f32) (ix2 p k) = (V c main_arg0 : S50000x128.Idx → EReal) (ix2 r k) := by
  show V c main_arg0 (((cfg0.win 0).blk t).view.emb (ix2 p k)) = _
  refine congrArg _ (funext fun a => Fin.ext ?_)
  match a with
  | ⟨0, _⟩ => show win0_0.index t (0 : Fin 2) * 2000 + 1 * p.val = r.val; omega
  | ⟨1, _⟩ => show win0_0.index t (1 : Fin 2) * 128 + 1 * k.val = k.val; omega

/-- Window 1's one block is its whole array. -/
theorem blk0_1 (c : Dev nD) (t : Fin cfg0.N) (p : Fin 128) (k : Fin 128)
    (hz0 : win0_1.index t (0 : Fin 2) = 0) (hz1 : win0_1.index t (1 : Fin 2) = 0) :
    (iblk0 V c 1 t : Vec Ideal S128x128 .f32) (ix2 p k) = (V c main_arg2 : S128x128.Idx → EReal) (ix2 p k) := by
  show V c main_arg2 (((cfg0.win 1).blk t).view.emb (ix2 p k)) = _
  refine congrArg _ (funext fun a => Fin.ext ?_)
  match a with
  | ⟨0, _⟩ => show win0_1.index t (0 : Fin 2) * 128 + 1 * p.val = p.val; omega
  | ⟨1, _⟩ => show win0_1.index t (1 : Fin 2) * 128 + 1 * k.val = k.val; omega

/-- Window 2's block at point `t` is rows `2000 * (block index) ...` of its array: entry `(p, k)` of the block is the array's
    entry `(r, k)` for the row `r` the block index puts `p` at. -/
theorem blk0_2 (c : Dev nD) (t : Fin cfg0.N) (p : Fin 2000) (k : Fin 1) (r : Fin 50000)
    (hr : r.val = win0_2.index t (0 : Fin 2) * 2000 + p.val) (hz : win0_2.index t (1 : Fin 2) = 0) :
    (iblk0 V c 2 t : Vec Ideal S2000x1 .f32) (ix2 p k) = (V c main_v16 : S50000x1.Idx → EReal) (ix2 r k) := by
  show V c main_v16 (((cfg0.win 2).blk t).view.emb (ix2 p k)) = _
  refine congrArg _ (funext fun a => Fin.ext ?_)
  match a with
  | ⟨0, _⟩ => show win0_2.index t (0 : Fin 2) * 2000 + 1 * p.val = r.val; omega
  | ⟨1, _⟩ => show win0_2.index t (1 : Fin 2) * 1 + 1 * k.val = k.val; omega

/-- What point `t` writes back is block `t` of `G0` of the arrays as the region finds them. -/
theorem wrote0 (c : Dev nD) (t : Fin cfg0.N) :
    (dat0 (F := Ideal) V c).flushed 3 t = ((cfg0.win 3).blk t).view.read (Elt Ideal)
      (G0 (V c main_arg0) (V c main_arg2) (V c main_v16)) := by
  show (cfg0.win 3).cut (grid0.coords t) ((dat0 V c).after 3 t) = _
  rw [after0_3]
  unfold out0_3
  rw [View.canon_unit_zero zeros2]
  simp only [View.ld_unit_zero (S := S2000x128) zeros2, View.ld_unit_zero (S := S128x128) zeros2, View.ld_unit_zero (S := S2000x1) zeros2]
  obtain ⟨e00, e01, e10, e11, e20, e21, e30, e31⟩ := idx0 t
  funext j
  obtain ⟨p, q, rfl⟩ : ∃ (p : Fin 2000) (q : Fin 128), j = ix2 p q := ⟨j 0, j 1, eq_ix2 j⟩
  show k0_pay1 (iblk0 V c 0 t) (iblk0 V c 1 t) (iblk0 V c 2 t) (ix2 p q)
    = G0 (V c main_arg0) (V c main_arg2) (V c main_v16) (((cfg0.win 3).blk t).view.emb (ix2 p q))
  refine (pay0_at (iblk0 V c 0 t) (iblk0 V c 1 t) (iblk0 V c 2 t) p q).trans ?_
  have hp : p.val < 2000 := p.isLt
  refine Eq.trans ?_ (G0_at (V c main_arg0) (V c main_arg2) (V c main_v16) (((cfg0.win 3).blk t).view.emb (ix2 p q))
    ⟨win0_3.index t (0 : Fin 2) * 2000 + p.val, by omega⟩ q
    (by show win0_3.index t (0 : Fin 2) * 2000 + 1 * p.val = win0_3.index t (0 : Fin 2) * 2000 + p.val; omega)
    (by show win0_3.index t (1 : Fin 2) * 128 + 1 * q.val = q.val; omega)).symm
  refine congrArg₂ (· * ·) (Finset.sum_congr rfl fun k _ => congrArg₂ (· * ·) ?_ ?_) ?_
  · exact blk0_0 V c t p k _ (by show win0_3.index t (0 : Fin 2) * 2000 + p.val = _; omega) e01
  · exact blk0_1 V c t k q e10 e11
  · exact blk0_2 V c t p 0 _ (by show win0_3.index t (0 : Fin 2) * 2000 + p.val = _; omega) e21

/-- An index of the array is in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v17).slice (win0_3.rect t)).set ↔ _
  rw [View.set_slice_whole, Rect.mem_set_unit]
  exact Iff.rfl

/-- The 25 blocks of 2000 rows fill the 50000 rows: row `r` is in block `r / 2000`. -/
theorem cover0 (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := onto0 ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The result array after the region is `G0` of the region's entry arrays. -/
theorem final0 (c : Dev nD) : (dat0 (F := Ideal) V c).arrAt 3 cfg0.N = G0 (V c main_arg0) (V c main_arg2) (V c main_v16) :=
  (dat0 (F := Ideal) V c).arrAt_eq_of_cover 3 _ (fun t _ => wrote0 V c t) cover0

end Cert.KernelIdeal.Hand

end
-- ==== Proof.KI.Val4.lean ====
/- Region 4 read as one function: after the region, the result array is batch normalisation and ReLU of the activation
   array, entry by entry, with each column's mean, variance, scale and shift. The kernel's stored value is read at an
   index of a block; each input block is the matching part of its array (the activations' block moves down the rows with
   the output's, the four rows of 128 are one block each); the 25 blocks of 2000 rows fill the 50000 rows. -/
import proofs.«168650_j27212912787479_2_alg».proof.Proof.KI.Reg4
import proofs.«168650_j27212912787479_2_alg».proof.Proof.KI.ReadAt
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

variable (V : (c : Dev nD) → (b : Ref sig .tc) → Buf (Elt Ideal) ((c : Thread nD τ).loc b))

/-! ## The specification -/

/-- Batch normalisation followed by ReLU, of one entry: `h` centred at `mean`, scaled by the reciprocal square root of
    `var` plus the stabiliser, then by `gamma`, shifted by `beta`, and cut below at zero. -/
def bnrelu (h mean var gamma beta : EReal) : EReal :=
  max (((h - mean) * Ideal.rsqrt (var + Ideal.ofBits .f32 0x3727C5AC#32)) * gamma + beta) 0

/-- Region 4's result array: entry `(r, k)` is `bnrelu` of the activation at `(r, k)` with column `k`'s mean, variance,
    scale and shift. -/
def G4 (h : S50000x128.Idx → EReal) (mean var gamma beta : S1x128.Idx → EReal) : S50000x128.Idx → EReal :=
  fun i => bnrelu (h i) (mean (ix2 0 (i 1))) (var (ix2 0 (i 1))) (gamma (ix2 0 (i 1))) (beta (ix2 0 (i 1)))

/-- `G4` at an index whose column is `q`. -/
theorem G4_at (h : S50000x128.Idx → EReal) (mean var gamma beta : S1x128.Idx → EReal) (i : S50000x128.Idx) (q : Fin 128)
    (hq : (i 1).val = q.val) :
    G4 h mean var gamma beta i = bnrelu (h i) (mean (ix2 0 q)) (var (ix2 0 q)) (gamma (ix2 0 q)) (beta (ix2 0 q)) := by
  have e : (i 1 : Fin 128) = q := Fin.ext hq
  show bnrelu (h i) (mean (ix2 0 (i 1))) (var (ix2 0 (i 1))) (gamma (ix2 0 (i 1))) (beta (ix2 0 (i 1))) = _
  rw [e]

/-! ## The payload at an index -/

/-- The kernel's stored value at row `p`, column `q` of a block: `bnrelu` of the block's entry there and the four
    rows' entries at column `q`. The rows are broadcast down the block, so only their column matters. -/
theorem pay4_at (x0 : Vec Ideal S2000x128 .f32) (mean var gamma beta : Vec Ideal S1x128 .f32) (p : Fin 2000) (q : Fin 128) :
    k4_pay1 x0 var mean gamma beta (ix2 p q)
      = bnrelu (x0 (ix2 p q)) (mean (ix2 0 q)) (var (ix2 0 q)) (gamma (ix2 0 q)) (beta (ix2 0 q)) := by
  unfold k4_pay1 bnrelu
  simp only [shapeCast_self, maximumf_apply, addf_apply, mulf_apply, subf_apply, broadcastTo_1b_ab_apply, broadcast_apply]
  rw [show (FloatOps.ofBits (F := Ideal) .f32 0x00000000#32) = (0 : EReal) from Ideal.ofBits_zero_f32]
  rfl

/-! ## From blocks to the array -/

/-- The block indices over the grid: the activations' block moves with the output's, down the rows; the four rows of
    statistics and parameters stay at their one block. -/
theorem idx4 : ∀ t : Fin cfg4.N,
    win4_0.index t (0 : Fin 2) = win4_5.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) ≤ 24 ∧ win4_5.index t (1 : Fin 2) = 0 :=
  (by decide +kernel : ∀ t : Fin grid4.N, _)

/-- Each of the 25 row blocks of the output is some point's. -/
theorem onto4 : ∀ q0 : Fin 25, ∃ t : Fin cfg4.N, win4_5.index t = ![q0.val, 0] :=
  (by decide +kernel : ∀ q0 : Fin 25, ∃ t : Fin grid4.N, win4_5.index t = ![q0.val, 0])

/-- Window 0's block at point `t` is rows `2000 * (block index) ...` of its array: entry `(p, k)` of the block is the array's
    entry `(r, k)` for the row `r` the block index puts `p` at. -/
theorem blk4_0 (c : Dev nD) (t : Fin cfg4.N) (p : Fin 2000) (k : Fin 128) (r : Fin 50000)
    (hr : r.val = win4_0.index t (0 : Fin 2) * 2000 + p.val) (hz : win4_0.index t (1 : Fin 2) = 0) :
    (iblk4 V c 0 t : Vec Ideal S2000x128 .f32) (ix2 p k) = (V c main_v54_0 : S50000x128.Idx → EReal) (ix2 r k) := by
  show V c main_v54_0 (((cfg4.win 0).blk t).view.emb (ix2 p k)) = _
  refine congrArg _ (funext fun a => Fin.ext ?_)
  match a with
  | ⟨0, _⟩ => show win4_0.index t (0 : Fin 2) * 2000 + 1 * p.val = r.val; omega
  | ⟨1, _⟩ => show win4_0.index t (1 : Fin 2) * 128 + 1 * k.val = k.val; omega

/-- Window 1's one block is its whole array. -/
theorem blk4_1 (c : Dev nD) (t : Fin cfg4.N) (p : Fin 1) (k : Fin 128)
    (hz0 : win4_1.index t (0 : Fin 2) = 0) (hz1 : win4_1.index t (1 : Fin 2) = 0) :
    (iblk4 V c 1 t : Vec Ideal S1x128 .f32) (ix2 p k) = (V c main_v56 : S1x128.Idx → EReal) (ix2 p k) := by
  show V c main_v56 (((cfg4.win 1).blk t).view.emb (ix2 p k)) = _
  refine congrArg _ (funext fun a => Fin.ext ?_)
  match a with
  | ⟨0, _⟩ => show win4_1.index t (0 : Fin 2) * 1 + 1 * p.val = p.val; omega
  | ⟨1, _⟩ => show win4_1.index t (1 : Fin 2) * 128 + 1 * k.val = k.val; omega

/-- Window 2's one block is its whole array. -/
theorem blk4_2 (c : Dev nD) (t : Fin cfg4.N) (p : Fin 1) (k : Fin 128)
    (hz0 : win4_2.index t (0 : Fin 2) = 0) (hz1 : win4_2.index t (1 : Fin 2) = 0) :
    (iblk4 V c 2 t : Vec Ideal S1x128 .f32) (ix2 p k) = (V c main_v62 : S1x128.Idx → EReal) (ix2 p k) := by
  show V c main_v62 (((cfg4.win 2).blk t).view.emb (ix2 p k)) = _
  refine congrArg _ (funext fun a => Fin.ext ?_)
  match a with
  | ⟨0, _⟩ => show win4_2.index t (0 : Fin 2) * 1 + 1 * p.val = p.val; omega
  | ⟨1, _⟩ => show win4_2.index t (1 : Fin 2) * 128 + 1 * k.val = k.val; omega

/-- Window 3's one block is its whole array. -/
theorem blk4_3 (c : Dev nD) (t : Fin cfg4.N) (p : Fin 1) (k : Fin 128)
    (hz0 : win4_3.index t (0 : Fin 2) = 0) (hz1 : win4_3.index t (1 : Fin 2) = 0) :
    (iblk4 V c 3 t : Vec Ideal S1x128 .f32) (ix2 p k) = (V c main_v63 : S1x128.Idx → EReal) (ix2 p k) := by
  show V c main_v63 (((cfg4.win 3).blk t).view.emb (ix2 p k)) = _
  refine congrArg _ (funext fun a => Fin.ext ?_)
  match a with
  | ⟨0, _⟩ => show win4_3.index t (0 : Fin 2) * 1 + 1 * p.val = p.val; omega
  | ⟨1, _⟩ => show win4_3.index t (1 : Fin 2) * 128 + 1 * k.val = k.val; omega

/-- Window 4's one block is its whole array. -/
theorem blk4_4 (c : Dev nD) (t : Fin cfg4.N) (p : Fin 1) (k : Fin 128)
    (hz0 : win4_4.index t (0 : Fin 2) = 0) (hz1 : win4_4.index t (1 : Fin 2) = 0) :
    (iblk4 V c 4 t : Vec Ideal S1x128 .f32) (ix2 p k) = (V c main_v64 : S1x128.Idx → EReal) (ix2 p k) := by
  show V c main_v64 (((cfg4.win 4).blk t).view.emb (ix2 p k)) = _
  refine congrArg _ (funext fun a => Fin.ext ?_)
  match a with
  | ⟨0, _⟩ => show win4_4.index t (0 : Fin 2) * 1 + 1 * p.val = p.val; omega
  | ⟨1, _⟩ => show win4_4.index t (1 : Fin 2) * 128 + 1 * k.val = k.val; omega

/-- What point `t` writes back is block `t` of `G4` of the arrays as the region finds them. -/
theorem wrote4 (c : Dev nD) (t : Fin cfg4.N) :
    (dat4 (F := Ideal) V c).flushed 5 t = ((cfg4.win 5).blk t).view.read (Elt Ideal)
      (G4 (V c main_v54_0) (V c main_v56) (V c main_v62) (V c main_v63) (V c main_v64)) := by
  show (cfg4.win 5).cut (grid4.coords t) ((dat4 V c).after 5 t) = _
  rw [after4_5]
  unfold out4_5
  rw [View.canon_unit_zero zeros2]
  simp only [View.ld_unit_zero (S := S2000x128) zeros2, View.ld_unit_zero (S := S1x128) zeros2]
  obtain ⟨e00, e01, e10, e11, e20, e21, e30, e31, e40, e41, e50, e51⟩ := idx4 t
  funext j
  obtain ⟨p, q, rfl⟩ : ∃ (p : Fin 2000) (q : Fin 128), j = ix2 p q := ⟨j 0, j 1, eq_ix2 j⟩
  show k4_pay1 (iblk4 V c 0 t) (iblk4 V c 2 t) (iblk4 V c 1 t) (iblk4 V c 3 t) (iblk4 V c 4 t) (ix2 p q)
    = G4 (V c main_v54_0) (V c main_v56) (V c main_v62) (V c main_v63) (V c main_v64) (((cfg4.win 5).blk t).view.emb (ix2 p q))
  refine (pay4_at (iblk4 V c 0 t) (iblk4 V c 1 t) (iblk4 V c 2 t) (iblk4 V c 3 t) (iblk4 V c 4 t) p q).trans ?_
  have hp : p.val < 2000 := p.isLt
  refine Eq.trans ?_ (G4_at (V c main_v54_0) (V c main_v56) (V c main_v62) (V c main_v63) (V c main_v64)
    (((cfg4.win 5).blk t).view.emb (ix2 p q)) q
    (by show win4_5.index t (1 : Fin 2) * 128 + 1 * q.val = q.val; omega)).symm
  rw [blk4_0 V c t p q ⟨win4_5.index t (0 : Fin 2) * 2000 + p.val, by omega⟩
      (by show win4_5.index t (0 : Fin 2) * 2000 + p.val = _; omega) e01,
    blk4_1 V c t 0 q e10 e11, blk4_2 V c t 0 q e20 e21, blk4_3 V c t 0 q e30 e31, blk4_4 V c t 0 q e40 e41]
  refine congrArg (fun i => bnrelu (V c main_v54_0 i) _ _ _ _) (funext fun a => Fin.ext ?_)
  match a with
  | ⟨0, _⟩ => show win4_5.index t (0 : Fin 2) * 2000 + p.val = win4_5.index t (0 : Fin 2) * 2000 + 1 * p.val; omega
  | ⟨1, _⟩ => show q.val = win4_5.index t (1 : Fin 2) * 128 + 1 * q.val; omega

/-- An index of the array is in point `t`'s block iff each coordinate is in the block's range on its axis. -/
theorem mem_blk4 (t : Fin cfg4.N) (i : S50000x128.Idx) :
    i ∈ ((cfg4.win 5).blk t).view.set ↔ ∀ a : Fin 2, win4_5.index t a * S2000x128.size a ≤ (i a).val ∧ (i a).val < win4_5.index t a * S2000x128.size a + S2000x128.size a := by
  show i ∈ ((View.whole main_v65).slice (win4_5.rect t)).set ↔ _
  rw [View.set_slice_whole, Rect.mem_set_unit]
  exact Iff.rfl

/-- The 25 blocks of 2000 rows fill the 50000 rows: row `r` is in block `r / 2000`. -/
theorem cover4 (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  obtain ⟨t, ht⟩ := onto4 ⟨(i 0).val / 2000, by omega⟩
  have q0 : win4_5.index t (0 : Fin 2) = (i 0).val / 2000 := congrFun ht 0
  have q1 : win4_5.index t (1 : Fin 2) = 0 := congrFun ht 1
  refine ⟨t, flush4_5 t, ?_⟩
  rw [mem_blk4]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 128 ≤ (i 1).val ∧ (i 1).val < win4_5.index t (1 : Fin 2) * 128 + 128; omega

/-- The result array after the region is `G4` of the region's entry arrays. -/
theorem final4 (c : Dev nD) : (dat4 (F := Ideal) V c).arrAt 5 cfg4.N
    = G4 (V c main_v54_0) (V c main_v56) (V c main_v62) (V c main_v63) (V c main_v64) :=
  (dat4 (F := Ideal) V c).arrAt_eq_of_cover 5 _ (fun t _ => wrote4 V c t) cover4

end Cert.KernelIdeal.Hand

end
-- ==== Proof.KI.Val2.lean ====
/- Region 2 read as one function: after the region, the result array is the activation array, normalised and rectified
   entry by entry as in region 4, times the weight matrix, each row scaled by its entry of the degree column. The kernel's
   stored value is read at an index of a block; each input block is the matching part of its array (the activations' and
   the degree column's blocks move down the rows with the output's; the four rows of 128 and the weights are one block
   each); the 25 blocks of 2000 rows fill the 50000 rows. -/
import proofs.«168650_j27212912787479_2_alg».proof.Proof.KI.Reg2
import proofs.«168650_j27212912787479_2_alg».proof.Proof.KI.ReadAt
import proofs.«168650_j27212912787479_2_alg».proof.Proof.KI.Val4
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen
open scoped BigOperators

variable (V : (c : Dev nD) → (b : Ref sig .tc) → Buf (Elt Ideal) ((c : Thread nD τ).loc b))

/-! ## The specification -/

/-- Region 2's result array: entry `(r, q)` is row `r` of the normalised, rectified activations (`G4`) times column `q`
    of the weights, scaled by row `r`'s entry of the degree column. -/
def G2 (h : S50000x128.Idx → EReal) (mean var gamma beta : S1x128.Idx → EReal) (w : S128x128.Idx → EReal)
    (dv : S50000x1.Idx → EReal) : S50000x128.Idx → EReal :=
  fun i => (∑ k : Fin 128, G4 h mean var gamma beta (ix2 (i 0) k) * w (ix2 k (i 1))) * dv (ix2 (i 0) 0)

/-- `G2` at an index whose row is `r` and column `q`. -/
theorem G2_at (h : S50000x128.Idx → EReal) (mean var gamma beta : S1x128.Idx → EReal) (w : S128x128.Idx → EReal)
    (dv : S50000x1.Idx → EReal) (i : S50000x128.Idx) (r : Fin 50000) (q : Fin 128) (hr : (i 0).val = r.val) (hq : (i 1).val = q.val) :
    G2 h mean var gamma beta w dv i
      = (∑ k : Fin 128, bnrelu (h (ix2 r k)) (mean (ix2 0 k)) (var (ix2 0 k)) (gamma (ix2 0 k)) (beta (ix2 0 k)) * w (ix2 k q))
          * dv (ix2 r 0) := by
  have e0 : (i 0 : Fin 50000) = r := Fin.ext hr
  have e1 : (i 1 : Fin 128) = q := Fin.ext hq
  show (∑ k : Fin 128, G4 h mean var gamma beta (ix2 (i 0) k) * w (ix2 k (i 1))) * dv (ix2 (i 0) 0) = _
  rw [e0, e1]
  rfl

/-! ## The payload at an index -/

/-- The kernel's stored value at row `p`, column `q` of a block: the block's row `p`, normalised and rectified entry by
    entry, times the weights' column `q`, scaled by the degree column's entry at row `p`. The normalisation is region 4's
    payload, term for term. -/
theorem pay2_at (x0 : Vec Ideal S2000x128 .f32) (mean var gamma beta : Vec Ideal S1x128 .f32) (w : Vec Ideal S128x128 .f32)
    (dv : Vec Ideal S2000x1 .f32) (p : Fin 2000) (q : Fin 128) :
    k2_pay1 x0 var mean gamma beta w dv (ix2 p q)
      = (∑ k : Fin 128, bnrelu (x0 (ix2 p k)) (mean (ix2 0 k)) (var (ix2 0 k)) (gamma (ix2 0 k)) (beta (ix2 0 k)) * w (ix2 k q))
          * dv (ix2 p 0) := by
  have e : k2_pay1 x0 var mean gamma beta w dv
      = truncf .bf16 (mulf (matmul dot_S2000x128_S128x128_S2000x128_1_0_0_1_n_n none (truncf .bf16 (k4_pay1 x0 var mean gamma beta) bitsLt_bf16_f32)
          (truncf .bf16 w bitsLt_bf16_f32) (constant (F := Ideal) S2000x128 .f32 0x00000000#32))
          (broadcastTo S2000x128 (shapeCast S2000x1 dv shapeCasts_S2000x1_S2000x1) broadcasts_S2000x1_S2000x128)) bitsLt_bf16_f32 := rfl
  rw [e]
  simp only [shapeCast_self, truncf_apply, mulf_apply, matmul_rows_at, broadcastTo_a1_ab_apply, pay4_at]

/-! ## From blocks to the array -/

/-- The block indices over the grid: the activations' and the degree column's blocks move with the output's, down the
    rows; the four rows of statistics and parameters and the weights stay at their one block. -/
theorem idx2 : ∀ t : Fin cfg2.N,
    win2_0.index t (0 : Fin 2) = win2_7.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = win2_7.index t (0 : Fin 2) ∧ win2_6.index t (1 : Fin 2) = 0
    ∧ win2_7.index t (0 : Fin 2) ≤ 24 ∧ win2_7.index t (1 : Fin 2) = 0 :=
  (by decide +kernel : ∀ t : Fin grid2.N, _)

/-- Each of the 25 row blocks of the output is some point's. -/
theorem onto2 : ∀ q0 : Fin 25, ∃ t : Fin cfg2.N, win2_7.index t = ![q0.val, 0] :=
  (by decide +kernel : ∀ q0 : Fin 25, ∃ t : Fin grid2.N, win2_7.index t = ![q0.val, 0])

/-- Window 0's block at point `t` is rows `2000 * (block index) ...` of its array: entry `(p, k)` of the block is the array's
    entry `(r, k)` for the row `r` the block index puts `p` at. -/
theorem blk2_0 (c : Dev nD) (t : Fin cfg2.N) (p : Fin 2000) (k : Fin 128) (r : Fin 50000)
    (hr : r.val = win2_0.index t (0 : Fin 2) * 2000 + p.val) (hz : win2_0.index t (1 : Fin 2) = 0) :
    (iblk2 V c 0 t : Vec Ideal S2000x128 .f32) (ix2 p k) = (V c main_v30_0 : S50000x128.Idx → EReal) (ix2 r k) := by
  show V c main_v30_0 (((cfg2.win 0).blk t).view.emb (ix2 p k)) = _
  refine congrArg _ (funext fun a => Fin.ext ?_)
  match a with
  | ⟨0, _⟩ => show win2_0.index t (0 : Fin 2) * 2000 + 1 * p.val = r.val; omega
  | ⟨1, _⟩ => show win2_0.index t (1 : Fin 2) * 128 + 1 * k.val = k.val; omega

/-- Window 1's one block is its whole array. -/
theorem blk2_1 (c : Dev nD) (t : Fin cfg2.N) (p : Fin 1) (k : Fin 128)
    (hz0 : win2_1.index t (0 : Fin 2) = 0) (hz1 : win2_1.index t (1 : Fin 2) = 0) :
    (iblk2 V c 1 t : Vec Ideal S1x128 .f32) (ix2 p k) = (V c main_v32 : S1x128.Idx → EReal) (ix2 p k) := by
  show V c main_v32 (((cfg2.win 1).blk t).view.emb (ix2 p k)) = _
  refine congrArg _ (funext fun a => Fin.ext ?_)
  match a with
  | ⟨0, _⟩ => show win2_1.index t (0 : Fin 2) * 1 + 1 * p.val = p.val; omega
  | ⟨1, _⟩ => show win2_1.index t (1 : Fin 2) * 128 + 1 * k.val = k.val; omega

/-- Window 2's one block is its whole array. -/
theorem blk2_2 (c : Dev nD) (t : Fin cfg2.N) (p : Fin 1) (k : Fin 128)
    (hz0 : win2_2.index t (0 : Fin 2) = 0) (hz1 : win2_2.index t (1 : Fin 2) = 0) :
    (iblk2 V c 2 t : Vec Ideal S1x128 .f32) (ix2 p k) = (V c main_v38 : S1x128.Idx → EReal) (ix2 p k) := by
  show V c main_v38 (((cfg2.win 2).blk t).view.emb (ix2 p k)) = _
  refine congrArg _ (funext fun a => Fin.ext ?_)
  match a with
  | ⟨0, _⟩ => show win2_2.index t (0 : Fin 2) * 1 + 1 * p.val = p.val; omega
  | ⟨1, _⟩ => show win2_2.index t (1 : Fin 2) * 128 + 1 * k.val = k.val; omega

/-- Window 3's one block is its whole array. -/
theorem blk2_3 (c : Dev nD) (t : Fin cfg2.N) (p : Fin 1) (k : Fin 128)
    (hz0 : win2_3.index t (0 : Fin 2) = 0) (hz1 : win2_3.index t (1 : Fin 2) = 0) :
    (iblk2 V c 3 t : Vec Ideal S1x128 .f32) (ix2 p k) = (V c main_v39 : S1x128.Idx → EReal) (ix2 p k) := by
  show V c main_v39 (((cfg2.win 3).blk t).view.emb (ix2 p k)) = _
  refine congrArg _ (funext fun a => Fin.ext ?_)
  match a with
  | ⟨0, _⟩ => show win2_3.index t (0 : Fin 2) * 1 + 1 * p.val = p.val; omega
  | ⟨1, _⟩ => show win2_3.index t (1 : Fin 2) * 128 + 1 * k.val = k.val; omega

/-- Window 4's one block is its whole array. -/
theorem blk2_4 (c : Dev nD) (t : Fin cfg2.N) (p : Fin 1) (k : Fin 128)
    (hz0 : win2_4.index t (0 : Fin 2) = 0) (hz1 : win2_4.index t (1 : Fin 2) = 0) :
    (iblk2 V c 4 t : Vec Ideal S1x128 .f32) (ix2 p k) = (V c main_v40 : S1x128.Idx → EReal) (ix2 p k) := by
  show V c main_v40 (((cfg2.win 4).blk t).view.emb (ix2 p k)) = _
  refine congrArg _ (funext fun a => Fin.ext ?_)
  match a with
  | ⟨0, _⟩ => show win2_4.index t (0 : Fin 2) * 1 + 1 * p.val = p.val; omega
  | ⟨1, _⟩ => show win2_4.index t (1 : Fin 2) * 128 + 1 * k.val = k.val; omega

/-- Window 5's one block is its whole array. -/
theorem blk2_5 (c : Dev nD) (t : Fin cfg2.N) (p : Fin 128) (k : Fin 128)
    (hz0 : win2_5.index t (0 : Fin 2) = 0) (hz1 : win2_5.index t (1 : Fin 2) = 0) :
    (iblk2 V c 5 t : Vec Ideal S128x128 .f32) (ix2 p k) = (V c main_arg6 : S128x128.Idx → EReal) (ix2 p k) := by
  show V c main_arg6 (((cfg2.win 5).blk t).view.emb (ix2 p k)) = _
  refine congrArg _ (funext fun a => Fin.ext ?_)
  match a with
  | ⟨0, _⟩ => show win2_5.index t (0 : Fin 2) * 128 + 1 * p.val = p.val; omega
  | ⟨1, _⟩ => show win2_5.index t (1 : Fin 2) * 128 + 1 * k.val = k.val; omega

/-- Window 6's block at point `t` is rows `2000 * (block index) ...` of its array: entry `(p, k)` of the block is the array's
    entry `(r, k)` for the row `r` the block index puts `p` at. -/
theorem blk2_6 (c : Dev nD) (t : Fin cfg2.N) (p : Fin 2000) (k : Fin 1) (r : Fin 50000)
    (hr : r.val = win2_6.index t (0 : Fin 2) * 2000 + p.val) (hz : win2_6.index t (1 : Fin 2) = 0) :
    (iblk2 V c 6 t : Vec Ideal S2000x1 .f32) (ix2 p k) = (V c main_v16 : S50000x1.Idx → EReal) (ix2 r k) := by
  show V c main_v16 (((cfg2.win 6).blk t).view.emb (ix2 p k)) = _
  refine congrArg _ (funext fun a => Fin.ext ?_)
  match a with
  | ⟨0, _⟩ => show win2_6.index t (0 : Fin 2) * 2000 + 1 * p.val = r.val; omega
  | ⟨1, _⟩ => show win2_6.index t (1 : Fin 2) * 1 + 1 * k.val = k.val; omega

/-- What point `t` writes back is block `t` of `G2` of the arrays as the region finds them. -/
theorem wrote2 (c : Dev nD) (t : Fin cfg2.N) :
    (dat2 (F := Ideal) V c).flushed 7 t = ((cfg2.win 7).blk t).view.read (Elt Ideal)
      (G2 (V c main_v30_0) (V c main_v32) (V c main_v38) (V c main_v39) (V c main_v40) (V c main_arg6) (V c main_v16)) := by
  show (cfg2.win 7).cut (grid2.coords t) ((dat2 V c).after 7 t) = _
  rw [after2_7]
  unfold out2_7
  rw [View.canon_unit_zero zeros2]
  simp only [View.ld_unit_zero (S := S2000x128) zeros2, View.ld_unit_zero (S := S1x128) zeros2,
    View.ld_unit_zero (S := S128x128) zeros2, View.ld_unit_zero (S := S2000x1) zeros2]
  obtain ⟨e00, e01, e10, e11, e20, e21, e30, e31, e40, e41, e50, e51, e60, e61, e70, e71⟩ := idx2 t
  funext j
  obtain ⟨p, q, rfl⟩ : ∃ (p : Fin 2000) (q : Fin 128), j = ix2 p q := ⟨j 0, j 1, eq_ix2 j⟩
  show k2_pay1 (iblk2 V c 0 t) (iblk2 V c 2 t) (iblk2 V c 1 t) (iblk2 V c 3 t) (iblk2 V c 4 t) (iblk2 V c 5 t) (iblk2 V c 6 t) (ix2 p q)
    = G2 (V c main_v30_0) (V c main_v32) (V c main_v38) (V c main_v39) (V c main_v40) (V c main_arg6) (V c main_v16)
        (((cfg2.win 7).blk t).view.emb (ix2 p q))
  refine (pay2_at (iblk2 V c 0 t) (iblk2 V c 1 t) (iblk2 V c 2 t) (iblk2 V c 3 t) (iblk2 V c 4 t) (iblk2 V c 5 t) (iblk2 V c 6 t) p q).trans ?_
  have hp : p.val < 2000 := p.isLt
  refine Eq.trans ?_ (G2_at (V c main_v30_0) (V c main_v32) (V c main_v38) (V c main_v39) (V c main_v40) (V c main_arg6) (V c main_v16)
    (((cfg2.win 7).blk t).view.emb (ix2 p q)) ⟨win2_7.index t (0 : Fin 2) * 2000 + p.val, by omega⟩ q
    (by show win2_7.index t (0 : Fin 2) * 2000 + 1 * p.val = win2_7.index t (0 : Fin 2) * 2000 + p.val; omega)
    (by show win2_7.index t (1 : Fin 2) * 128 + 1 * q.val = q.val; omega)).symm
  refine congrArg₂ (· * ·) (Finset.sum_congr rfl fun k _ => congrArg₂ (· * ·) ?_ ?_) ?_
  · rw [blk2_0 V c t p k ⟨win2_7.index t (0 : Fin 2) * 2000 + p.val, by omega⟩
        (by show win2_7.index t (0 : Fin 2) * 2000 + p.val = _; omega) e01,
      blk2_1 V c t 0 k e10 e11, blk2_2 V c t 0 k e20 e21, blk2_3 V c t 0 k e30 e31, blk2_4 V c t 0 k e40 e41]
  · exact blk2_5 V c t k q e50 e51
  · exact blk2_6 V c t p 0 _ (by show win2_7.index t (0 : Fin 2) * 2000 + p.val = _; omega) e61

/-- An index of the array is in point `t`'s block iff each coordinate is in the block's range on its axis. -/
theorem mem_blk2 (t : Fin cfg2.N) (i : S50000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v41).slice (win2_7.rect t)).set ↔ _
  rw [View.set_slice_whole, Rect.mem_set_unit]
  exact Iff.rfl

/-- The 25 blocks of 2000 rows fill the 50000 rows: row `r` is in block `r / 2000`. -/
theorem cover2 (i : S50000x128.Idx) : ∃ t : Fin cfg2.N, (cfg2.win 7).flush t = true ∧ i ∈ ((cfg2.win 7).blk t).view.set := by
  have hi0 : (i 0).val < 50000 := (i 0).isLt
  have hi1 : (i 1).val < 128 := (i 1).isLt
  obtain ⟨t, ht⟩ := onto2 ⟨(i 0).val / 2000, by omega⟩
  have q0 : win2_7.index t (0 : Fin 2) = (i 0).val / 2000 := congrFun ht 0
  have q1 : win2_7.index t (1 : Fin 2) = 0 := congrFun ht 1
  refine ⟨t, flush2_7 t, ?_⟩
  rw [mem_blk2]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 128 ≤ (i 1).val ∧ (i 1).val < win2_7.index t (1 : Fin 2) * 128 + 128; omega

/-- The result array after the region is `G2` of the region's entry arrays. -/
theorem final2 (c : Dev nD) : (dat2 (F := Ideal) V c).arrAt 7 cfg2.N
    = G2 (V c main_v30_0) (V c main_v32) (V c main_v38) (V c main_v39) (V c main_v40) (V c main_arg6) (V c main_v16) :=
  (dat2 (F := Ideal) V c).arrAt_eq_of_cover 7 _ (fun t _ => wrote2 V c t) cover2

end Cert.KernelIdeal.Hand

end
-- ==== Proof.KI.ValCoe.lean ====
/- The regions' result functions on finite arrays: where every entry is a real (and the variances are nonnegative, so
   that the square root's argument is positive), the normalisation and the projection on the extended reals are the
   real model's, entry by entry. -/
import proofs.«168650_j27212912787479_2_alg».proof.Proof.KI.Val2
import proofs.«168650_j27212912787479_2_alg».proof.Proof.Model

noncomputable section

namespace Cert.KernelIdeal.Hand

open Idealize.ShloMosaic
open Idealize.ShloMosaic.ValueIdx
open Cert.KernelIdeal
open scoped BigOperators

/-- `bnrelu` of finite values, the variance nonnegative, is the real model's normalisation, as an extended real. -/
theorem bnrelu_coe (h mu var g be : ℝ) (hvar : 0 ≤ var) :
    bnrelu (h : EReal) (mu : EReal) (var : EReal) (g : EReal) (be : EReal)
      = ((max ((h - mu) * (Real.sqrt (var + Cert.Gcn.epsR))⁻¹ * g + be) 0 : ℝ) : EReal) := by
  unfold bnrelu
  rw [Cert.Gcn.ofBits_eps_eq, ← EReal.coe_add, Cert.Gcn.rsqrt_coe_pos _ (by have := Cert.Gcn.epsR_pos; linarith),
    ← EReal.coe_sub, ← EReal.coe_mul, ← EReal.coe_mul, ← EReal.coe_add, ← EReal.coe_zero,
    ← EReal.coe_strictMono.monotone.map_max]

/-- `G4` of finite arrays, the variances nonnegative, is the real model's normalisation, entry by entry. -/
theorem G4_coe (h : Fin 50000 → Fin 128 → ℝ) (mu var g be : Fin 128 → ℝ) (hvar : ∀ j, 0 ≤ var j) :
    G4 (fun i => ((h (i 0) (i 1) : ℝ) : EReal)) (fun i => ((mu (i 1) : ℝ) : EReal)) (fun i => ((var (i 1) : ℝ) : EReal))
        (fun i => ((g (i 1) : ℝ) : EReal)) (fun i => ((be (i 1) : ℝ) : EReal))
      = fun i => ((Cert.Gcn.bn Cert.Gcn.epsR h mu var g be (i 0) (i 1) : ℝ) : EReal) := by
  funext i
  exact bnrelu_coe (h (i 0) (i 1)) (mu (i 1)) (var (i 1)) (g (i 1)) (be (i 1)) (hvar (i 1))

/-- `G2` of finite arrays, the variances nonnegative, is the real model's projection of the normalised activations,
    each row scaled by its entry of the degree column. -/
theorem G2_coe (h : Fin 50000 → Fin 128 → ℝ) (mu var g be : Fin 128 → ℝ) (hvar : ∀ j, 0 ≤ var j)
    (W : Fin 128 → Fin 128 → ℝ) (dv : Fin 50000 → ℝ) :
    G2 (fun i => ((h (i 0) (i 1) : ℝ) : EReal)) (fun i => ((mu (i 1) : ℝ) : EReal)) (fun i => ((var (i 1) : ℝ) : EReal))
        (fun i => ((g (i 1) : ℝ) : EReal)) (fun i => ((be (i 1) : ℝ) : EReal))
        (fun i => ((W (i 0) (i 1) : ℝ) : EReal)) (fun i => ((dv (i 0) : ℝ) : EReal))
      = fun i => ((Cert.Gcn.proj (Cert.Gcn.bn Cert.Gcn.epsR h mu var g be) W (i 0) (i 1) * dv (i 0) : ℝ) : EReal) := by
  funext i
  show (∑ k : Fin 128, G4 (fun i => ((h (i 0) (i 1) : ℝ) : EReal)) (fun i => ((mu (i 1) : ℝ) : EReal))
        (fun i => ((var (i 1) : ℝ) : EReal)) (fun i => ((g (i 1) : ℝ) : EReal)) (fun i => ((be (i 1) : ℝ) : EReal)) (ix2 (i 0) k)
        * ((W k (i 1) : ℝ) : EReal)) * ((dv (i 0) : ℝ) : EReal) = _
  rw [G4_coe h mu var g be hvar]
  show (∑ k : Fin 128, ((Cert.Gcn.bn Cert.Gcn.epsR h mu var g be (i 0) k : ℝ) : EReal) * ((W k (i 1) : ℝ) : EReal))
      * ((dv (i 0) : ℝ) : EReal) = _
  unfold Cert.Gcn.proj
  rw [EReal.coe_mul, Cert.Gcn.coe_sum]
  refine congrArg (· * ((dv (i 0) : ℝ) : EReal)) (Finset.sum_congr rfl fun k _ => ?_)
  rw [EReal.coe_mul]

end Cert.KernelIdeal.Hand

end
-- ==== Proof.KI.Value.lean ====
/-
  The value of the idealized kernel program: its result array as the coercion of a real-valued network.

  Stage by stage through the twelve items of @main, each buffer that matters is shown to hold the coercion of a real
  function of finite inputs: the edge arrays and the `dinv` column after the first stretches; region 0's projected rows
  scaled by `dinv`; after the gather and the scatter-add, at node `n`, the sum of the sources' rows over the edges
  landing on `n`; the bias step and its column sums over all 50000 nodes; the mean and the clamped variance; the
  normalisation fused with the second projection; and the same again for layer 2.  What a region leaves is read off
  its proof data's final arrays (the region modules); what a host stretch leaves is its operations applied.  The real
  network they add up to is `Cert.Gcn.netK` (Proof/Model.lean).
-/
import proofs.«168650_j27212912787479_2_alg».proof.Proof.KI.Run
import proofs.«168650_j27212912787479_2_alg».proof.Proof.Model
import proofs.«168650_j27212912787479_2_alg».proof.Proof.LibGatherScatter
import proofs.«168650_j27212912787479_2_alg».proof.Proof.LibGcnGlue
import proofs.«168650_j27212912787479_2_alg».proof.Proof.KI.Val3
import proofs.«168650_j27212912787479_2_alg».proof.Proof.Ref.ValueMath1
import proofs.«168650_j27212912787479_2_alg».proof.Proof.KI.PrefixValue
import proofs.«168650_j27212912787479_2_alg».proof.Proof.KI.Val0
import proofs.«168650_j27212912787479_2_alg».proof.Proof.KI.Val1
import proofs.«168650_j27212912787479_2_alg».proof.Proof.KI.ValCoe
import Idealize.ShloMosaic.Lib.StableHlo.Run
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen

/-- The larger of two finite values is finite. -/
theorem coe_max (a b : ℝ) : max (a : EReal) (b : EReal) = ((max a b : ℝ) : EReal) :=
  (EReal.coe_strictMono.monotone.map_max).symm

/-- The projection of finite rows by a finite matrix, scaled by a finite column, is finite: the real projection scaled. -/
theorem G0_coe (x : Fin 50000 → Fin 128 → ℝ) (W : Fin 128 → Fin 128 → ℝ) (dv : Fin 50000 → ℝ) :
    G0 (fun i => ((x (i 0) (i 1) : ℝ) : EReal)) (fun i => ((W (i 0) (i 1) : ℝ) : EReal)) (fun i => ((dv (i 0) : ℝ) : EReal))
      = fun i => ((Cert.Gcn.proj x W (i 0) (i 1) * dv (i 0) : ℝ) : EReal) := by
  funext i
  unfold G0 Cert.Gcn.proj
  rw [EReal.coe_mul, Cert.Gcn.coe_sum]
  refine congrArg (· * _) (Finset.sum_congr rfl fun k _ => ?_)
  rw [EReal.coe_mul]

variable (m : (ℓ : Loc nD τ sig) → Buf (Elt Ideal) ℓ) (c : Dev nD)

/-! ## What each stage still finds where an earlier one left it -/

/-- A buffer the first three stretches do not write holds its launch contents when region 0 is entered. -/
theorem W3_launch (r : Ref sig .tc) (g0 : r ∉ hostOps0_W) (g1 : r ∉ hostOps0_1_W) (g2 : r ∉ hostOps0_2_W) :
    W3 m c (Proc.devRef .tc r) = m ((c : Thread nD τ).loc r) :=
  (StableHlo.after_of_writes_sub hostOps0_2 _ hostOps0_2_writes g2).trans <|
    (StableHlo.after_of_writes_sub hostOps0_1 _ hostOps0_1_writes g1).trans <|
      StableHlo.after_of_writes_sub hostOps0 _ hostOps0_writes g0

/-- From region 0's entry to the second stretch's end (region 1's entry). -/
theorem W5_of_W3 (r : Ref sig .tc) (k0 : ∀ w, Pipeline.arrRef spec0 w = r → (cfg0.win w).isOut = false) (g3 : r ∉ hostOps1_W) :
    W5 m c (Proc.devRef .tc r) = W3 m c (Proc.devRef .tc r) :=
  (StableHlo.after_of_writes_sub hostOps1 _ hostOps1_writes g3).trans (W4_region_keep m c r k0)

/-- From region 1's entry to region 2's. -/
theorem W7_of_W5 (r : Ref sig .tc) (k1 : ∀ w, Pipeline.arrRef spec1 w = r → (cfg1.win w).isOut = false) (g4 : r ∉ hostOps2_W) :
    W7 m c (Proc.devRef .tc r) = W5 m c (Proc.devRef .tc r) :=
  (StableHlo.after_of_writes_sub hostOps2 _ hostOps2_writes g4).trans (W6_region_keep m c r k1)

/-- From region 2's entry to region 3's. -/
theorem W9_of_W7 (r : Ref sig .tc) (k2 : ∀ w, Pipeline.arrRef spec2 w = r → (cfg2.win w).isOut = false) (g5 : r ∉ hostOps3_W) :
    W9 m c (Proc.devRef .tc r) = W7 m c (Proc.devRef .tc r) :=
  (StableHlo.after_of_writes_sub hostOps3 _ hostOps3_writes g5).trans (W8_region_keep m c r k2)

/-- From region 3's entry to region 4's. -/
theorem W11_of_W9 (r : Ref sig .tc) (k3 : ∀ w, Pipeline.arrRef spec3 w = r → (cfg3.win w).isOut = false) (g6 : r ∉ hostOps4_W) :
    W11 m c (Proc.devRef .tc r) = W9 m c (Proc.devRef .tc r) :=
  (StableHlo.after_of_writes_sub hostOps4 _ hostOps4_writes g6).trans (W10_region_keep m c r k3)

/-- The `dinv` column, written once before region 0, is what every later region finds. -/
theorem v16_at5 : W5 m c (Proc.devRef .tc main_v16) = W3 m c (Proc.devRef .tc main_v16) := W5_of_W3 m c main_v16 (by decide) (by decide)
theorem v16_at7 : W7 m c (Proc.devRef .tc main_v16) = W3 m c (Proc.devRef .tc main_v16) := (W7_of_W5 m c main_v16 (by decide) (by decide)).trans (v16_at5 m c)
theorem v16_at9 : W9 m c (Proc.devRef .tc main_v16) = W3 m c (Proc.devRef .tc main_v16) := (W9_of_W7 m c main_v16 (by decide) (by decide)).trans (v16_at7 m c)

/-- The edge arrays, written once by the first stretch, are what the gathers and scatter-adds of both layers read. -/
theorem v5_at4 : W4 m c (Proc.devRef .tc main_v5) = W3 m c (Proc.devRef .tc main_v5) := W4_region_keep m c main_v5 (by decide)
theorem v6_at4 : W4 m c (Proc.devRef .tc main_v6) = W3 m c (Proc.devRef .tc main_v6) := W4_region_keep m c main_v6 (by decide)
theorem v5_at8 : W8 m c (Proc.devRef .tc main_v5) = W3 m c (Proc.devRef .tc main_v5) :=
  (W8_region_keep m c main_v5 (by decide)).trans <| (W7_of_W5 m c main_v5 (by decide) (by decide)).trans (W5_of_W3 m c main_v5 (by decide) (by decide))
theorem v6_at8 : W8 m c (Proc.devRef .tc main_v6) = W3 m c (Proc.devRef .tc main_v6) :=
  (W8_region_keep m c main_v6 (by decide)).trans <| (W7_of_W5 m c main_v6 (by decide) (by decide)).trans (W5_of_W3 m c main_v6 (by decide) (by decide))

/-- The argument arrays where the later stages read them. -/
theorem arg_at3 (r : Ref sig .tc) (g0 : r ∉ hostOps0_W) (g1 : r ∉ hostOps0_1_W) (g2 : r ∉ hostOps0_2_W) :
    W3 m c (Proc.devRef .tc r) = m ((c : Thread nD τ).loc r) := W3_launch m c r g0 g1 g2
theorem arg3_at4 : W4 m c (Proc.devRef .tc main_arg3) = m ((c : Thread nD τ).loc main_arg3) :=
  (W4_region_keep m c main_arg3 (by decide)).trans (W3_launch m c main_arg3 (by decide) (by decide) (by decide))
theorem arg4_at6 : W6 m c (Proc.devRef .tc main_arg4) = m ((c : Thread nD τ).loc main_arg4) :=
  (W6_region_keep m c main_arg4 (by decide)).trans <| (W5_of_W3 m c main_arg4 (by decide) (by decide)).trans (W3_launch m c main_arg4 (by decide) (by decide) (by decide))
theorem arg5_at6 : W6 m c (Proc.devRef .tc main_arg5) = m ((c : Thread nD τ).loc main_arg5) :=
  (W6_region_keep m c main_arg5 (by decide)).trans <| (W5_of_W3 m c main_arg5 (by decide) (by decide)).trans (W3_launch m c main_arg5 (by decide) (by decide) (by decide))
theorem arg6_at7 : W7 m c (Proc.devRef .tc main_arg6) = m ((c : Thread nD τ).loc main_arg6) :=
  (W7_of_W5 m c main_arg6 (by decide) (by decide)).trans <| (W5_of_W3 m c main_arg6 (by decide) (by decide)).trans (W3_launch m c main_arg6 (by decide) (by decide) (by decide))
theorem arg7_at8 : W8 m c (Proc.devRef .tc main_arg7) = m ((c : Thread nD τ).loc main_arg7) :=
  (W8_region_keep m c main_arg7 (by decide)).trans <| (W7_of_W5 m c main_arg7 (by decide) (by decide)).trans <| (W5_of_W3 m c main_arg7 (by decide) (by decide)).trans (W3_launch m c main_arg7 (by decide) (by decide) (by decide))
theorem arg8_at10 : W10 m c (Proc.devRef .tc main_arg8) = m ((c : Thread nD τ).loc main_arg8) :=
  (W10_region_keep m c main_arg8 (by decide)).trans <| (W9_of_W7 m c main_arg8 (by decide) (by decide)).trans <| (W7_of_W5 m c main_arg8 (by decide) (by decide)).trans <| (W5_of_W3 m c main_arg8 (by decide) (by decide)).trans (W3_launch m c main_arg8 (by decide) (by decide) (by decide))
theorem arg9_at10 : W10 m c (Proc.devRef .tc main_arg9) = m ((c : Thread nD τ).loc main_arg9) :=
  (W10_region_keep m c main_arg9 (by decide)).trans <| (W9_of_W7 m c main_arg9 (by decide) (by decide)).trans <| (W7_of_W5 m c main_arg9 (by decide) (by decide)).trans <| (W5_of_W3 m c main_arg9 (by decide) (by decide)).trans (W3_launch m c main_arg9 (by decide) (by decide) (by decide))

/-- What the statistics regions leave for the regions after them. -/
theorem v30_0_at7 : W7 m c (Proc.devRef .tc main_v30_0) = W6 m c (Proc.devRef .tc main_v30_0) :=
  StableHlo.after_of_writes_sub hostOps2 _ hostOps2_writes (by decide)
theorem v54_0_at11 : W11 m c (Proc.devRef .tc main_v54_0) = W10 m c (Proc.devRef .tc main_v54_0) :=
  StableHlo.after_of_writes_sub hostOps4 _ hostOps4_writes (by decide)

/-! ## What the first three stretches leave: the edge arrays and the `dinv` column -/

/-- The sources with the self-loops appended. -/
theorem main_v5_eq : (W3 m c (Proc.devRef .tc main_v5) : S850000.Idx → BitVec 32)
    = Cert.ReferenceIdeal.Hand.srcV (m ((c : Thread nD τ).loc main_arg1)) := by
  show StableHlo.after hostOps0_2 (StableHlo.after hostOps0_1 (StableHlo.after hostOps0 (W0 m c))) (Proc.devRef .tc main_v5) = _
  after_results
  rfl

/-- The targets with the self-loops appended. -/
theorem main_v6_eq : (W3 m c (Proc.devRef .tc main_v6) : S850000.Idx → BitVec 32)
    = Cert.ReferenceIdeal.Hand.dstV (m ((c : Thread nD τ).loc main_arg1)) := by
  show StableHlo.after hostOps0_2 (StableHlo.after hostOps0_1 (StableHlo.after hostOps0 (W0 m c))) (Proc.devRef .tc main_v6) = _
  after_results
  rfl

/-! ## Region 0: the first projection -/

/-- Region 0 leaves the projected rows scaled by `dinv`. -/
theorem main_v17_value (x : Fin 50000 → Fin 128 → ℝ) (W1 : Fin 128 → Fin 128 → ℝ) (dv : Fin 50000 → ℝ)
    (hx : (m ((c : Thread nD τ).loc main_arg0) : S50000x128.Idx → EReal) = fun i => ((x (i 0) (i 1) : ℝ) : EReal))
    (hW1 : (m ((c : Thread nD τ).loc main_arg2) : S128x128.Idx → EReal) = fun i => ((W1 (i 0) (i 1) : ℝ) : EReal))
    (hdv : (W3 m c (Proc.devRef .tc main_v16) : S50000x1.Idx → EReal) = fun i => ((dv (i 0) : ℝ) : EReal)) :
    (W4 m c (Proc.devRef .tc main_v17) : S50000x128.Idx → EReal)
      = fun i => ((Cert.Gcn.proj x W1 (i 0) (i 1) * dv (i 0) : ℝ) : EReal) := by
  refine (W4_arr m c 3).trans ((final0 (VE0 m) c).trans ?_)
  rw [show VE0 m c main_arg0 = W3 m c (Proc.devRef .tc main_arg0) from rfl, W3_launch m c main_arg0 (by decide) (by decide) (by decide), hx,
    show VE0 m c main_arg2 = W3 m c (Proc.devRef .tc main_arg2) from rfl, W3_launch m c main_arg2 (by decide) (by decide) (by decide), hW1,
    show VE0 m c main_v16 = W3 m c (Proc.devRef .tc main_v16) from rfl, hdv]
  exact G0_coe x W1 dv

/-! ## Layer 1: gather and scatter-add, the bias step with its column sums, the moments -/

set_option maxHeartbeats 2000000 in
/-- The projected rows gathered by source node and scatter-added by target node: at node `n`, the sum over the edges
    landing on `n` of the source's row. -/
theorem main_v28_value (hs : Fin 50000 → Fin 128 → ℝ)
    (hA : (W4 m c (Proc.devRef .tc main_v17) : S50000x128.Idx → EReal) = fun i => ((hs (i 0) (i 1) : ℝ) : EReal)) :
    (W5 m c (Proc.devRef .tc main_v28) : S50000x128.Idx → EReal)
      = fun i => ((∑ e ∈ Cert.Gcn.land (fun e => (W4 m c (Proc.devRef .tc main_v6) : S850000.Idx → BitVec 32) (ix1 e)) (i 0),
          hs (Cert.Gcn.nodeOf ((W4 m c (Proc.devRef .tc main_v5) : S850000.Idx → BitVec 32) (ix1 e))) (i 1) : ℝ) : EReal) := by
  generalize hR : (fun i : S50000x128.Idx => ((∑ e ∈ Cert.Gcn.land (fun e => (W4 m c (Proc.devRef .tc main_v6) : S850000.Idx → BitVec 32) (ix1 e)) (i 0),
          hs (Cert.Gcn.nodeOf ((W4 m c (Proc.devRef .tc main_v5) : S850000.Idx → BitVec 32) (ix1 e))) (i 1) : ℝ) : EReal)) = R
  show StableHlo.after hostOps1 (W4 m c) (Proc.devRef .tc main_v28) = _
  after_results
  rw [← hR]
  exact Cert.GcnGlue.gather_scatter_kernel _ _ _ _ _ _ (W4 m c (Proc.devRef .tc main_v17)) (W4 m c (Proc.devRef .tc main_v5)) (W4 m c (Proc.devRef .tc main_v6)) hs hA

/-- The bias as a row. -/
theorem main_v29_value (b : Fin 128 → ℝ)
    (hb : (m ((c : Thread nD τ).loc main_arg3) : S128.Idx → EReal) = fun i => ((b (i 0) : ℝ) : EReal)) :
    (W5 m c (Proc.devRef .tc main_v29) : S1x128.Idx → EReal) = fun j => ((b (j 1) : ℝ) : EReal) := by
  show StableHlo.after hostOps1 (W4 m c) (Proc.devRef .tc main_v29) = _
  after_results
  funext j
  obtain ⟨u, q, rfl⟩ : ∃ (u : Fin 1) (q : Fin 128), j = ix2 u q := ⟨j 0, j 1, eq_ix2 j⟩
  refine (shapeCast_a_1a_apply (W4 m c (Proc.devRef .tc main_arg3)) shapeCasts_S128_S1x128 u q).trans ?_
  rw [arg3_at4, hb]
  rfl

/-- The bias step: the aggregated rows scaled by the node's `dinv`, plus the bias. -/
theorem main_v30_0_value (agg : Fin 50000 → Fin 128 → ℝ) (dv : Fin 50000 → ℝ) (b : Fin 128 → ℝ)
    (hagg : (W5 m c (Proc.devRef .tc main_v28) : S50000x128.Idx → EReal) = fun i => ((agg (i 0) (i 1) : ℝ) : EReal))
    (hdv : (W3 m c (Proc.devRef .tc main_v16) : S50000x1.Idx → EReal) = fun i => ((dv (i 0) : ℝ) : EReal))
    (hb : (W5 m c (Proc.devRef .tc main_v29) : S1x128.Idx → EReal) = fun j => ((b (j 1) : ℝ) : EReal)) :
    (W6 m c (Proc.devRef .tc main_v30_0) : S50000x128.Idx → EReal)
      = fun i => ((agg (i 0) (i 1) * dv (i 0) + b (i 1) : ℝ) : EReal) := by
  refine (W6_arr m c 3).trans ((final1_3 (VE1 m) c).trans ?_)
  rw [show VE1 m c main_v28 = W5 m c (Proc.devRef .tc main_v28) from rfl, hagg,
    show VE1 m c main_v16 = W5 m c (Proc.devRef .tc main_v16) from rfl, v16_at5, hdv,
    show VE1 m c main_v29 = W5 m c (Proc.devRef .tc main_v29) from rfl, hb]
  exact G1h_coe agg dv b

/-- Its column sums over the 50000 nodes. -/
theorem main_v30_1_value (agg : Fin 50000 → Fin 128 → ℝ) (dv : Fin 50000 → ℝ) (b : Fin 128 → ℝ)
    (hagg : (W5 m c (Proc.devRef .tc main_v28) : S50000x128.Idx → EReal) = fun i => ((agg (i 0) (i 1) : ℝ) : EReal))
    (hdv : (W3 m c (Proc.devRef .tc main_v16) : S50000x1.Idx → EReal) = fun i => ((dv (i 0) : ℝ) : EReal))
    (hb : (W5 m c (Proc.devRef .tc main_v29) : S1x128.Idx → EReal) = fun j => ((b (j 1) : ℝ) : EReal)) :
    (W6 m c (Proc.devRef .tc main_v30_1) : S1x128.Idx → EReal)
      = fun j => ((∑ n : Fin 50000, (agg n (j 1) * dv n + b (j 1)) : ℝ) : EReal) := by
  refine (W6_arr m c 4).trans ((final1_4 (VE1 m) c).trans ?_)
  rw [show VE1 m c main_v28 = W5 m c (Proc.devRef .tc main_v28) from rfl, hagg,
    show VE1 m c main_v16 = W5 m c (Proc.devRef .tc main_v16) from rfl, v16_at5, hdv,
    show VE1 m c main_v29 = W5 m c (Proc.devRef .tc main_v29) from rfl, hb]
  exact (congrArg colSum (G1h_coe agg dv b)).trans (colSum_coe fun n j => agg n j * dv n + b j)

/-- The column sums of its squares. -/
theorem main_v30_2_value (agg : Fin 50000 → Fin 128 → ℝ) (dv : Fin 50000 → ℝ) (b : Fin 128 → ℝ)
    (hagg : (W5 m c (Proc.devRef .tc main_v28) : S50000x128.Idx → EReal) = fun i => ((agg (i 0) (i 1) : ℝ) : EReal))
    (hdv : (W3 m c (Proc.devRef .tc main_v16) : S50000x1.Idx → EReal) = fun i => ((dv (i 0) : ℝ) : EReal))
    (hb : (W5 m c (Proc.devRef .tc main_v29) : S1x128.Idx → EReal) = fun j => ((b (j 1) : ℝ) : EReal)) :
    (W6 m c (Proc.devRef .tc main_v30_2) : S1x128.Idx → EReal)
      = fun j => ((∑ n : Fin 50000, (agg n (j 1) * dv n + b (j 1)) * (agg n (j 1) * dv n + b (j 1)) : ℝ) : EReal) := by
  refine (W6_arr m c 5).trans ((final1_5 (VE1 m) c).trans ?_)
  rw [show VE1 m c main_v28 = W5 m c (Proc.devRef .tc main_v28) from rfl, hagg,
    show VE1 m c main_v16 = W5 m c (Proc.devRef .tc main_v16) from rfl, v16_at5, hdv,
    show VE1 m c main_v29 = W5 m c (Proc.devRef .tc main_v29) from rfl, hb]
  exact (congrArg colSumSq (G1h_coe agg dv b)).trans (colSumSq_coe fun n j => agg n j * dv n + b j)

/-- The mean: the column sum divided by the number of nodes. -/
theorem main_v32_value (S1 : Fin 128 → ℝ)
    (h1 : (W6 m c (Proc.devRef .tc main_v30_1) : S1x128.Idx → EReal) = fun j => ((S1 (j 1) : ℝ) : EReal)) :
    (W7 m c (Proc.devRef .tc main_v32) : S1x128.Idx → EReal) = fun j => ((S1 (j 1) / 50000 : ℝ) : EReal) := by
  show StableHlo.after hostOps2 (W6 m c) (Proc.devRef .tc main_v32) = _
  after_results
  funext j
  show Ideal.div ((W6 m c (Proc.devRef .tc main_v30_1) : S1x128.Idx → EReal) j) (Ideal.ofBits .f32 0x47435000#32) = _
  rw [h1, Cert.Gcn.ofBits_5e4, Cert.Gcn.div_coe_coe _ _ (by norm_num)]

/-- The variance: the mean of the squares less the square of the mean, clamped at zero. -/
theorem main_v38_value (S1 S2 : Fin 128 → ℝ)
    (h1 : (W6 m c (Proc.devRef .tc main_v30_1) : S1x128.Idx → EReal) = fun j => ((S1 (j 1) : ℝ) : EReal))
    (h2 : (W6 m c (Proc.devRef .tc main_v30_2) : S1x128.Idx → EReal) = fun j => ((S2 (j 1) : ℝ) : EReal)) :
    (W7 m c (Proc.devRef .tc main_v38) : S1x128.Idx → EReal)
      = fun j => ((max (S2 (j 1) / 50000 - S1 (j 1) / 50000 * (S1 (j 1) / 50000)) 0 : ℝ) : EReal) := by
  show StableHlo.after hostOps2 (W6 m c) (Proc.devRef .tc main_v38) = _
  after_results
  funext j
  show max (Ideal.div ((W6 m c (Proc.devRef .tc main_v30_2) : S1x128.Idx → EReal) j) (Ideal.ofBits .f32 0x47435000#32)
      - Ideal.div ((W6 m c (Proc.devRef .tc main_v30_1) : S1x128.Idx → EReal) j) (Ideal.ofBits .f32 0x47435000#32)
        * Ideal.div ((W6 m c (Proc.devRef .tc main_v30_1) : S1x128.Idx → EReal) j) (Ideal.ofBits .f32 0x47435000#32))
      (Ideal.ofBits .f32 0x00000000#32) = _
  rw [h1, h2, Cert.Gcn.ofBits_5e4, Cert.Gcn.ofBits_zero, Cert.Gcn.div_coe_coe _ _ (by norm_num), Cert.Gcn.div_coe_coe _ _ (by norm_num),
    ← EReal.coe_mul, ← EReal.coe_sub, ← EReal.coe_zero, coe_max]

/-- The scale as a row. -/
theorem main_v39_value (g : Fin 128 → ℝ)
    (hg : (m ((c : Thread nD τ).loc main_arg4) : S128.Idx → EReal) = fun i => ((g (i 0) : ℝ) : EReal)) :
    (W7 m c (Proc.devRef .tc main_v39) : S1x128.Idx → EReal) = fun j => ((g (j 1) : ℝ) : EReal) := by
  show StableHlo.after hostOps2 (W6 m c) (Proc.devRef .tc main_v39) = _
  after_results
  funext j
  obtain ⟨u, q, rfl⟩ : ∃ (u : Fin 1) (q : Fin 128), j = ix2 u q := ⟨j 0, j 1, eq_ix2 j⟩
  refine (shapeCast_a_1a_apply (W6 m c (Proc.devRef .tc main_arg4)) shapeCasts_S128_S1x128 u q).trans ?_
  rw [arg4_at6, hg]
  rfl

/-- The shift as a row. -/
theorem main_v40_value (be : Fin 128 → ℝ)
    (hbe : (m ((c : Thread nD τ).loc main_arg5) : S128.Idx → EReal) = fun i => ((be (i 0) : ℝ) : EReal)) :
    (W7 m c (Proc.devRef .tc main_v40) : S1x128.Idx → EReal) = fun j => ((be (j 1) : ℝ) : EReal) := by
  show StableHlo.after hostOps2 (W6 m c) (Proc.devRef .tc main_v40) = _
  after_results
  funext j
  obtain ⟨u, q, rfl⟩ : ∃ (u : Fin 1) (q : Fin 128), j = ix2 u q := ⟨j 0, j 1, eq_ix2 j⟩
  refine (shapeCast_a_1a_apply (W6 m c (Proc.devRef .tc main_arg5)) shapeCasts_S128_S1x128 u q).trans ?_
  rw [arg5_at6, hbe]
  rfl

/-! ## Region 2: the first normalisation fused with the second projection -/

/-- Region 2 leaves the normalised, rectified rows projected and scaled by `dinv`. -/
theorem main_v41_value (h : Fin 50000 → Fin 128 → ℝ) (mu var g be : Fin 128 → ℝ) (W2 : Fin 128 → Fin 128 → ℝ) (dv : Fin 50000 → ℝ)
    (hvar : ∀ j, 0 ≤ var j)
    (hh : (W6 m c (Proc.devRef .tc main_v30_0) : S50000x128.Idx → EReal) = fun i => ((h (i 0) (i 1) : ℝ) : EReal))
    (hmu : (W7 m c (Proc.devRef .tc main_v32) : S1x128.Idx → EReal) = fun j => ((mu (j 1) : ℝ) : EReal))
    (hv : (W7 m c (Proc.devRef .tc main_v38) : S1x128.Idx → EReal) = fun j => ((var (j 1) : ℝ) : EReal))
    (hg : (W7 m c (Proc.devRef .tc main_v39) : S1x128.Idx → EReal) = fun j => ((g (j 1) : ℝ) : EReal))
    (hbe : (W7 m c (Proc.devRef .tc main_v40) : S1x128.Idx → EReal) = fun j => ((be (j 1) : ℝ) : EReal))
    (hW2 : (m ((c : Thread nD τ).loc main_arg6) : S128x128.Idx → EReal) = fun i => ((W2 (i 0) (i 1) : ℝ) : EReal))
    (hdv : (W3 m c (Proc.devRef .tc main_v16) : S50000x1.Idx → EReal) = fun i => ((dv (i 0) : ℝ) : EReal)) :
    (W8 m c (Proc.devRef .tc main_v41) : S50000x128.Idx → EReal)
      = fun i => ((Cert.Gcn.proj (Cert.Gcn.bn Cert.Gcn.epsR h mu var g be) W2 (i 0) (i 1) * dv (i 0) : ℝ) : EReal) := by
  refine (W8_arr m c 7).trans ((final2 (VE2 m) c).trans ?_)
  rw [show VE2 m c main_v30_0 = W7 m c (Proc.devRef .tc main_v30_0) from rfl, v30_0_at7, hh,
    show VE2 m c main_v32 = W7 m c (Proc.devRef .tc main_v32) from rfl, hmu,
    show VE2 m c main_v38 = W7 m c (Proc.devRef .tc main_v38) from rfl, hv,
    show VE2 m c main_v39 = W7 m c (Proc.devRef .tc main_v39) from rfl, hg,
    show VE2 m c main_v40 = W7 m c (Proc.devRef .tc main_v40) from rfl, hbe,
    show VE2 m c main_arg6 = W7 m c (Proc.devRef .tc main_arg6) from rfl, arg6_at7, hW2,
    show VE2 m c main_v16 = W7 m c (Proc.devRef .tc main_v16) from rfl, v16_at7, hdv]
  exact G2_coe h mu var g be hvar W2 dv

/-! ## Layer 2: gather and scatter-add, the bias step with its column sums, the moments -/

set_option maxHeartbeats 2000000 in
/-- The projected rows gathered by source node and scatter-added by target node: at node `n`, the sum over the edges
    landing on `n` of the source's row. -/
theorem main_v52_value (hs : Fin 50000 → Fin 128 → ℝ)
    (hA : (W8 m c (Proc.devRef .tc main_v41) : S50000x128.Idx → EReal) = fun i => ((hs (i 0) (i 1) : ℝ) : EReal)) :
    (W9 m c (Proc.devRef .tc main_v52) : S50000x128.Idx → EReal)
      = fun i => ((∑ e ∈ Cert.Gcn.land (fun e => (W8 m c (Proc.devRef .tc main_v6) : S850000.Idx → BitVec 32) (ix1 e)) (i 0),
          hs (Cert.Gcn.nodeOf ((W8 m c (Proc.devRef .tc main_v5) : S850000.Idx → BitVec 32) (ix1 e))) (i 1) : ℝ) : EReal) := by
  generalize hR : (fun i : S50000x128.Idx => ((∑ e ∈ Cert.Gcn.land (fun e => (W8 m c (Proc.devRef .tc main_v6) : S850000.Idx → BitVec 32) (ix1 e)) (i 0),
          hs (Cert.Gcn.nodeOf ((W8 m c (Proc.devRef .tc main_v5) : S850000.Idx → BitVec 32) (ix1 e))) (i 1) : ℝ) : EReal)) = R
  show StableHlo.after hostOps3 (W8 m c) (Proc.devRef .tc main_v52) = _
  after_results
  rw [← hR]
  exact Cert.GcnGlue.gather_scatter_kernel _ _ _ _ _ _ (W8 m c (Proc.devRef .tc main_v41)) (W8 m c (Proc.devRef .tc main_v5)) (W8 m c (Proc.devRef .tc main_v6)) hs hA

/-- The bias as a row. -/
theorem main_v53_value (b : Fin 128 → ℝ)
    (hb : (m ((c : Thread nD τ).loc main_arg7) : S128.Idx → EReal) = fun i => ((b (i 0) : ℝ) : EReal)) :
    (W9 m c (Proc.devRef .tc main_v53) : S1x128.Idx → EReal) = fun j => ((b (j 1) : ℝ) : EReal) := by
  show StableHlo.after hostOps3 (W8 m c) (Proc.devRef .tc main_v53) = _
  after_results
  funext j
  obtain ⟨u, q, rfl⟩ : ∃ (u : Fin 1) (q : Fin 128), j = ix2 u q := ⟨j 0, j 1, eq_ix2 j⟩
  refine (shapeCast_a_1a_apply (W8 m c (Proc.devRef .tc main_arg7)) shapeCasts_S128_S1x128 u q).trans ?_
  rw [arg7_at8, hb]
  rfl

/-- The bias step: the aggregated rows scaled by the node's `dinv`, plus the bias. -/
theorem main_v54_0_value (agg : Fin 50000 → Fin 128 → ℝ) (dv : Fin 50000 → ℝ) (b : Fin 128 → ℝ)
    (hagg : (W9 m c (Proc.devRef .tc main_v52) : S50000x128.Idx → EReal) = fun i => ((agg (i 0) (i 1) : ℝ) : EReal))
    (hdv : (W3 m c (Proc.devRef .tc main_v16) : S50000x1.Idx → EReal) = fun i => ((dv (i 0) : ℝ) : EReal))
    (hb : (W9 m c (Proc.devRef .tc main_v53) : S1x128.Idx → EReal) = fun j => ((b (j 1) : ℝ) : EReal)) :
    (W10 m c (Proc.devRef .tc main_v54_0) : S50000x128.Idx → EReal)
      = fun i => ((agg (i 0) (i 1) * dv (i 0) + b (i 1) : ℝ) : EReal) := by
  refine (W10_arr m c 3).trans ((final3_3 (VE3 m) c).trans ?_)
  rw [show VE3 m c main_v52 = W9 m c (Proc.devRef .tc main_v52) from rfl, hagg,
    show VE3 m c main_v16 = W9 m c (Proc.devRef .tc main_v16) from rfl, v16_at9, hdv,
    show VE3 m c main_v53 = W9 m c (Proc.devRef .tc main_v53) from rfl, hb]
  exact G1h_coe agg dv b

/-- Its column sums over the 50000 nodes. -/
theorem main_v54_1_value (agg : Fin 50000 → Fin 128 → ℝ) (dv : Fin 50000 → ℝ) (b : Fin 128 → ℝ)
    (hagg : (W9 m c (Proc.devRef .tc main_v52) : S50000x128.Idx → EReal) = fun i => ((agg (i 0) (i 1) : ℝ) : EReal))
    (hdv : (W3 m c (Proc.devRef .tc main_v16) : S50000x1.Idx → EReal) = fun i => ((dv (i 0) : ℝ) : EReal))
    (hb : (W9 m c (Proc.devRef .tc main_v53) : S1x128.Idx → EReal) = fun j => ((b (j 1) : ℝ) : EReal)) :
    (W10 m c (Proc.devRef .tc main_v54_1) : S1x128.Idx → EReal)
      = fun j => ((∑ n : Fin 50000, (agg n (j 1) * dv n + b (j 1)) : ℝ) : EReal) := by
  refine (W10_arr m c 4).trans ((final3_4 (VE3 m) c).trans ?_)
  rw [show VE3 m c main_v52 = W9 m c (Proc.devRef .tc main_v52) from rfl, hagg,
    show VE3 m c main_v16 = W9 m c (Proc.devRef .tc main_v16) from rfl, v16_at9, hdv,
    show VE3 m c main_v53 = W9 m c (Proc.devRef .tc main_v53) from rfl, hb]
  exact (congrArg colSum (G1h_coe agg dv b)).trans (colSum_coe fun n j => agg n j * dv n + b j)

/-- The column sums of its squares. -/
theorem main_v54_2_value (agg : Fin 50000 → Fin 128 → ℝ) (dv : Fin 50000 → ℝ) (b : Fin 128 → ℝ)
    (hagg : (W9 m c (Proc.devRef .tc main_v52) : S50000x128.Idx → EReal) = fun i => ((agg (i 0) (i 1) : ℝ) : EReal))
    (hdv : (W3 m c (Proc.devRef .tc main_v16) : S50000x1.Idx → EReal) = fun i => ((dv (i 0) : ℝ) : EReal))
    (hb : (W9 m c (Proc.devRef .tc main_v53) : S1x128.Idx → EReal) = fun j => ((b (j 1) : ℝ) : EReal)) :
    (W10 m c (Proc.devRef .tc main_v54_2) : S1x128.Idx → EReal)
      = fun j => ((∑ n : Fin 50000, (agg n (j 1) * dv n + b (j 1)) * (agg n (j 1) * dv n + b (j 1)) : ℝ) : EReal) := by
  refine (W10_arr m c 5).trans ((final3_5 (VE3 m) c).trans ?_)
  rw [show VE3 m c main_v52 = W9 m c (Proc.devRef .tc main_v52) from rfl, hagg,
    show VE3 m c main_v16 = W9 m c (Proc.devRef .tc main_v16) from rfl, v16_at9, hdv,
    show VE3 m c main_v53 = W9 m c (Proc.devRef .tc main_v53) from rfl, hb]
  exact (congrArg colSumSq (G1h_coe agg dv b)).trans (colSumSq_coe fun n j => agg n j * dv n + b j)

/-- The mean: the column sum divided by the number of nodes. -/
theorem main_v56_value (S1 : Fin 128 → ℝ)
    (h1 : (W10 m c (Proc.devRef .tc main_v54_1) : S1x128.Idx → EReal) = fun j => ((S1 (j 1) : ℝ) : EReal)) :
    (W11 m c (Proc.devRef .tc main_v56) : S1x128.Idx → EReal) = fun j => ((S1 (j 1) / 50000 : ℝ) : EReal) := by
  show StableHlo.after hostOps4 (W10 m c) (Proc.devRef .tc main_v56) = _
  after_results
  funext j
  show Ideal.div ((W10 m c (Proc.devRef .tc main_v54_1) : S1x128.Idx → EReal) j) (Ideal.ofBits .f32 0x47435000#32) = _
  rw [h1, Cert.Gcn.ofBits_5e4, Cert.Gcn.div_coe_coe _ _ (by norm_num)]

/-- The variance: the mean of the squares less the square of the mean, clamped at zero. -/
theorem main_v62_value (S1 S2 : Fin 128 → ℝ)
    (h1 : (W10 m c (Proc.devRef .tc main_v54_1) : S1x128.Idx → EReal) = fun j => ((S1 (j 1) : ℝ) : EReal))
    (h2 : (W10 m c (Proc.devRef .tc main_v54_2) : S1x128.Idx → EReal) = fun j => ((S2 (j 1) : ℝ) : EReal)) :
    (W11 m c (Proc.devRef .tc main_v62) : S1x128.Idx → EReal)
      = fun j => ((max (S2 (j 1) / 50000 - S1 (j 1) / 50000 * (S1 (j 1) / 50000)) 0 : ℝ) : EReal) := by
  show StableHlo.after hostOps4 (W10 m c) (Proc.devRef .tc main_v62) = _
  after_results
  funext j
  show max (Ideal.div ((W10 m c (Proc.devRef .tc main_v54_2) : S1x128.Idx → EReal) j) (Ideal.ofBits .f32 0x47435000#32)
      - Ideal.div ((W10 m c (Proc.devRef .tc main_v54_1) : S1x128.Idx → EReal) j) (Ideal.ofBits .f32 0x47435000#32)
        * Ideal.div ((W10 m c (Proc.devRef .tc main_v54_1) : S1x128.Idx → EReal) j) (Ideal.ofBits .f32 0x47435000#32))
      (Ideal.ofBits .f32 0x00000000#32) = _
  rw [h1, h2, Cert.Gcn.ofBits_5e4, Cert.Gcn.ofBits_zero, Cert.Gcn.div_coe_coe _ _ (by norm_num), Cert.Gcn.div_coe_coe _ _ (by norm_num),
    ← EReal.coe_mul, ← EReal.coe_sub, ← EReal.coe_zero, coe_max]

/-- The scale as a row. -/
theorem main_v63_value (g : Fin 128 → ℝ)
    (hg : (m ((c : Thread nD τ).loc main_arg8) : S128.Idx → EReal) = fun i => ((g (i 0) : ℝ) : EReal)) :
    (W11 m c (Proc.devRef .tc main_v63) : S1x128.Idx → EReal) = fun j => ((g (j 1) : ℝ) : EReal) := by
  show StableHlo.after hostOps4 (W10 m c) (Proc.devRef .tc main_v63) = _
  after_results
  funext j
  obtain ⟨u, q, rfl⟩ : ∃ (u : Fin 1) (q : Fin 128), j = ix2 u q := ⟨j 0, j 1, eq_ix2 j⟩
  refine (shapeCast_a_1a_apply (W10 m c (Proc.devRef .tc main_arg8)) shapeCasts_S128_S1x128 u q).trans ?_
  rw [arg8_at10, hg]
  rfl

/-- The shift as a row. -/
theorem main_v64_value (be : Fin 128 → ℝ)
    (hbe : (m ((c : Thread nD τ).loc main_arg9) : S128.Idx → EReal) = fun i => ((be (i 0) : ℝ) : EReal)) :
    (W11 m c (Proc.devRef .tc main_v64) : S1x128.Idx → EReal) = fun j => ((be (j 1) : ℝ) : EReal) := by
  show StableHlo.after hostOps4 (W10 m c) (Proc.devRef .tc main_v64) = _
  after_results
  funext j
  obtain ⟨u, q, rfl⟩ : ∃ (u : Fin 1) (q : Fin 128), j = ix2 u q := ⟨j 0, j 1, eq_ix2 j⟩
  refine (shapeCast_a_1a_apply (W10 m c (Proc.devRef .tc main_arg9)) shapeCasts_S128_S1x128 u q).trans ?_
  rw [arg9_at10, hbe]
  rfl

/-! ## Region 4: the last normalisation -/

/-- Region 4 leaves the second layer's rows normalised and rectified: the result. -/
theorem main_v65_value (h : Fin 50000 → Fin 128 → ℝ) (mu var g be : Fin 128 → ℝ)
    (hvar : ∀ j, 0 ≤ var j)
    (hh : (W10 m c (Proc.devRef .tc main_v54_0) : S50000x128.Idx → EReal) = fun i => ((h (i 0) (i 1) : ℝ) : EReal))
    (hmu : (W11 m c (Proc.devRef .tc main_v56) : S1x128.Idx → EReal) = fun j => ((mu (j 1) : ℝ) : EReal))
    (hv : (W11 m c (Proc.devRef .tc main_v62) : S1x128.Idx → EReal) = fun j => ((var (j 1) : ℝ) : EReal))
    (hg : (W11 m c (Proc.devRef .tc main_v63) : S1x128.Idx → EReal) = fun j => ((g (j 1) : ℝ) : EReal))
    (hbe : (W11 m c (Proc.devRef .tc main_v64) : S1x128.Idx → EReal) = fun j => ((be (j 1) : ℝ) : EReal)) :
    (W12 m c (Proc.devRef .tc main_v65) : S50000x128.Idx → EReal)
      = fun i => ((Cert.Gcn.bn Cert.Gcn.epsR h mu var g be (i 0) (i 1) : ℝ) : EReal) := by
  refine (W12_arr m c 5).trans ((final4 (VE4 m) c).trans ?_)
  rw [show VE4 m c main_v54_0 = W11 m c (Proc.devRef .tc main_v54_0) from rfl, v54_0_at11, hh,
    show VE4 m c main_v56 = W11 m c (Proc.devRef .tc main_v56) from rfl, hmu,
    show VE4 m c main_v62 = W11 m c (Proc.devRef .tc main_v62) from rfl, hv,
    show VE4 m c main_v63 = W11 m c (Proc.devRef .tc main_v63) from rfl, hg,
    show VE4 m c main_v64 = W11 m c (Proc.devRef .tc main_v64) from rfl, hbe]
  exact G4_coe h mu var g be hvar

/-! ## The whole chain -/

/-- The result array is the coercion of the real network, given what the first three stretches leave: the edge arrays
    `s`, `d` and the `dinv` column as the coercion of a real `dv`. -/
theorem kernel_value_of_prefix (x : Fin 50000 → Fin 128 → ℝ) (W1 : Fin 128 → Fin 128 → ℝ) (b1 g1 be1 : Fin 128 → ℝ) (W2 : Fin 128 → Fin 128 → ℝ) (b2 g2 be2 : Fin 128 → ℝ)
    (hx : (m ((c : Thread nD τ).loc main_arg0) : S50000x128.Idx → EReal) = fun i => ((x (i 0) (i 1) : ℝ) : EReal))
    (hW1 : (m ((c : Thread nD τ).loc main_arg2) : S128x128.Idx → EReal) = fun i => ((W1 (i 0) (i 1) : ℝ) : EReal))
    (hb1 : (m ((c : Thread nD τ).loc main_arg3) : S128.Idx → EReal) = fun i => ((b1 (i 0) : ℝ) : EReal))
    (hg1 : (m ((c : Thread nD τ).loc main_arg4) : S128.Idx → EReal) = fun i => ((g1 (i 0) : ℝ) : EReal))
    (hbe1 : (m ((c : Thread nD τ).loc main_arg5) : S128.Idx → EReal) = fun i => ((be1 (i 0) : ℝ) : EReal))
    (hW2 : (m ((c : Thread nD τ).loc main_arg6) : S128x128.Idx → EReal) = fun i => ((W2 (i 0) (i 1) : ℝ) : EReal))
    (hb2 : (m ((c : Thread nD τ).loc main_arg7) : S128.Idx → EReal) = fun i => ((b2 (i 0) : ℝ) : EReal))
    (hg2 : (m ((c : Thread nD τ).loc main_arg8) : S128.Idx → EReal) = fun i => ((g2 (i 0) : ℝ) : EReal))
    (hbe2 : (m ((c : Thread nD τ).loc main_arg9) : S128.Idx → EReal) = fun i => ((be2 (i 0) : ℝ) : EReal))
    (s d : Fin 850000 → BitVec 32) (dv : Fin 50000 → ℝ)
    (hs : (fun e => (W3 m c (Proc.devRef .tc main_v5) : S850000.Idx → BitVec 32) (ix1 e)) = s)
    (hd : (fun e => (W3 m c (Proc.devRef .tc main_v6) : S850000.Idx → BitVec 32) (ix1 e)) = d)
    (hdv : (W3 m c (Proc.devRef .tc main_v16) : S50000x1.Idx → EReal) = fun i => ((dv (i 0) : ℝ) : EReal)) :
    (W12 m c (Proc.devRef .tc main_v65) : S50000x128.Idx → EReal)
      = fun i => ((Cert.Gcn.outK (Cert.Gcn.land d) (fun e => Cert.Gcn.nodeOf (s e)) dv 50000 Cert.Gcn.epsR x W1 b1 g1 be1 W2 b2 g2 be2 (i 0) (i 1) : ℝ) : EReal) := by
  -- layer 1
  have e17 := main_v17_value m c x W1 dv hx hW1 hdv
  have e28 : (W5 m c (Proc.devRef .tc main_v28) : S50000x128.Idx → EReal)
      = fun i => (((fun n j => ∑ e ∈ Cert.Gcn.land d n, (fun n j => Cert.Gcn.proj x W1 n j * dv n) (Cert.Gcn.nodeOf (s e)) j) (i 0) (i 1) : ℝ) : EReal) := by
    have e := main_v28_value m c (fun n j => Cert.Gcn.proj x W1 n j * dv n) e17
    rw [v5_at4, v6_at4] at e
    subst hs hd
    exact e
  have e29 := main_v29_value m c b1 hb1
  have e30_0 := main_v30_0_value m c (fun n j => ∑ e ∈ Cert.Gcn.land d n, (fun n j => Cert.Gcn.proj x W1 n j * dv n) (Cert.Gcn.nodeOf (s e)) j) dv b1 e28 hdv e29
  have e30_1 := main_v30_1_value m c (fun n j => ∑ e ∈ Cert.Gcn.land d n, (fun n j => Cert.Gcn.proj x W1 n j * dv n) (Cert.Gcn.nodeOf (s e)) j) dv b1 e28 hdv e29
  have e30_2 := main_v30_2_value m c (fun n j => ∑ e ∈ Cert.Gcn.land d n, (fun n j => Cert.Gcn.proj x W1 n j * dv n) (Cert.Gcn.nodeOf (s e)) j) dv b1 e28 hdv e29
  have e32 := main_v32_value m c (fun q => ∑ n : Fin 50000, ((fun n j => ∑ e ∈ Cert.Gcn.land d n, (fun n j => Cert.Gcn.proj x W1 n j * dv n) (Cert.Gcn.nodeOf (s e)) j) n q * dv n + b1 q)) e30_1
  have e38 := main_v38_value m c (fun q => ∑ n : Fin 50000, ((fun n j => ∑ e ∈ Cert.Gcn.land d n, (fun n j => Cert.Gcn.proj x W1 n j * dv n) (Cert.Gcn.nodeOf (s e)) j) n q * dv n + b1 q)) (fun q => ∑ n : Fin 50000, ((fun n j => ∑ e ∈ Cert.Gcn.land d n, (fun n j => Cert.Gcn.proj x W1 n j * dv n) (Cert.Gcn.nodeOf (s e)) j) n q * dv n + b1 q) * ((fun n j => ∑ e ∈ Cert.Gcn.land d n, (fun n j => Cert.Gcn.proj x W1 n j * dv n) (Cert.Gcn.nodeOf (s e)) j) n q * dv n + b1 q)) e30_1 e30_2
  have e39 := main_v39_value m c g1 hg1
  have e40 := main_v40_value m c be1 hbe1
  have e41 := main_v41_value m c (Cert.Gcn.layerK (Cert.Gcn.land d) (fun e => Cert.Gcn.nodeOf (s e)) dv x W1 b1) (Cert.Gcn.mean 50000 (Cert.Gcn.layerK (Cert.Gcn.land d) (fun e => Cert.Gcn.nodeOf (s e)) dv x W1 b1)) (Cert.Gcn.varK 50000 (Cert.Gcn.layerK (Cert.Gcn.land d) (fun e => Cert.Gcn.nodeOf (s e)) dv x W1 b1)) g1 be1 W2 dv
    (fun j => le_max_right _ _) e30_0 e32 e38 e39 e40 hW2 hdv
  -- layer 2
  have e52 : (W9 m c (Proc.devRef .tc main_v52) : S50000x128.Idx → EReal)
      = fun i => (((fun n j => ∑ e ∈ Cert.Gcn.land d n, (fun n j => Cert.Gcn.proj (Cert.Gcn.bn Cert.Gcn.epsR (Cert.Gcn.layerK (Cert.Gcn.land d) (fun e => Cert.Gcn.nodeOf (s e)) dv x W1 b1) (Cert.Gcn.mean 50000 (Cert.Gcn.layerK (Cert.Gcn.land d) (fun e => Cert.Gcn.nodeOf (s e)) dv x W1 b1)) (Cert.Gcn.varK 50000 (Cert.Gcn.layerK (Cert.Gcn.land d) (fun e => Cert.Gcn.nodeOf (s e)) dv x W1 b1)) g1 be1) W2 n j * dv n) (Cert.Gcn.nodeOf (s e)) j) (i 0) (i 1) : ℝ) : EReal) := by
    have e := main_v52_value m c (fun n j => Cert.Gcn.proj (Cert.Gcn.bn Cert.Gcn.epsR (Cert.Gcn.layerK (Cert.Gcn.land d) (fun e => Cert.Gcn.nodeOf (s e)) dv x W1 b1) (Cert.Gcn.mean 50000 (Cert.Gcn.layerK (Cert.Gcn.land d) (fun e => Cert.Gcn.nodeOf (s e)) dv x W1 b1)) (Cert.Gcn.varK 50000 (Cert.Gcn.layerK (Cert.Gcn.land d) (fun e => Cert.Gcn.nodeOf (s e)) dv x W1 b1)) g1 be1) W2 n j * dv n) e41
    rw [v5_at8, v6_at8] at e
    subst hs hd
    exact e
  have e53 := main_v53_value m c b2 hb2
  have e54_0 := main_v54_0_value m c (fun n j => ∑ e ∈ Cert.Gcn.land d n, (fun n j => Cert.Gcn.proj (Cert.Gcn.bn Cert.Gcn.epsR (Cert.Gcn.layerK (Cert.Gcn.land d) (fun e => Cert.Gcn.nodeOf (s e)) dv x W1 b1) (Cert.Gcn.mean 50000 (Cert.Gcn.layerK (Cert.Gcn.land d) (fun e => Cert.Gcn.nodeOf (s e)) dv x W1 b1)) (Cert.Gcn.varK 50000 (Cert.Gcn.layerK (Cert.Gcn.land d) (fun e => Cert.Gcn.nodeOf (s e)) dv x W1 b1)) g1 be1) W2 n j * dv n) (Cert.Gcn.nodeOf (s e)) j) dv b2 e52 hdv e53
  have e54_1 := main_v54_1_value m c (fun n j => ∑ e ∈ Cert.Gcn.land d n, (fun n j => Cert.Gcn.proj (Cert.Gcn.bn Cert.Gcn.epsR (Cert.Gcn.layerK (Cert.Gcn.land d) (fun e => Cert.Gcn.nodeOf (s e)) dv x W1 b1) (Cert.Gcn.mean 50000 (Cert.Gcn.layerK (Cert.Gcn.land d) (fun e => Cert.Gcn.nodeOf (s e)) dv x W1 b1)) (Cert.Gcn.varK 50000 (Cert.Gcn.layerK (Cert.Gcn.land d) (fun e => Cert.Gcn.nodeOf (s e)) dv x W1 b1)) g1 be1) W2 n j * dv n) (Cert.Gcn.nodeOf (s e)) j) dv b2 e52 hdv e53
  have e54_2 := main_v54_2_value m c (fun n j => ∑ e ∈ Cert.Gcn.land d n, (fun n j => Cert.Gcn.proj (Cert.Gcn.bn Cert.Gcn.epsR (Cert.Gcn.layerK (Cert.Gcn.land d) (fun e => Cert.Gcn.nodeOf (s e)) dv x W1 b1) (Cert.Gcn.mean 50000 (Cert.Gcn.layerK (Cert.Gcn.land d) (fun e => Cert.Gcn.nodeOf (s e)) dv x W1 b1)) (Cert.Gcn.varK 50000 (Cert.Gcn.layerK (Cert.Gcn.land d) (fun e => Cert.Gcn.nodeOf (s e)) dv x W1 b1)) g1 be1) W2 n j * dv n) (Cert.Gcn.nodeOf (s e)) j) dv b2 e52 hdv e53
  have e56 := main_v56_value m c (fun q => ∑ n : Fin 50000, ((fun n j => ∑ e ∈ Cert.Gcn.land d n, (fun n j => Cert.Gcn.proj (Cert.Gcn.bn Cert.Gcn.epsR (Cert.Gcn.layerK (Cert.Gcn.land d) (fun e => Cert.Gcn.nodeOf (s e)) dv x W1 b1) (Cert.Gcn.mean 50000 (Cert.Gcn.layerK (Cert.Gcn.land d) (fun e => Cert.Gcn.nodeOf (s e)) dv x W1 b1)) (Cert.Gcn.varK 50000 (Cert.Gcn.layerK (Cert.Gcn.land d) (fun e => Cert.Gcn.nodeOf (s e)) dv x W1 b1)) g1 be1) W2 n j * dv n) (Cert.Gcn.nodeOf (s e)) j) n q * dv n + b2 q)) e54_1
  have e62 := main_v62_value m c (fun q => ∑ n : Fin 50000, ((fun n j => ∑ e ∈ Cert.Gcn.land d n, (fun n j => Cert.Gcn.proj (Cert.Gcn.bn Cert.Gcn.epsR (Cert.Gcn.layerK (Cert.Gcn.land d) (fun e => Cert.Gcn.nodeOf (s e)) dv x W1 b1) (Cert.Gcn.mean 50000 (Cert.Gcn.layerK (Cert.Gcn.land d) (fun e => Cert.Gcn.nodeOf (s e)) dv x W1 b1)) (Cert.Gcn.varK 50000 (Cert.Gcn.layerK (Cert.Gcn.land d) (fun e => Cert.Gcn.nodeOf (s e)) dv x W1 b1)) g1 be1) W2 n j * dv n) (Cert.Gcn.nodeOf (s e)) j) n q * dv n + b2 q)) (fun q => ∑ n : Fin 50000, ((fun n j => ∑ e ∈ Cert.Gcn.land d n, (fun n j => Cert.Gcn.proj (Cert.Gcn.bn Cert.Gcn.epsR (Cert.Gcn.layerK (Cert.Gcn.land d) (fun e => Cert.Gcn.nodeOf (s e)) dv x W1 b1) (Cert.Gcn.mean 50000 (Cert.Gcn.layerK (Cert.Gcn.land d) (fun e => Cert.Gcn.nodeOf (s e)) dv x W1 b1)) (Cert.Gcn.varK 50000 (Cert.Gcn.layerK (Cert.Gcn.land d) (fun e => Cert.Gcn.nodeOf (s e)) dv x W1 b1)) g1 be1) W2 n j * dv n) (Cert.Gcn.nodeOf (s e)) j) n q * dv n + b2 q) * ((fun n j => ∑ e ∈ Cert.Gcn.land d n, (fun n j => Cert.Gcn.proj (Cert.Gcn.bn Cert.Gcn.epsR (Cert.Gcn.layerK (Cert.Gcn.land d) (fun e => Cert.Gcn.nodeOf (s e)) dv x W1 b1) (Cert.Gcn.mean 50000 (Cert.Gcn.layerK (Cert.Gcn.land d) (fun e => Cert.Gcn.nodeOf (s e)) dv x W1 b1)) (Cert.Gcn.varK 50000 (Cert.Gcn.layerK (Cert.Gcn.land d) (fun e => Cert.Gcn.nodeOf (s e)) dv x W1 b1)) g1 be1) W2 n j * dv n) (Cert.Gcn.nodeOf (s e)) j) n q * dv n + b2 q)) e54_1 e54_2
  have e63 := main_v63_value m c g2 hg2
  have e64 := main_v64_value m c be2 hbe2
  exact main_v65_value m c (Cert.Gcn.layerK (Cert.Gcn.land d) (fun e => Cert.Gcn.nodeOf (s e)) dv (Cert.Gcn.bn Cert.Gcn.epsR (Cert.Gcn.layerK (Cert.Gcn.land d) (fun e => Cert.Gcn.nodeOf (s e)) dv x W1 b1) (Cert.Gcn.mean 50000 (Cert.Gcn.layerK (Cert.Gcn.land d) (fun e => Cert.Gcn.nodeOf (s e)) dv x W1 b1)) (Cert.Gcn.varK 50000 (Cert.Gcn.layerK (Cert.Gcn.land d) (fun e => Cert.Gcn.nodeOf (s e)) dv x W1 b1)) g1 be1) W2 b2) (Cert.Gcn.mean 50000 (Cert.Gcn.layerK (Cert.Gcn.land d) (fun e => Cert.Gcn.nodeOf (s e)) dv (Cert.Gcn.bn Cert.Gcn.epsR (Cert.Gcn.layerK (Cert.Gcn.land d) (fun e => Cert.Gcn.nodeOf (s e)) dv x W1 b1) (Cert.Gcn.mean 50000 (Cert.Gcn.layerK (Cert.Gcn.land d) (fun e => Cert.Gcn.nodeOf (s e)) dv x W1 b1)) (Cert.Gcn.varK 50000 (Cert.Gcn.layerK (Cert.Gcn.land d) (fun e => Cert.Gcn.nodeOf (s e)) dv x W1 b1)) g1 be1) W2 b2)) (Cert.Gcn.varK 50000 (Cert.Gcn.layerK (Cert.Gcn.land d) (fun e => Cert.Gcn.nodeOf (s e)) dv (Cert.Gcn.bn Cert.Gcn.epsR (Cert.Gcn.layerK (Cert.Gcn.land d) (fun e => Cert.Gcn.nodeOf (s e)) dv x W1 b1) (Cert.Gcn.mean 50000 (Cert.Gcn.layerK (Cert.Gcn.land d) (fun e => Cert.Gcn.nodeOf (s e)) dv x W1 b1)) (Cert.Gcn.varK 50000 (Cert.Gcn.layerK (Cert.Gcn.land d) (fun e => Cert.Gcn.nodeOf (s e)) dv x W1 b1)) g1 be1) W2 b2)) g2 be2
    (fun j => le_max_right _ _) e54_0 e56 e62 e63 e64

/-- THE KERNEL PROGRAM'S VALUE: from finite inputs, the result array is the coercion of the real network
    `Cert.Gcn.netK` of those inputs and the raw edge list. -/
theorem kernel_value (x : Fin 50000 → Fin 128 → ℝ) (W1 : Fin 128 → Fin 128 → ℝ) (b1 g1 be1 : Fin 128 → ℝ) (W2 : Fin 128 → Fin 128 → ℝ) (b2 g2 be2 : Fin 128 → ℝ)
    (hx : (m ((c : Thread nD τ).loc main_arg0) : S50000x128.Idx → EReal) = fun i => ((x (i 0) (i 1) : ℝ) : EReal))
    (hW1 : (m ((c : Thread nD τ).loc main_arg2) : S128x128.Idx → EReal) = fun i => ((W1 (i 0) (i 1) : ℝ) : EReal))
    (hb1 : (m ((c : Thread nD τ).loc main_arg3) : S128.Idx → EReal) = fun i => ((b1 (i 0) : ℝ) : EReal))
    (hg1 : (m ((c : Thread nD τ).loc main_arg4) : S128.Idx → EReal) = fun i => ((g1 (i 0) : ℝ) : EReal))
    (hbe1 : (m ((c : Thread nD τ).loc main_arg5) : S128.Idx → EReal) = fun i => ((be1 (i 0) : ℝ) : EReal))
    (hW2 : (m ((c : Thread nD τ).loc main_arg6) : S128x128.Idx → EReal) = fun i => ((W2 (i 0) (i 1) : ℝ) : EReal))
    (hb2 : (m ((c : Thread nD τ).loc main_arg7) : S128.Idx → EReal) = fun i => ((b2 (i 0) : ℝ) : EReal))
    (hg2 : (m ((c : Thread nD τ).loc main_arg8) : S128.Idx → EReal) = fun i => ((g2 (i 0) : ℝ) : EReal))
    (hbe2 : (m ((c : Thread nD τ).loc main_arg9) : S128.Idx → EReal) = fun i => ((be2 (i 0) : ℝ) : EReal)) :
    (W12 m c (Proc.devRef .tc main_v65) : S50000x128.Idx → EReal)
      = fun i => ((Cert.Gcn.netK (m ((c : Thread nD τ).loc main_arg1)) x W1 b1 g1 be1 W2 b2 g2 be2 (i 0) (i 1) : ℝ) : EReal) :=
  kernel_value_of_prefix m c x W1 b1 g1 be1 W2 b2 g2 be2 hx hW1 hb1 hg1 hbe1 hW2 hb2 hg2 hbe2
    (Cert.Gcn.sOf (m ((c : Thread nD τ).loc main_arg1))) (Cert.Gcn.dOf (m ((c : Thread nD τ).loc main_arg1)))
    (Cert.Gcn.dinvR (Cert.Gcn.dOf (m ((c : Thread nD τ).loc main_arg1))))
    (funext fun e => by rw [main_v5_eq]; exact Cert.ReferenceIdeal.Hand.srcV_apply _ e)
    (funext fun e => by rw [main_v6_eq]; exact Cert.ReferenceIdeal.Hand.dstV_apply _ e)
    (main_v16_value m c)

end Cert.KernelIdeal.Hand

end
-- ==== Proof.Ref.ValueMath3.lean ====
/- One layer read at an element. Real arrays enter as arrays of finite values (`coe2`, `coe1`); the projection
   at (n, j) is the finite sum over the contracted axis; a row gather at the normalised index column reads the row of
   the node the index names; a row accumulation adds, at a node, the updates of the edges landing on it; so a layer
   at (n, j) is the model's `layerR` there. -/
import proofs.«168650_j27212912787479_2_alg».proof.Proof.Ref.ValueMath2
import Idealize.ShloMosaic.PureOps.Ideal.Laws

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx Cert.Gcn Cert.GatherScatter

/-- A real matrix as an array of finite values. -/
def coe2 {n m : Nat} (a : Fin n → Fin m → ℝ) : (⟨2, ![n, m]⟩ : Shape).Idx → EReal := fun i => ((a (i 0) (i 1) : ℝ) : EReal)
/-- A real vector as an array of finite values. -/
def coe1 {m : Nat} (b : Fin m → ℝ) : (⟨1, ![m]⟩ : Shape).Idx → EReal := fun i => ((b (i 0) : ℝ) : EReal)

theorem coe2_apply {n m : Nat} (a : Fin n → Fin m → ℝ) (p : Fin n) (q : Fin m) : coe2 a (ix2 p q) = ((a p q : ℝ) : EReal) := rfl
theorem coe1_apply {m : Nat} (b : Fin m → ℝ) (q : Fin m) : coe1 b (ix1 q) = ((b q : ℝ) : EReal) := rfl

/-- The projection of finite values at (n, j): the finite sum over the 128 contracted coordinates. -/
theorem dot_apply (a : Fin 50000 → Fin 128 → ℝ) (w : Fin 128 → Fin 128 → ℝ) (n : Fin 50000) (j : Fin 128) :
    Host.dotGeneral (F := Ideal) (φ₁ := .f32) (φ₂ := .f32) dot_S50000x128_S128x128_S50000x128_1_0_0_1_n_n none (coe2 a : FVec Ideal S50000x128 .f32) (coe2 w : FVec Ideal S128x128 .f32) (ix2 n j)
      = ((proj a w n j : ℝ) : EReal) := by
  show FloatOps.dotGeneral (F := Ideal) (φ₁ := .f32) (φ₂ := .f32) dot_S50000x128_S128x128_S50000x128_1_0_0_1_n_n none .single (coe2 a : FVec Ideal S50000x128 .f32) (coe2 w : FVec Ideal S128x128 .f32) (ix2 n j) = _
  rw [Ideal.dotGeneral_apply]
  unfold proj
  rw [coe_sum]
  refine (Equiv.sum_comp (contrEquiv1 dot_S50000x128_S128x128_S50000x128_1_0_0_1_n_n 128 rfl rfl).symm _).symm.trans ?_
  refine Finset.sum_congr rfl fun k _ => ?_
  have hl : (dot_S50000x128_S128x128_S50000x128_1_0_0_1_n_n).lhsIdx (ix2 n j) ((contrEquiv1 dot_S50000x128_S128x128_S50000x128_1_0_0_1_n_n 128 rfl rfl).symm k) = ix2 n k := by
    funext b; refine Fin.ext ?_
    match b with
    | ⟨0, _⟩ => rfl
    | ⟨1, _⟩ => exact (DotDims.lhsIdx_val_of_single _ rfl _ _).trans (contrEquiv1_symm_val _ 128 rfl rfl k)
  have hr : (dot_S50000x128_S128x128_S50000x128_1_0_0_1_n_n).rhsIdx (ix2 n j) ((contrEquiv1 dot_S50000x128_S128x128_S50000x128_1_0_0_1_n_n 128 rfl rfl).symm k) = ix2 k j := by
    funext b; refine Fin.ext ?_
    match b with
    | ⟨0, _⟩ => exact (DotDims.rhsIdx_val_of_single _ rfl _ _).trans (contrEquiv1_symm_val _ 128 rfl rfl k)
    | ⟨1, _⟩ => rfl
  rw [hl, hr, coe2_apply, coe2_apply, EReal.coe_mul]

/-- A row gather at the normalised index column reads the row of the node the index names. -/
theorem rowGather_apply (x : FVec Ideal S50000x128 .f32) (z : IVec S850000 32) (e : Fin 850000) (j : Fin 128) :
    Host.gather gather_S50000x128_S850000x1_S850000x128_1_0_n_n_0_1_1128 x (colV (normV z)) (ix2 e j)
      = x (ix2 (nodeOf (z (ix1 e))) j) :=
  (gather_row_apply (N := 50000) (by norm_num) gather_S50000x128_S850000x1_S850000x128_1_0_n_n_0_1_1128_wf x (colV (normV z)) e j).trans
    (congrArg (fun a => x (ix2 a j)) (Fin.ext (by
      show min (colV (normV z) (ix2 e 0)).toInt.toNat (50000 - 1) = min (normIdx (z (ix1 e))).toInt.toNat (50000 - 1)
      rw [colV_apply, normV_apply])))

/-- The row accumulation at (n, j): the operand there plus the updates, in column j, of the edges landing on n. -/
theorem rowScatter_apply (x : FVec Ideal S50000x128 .f32) (d : IVec S850000 32) (u : FVec Ideal S850000x128 .f32)
    (n : Fin 50000) (j : Fin 128) :
    Host.scatterAdd scatter_S50000x128_S850000x1_S850000x128_1_0_0_1 x (colV d) u (ix2 n j)
      = x (ix2 n j) + ∑ e ∈ land (fun e => d (ix1 e)) n, u (ix2 e j) := by
  have h := scatterAdd_row_apply scatter_S50000x128_S850000x1_S850000x128_1_0_0_1_wf x (colV d) u n j
  rw [show (Finset.univ.filter fun e : Fin 850000 => (colV d (ix2 e 0)).toInt = (n.val : Int))
      = land (fun e => d (ix1 e)) n from Finset.filter_congr (fun e _ => by rw [colV_apply])] at h
  exact h

/-- A column spread over the 128 columns reads the column. -/
theorem spread_apply (y : FVec Ideal S850000x1 .f32) (e : Fin 850000) (j : Fin 128) :
    broadcastInDim S850000x128 ![0, 1] bcast_S850000x1_S850000x128_0_1 y (ix2 e j) = y (ix2 e (0 : Fin 1)) :=
  broadcastInDim_apply _ _ y (ix2 e j) (ix2 e (0 : Fin 1)) (fun a => by
    match a with
    | ⟨0, _⟩ => rfl
    | ⟨1, _⟩ => rfl)

/-- One layer at (n, j), on finite inputs: the model's layer with each edge's message scaled by its factor. -/
theorem layerV_apply (s d : IVec S850000 32) (a : Fin 50000 → Fin 128 → ℝ) (w : Fin 128 → Fin 128 → ℝ) (b : Fin 128 → ℝ)
    (n : Fin 50000) (j : Fin 128) :
    layerV s d (coe2 a) (coe2 w) (coe1 b) (ix2 n j)
      = ((layerR (land (fun e => d (ix1 e))) (fun e => nodeOf (s (ix1 e))) (fun e => nodeOf (d (ix1 e)))
            (dinvR (fun e => d (ix1 e))) a w b n j : ℝ) : EReal) := by
  have h0 : (broadcastInDim S50000x128 ![] bcast_S_S50000x128 (constant (F := Ideal) S_ .f32 0x00000000#32)) (ix2 n j) = 0 :=
    ofBits_zero
  unfold layerV layerR
  rw [addf_apply, rowV_apply, rowScatter_apply, h0, zero_add, coe1_apply, EReal.coe_add, coe_sum]
  refine congrArg (fun t => t + ((b j : ℝ) : EReal)) ?_
  refine Finset.sum_congr rfl fun e _ => ?_
  rw [mulf_apply, rowGather_apply, dot_apply, spread_apply, colV_apply, normE_apply]
  simp only [EReal.coe_mul]

end Cert.ReferenceIdeal.Hand

end
-- ==== Proof.Ref.ValueMath4.lean ====
/- The statistics and the normalisation read at an element, on finite inputs: a column sum is the finite sum over the
   nodes; the mean is the model's `mean`; the deviations are finite; the variance (its select taking the quotient, the
   divisor 50000 - 0 being positive) is the model's `varR`, which is nonnegative, so the reciprocal square root of
   variance plus epsilon is finite; and normalisation, scale, shift and rectifier at (n, j) are the model's `bn`. -/
import proofs.«168650_j27212912787479_2_alg».proof.Proof.Ref.ValueMath3

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx Cert.Gcn Cert.GatherScatter

/-- The column sum of finite values is the finite sum. -/
theorem colSum_apply (hh : Fin 50000 → Fin 128 → ℝ) (j : Fin 128) :
    Host.reduceAdd (coe2 hh : FVec Ideal S50000x128 .f32) (constant (F := Ideal) S_ .f32 0x00000000#32)
        reducesTo_S50000x128_S128_d0 h_S_ (ix1 j)
      = ((∑ n, hh n j : ℝ) : EReal) := by
  have hR : S50000x128.Reduces [0] S128 := by decide
  show Ideal.hostReduceAdd reducesTo_S50000x128_S128_d0 (coe2 hh) (Ideal.ofBits .f32 0x00000000#32) (ix1 j) = _
  rw [Ideal.hostReduceAdd_single reducesTo_S50000x128_S128_d0 hR, ofBits_zero, zero_add, coe_sum]
  show ∑ k : Fin 50000, coe2 hh (hR.lift (ix1 j) k) = _
  refine Finset.sum_congr rfl fun k _ => ?_
  have hl : hR.lift (ix1 j) k = ix2 k j := by
    funext b; refine Fin.ext ?_
    match b with
    | ⟨0, _⟩ => rfl
    | ⟨1, _⟩ => rfl
  rw [hl, coe2_apply]

/-- The mean. -/
theorem meanV_apply (hh : Fin 50000 → Fin 128 → ℝ) (j : Fin 128) :
    meanV (coe2 hh) (ix1 j) = ((mean 50000 hh j : ℝ) : EReal) := by
  have hc : (broadcastInDim S128 ![] bcast_S_S128 (constant (F := Ideal) S_ .f32 0x47435000#32)) (ix1 j) = ((50000 : ℝ) : EReal) :=
    ofBits_5e4
  have hd : ∀ (x y : FVec Ideal S128 .f32) (i : S128.Idx), Host.divf x y i = Ideal.div (x i) (y i) := fun _ _ _ => rfl
  unfold meanV mean
  rw [hd, colSum_apply, hc, div_coe_coe _ _ (by norm_num)]

/-- The mean as one row. -/
theorem mu1V_apply (hh : Fin 50000 → Fin 128 → ℝ) (u : Fin 1) (j : Fin 128) :
    mu1V (coe2 hh) (ix2 u j) = ((mean 50000 hh j : ℝ) : EReal) := by
  have hc : (broadcastInDim S1x128 ![] bcast_S_S1x128 (constant (F := Ideal) S_ .f32 0x47435000#32)) (ix2 u j) = ((50000 : ℝ) : EReal) :=
    ofBits_5e4
  have hd : ∀ (x y : FVec Ideal S1x128 .f32) (i : S1x128.Idx), Host.divf x y i = Ideal.div (x i) (y i) := fun _ _ _ => rfl
  unfold mu1V mean
  rw [hd, hc, broadcastInDim_apply _ _ _ (ix2 u j) (ix1 j) (fun a => by
    match a with
    | ⟨0, _⟩ => rfl), colSum_apply, div_coe_coe _ _ (by norm_num)]

/-- The deviations are finite. -/
theorem devV_coe (hh : Fin 50000 → Fin 128 → ℝ) : devV (coe2 hh) = coe2 (fun n j => hh n j - mean 50000 hh j) := by
  funext i
  obtain ⟨n, j, rfl⟩ : ∃ n j, i = ix2 n j := ⟨i 0, i 1, eq_ix2 i⟩
  unfold devV
  rw [subf_apply, broadcastInDim_apply _ _ _ (ix2 n j) (ix2 (0 : Fin 1) j) (fun a => by
    match a with
    | ⟨0, _⟩ => rfl
    | ⟨1, _⟩ => rfl), mu1V_apply, coe2_apply, coe2_apply, EReal.coe_sub]

/-- A product of finite arrays is finite. -/
theorem mulf_coe2 (f g : Fin 50000 → Fin 128 → ℝ) :
    mulf (F := Ideal) (s := S50000x128) (φ := .f32) (coe2 f) (coe2 g) = coe2 (fun n j => f n j * g n j) := by
  funext i
  obtain ⟨n, j, rfl⟩ : ∃ n j, i = ix2 n j := ⟨i 0, i 1, eq_ix2 i⟩
  rw [mulf_apply, coe2_apply, coe2_apply, coe2_apply, EReal.coe_mul]

/-- The variance's divisor: 50000 less the correction 0. -/
theorem cntV_apply (k : S_.Idx) : cntV k = ((50000 : ℝ) : EReal) := by
  have h0 : ((0#32 : BitVec 32).toInt : ℝ) = 0 := by norm_num
  show Ideal.ofBits .f32 0x47435000#32 - ((((0#32 : BitVec 32).toInt : ℝ)) : EReal) = _
  rw [ofBits_5e4, h0, ← EReal.coe_sub, sub_zero]

/-- The variance. -/
theorem varV_apply (hh : Fin 50000 → Fin 128 → ℝ) (j : Fin 128) :
    varV (coe2 hh) (ix1 j) = ((varR 50000 hh j : ℝ) : EReal) := by
  have hd : ∀ (x y : FVec Ideal S128 .f32) (i : S128.Idx), Host.divf x y i = Ideal.div (x i) (y i) := fun _ _ _ => rfl
  have hcnt : (broadcastInDim S128 ![] bcast_S_S128 cntV) (ix1 j) = ((50000 : ℝ) : EReal) := cntV_apply _
  have hcmp : (broadcastInDim S128 ![] bcast_S_S128 (cmpf .ogt cntV (constant (F := Ideal) S_ .f32 0x00000000#32))) (ix1 j) = 1#1 := by
    show FloatOps.cmpf .ogt (cntV _) (Ideal.ofBits .f32 0x00000000#32) = 1#1
    rw [cntV_apply, ofBits_zero]
    show BitVec.ofBool (decide ((0 : EReal) < ((50000 : ℝ) : EReal))) = 1#1
    rw [decide_eq_true (EReal.coe_pos.mpr (by norm_num))]; rfl
  unfold varV varR
  rw [select_apply, hcmp, select_one, hd, hcnt, devV_coe, mulf_coe2, colSum_apply, div_coe_coe _ _ (by norm_num)]

/-- The variance is nonnegative. -/
theorem varR_nonneg (hh : Fin 50000 → Fin 128 → ℝ) (j : Fin 128) : 0 ≤ varR 50000 hh j := by
  unfold varR
  exact div_nonneg (Finset.sum_nonneg fun n _ => mul_self_nonneg _) (by norm_num)

/-- Normalisation, scale, shift and rectifier at (n, j). -/
theorem bnV_apply (hh : Fin 50000 → Fin 128 → ℝ) (g be : Fin 128 → ℝ) (n : Fin 50000) (j : Fin 128) :
    bnV (coe2 hh) (coe1 g) (coe1 be) (ix2 n j)
      = ((bn epsR hh (mean 50000 hh) (varR 50000 hh) g be n j : ℝ) : EReal) := by
  have h0 : (broadcastInDim S50000x128 ![] bcast_S_S50000x128 (constant (F := Ideal) S_ .f32 0x00000000#32)) (ix2 n j) = ((0 : ℝ) : EReal) :=
    ofBits_zero
  have he : (broadcastInDim S128 ![] bcast_S_S128 (constant (F := Ideal) S_ .f32 0x3727C5AC#32)) (ix1 j) = ((epsR : ℝ) : EReal) :=
    ofBits_eps_eq
  have hr : ∀ (x : FVec Ideal S128 .f32) (i : S128.Idx), Host.rsqrt x i = Ideal.rsqrt (x i) := fun _ _ => rfl
  have hpos : 0 < varR 50000 hh j + epsR := add_pos_of_nonneg_of_pos (varR_nonneg hh j) epsR_pos
  unfold bnV bn
  rw [maximumf_apply, addf_apply, mulf_apply, mulf_apply, subf_apply, rowV_apply, rowV_apply, rowV_apply, rowV_apply,
    hr, addf_apply, meanV_apply, varV_apply, he, h0, coe2_apply, coe1_apply, coe1_apply,
    ← EReal.coe_add, rsqrt_coe_pos _ hpos, ← EReal.coe_sub, ← EReal.coe_mul, ← EReal.coe_mul, ← EReal.coe_add]
  exact (EReal.coe_strictMono.monotone.map_max).symm

end Cert.ReferenceIdeal.Hand

end
-- ==== Proof.Ref.Aligned.lean ====
/- The whole operation list and the list of the buffers it writes are aligned: the k-th operation writes exactly
   the k-th reference's buffer (window by window, by computation on each literal operation; then joined). -/
import proofs.«168650_j27212912787479_2_alg».proof.Proof.Ref.Ops
import proofs.«168650_j27212912787479_2_alg».proof.Proof.Ref.Stage

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The buffers the whole list writes, in program order. -/
abbrev W : List (Ref sig .tc) := W0 ++ (W1 ++ W2)

set_option maxRecDepth 8192 in
theorem ops0_aligned : Aligned (ops0 : List (HloOp τ sig (Elt F))) W0 := by
  repeat (first | exact List.Forall₂.nil | refine List.Forall₂.cons rfl ?_)

set_option maxRecDepth 8192 in
theorem ops1_aligned : Aligned (ops1 : List (HloOp τ sig (Elt F))) W1 := by
  repeat (first | exact List.Forall₂.nil | refine List.Forall₂.cons rfl ?_)

set_option maxRecDepth 8192 in
theorem ops2_aligned : Aligned (ops2 : List (HloOp τ sig (Elt F))) W2 := by
  repeat (first | exact List.Forall₂.nil | refine List.Forall₂.cons rfl ?_)

theorem ops_aligned : Aligned (ops : List (HloOp τ sig (Elt F))) W :=
  aligned_append ops0_aligned (aligned_append ops1_aligned ops2_aligned)

end Cert.ReferenceIdeal.Hand

end
-- ==== Proof.Ref.Read0.lean ====
/- The operation list read stage by stage: one equation per operation of window 0 of @main, in program order. After the whole list, the
   buffer an operation writes holds the operation's function of what its operands' buffers hold after the whole list
   (every buffer is written once, by an operation placed after the ones that write its operands). Each is the
   stage lemma of its kind at the operation's place in the list. -/
import proofs.«168650_j27212912787479_2_alg».proof.Proof.Ref.Aligned

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

set_option maxRecDepth 8192 in
theorem at_main_v0 : after ops V (Proc.devRef .tc main_v0) = extractStridedSlice S1x800000 ![0, 0] (after ops V (Proc.devRef .tc main_arg1) : (⟨S2x800000, .i32⟩ : BufTy).Contents (Elt F)) slices_S2x800000_S1x800000_0_0 :=
  stage_unary ops_aligned 0 V main_arg1 main_v0 _ rfl (by decide) (by decide)

set_option maxRecDepth 8192 in
theorem at_main_v1 : after ops V (Proc.devRef .tc main_v1) = fun i => shapeCast S800000 (after ops V (Proc.devRef .tc main_v0) : (⟨S1x800000, .i32⟩ : BufTy).Contents (Elt F)) shapeCasts_S1x800000_S800000 i :=
  stage_reshape ops_aligned 1 V main_v0 main_v1 rfl (by decide) (by decide)

set_option maxRecDepth 8192 in
theorem at_main_v2 : after ops V (Proc.devRef .tc main_v2) = extractStridedSlice S1x800000 ![1, 0] (after ops V (Proc.devRef .tc main_arg1) : (⟨S2x800000, .i32⟩ : BufTy).Contents (Elt F)) slices_S2x800000_S1x800000_1_0 :=
  stage_unary ops_aligned 2 V main_arg1 main_v2 _ rfl (by decide) (by decide)

set_option maxRecDepth 8192 in
theorem at_main_v3 : after ops V (Proc.devRef .tc main_v3) = fun i => shapeCast S800000 (after ops V (Proc.devRef .tc main_v2) : (⟨S1x800000, .i32⟩ : BufTy).Contents (Elt F)) shapeCasts_S1x800000_S800000 i :=
  stage_reshape ops_aligned 3 V main_v2 main_v3 rfl (by decide) (by decide)

set_option maxRecDepth 8192 in
theorem at_main_v4 : after ops V (Proc.devRef .tc main_v4) = iotaInDim S50000 32 0 :=
  stage_nullary ops_aligned 4 V main_v4 _ rfl (by decide)

set_option maxRecDepth 8192 in
theorem at_main_v5 : after ops V (Proc.devRef .tc main_v5) = concatenate S850000 0 [⟨S800000, (after ops V (Proc.devRef .tc main_v1) : (⟨S800000, .i32⟩ : BufTy).Contents (Elt F))⟩, ⟨S50000, (after ops V (Proc.devRef .tc main_v4) : (⟨S50000, .i32⟩ : BufTy).Contents (Elt F))⟩] concatenates_S800000_S50000_S850000_d0 :=
  stage_binary ops_aligned 5 V main_v1 main_v4 main_v5 _ rfl (by decide) (by decide) (by decide)

set_option maxRecDepth 8192 in
theorem at_main_v6 : after ops V (Proc.devRef .tc main_v6) = concatenate S850000 0 [⟨S800000, (after ops V (Proc.devRef .tc main_v3) : (⟨S800000, .i32⟩ : BufTy).Contents (Elt F))⟩, ⟨S50000, (after ops V (Proc.devRef .tc main_v4) : (⟨S50000, .i32⟩ : BufTy).Contents (Elt F))⟩] concatenates_S800000_S50000_S850000_d0 :=
  stage_binary ops_aligned 6 V main_v3 main_v4 main_v6 _ rfl (by decide) (by decide) (by decide)

set_option maxRecDepth 8192 in
theorem at_main_cst : after ops V (Proc.devRef .tc main_cst) = constant S_ .f32 0x3F800000#32 :=
  stage_nullary ops_aligned 7 V main_cst _ rfl (by decide)

set_option maxRecDepth 8192 in
theorem at_main_v7 : after ops V (Proc.devRef .tc main_v7) = broadcastInDim S850000 ![] bcast_S_S850000 (after ops V (Proc.devRef .tc main_cst) : (⟨S_, .f32⟩ : BufTy).Contents (Elt F)) :=
  stage_unary ops_aligned 8 V main_cst main_v7 _ rfl (by decide) (by decide)

set_option maxRecDepth 8192 in
theorem at_main_cst_0 : after ops V (Proc.devRef .tc main_cst_0) = constant S_ .f32 0x00000000#32 :=
  stage_nullary ops_aligned 9 V main_cst_0 _ rfl (by decide)

set_option maxRecDepth 8192 in
theorem at_main_v8 : after ops V (Proc.devRef .tc main_v8) = broadcastInDim S50000 ![] bcast_S_S50000 (after ops V (Proc.devRef .tc main_cst_0) : (⟨S_, .f32⟩ : BufTy).Contents (Elt F)) :=
  stage_unary ops_aligned 10 V main_cst_0 main_v8 _ rfl (by decide) (by decide)

set_option maxRecDepth 8192 in
theorem at_main_v9 : after ops V (Proc.devRef .tc main_v9) = broadcastInDim S850000x1 ![0] bcast_S850000_S850000x1_0 (after ops V (Proc.devRef .tc main_v6) : (⟨S850000, .i32⟩ : BufTy).Contents (Elt F)) :=
  stage_unary ops_aligned 11 V main_v6 main_v9 _ rfl (by decide) (by decide)

set_option maxRecDepth 8192 in
theorem at_main_v10 : after ops V (Proc.devRef .tc main_v10) = Host.scatterAdd scatter_S50000_S850000x1_S850000_n_0_0_1 (after ops V (Proc.devRef .tc main_v8) : (⟨S50000, .f32⟩ : BufTy).Contents (Elt F)) (after ops V (Proc.devRef .tc main_v9) : (⟨S850000x1, .i32⟩ : BufTy).Contents (Elt F)) (after ops V (Proc.devRef .tc main_v7) : (⟨S850000, .f32⟩ : BufTy).Contents (Elt F)) :=
  stage_ternary ops_aligned 12 V main_v8 main_v9 main_v7 main_v10 _ rfl (by decide) (by decide) (by decide) (by decide)

set_option maxRecDepth 8192 in
theorem at_main_cst_1 : after ops V (Proc.devRef .tc main_cst_1) = constant S_ .f32 0x00000000#32 :=
  stage_nullary ops_aligned 13 V main_cst_1 _ rfl (by decide)

set_option maxRecDepth 8192 in
theorem at_main_v11 : after ops V (Proc.devRef .tc main_v11) = broadcastInDim S50000 ![] bcast_S_S50000 (after ops V (Proc.devRef .tc main_cst_1) : (⟨S_, .f32⟩ : BufTy).Contents (Elt F)) :=
  stage_unary ops_aligned 14 V main_cst_1 main_v11 _ rfl (by decide) (by decide)

set_option maxRecDepth 8192 in
theorem at_main_v12 : after ops V (Proc.devRef .tc main_v12) = cmpf .ogt (after ops V (Proc.devRef .tc main_v10) : (⟨S50000, .f32⟩ : BufTy).Contents (Elt F)) (after ops V (Proc.devRef .tc main_v11) : (⟨S50000, .f32⟩ : BufTy).Contents (Elt F)) :=
  stage_binary ops_aligned 15 V main_v10 main_v11 main_v12 _ rfl (by decide) (by decide) (by decide)

set_option maxRecDepth 8192 in
theorem at_main_cst_2 : after ops V (Proc.devRef .tc main_cst_2) = constant S_ .f32 0xBF000000#32 :=
  stage_nullary ops_aligned 16 V main_cst_2 _ rfl (by decide)

set_option maxRecDepth 8192 in
theorem at_main_v13 : after ops V (Proc.devRef .tc main_v13) = broadcastInDim S50000 ![] bcast_S_S50000 (after ops V (Proc.devRef .tc main_cst_2) : (⟨S_, .f32⟩ : BufTy).Contents (Elt F)) :=
  stage_unary ops_aligned 17 V main_cst_2 main_v13 _ rfl (by decide) (by decide)

set_option maxRecDepth 8192 in
theorem at_main_v14 : after ops V (Proc.devRef .tc main_v14) = Host.powf (after ops V (Proc.devRef .tc main_v10) : (⟨S50000, .f32⟩ : BufTy).Contents (Elt F)) (after ops V (Proc.devRef .tc main_v13) : (⟨S50000, .f32⟩ : BufTy).Contents (Elt F)) :=
  stage_binary ops_aligned 18 V main_v10 main_v13 main_v14 _ rfl (by decide) (by decide) (by decide)

set_option maxRecDepth 8192 in
theorem at_main_cst_3 : after ops V (Proc.devRef .tc main_cst_3) = constant S_ .f32 0x00000000#32 :=
  stage_nullary ops_aligned 19 V main_cst_3 _ rfl (by decide)

set_option maxRecDepth 8192 in
theorem at_main_call0_v0 : after ops V (Proc.devRef .tc main_call0_v0) = (after ops V (Proc.devRef .tc main_cst_3) : (⟨S_, .f32⟩ : BufTy).Contents (Elt F)) :=
  stage_unary ops_aligned 20 V main_cst_3 main_call0_v0 _ rfl (by decide) (by decide)

set_option maxRecDepth 8192 in
theorem at_main_call0_v1 : after ops V (Proc.devRef .tc main_call0_v1) = broadcastInDim S50000 ![] bcast_S_S50000 (after ops V (Proc.devRef .tc main_call0_v0) : (⟨S_, .f32⟩ : BufTy).Contents (Elt F)) :=
  stage_unary ops_aligned 21 V main_call0_v0 main_call0_v1 _ rfl (by decide) (by decide)

set_option maxRecDepth 8192 in
theorem at_main_v15 : after ops V (Proc.devRef .tc main_v15) = select (after ops V (Proc.devRef .tc main_v12) : (⟨S50000, .i1⟩ : BufTy).Contents (Elt F)) (after ops V (Proc.devRef .tc main_v14) : (⟨S50000, .f32⟩ : BufTy).Contents (Elt F)) (after ops V (Proc.devRef .tc main_call0_v1) : (⟨S50000, .f32⟩ : BufTy).Contents (Elt F)) :=
  stage_ternary ops_aligned 22 V main_v12 main_v14 main_call0_v1 main_v15 _ rfl (by decide) (by decide) (by decide) (by decide)

set_option maxRecDepth 8192 in
theorem at_main_c : after ops V (Proc.devRef .tc main_c) = constantI S_ 32 0#32 :=
  stage_nullary ops_aligned 23 V main_c _ rfl (by decide)

set_option maxRecDepth 8192 in
theorem at_main_v16 : after ops V (Proc.devRef .tc main_v16) = broadcastInDim S850000 ![] bcast_S_S850000 (after ops V (Proc.devRef .tc main_c) : (⟨S_, .i32⟩ : BufTy).Contents (Elt F)) :=
  stage_unary ops_aligned 24 V main_c main_v16 _ rfl (by decide) (by decide)

set_option maxRecDepth 8192 in
theorem at_main_v17 : after ops V (Proc.devRef .tc main_v17) = cmpi .slt (after ops V (Proc.devRef .tc main_v5) : (⟨S850000, .i32⟩ : BufTy).Contents (Elt F)) (after ops V (Proc.devRef .tc main_v16) : (⟨S850000, .i32⟩ : BufTy).Contents (Elt F)) :=
  stage_binary ops_aligned 25 V main_v5 main_v16 main_v17 _ rfl (by decide) (by decide) (by decide)

set_option maxRecDepth 8192 in
theorem at_main_c_4 : after ops V (Proc.devRef .tc main_c_4) = constantI S_ 32 50000#32 :=
  stage_nullary ops_aligned 26 V main_c_4 _ rfl (by decide)

set_option maxRecDepth 8192 in
theorem at_main_v18 : after ops V (Proc.devRef .tc main_v18) = broadcastInDim S850000 ![] bcast_S_S850000 (after ops V (Proc.devRef .tc main_c_4) : (⟨S_, .i32⟩ : BufTy).Contents (Elt F)) :=
  stage_unary ops_aligned 27 V main_c_4 main_v18 _ rfl (by decide) (by decide)

set_option maxRecDepth 8192 in
theorem at_main_v19 : after ops V (Proc.devRef .tc main_v19) = addi (after ops V (Proc.devRef .tc main_v5) : (⟨S850000, .i32⟩ : BufTy).Contents (Elt F)) (after ops V (Proc.devRef .tc main_v18) : (⟨S850000, .i32⟩ : BufTy).Contents (Elt F)) :=
  stage_binary ops_aligned 28 V main_v5 main_v18 main_v19 _ rfl (by decide) (by decide) (by decide)

set_option maxRecDepth 8192 in
theorem at_main_v20 : after ops V (Proc.devRef .tc main_v20) = select (after ops V (Proc.devRef .tc main_v17) : (⟨S850000, .i1⟩ : BufTy).Contents (Elt F)) (after ops V (Proc.devRef .tc main_v19) : (⟨S850000, .i32⟩ : BufTy).Contents (Elt F)) (after ops V (Proc.devRef .tc main_v5) : (⟨S850000, .i32⟩ : BufTy).Contents (Elt F)) :=
  stage_ternary ops_aligned 29 V main_v17 main_v19 main_v5 main_v20 _ rfl (by decide) (by decide) (by decide) (by decide)

set_option maxRecDepth 8192 in
theorem at_main_v21 : after ops V (Proc.devRef .tc main_v21) = broadcastInDim S850000x1 ![0] bcast_S850000_S850000x1_0 (after ops V (Proc.devRef .tc main_v20) : (⟨S850000, .i32⟩ : BufTy).Contents (Elt F)) :=
  stage_unary ops_aligned 30 V main_v20 main_v21 _ rfl (by decide) (by decide)

set_option maxRecDepth 8192 in
theorem at_main_v22 : after ops V (Proc.devRef .tc main_v22) = Host.gather gather_S50000_S850000x1_S850000_n_0_n_n_0_1_1 (after ops V (Proc.devRef .tc main_v15) : (⟨S50000, .f32⟩ : BufTy).Contents (Elt F)) (after ops V (Proc.devRef .tc main_v21) : (⟨S850000x1, .i32⟩ : BufTy).Contents (Elt F)) :=
  stage_binary ops_aligned 31 V main_v15 main_v21 main_v22 _ rfl (by decide) (by decide) (by decide)

set_option maxRecDepth 8192 in
theorem at_main_c_5 : after ops V (Proc.devRef .tc main_c_5) = constantI S_ 32 0#32 :=
  stage_nullary ops_aligned 32 V main_c_5 _ rfl (by decide)

set_option maxRecDepth 8192 in
theorem at_main_v23 : after ops V (Proc.devRef .tc main_v23) = broadcastInDim S850000 ![] bcast_S_S850000 (after ops V (Proc.devRef .tc main_c_5) : (⟨S_, .i32⟩ : BufTy).Contents (Elt F)) :=
  stage_unary ops_aligned 33 V main_c_5 main_v23 _ rfl (by decide) (by decide)

set_option maxRecDepth 8192 in
theorem at_main_v24 : after ops V (Proc.devRef .tc main_v24) = cmpi .slt (after ops V (Proc.devRef .tc main_v6) : (⟨S850000, .i32⟩ : BufTy).Contents (Elt F)) (after ops V (Proc.devRef .tc main_v23) : (⟨S850000, .i32⟩ : BufTy).Contents (Elt F)) :=
  stage_binary ops_aligned 34 V main_v6 main_v23 main_v24 _ rfl (by decide) (by decide) (by decide)

set_option maxRecDepth 8192 in
theorem at_main_c_6 : after ops V (Proc.devRef .tc main_c_6) = constantI S_ 32 50000#32 :=
  stage_nullary ops_aligned 35 V main_c_6 _ rfl (by decide)

set_option maxRecDepth 8192 in
theorem at_main_v25 : after ops V (Proc.devRef .tc main_v25) = broadcastInDim S850000 ![] bcast_S_S850000 (after ops V (Proc.devRef .tc main_c_6) : (⟨S_, .i32⟩ : BufTy).Contents (Elt F)) :=
  stage_unary ops_aligned 36 V main_c_6 main_v25 _ rfl (by decide) (by decide)

set_option maxRecDepth 8192 in
theorem at_main_v26 : after ops V (Proc.devRef .tc main_v26) = addi (after ops V (Proc.devRef .tc main_v6) : (⟨S850000, .i32⟩ : BufTy).Contents (Elt F)) (after ops V (Proc.devRef .tc main_v25) : (⟨S850000, .i32⟩ : BufTy).Contents (Elt F)) :=
  stage_binary ops_aligned 37 V main_v6 main_v25 main_v26 _ rfl (by decide) (by decide) (by decide)

set_option maxRecDepth 8192 in
theorem at_main_v27 : after ops V (Proc.devRef .tc main_v27) = select (after ops V (Proc.devRef .tc main_v24) : (⟨S850000, .i1⟩ : BufTy).Contents (Elt F)) (after ops V (Proc.devRef .tc main_v26) : (⟨S850000, .i32⟩ : BufTy).Contents (Elt F)) (after ops V (Proc.devRef .tc main_v6) : (⟨S850000, .i32⟩ : BufTy).Contents (Elt F)) :=
  stage_ternary ops_aligned 38 V main_v24 main_v26 main_v6 main_v27 _ rfl (by decide) (by decide) (by decide) (by decide)

set_option maxRecDepth 8192 in
theorem at_main_v28 : after ops V (Proc.devRef .tc main_v28) = broadcastInDim S850000x1 ![0] bcast_S850000_S850000x1_0 (after ops V (Proc.devRef .tc main_v27) : (⟨S850000, .i32⟩ : BufTy).Contents (Elt F)) :=
  stage_unary ops_aligned 39 V main_v27 main_v28 _ rfl (by decide) (by decide)

set_option maxRecDepth 8192 in
theorem at_main_v29 : after ops V (Proc.devRef .tc main_v29) = Host.gather gather_S50000_S850000x1_S850000_n_0_n_n_0_1_1 (after ops V (Proc.devRef .tc main_v15) : (⟨S50000, .f32⟩ : BufTy).Contents (Elt F)) (after ops V (Proc.devRef .tc main_v28) : (⟨S850000x1, .i32⟩ : BufTy).Contents (Elt F)) :=
  stage_binary ops_aligned 40 V main_v15 main_v28 main_v29 _ rfl (by decide) (by decide) (by decide)

set_option maxRecDepth 8192 in
theorem at_main_v30 : after ops V (Proc.devRef .tc main_v30) = mulf (after ops V (Proc.devRef .tc main_v22) : (⟨S850000, .f32⟩ : BufTy).Contents (Elt F)) (after ops V (Proc.devRef .tc main_v29) : (⟨S850000, .f32⟩ : BufTy).Contents (Elt F)) :=
  stage_binary ops_aligned 41 V main_v22 main_v29 main_v30 _ rfl (by decide) (by decide) (by decide)

set_option maxRecDepth 8192 in
theorem at_main_v31 : after ops V (Proc.devRef .tc main_v31) = Host.dotGeneral dot_S50000x128_S128x128_S50000x128_1_0_0_1_n_n none (after ops V (Proc.devRef .tc main_arg0) : (⟨S50000x128, .f32⟩ : BufTy).Contents (Elt F)) (after ops V (Proc.devRef .tc main_arg2) : (⟨S128x128, .f32⟩ : BufTy).Contents (Elt F)) :=
  stage_binary ops_aligned 42 V main_arg0 main_arg2 main_v31 _ rfl (by decide) (by decide) (by decide)

set_option maxRecDepth 8192 in
theorem at_main_c_7 : after ops V (Proc.devRef .tc main_c_7) = constantI S_ 32 0#32 :=
  stage_nullary ops_aligned 43 V main_c_7 _ rfl (by decide)

set_option maxRecDepth 8192 in
theorem at_main_v32 : after ops V (Proc.devRef .tc main_v32) = broadcastInDim S850000 ![] bcast_S_S850000 (after ops V (Proc.devRef .tc main_c_7) : (⟨S_, .i32⟩ : BufTy).Contents (Elt F)) :=
  stage_unary ops_aligned 44 V main_c_7 main_v32 _ rfl (by decide) (by decide)

set_option maxRecDepth 8192 in
theorem at_main_v33 : after ops V (Proc.devRef .tc main_v33) = cmpi .slt (after ops V (Proc.devRef .tc main_v5) : (⟨S850000, .i32⟩ : BufTy).Contents (Elt F)) (after ops V (Proc.devRef .tc main_v32) : (⟨S850000, .i32⟩ : BufTy).Contents (Elt F)) :=
  stage_binary ops_aligned 45 V main_v5 main_v32 main_v33 _ rfl (by decide) (by decide) (by decide)

set_option maxRecDepth 8192 in
theorem at_main_c_8 : after ops V (Proc.devRef .tc main_c_8) = constantI S_ 32 50000#32 :=
  stage_nullary ops_aligned 46 V main_c_8 _ rfl (by decide)

set_option maxRecDepth 8192 in
theorem at_main_v34 : after ops V (Proc.devRef .tc main_v34) = broadcastInDim S850000 ![] bcast_S_S850000 (after ops V (Proc.devRef .tc main_c_8) : (⟨S_, .i32⟩ : BufTy).Contents (Elt F)) :=
  stage_unary ops_aligned 47 V main_c_8 main_v34 _ rfl (by decide) (by decide)

set_option maxRecDepth 8192 in
theorem at_main_v35 : after ops V (Proc.devRef .tc main_v35) = addi (after ops V (Proc.devRef .tc main_v5) : (⟨S850000, .i32⟩ : BufTy).Contents (Elt F)) (after ops V (Proc.devRef .tc main_v34) : (⟨S850000, .i32⟩ : BufTy).Contents (Elt F)) :=
  stage_binary ops_aligned 48 V main_v5 main_v34 main_v35 _ rfl (by decide) (by decide) (by decide)

set_option maxRecDepth 8192 in
theorem at_main_v36 : after ops V (Proc.devRef .tc main_v36) = select (after ops V (Proc.devRef .tc main_v33) : (⟨S850000, .i1⟩ : BufTy).Contents (Elt F)) (after ops V (Proc.devRef .tc main_v35) : (⟨S850000, .i32⟩ : BufTy).Contents (Elt F)) (after ops V (Proc.devRef .tc main_v5) : (⟨S850000, .i32⟩ : BufTy).Contents (Elt F)) :=
  stage_ternary ops_aligned 49 V main_v33 main_v35 main_v5 main_v36 _ rfl (by decide) (by decide) (by decide) (by decide)

set_option maxRecDepth 8192 in
theorem at_main_v37 : after ops V (Proc.devRef .tc main_v37) = broadcastInDim S850000x1 ![0] bcast_S850000_S850000x1_0 (after ops V (Proc.devRef .tc main_v36) : (⟨S850000, .i32⟩ : BufTy).Contents (Elt F)) :=
  stage_unary ops_aligned 50 V main_v36 main_v37 _ rfl (by decide) (by decide)

set_option maxRecDepth 8192 in
theorem at_main_v38 : after ops V (Proc.devRef .tc main_v38) = Host.gather gather_S50000x128_S850000x1_S850000x128_1_0_n_n_0_1_1128 (after ops V (Proc.devRef .tc main_v31) : (⟨S50000x128, .f32⟩ : BufTy).Contents (Elt F)) (after ops V (Proc.devRef .tc main_v37) : (⟨S850000x1, .i32⟩ : BufTy).Contents (Elt F)) :=
  stage_binary ops_aligned 51 V main_v31 main_v37 main_v38 _ rfl (by decide) (by decide) (by decide)

set_option maxRecDepth 8192 in
theorem at_main_v39 : after ops V (Proc.devRef .tc main_v39) = broadcastInDim S850000x1 ![0] bcast_S850000_S850000x1_0 (after ops V (Proc.devRef .tc main_v30) : (⟨S850000, .f32⟩ : BufTy).Contents (Elt F)) :=
  stage_unary ops_aligned 52 V main_v30 main_v39 _ rfl (by decide) (by decide)

set_option maxRecDepth 8192 in
theorem at_main_v40 : after ops V (Proc.devRef .tc main_v40) = broadcastInDim S850000x128 ![0, 1] bcast_S850000x1_S850000x128_0_1 (after ops V (Proc.devRef .tc main_v39) : (⟨S850000x1, .f32⟩ : BufTy).Contents (Elt F)) :=
  stage_unary ops_aligned 53 V main_v39 main_v40 _ rfl (by decide) (by decide)

set_option maxRecDepth 8192 in
theorem at_main_v41 : after ops V (Proc.devRef .tc main_v41) = mulf (after ops V (Proc.devRef .tc main_v38) : (⟨S850000x128, .f32⟩ : BufTy).Contents (Elt F)) (after ops V (Proc.devRef .tc main_v40) : (⟨S850000x128, .f32⟩ : BufTy).Contents (Elt F)) :=
  stage_binary ops_aligned 54 V main_v38 main_v40 main_v41 _ rfl (by decide) (by decide) (by decide)

set_option maxRecDepth 8192 in
theorem at_main_cst_9 : after ops V (Proc.devRef .tc main_cst_9) = constant S_ .f32 0x00000000#32 :=
  stage_nullary ops_aligned 55 V main_cst_9 _ rfl (by decide)

set_option maxRecDepth 8192 in
theorem at_main_v42 : after ops V (Proc.devRef .tc main_v42) = broadcastInDim S50000x128 ![] bcast_S_S50000x128 (after ops V (Proc.devRef .tc main_cst_9) : (⟨S_, .f32⟩ : BufTy).Contents (Elt F)) :=
  stage_unary ops_aligned 56 V main_cst_9 main_v42 _ rfl (by decide) (by decide)

set_option maxRecDepth 8192 in
theorem at_main_v43 : after ops V (Proc.devRef .tc main_v43) = broadcastInDim S850000x1 ![0] bcast_S850000_S850000x1_0 (after ops V (Proc.devRef .tc main_v6) : (⟨S850000, .i32⟩ : BufTy).Contents (Elt F)) :=
  stage_unary ops_aligned 57 V main_v6 main_v43 _ rfl (by decide) (by decide)

set_option maxRecDepth 8192 in
theorem at_main_v44 : after ops V (Proc.devRef .tc main_v44) = Host.scatterAdd scatter_S50000x128_S850000x1_S850000x128_1_0_0_1 (after ops V (Proc.devRef .tc main_v42) : (⟨S50000x128, .f32⟩ : BufTy).Contents (Elt F)) (after ops V (Proc.devRef .tc main_v43) : (⟨S850000x1, .i32⟩ : BufTy).Contents (Elt F)) (after ops V (Proc.devRef .tc main_v41) : (⟨S850000x128, .f32⟩ : BufTy).Contents (Elt F)) :=
  stage_ternary ops_aligned 58 V main_v42 main_v43 main_v41 main_v44 _ rfl (by decide) (by decide) (by decide) (by decide)

set_option maxRecDepth 8192 in
theorem at_main_v45 : after ops V (Proc.devRef .tc main_v45) = broadcastInDim S1x128 ![1] bcast_S128_S1x128_1 (after ops V (Proc.devRef .tc main_arg3) : (⟨S128, .f32⟩ : BufTy).Contents (Elt F)) :=
  stage_unary ops_aligned 59 V main_arg3 main_v45 _ rfl (by decide) (by decide)

set_option maxRecDepth 8192 in
theorem at_main_v46 : after ops V (Proc.devRef .tc main_v46) = broadcastInDim S50000x128 ![0, 1] bcast_S1x128_S50000x128_0_1 (after ops V (Proc.devRef .tc main_v45) : (⟨S1x128, .f32⟩ : BufTy).Contents (Elt F)) :=
  stage_unary ops_aligned 60 V main_v45 main_v46 _ rfl (by decide) (by decide)

set_option maxRecDepth 8192 in
theorem at_main_v47 : after ops V (Proc.devRef .tc main_v47) = addf (after ops V (Proc.devRef .tc main_v44) : (⟨S50000x128, .f32⟩ : BufTy).Contents (Elt F)) (after ops V (Proc.devRef .tc main_v46) : (⟨S50000x128, .f32⟩ : BufTy).Contents (Elt F)) :=
  stage_binary ops_aligned 61 V main_v44 main_v46 main_v47 _ rfl (by decide) (by decide) (by decide)

end Cert.ReferenceIdeal.Hand

end
-- ==== Proof.Ref.Read1.lean ====
/- The operation list read stage by stage: one equation per operation of window 1 of @main, in program order. After the whole list, the
   buffer an operation writes holds the operation's function of what its operands' buffers hold after the whole list
   (every buffer is written once, by an operation placed after the ones that write its operands). Each is the
   stage lemma of its kind at the operation's place in the list. -/
import proofs.«168650_j27212912787479_2_alg».proof.Proof.Ref.Aligned

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

set_option maxRecDepth 8192 in
theorem at_main_cst_10 : after ops V (Proc.devRef .tc main_cst_10) = constant S_ .f32 0x00000000#32 :=
  stage_nullary ops_aligned 62 V main_cst_10 _ rfl (by decide)

set_option maxRecDepth 8192 in
theorem at_main_v48 : after ops V (Proc.devRef .tc main_v48) = Host.reduceAdd (after ops V (Proc.devRef .tc main_v47) : (⟨S50000x128, .f32⟩ : BufTy).Contents (Elt F)) (after ops V (Proc.devRef .tc main_cst_10) : (⟨S_, .f32⟩ : BufTy).Contents (Elt F)) reducesTo_S50000x128_S128_d0 h_S_ :=
  stage_binary ops_aligned 63 V main_v47 main_cst_10 main_v48 _ rfl (by decide) (by decide) (by decide)

set_option maxRecDepth 8192 in
theorem at_main_cst_11 : after ops V (Proc.devRef .tc main_cst_11) = constant S_ .f32 0x47435000#32 :=
  stage_nullary ops_aligned 64 V main_cst_11 _ rfl (by decide)

set_option maxRecDepth 8192 in
theorem at_main_v49 : after ops V (Proc.devRef .tc main_v49) = broadcastInDim S128 ![] bcast_S_S128 (after ops V (Proc.devRef .tc main_cst_11) : (⟨S_, .f32⟩ : BufTy).Contents (Elt F)) :=
  stage_unary ops_aligned 65 V main_cst_11 main_v49 _ rfl (by decide) (by decide)

set_option maxRecDepth 8192 in
theorem at_main_v50 : after ops V (Proc.devRef .tc main_v50) = Host.divf (after ops V (Proc.devRef .tc main_v48) : (⟨S128, .f32⟩ : BufTy).Contents (Elt F)) (after ops V (Proc.devRef .tc main_v49) : (⟨S128, .f32⟩ : BufTy).Contents (Elt F)) :=
  stage_binary ops_aligned 66 V main_v48 main_v49 main_v50 _ rfl (by decide) (by decide) (by decide)

set_option maxRecDepth 8192 in
theorem at_main_c_12 : after ops V (Proc.devRef .tc main_c_12) = constantI S_ 32 0#32 :=
  stage_nullary ops_aligned 67 V main_c_12 _ rfl (by decide)

set_option maxRecDepth 8192 in
theorem at_main_call1_cst : after ops V (Proc.devRef .tc main_call1_cst) = constant S_ .f32 0x00000000#32 :=
  stage_nullary ops_aligned 68 V main_call1_cst _ rfl (by decide)

set_option maxRecDepth 8192 in
theorem at_main_call1_v0 : after ops V (Proc.devRef .tc main_call1_v0) = Host.reduceAdd (after ops V (Proc.devRef .tc main_v47) : (⟨S50000x128, .f32⟩ : BufTy).Contents (Elt F)) (after ops V (Proc.devRef .tc main_call1_cst) : (⟨S_, .f32⟩ : BufTy).Contents (Elt F)) reducesTo_S50000x128_S128_d0 h_S_ :=
  stage_binary ops_aligned 69 V main_v47 main_call1_cst main_call1_v0 _ rfl (by decide) (by decide) (by decide)

set_option maxRecDepth 8192 in
theorem at_main_call1_v1 : after ops V (Proc.devRef .tc main_call1_v1) = broadcastInDim S1x128 ![1] bcast_S128_S1x128_1 (after ops V (Proc.devRef .tc main_call1_v0) : (⟨S128, .f32⟩ : BufTy).Contents (Elt F)) :=
  stage_unary ops_aligned 70 V main_call1_v0 main_call1_v1 _ rfl (by decide) (by decide)

set_option maxRecDepth 8192 in
theorem at_main_call1_cst_0 : after ops V (Proc.devRef .tc main_call1_cst_0) = constant S_ .f32 0x47435000#32 :=
  stage_nullary ops_aligned 71 V main_call1_cst_0 _ rfl (by decide)

set_option maxRecDepth 8192 in
theorem at_main_call1_v2 : after ops V (Proc.devRef .tc main_call1_v2) = broadcastInDim S1x128 ![] bcast_S_S1x128 (after ops V (Proc.devRef .tc main_call1_cst_0) : (⟨S_, .f32⟩ : BufTy).Contents (Elt F)) :=
  stage_unary ops_aligned 72 V main_call1_cst_0 main_call1_v2 _ rfl (by decide) (by decide)

set_option maxRecDepth 8192 in
theorem at_main_call1_v3 : after ops V (Proc.devRef .tc main_call1_v3) = Host.divf (after ops V (Proc.devRef .tc main_call1_v1) : (⟨S1x128, .f32⟩ : BufTy).Contents (Elt F)) (after ops V (Proc.devRef .tc main_call1_v2) : (⟨S1x128, .f32⟩ : BufTy).Contents (Elt F)) :=
  stage_binary ops_aligned 73 V main_call1_v1 main_call1_v2 main_call1_v3 _ rfl (by decide) (by decide) (by decide)

set_option maxRecDepth 8192 in
theorem at_main_call1_v4 : after ops V (Proc.devRef .tc main_call1_v4) = broadcastInDim S50000x128 ![0, 1] bcast_S1x128_S50000x128_0_1 (after ops V (Proc.devRef .tc main_call1_v3) : (⟨S1x128, .f32⟩ : BufTy).Contents (Elt F)) :=
  stage_unary ops_aligned 74 V main_call1_v3 main_call1_v4 _ rfl (by decide) (by decide)

set_option maxRecDepth 8192 in
theorem at_main_call1_v5 : after ops V (Proc.devRef .tc main_call1_v5) = subf (after ops V (Proc.devRef .tc main_v47) : (⟨S50000x128, .f32⟩ : BufTy).Contents (Elt F)) (after ops V (Proc.devRef .tc main_call1_v4) : (⟨S50000x128, .f32⟩ : BufTy).Contents (Elt F)) :=
  stage_binary ops_aligned 75 V main_v47 main_call1_v4 main_call1_v5 _ rfl (by decide) (by decide) (by decide)

set_option maxRecDepth 8192 in
theorem at_main_call1_v6 : after ops V (Proc.devRef .tc main_call1_v6) = mulf (after ops V (Proc.devRef .tc main_call1_v5) : (⟨S50000x128, .f32⟩ : BufTy).Contents (Elt F)) (after ops V (Proc.devRef .tc main_call1_v5) : (⟨S50000x128, .f32⟩ : BufTy).Contents (Elt F)) :=
  stage_binary ops_aligned 76 V main_call1_v5 main_call1_v5 main_call1_v6 _ rfl (by decide) (by decide) (by decide)

set_option maxRecDepth 8192 in
theorem at_main_call1_v7 : after ops V (Proc.devRef .tc main_call1_v7) = sitofp .f32 (after ops V (Proc.devRef .tc main_c_12) : (⟨S_, .i32⟩ : BufTy).Contents (Elt F)) :=
  stage_unary ops_aligned 77 V main_c_12 main_call1_v7 _ rfl (by decide) (by decide)

set_option maxRecDepth 8192 in
theorem at_main_call1_cst_1 : after ops V (Proc.devRef .tc main_call1_cst_1) = constant S_ .f32 0x47435000#32 :=
  stage_nullary ops_aligned 78 V main_call1_cst_1 _ rfl (by decide)

set_option maxRecDepth 8192 in
theorem at_main_call1_v8 : after ops V (Proc.devRef .tc main_call1_v8) = subf (after ops V (Proc.devRef .tc main_call1_cst_1) : (⟨S_, .f32⟩ : BufTy).Contents (Elt F)) (after ops V (Proc.devRef .tc main_call1_v7) : (⟨S_, .f32⟩ : BufTy).Contents (Elt F)) :=
  stage_binary ops_aligned 79 V main_call1_cst_1 main_call1_v7 main_call1_v8 _ rfl (by decide) (by decide) (by decide)

set_option maxRecDepth 8192 in
theorem at_main_call1_cst_2 : after ops V (Proc.devRef .tc main_call1_cst_2) = constant S_ .f32 0x00000000#32 :=
  stage_nullary ops_aligned 80 V main_call1_cst_2 _ rfl (by decide)

set_option maxRecDepth 8192 in
theorem at_main_call1_v9 : after ops V (Proc.devRef .tc main_call1_v9) = Host.reduceAdd (after ops V (Proc.devRef .tc main_call1_v6) : (⟨S50000x128, .f32⟩ : BufTy).Contents (Elt F)) (after ops V (Proc.devRef .tc main_call1_cst_2) : (⟨S_, .f32⟩ : BufTy).Contents (Elt F)) reducesTo_S50000x128_S128_d0 h_S_ :=
  stage_binary ops_aligned 81 V main_call1_v6 main_call1_cst_2 main_call1_v9 _ rfl (by decide) (by decide) (by decide)

set_option maxRecDepth 8192 in
theorem at_main_call1_v10 : after ops V (Proc.devRef .tc main_call1_v10) = broadcastInDim S128 ![] bcast_S_S128 (after ops V (Proc.devRef .tc main_call1_v8) : (⟨S_, .f32⟩ : BufTy).Contents (Elt F)) :=
  stage_unary ops_aligned 82 V main_call1_v8 main_call1_v10 _ rfl (by decide) (by decide)

set_option maxRecDepth 8192 in
theorem at_main_call1_v11 : after ops V (Proc.devRef .tc main_call1_v11) = Host.divf (after ops V (Proc.devRef .tc main_call1_v9) : (⟨S128, .f32⟩ : BufTy).Contents (Elt F)) (after ops V (Proc.devRef .tc main_call1_v10) : (⟨S128, .f32⟩ : BufTy).Contents (Elt F)) :=
  stage_binary ops_aligned 83 V main_call1_v9 main_call1_v10 main_call1_v11 _ rfl (by decide) (by decide) (by decide)

set_option maxRecDepth 8192 in
theorem at_main_call1_cst_3 : after ops V (Proc.devRef .tc main_call1_cst_3) = constant S_ .f32 0x00000000#32 :=
  stage_nullary ops_aligned 84 V main_call1_cst_3 _ rfl (by decide)

set_option maxRecDepth 8192 in
theorem at_main_call1_v12 : after ops V (Proc.devRef .tc main_call1_v12) = cmpf .ogt (after ops V (Proc.devRef .tc main_call1_v8) : (⟨S_, .f32⟩ : BufTy).Contents (Elt F)) (after ops V (Proc.devRef .tc main_call1_cst_3) : (⟨S_, .f32⟩ : BufTy).Contents (Elt F)) :=
  stage_binary ops_aligned 85 V main_call1_v8 main_call1_cst_3 main_call1_v12 _ rfl (by decide) (by decide) (by decide)

set_option maxRecDepth 8192 in
theorem at_main_call1_cst_4 : after ops V (Proc.devRef .tc main_call1_cst_4) = constant S_ .f32 0x7FC00000#32 :=
  stage_nullary ops_aligned 86 V main_call1_cst_4 _ rfl (by decide)

set_option maxRecDepth 8192 in
theorem at_main_call1_call0_v0 : after ops V (Proc.devRef .tc main_call1_call0_v0) = (after ops V (Proc.devRef .tc main_call1_cst_4) : (⟨S_, .f32⟩ : BufTy).Contents (Elt F)) :=
  stage_unary ops_aligned 87 V main_call1_cst_4 main_call1_call0_v0 _ rfl (by decide) (by decide)

set_option maxRecDepth 8192 in
theorem at_main_call1_call0_v1 : after ops V (Proc.devRef .tc main_call1_call0_v1) = broadcastInDim S128 ![] bcast_S_S128 (after ops V (Proc.devRef .tc main_call1_call0_v0) : (⟨S_, .f32⟩ : BufTy).Contents (Elt F)) :=
  stage_unary ops_aligned 88 V main_call1_call0_v0 main_call1_call0_v1 _ rfl (by decide) (by decide)

set_option maxRecDepth 8192 in
theorem at_main_v51 : after ops V (Proc.devRef .tc main_v51) = select (broadcastInDim S128 ![] bcast_S_S128 (after ops V (Proc.devRef .tc main_call1_v12) : (⟨S_, .i1⟩ : BufTy).Contents (Elt F))) (after ops V (Proc.devRef .tc main_call1_v11) : (⟨S128, .f32⟩ : BufTy).Contents (Elt F)) (after ops V (Proc.devRef .tc main_call1_call0_v1) : (⟨S128, .f32⟩ : BufTy).Contents (Elt F)) :=
  stage_ternary ops_aligned 89 V main_call1_v12 main_call1_v11 main_call1_call0_v1 main_v51 _ rfl (by decide) (by decide) (by decide) (by decide)

set_option maxRecDepth 8192 in
theorem at_main_v52 : after ops V (Proc.devRef .tc main_v52) = broadcastInDim S1x128 ![1] bcast_S128_S1x128_1 (after ops V (Proc.devRef .tc main_v50) : (⟨S128, .f32⟩ : BufTy).Contents (Elt F)) :=
  stage_unary ops_aligned 90 V main_v50 main_v52 _ rfl (by decide) (by decide)

set_option maxRecDepth 8192 in
theorem at_main_v53 : after ops V (Proc.devRef .tc main_v53) = broadcastInDim S50000x128 ![0, 1] bcast_S1x128_S50000x128_0_1 (after ops V (Proc.devRef .tc main_v52) : (⟨S1x128, .f32⟩ : BufTy).Contents (Elt F)) :=
  stage_unary ops_aligned 91 V main_v52 main_v53 _ rfl (by decide) (by decide)

set_option maxRecDepth 8192 in
theorem at_main_v54 : after ops V (Proc.devRef .tc main_v54) = subf (after ops V (Proc.devRef .tc main_v47) : (⟨S50000x128, .f32⟩ : BufTy).Contents (Elt F)) (after ops V (Proc.devRef .tc main_v53) : (⟨S50000x128, .f32⟩ : BufTy).Contents (Elt F)) :=
  stage_binary ops_aligned 92 V main_v47 main_v53 main_v54 _ rfl (by decide) (by decide) (by decide)

set_option maxRecDepth 8192 in
theorem at_main_cst_13 : after ops V (Proc.devRef .tc main_cst_13) = constant S_ .f32 0x3727C5AC#32 :=
  stage_nullary ops_aligned 93 V main_cst_13 _ rfl (by decide)

set_option maxRecDepth 8192 in
theorem at_main_v55 : after ops V (Proc.devRef .tc main_v55) = broadcastInDim S128 ![] bcast_S_S128 (after ops V (Proc.devRef .tc main_cst_13) : (⟨S_, .f32⟩ : BufTy).Contents (Elt F)) :=
  stage_unary ops_aligned 94 V main_cst_13 main_v55 _ rfl (by decide) (by decide)

set_option maxRecDepth 8192 in
theorem at_main_v56 : after ops V (Proc.devRef .tc main_v56) = addf (after ops V (Proc.devRef .tc main_v51) : (⟨S128, .f32⟩ : BufTy).Contents (Elt F)) (after ops V (Proc.devRef .tc main_v55) : (⟨S128, .f32⟩ : BufTy).Contents (Elt F)) :=
  stage_binary ops_aligned 95 V main_v51 main_v55 main_v56 _ rfl (by decide) (by decide) (by decide)

set_option maxRecDepth 8192 in
theorem at_main_v57 : after ops V (Proc.devRef .tc main_v57) = Host.rsqrt (after ops V (Proc.devRef .tc main_v56) : (⟨S128, .f32⟩ : BufTy).Contents (Elt F)) :=
  stage_unary ops_aligned 96 V main_v56 main_v57 _ rfl (by decide) (by decide)

set_option maxRecDepth 8192 in
theorem at_main_v58 : after ops V (Proc.devRef .tc main_v58) = broadcastInDim S1x128 ![1] bcast_S128_S1x128_1 (after ops V (Proc.devRef .tc main_v57) : (⟨S128, .f32⟩ : BufTy).Contents (Elt F)) :=
  stage_unary ops_aligned 97 V main_v57 main_v58 _ rfl (by decide) (by decide)

set_option maxRecDepth 8192 in
theorem at_main_v59 : after ops V (Proc.devRef .tc main_v59) = broadcastInDim S50000x128 ![0, 1] bcast_S1x128_S50000x128_0_1 (after ops V (Proc.devRef .tc main_v58) : (⟨S1x128, .f32⟩ : BufTy).Contents (Elt F)) :=
  stage_unary ops_aligned 98 V main_v58 main_v59 _ rfl (by decide) (by decide)

set_option maxRecDepth 8192 in
theorem at_main_v60 : after ops V (Proc.devRef .tc main_v60) = mulf (after ops V (Proc.devRef .tc main_v54) : (⟨S50000x128, .f32⟩ : BufTy).Contents (Elt F)) (after ops V (Proc.devRef .tc main_v59) : (⟨S50000x128, .f32⟩ : BufTy).Contents (Elt F)) :=
  stage_binary ops_aligned 99 V main_v54 main_v59 main_v60 _ rfl (by decide) (by decide) (by decide)

set_option maxRecDepth 8192 in
theorem at_main_v61 : after ops V (Proc.devRef .tc main_v61) = broadcastInDim S1x128 ![1] bcast_S128_S1x128_1 (after ops V (Proc.devRef .tc main_arg4) : (⟨S128, .f32⟩ : BufTy).Contents (Elt F)) :=
  stage_unary ops_aligned 100 V main_arg4 main_v61 _ rfl (by decide) (by decide)

set_option maxRecDepth 8192 in
theorem at_main_v62 : after ops V (Proc.devRef .tc main_v62) = broadcastInDim S50000x128 ![0, 1] bcast_S1x128_S50000x128_0_1 (after ops V (Proc.devRef .tc main_v61) : (⟨S1x128, .f32⟩ : BufTy).Contents (Elt F)) :=
  stage_unary ops_aligned 101 V main_v61 main_v62 _ rfl (by decide) (by decide)

set_option maxRecDepth 8192 in
theorem at_main_v63 : after ops V (Proc.devRef .tc main_v63) = mulf (after ops V (Proc.devRef .tc main_v60) : (⟨S50000x128, .f32⟩ : BufTy).Contents (Elt F)) (after ops V (Proc.devRef .tc main_v62) : (⟨S50000x128, .f32⟩ : BufTy).Contents (Elt F)) :=
  stage_binary ops_aligned 102 V main_v60 main_v62 main_v63 _ rfl (by decide) (by decide) (by decide)

set_option maxRecDepth 8192 in
theorem at_main_v64 : after ops V (Proc.devRef .tc main_v64) = broadcastInDim S1x128 ![1] bcast_S128_S1x128_1 (after ops V (Proc.devRef .tc main_arg5) : (⟨S128, .f32⟩ : BufTy).Contents (Elt F)) :=
  stage_unary ops_aligned 103 V main_arg5 main_v64 _ rfl (by decide) (by decide)

set_option maxRecDepth 8192 in
theorem at_main_v65 : after ops V (Proc.devRef .tc main_v65) = broadcastInDim S50000x128 ![0, 1] bcast_S1x128_S50000x128_0_1 (after ops V (Proc.devRef .tc main_v64) : (⟨S1x128, .f32⟩ : BufTy).Contents (Elt F)) :=
  stage_unary ops_aligned 104 V main_v64 main_v65 _ rfl (by decide) (by decide)

set_option maxRecDepth 8192 in
theorem at_main_v66 : after ops V (Proc.devRef .tc main_v66) = addf (after ops V (Proc.devRef .tc main_v63) : (⟨S50000x128, .f32⟩ : BufTy).Contents (Elt F)) (after ops V (Proc.devRef .tc main_v65) : (⟨S50000x128, .f32⟩ : BufTy).Contents (Elt F)) :=
  stage_binary ops_aligned 105 V main_v63 main_v65 main_v66 _ rfl (by decide) (by decide) (by decide)

set_option maxRecDepth 8192 in
theorem at_main_call2_cst : after ops V (Proc.devRef .tc main_call2_cst) = constant S_ .f32 0x00000000#32 :=
  stage_nullary ops_aligned 106 V main_call2_cst _ rfl (by decide)

set_option maxRecDepth 8192 in
theorem at_main_call2_v0 : after ops V (Proc.devRef .tc main_call2_v0) = broadcastInDim S50000x128 ![] bcast_S_S50000x128 (after ops V (Proc.devRef .tc main_call2_cst) : (⟨S_, .f32⟩ : BufTy).Contents (Elt F)) :=
  stage_unary ops_aligned 107 V main_call2_cst main_call2_v0 _ rfl (by decide) (by decide)

set_option maxRecDepth 8192 in
theorem at_main_v67 : after ops V (Proc.devRef .tc main_v67) = maximumf (after ops V (Proc.devRef .tc main_v66) : (⟨S50000x128, .f32⟩ : BufTy).Contents (Elt F)) (after ops V (Proc.devRef .tc main_call2_v0) : (⟨S50000x128, .f32⟩ : BufTy).Contents (Elt F)) :=
  stage_binary ops_aligned 108 V main_v66 main_call2_v0 main_v67 _ rfl (by decide) (by decide) (by decide)

set_option maxRecDepth 8192 in
theorem at_main_v68 : after ops V (Proc.devRef .tc main_v68) = iotaInDim S50000 32 0 :=
  stage_nullary ops_aligned 109 V main_v68 _ rfl (by decide)

set_option maxRecDepth 8192 in
theorem at_main_v69 : after ops V (Proc.devRef .tc main_v69) = concatenate S850000 0 [⟨S800000, (after ops V (Proc.devRef .tc main_v1) : (⟨S800000, .i32⟩ : BufTy).Contents (Elt F))⟩, ⟨S50000, (after ops V (Proc.devRef .tc main_v68) : (⟨S50000, .i32⟩ : BufTy).Contents (Elt F))⟩] concatenates_S800000_S50000_S850000_d0 :=
  stage_binary ops_aligned 110 V main_v1 main_v68 main_v69 _ rfl (by decide) (by decide) (by decide)

set_option maxRecDepth 8192 in
theorem at_main_v70 : after ops V (Proc.devRef .tc main_v70) = concatenate S850000 0 [⟨S800000, (after ops V (Proc.devRef .tc main_v3) : (⟨S800000, .i32⟩ : BufTy).Contents (Elt F))⟩, ⟨S50000, (after ops V (Proc.devRef .tc main_v68) : (⟨S50000, .i32⟩ : BufTy).Contents (Elt F))⟩] concatenates_S800000_S50000_S850000_d0 :=
  stage_binary ops_aligned 111 V main_v3 main_v68 main_v70 _ rfl (by decide) (by decide) (by decide)

set_option maxRecDepth 8192 in
theorem at_main_cst_14 : after ops V (Proc.devRef .tc main_cst_14) = constant S_ .f32 0x3F800000#32 :=
  stage_nullary ops_aligned 112 V main_cst_14 _ rfl (by decide)

set_option maxRecDepth 8192 in
theorem at_main_v71 : after ops V (Proc.devRef .tc main_v71) = broadcastInDim S850000 ![] bcast_S_S850000 (after ops V (Proc.devRef .tc main_cst_14) : (⟨S_, .f32⟩ : BufTy).Contents (Elt F)) :=
  stage_unary ops_aligned 113 V main_cst_14 main_v71 _ rfl (by decide) (by decide)

set_option maxRecDepth 8192 in
theorem at_main_cst_15 : after ops V (Proc.devRef .tc main_cst_15) = constant S_ .f32 0x00000000#32 :=
  stage_nullary ops_aligned 114 V main_cst_15 _ rfl (by decide)

set_option maxRecDepth 8192 in
theorem at_main_v72 : after ops V (Proc.devRef .tc main_v72) = broadcastInDim S50000 ![] bcast_S_S50000 (after ops V (Proc.devRef .tc main_cst_15) : (⟨S_, .f32⟩ : BufTy).Contents (Elt F)) :=
  stage_unary ops_aligned 115 V main_cst_15 main_v72 _ rfl (by decide) (by decide)

set_option maxRecDepth 8192 in
theorem at_main_v73 : after ops V (Proc.devRef .tc main_v73) = broadcastInDim S850000x1 ![0] bcast_S850000_S850000x1_0 (after ops V (Proc.devRef .tc main_v70) : (⟨S850000, .i32⟩ : BufTy).Contents (Elt F)) :=
  stage_unary ops_aligned 116 V main_v70 main_v73 _ rfl (by decide) (by decide)

set_option maxRecDepth 8192 in
theorem at_main_v74 : after ops V (Proc.devRef .tc main_v74) = Host.scatterAdd scatter_S50000_S850000x1_S850000_n_0_0_1 (after ops V (Proc.devRef .tc main_v72) : (⟨S50000, .f32⟩ : BufTy).Contents (Elt F)) (after ops V (Proc.devRef .tc main_v73) : (⟨S850000x1, .i32⟩ : BufTy).Contents (Elt F)) (after ops V (Proc.devRef .tc main_v71) : (⟨S850000, .f32⟩ : BufTy).Contents (Elt F)) :=
  stage_ternary ops_aligned 117 V main_v72 main_v73 main_v71 main_v74 _ rfl (by decide) (by decide) (by decide) (by decide)

set_option maxRecDepth 8192 in
theorem at_main_cst_16 : after ops V (Proc.devRef .tc main_cst_16) = constant S_ .f32 0x00000000#32 :=
  stage_nullary ops_aligned 118 V main_cst_16 _ rfl (by decide)

set_option maxRecDepth 8192 in
theorem at_main_v75 : after ops V (Proc.devRef .tc main_v75) = broadcastInDim S50000 ![] bcast_S_S50000 (after ops V (Proc.devRef .tc main_cst_16) : (⟨S_, .f32⟩ : BufTy).Contents (Elt F)) :=
  stage_unary ops_aligned 119 V main_cst_16 main_v75 _ rfl (by decide) (by decide)

set_option maxRecDepth 8192 in
theorem at_main_v76 : after ops V (Proc.devRef .tc main_v76) = cmpf .ogt (after ops V (Proc.devRef .tc main_v74) : (⟨S50000, .f32⟩ : BufTy).Contents (Elt F)) (after ops V (Proc.devRef .tc main_v75) : (⟨S50000, .f32⟩ : BufTy).Contents (Elt F)) :=
  stage_binary ops_aligned 120 V main_v74 main_v75 main_v76 _ rfl (by decide) (by decide) (by decide)

set_option maxRecDepth 8192 in
theorem at_main_cst_17 : after ops V (Proc.devRef .tc main_cst_17) = constant S_ .f32 0xBF000000#32 :=
  stage_nullary ops_aligned 121 V main_cst_17 _ rfl (by decide)

set_option maxRecDepth 8192 in
theorem at_main_v77 : after ops V (Proc.devRef .tc main_v77) = broadcastInDim S50000 ![] bcast_S_S50000 (after ops V (Proc.devRef .tc main_cst_17) : (⟨S_, .f32⟩ : BufTy).Contents (Elt F)) :=
  stage_unary ops_aligned 122 V main_cst_17 main_v77 _ rfl (by decide) (by decide)

set_option maxRecDepth 8192 in
theorem at_main_v78 : after ops V (Proc.devRef .tc main_v78) = Host.powf (after ops V (Proc.devRef .tc main_v74) : (⟨S50000, .f32⟩ : BufTy).Contents (Elt F)) (after ops V (Proc.devRef .tc main_v77) : (⟨S50000, .f32⟩ : BufTy).Contents (Elt F)) :=
  stage_binary ops_aligned 123 V main_v74 main_v77 main_v78 _ rfl (by decide) (by decide) (by decide)

set_option maxRecDepth 8192 in
theorem at_main_cst_18 : after ops V (Proc.devRef .tc main_cst_18) = constant S_ .f32 0x00000000#32 :=
  stage_nullary ops_aligned 124 V main_cst_18 _ rfl (by decide)

set_option maxRecDepth 8192 in
theorem at_main_call3_v0 : after ops V (Proc.devRef .tc main_call3_v0) = (after ops V (Proc.devRef .tc main_cst_18) : (⟨S_, .f32⟩ : BufTy).Contents (Elt F)) :=
  stage_unary ops_aligned 125 V main_cst_18 main_call3_v0 _ rfl (by decide) (by decide)

set_option maxRecDepth 8192 in
theorem at_main_call3_v1 : after ops V (Proc.devRef .tc main_call3_v1) = broadcastInDim S50000 ![] bcast_S_S50000 (after ops V (Proc.devRef .tc main_call3_v0) : (⟨S_, .f32⟩ : BufTy).Contents (Elt F)) :=
  stage_unary ops_aligned 126 V main_call3_v0 main_call3_v1 _ rfl (by decide) (by decide)

set_option maxRecDepth 8192 in
theorem at_main_v79 : after ops V (Proc.devRef .tc main_v79) = select (after ops V (Proc.devRef .tc main_v76) : (⟨S50000, .i1⟩ : BufTy).Contents (Elt F)) (after ops V (Proc.devRef .tc main_v78) : (⟨S50000, .f32⟩ : BufTy).Contents (Elt F)) (after ops V (Proc.devRef .tc main_call3_v1) : (⟨S50000, .f32⟩ : BufTy).Contents (Elt F)) :=
  stage_ternary ops_aligned 127 V main_v76 main_v78 main_call3_v1 main_v79 _ rfl (by decide) (by decide) (by decide) (by decide)

set_option maxRecDepth 8192 in
theorem at_main_c_19 : after ops V (Proc.devRef .tc main_c_19) = constantI S_ 32 0#32 :=
  stage_nullary ops_aligned 128 V main_c_19 _ rfl (by decide)

set_option maxRecDepth 8192 in
theorem at_main_v80 : after ops V (Proc.devRef .tc main_v80) = broadcastInDim S850000 ![] bcast_S_S850000 (after ops V (Proc.devRef .tc main_c_19) : (⟨S_, .i32⟩ : BufTy).Contents (Elt F)) :=
  stage_unary ops_aligned 129 V main_c_19 main_v80 _ rfl (by decide) (by decide)

set_option maxRecDepth 8192 in
theorem at_main_v81 : after ops V (Proc.devRef .tc main_v81) = cmpi .slt (after ops V (Proc.devRef .tc main_v69) : (⟨S850000, .i32⟩ : BufTy).Contents (Elt F)) (after ops V (Proc.devRef .tc main_v80) : (⟨S850000, .i32⟩ : BufTy).Contents (Elt F)) :=
  stage_binary ops_aligned 130 V main_v69 main_v80 main_v81 _ rfl (by decide) (by decide) (by decide)

set_option maxRecDepth 8192 in
theorem at_main_c_20 : after ops V (Proc.devRef .tc main_c_20) = constantI S_ 32 50000#32 :=
  stage_nullary ops_aligned 131 V main_c_20 _ rfl (by decide)

set_option maxRecDepth 8192 in
theorem at_main_v82 : after ops V (Proc.devRef .tc main_v82) = broadcastInDim S850000 ![] bcast_S_S850000 (after ops V (Proc.devRef .tc main_c_20) : (⟨S_, .i32⟩ : BufTy).Contents (Elt F)) :=
  stage_unary ops_aligned 132 V main_c_20 main_v82 _ rfl (by decide) (by decide)

set_option maxRecDepth 8192 in
theorem at_main_v83 : after ops V (Proc.devRef .tc main_v83) = addi (after ops V (Proc.devRef .tc main_v69) : (⟨S850000, .i32⟩ : BufTy).Contents (Elt F)) (after ops V (Proc.devRef .tc main_v82) : (⟨S850000, .i32⟩ : BufTy).Contents (Elt F)) :=
  stage_binary ops_aligned 133 V main_v69 main_v82 main_v83 _ rfl (by decide) (by decide) (by decide)

set_option maxRecDepth 8192 in
theorem at_main_v84 : after ops V (Proc.devRef .tc main_v84) = select (after ops V (Proc.devRef .tc main_v81) : (⟨S850000, .i1⟩ : BufTy).Contents (Elt F)) (after ops V (Proc.devRef .tc main_v83) : (⟨S850000, .i32⟩ : BufTy).Contents (Elt F)) (after ops V (Proc.devRef .tc main_v69) : (⟨S850000, .i32⟩ : BufTy).Contents (Elt F)) :=
  stage_ternary ops_aligned 134 V main_v81 main_v83 main_v69 main_v84 _ rfl (by decide) (by decide) (by decide) (by decide)

set_option maxRecDepth 8192 in
theorem at_main_v85 : after ops V (Proc.devRef .tc main_v85) = broadcastInDim S850000x1 ![0] bcast_S850000_S850000x1_0 (after ops V (Proc.devRef .tc main_v84) : (⟨S850000, .i32⟩ : BufTy).Contents (Elt F)) :=
  stage_unary ops_aligned 135 V main_v84 main_v85 _ rfl (by decide) (by decide)

set_option maxRecDepth 8192 in
theorem at_main_v86 : after ops V (Proc.devRef .tc main_v86) = Host.gather gather_S50000_S850000x1_S850000_n_0_n_n_0_1_1 (after ops V (Proc.devRef .tc main_v79) : (⟨S50000, .f32⟩ : BufTy).Contents (Elt F)) (after ops V (Proc.devRef .tc main_v85) : (⟨S850000x1, .i32⟩ : BufTy).Contents (Elt F)) :=
  stage_binary ops_aligned 136 V main_v79 main_v85 main_v86 _ rfl (by decide) (by decide) (by decide)

set_option maxRecDepth 8192 in
theorem at_main_c_21 : after ops V (Proc.devRef .tc main_c_21) = constantI S_ 32 0#32 :=
  stage_nullary ops_aligned 137 V main_c_21 _ rfl (by decide)

set_option maxRecDepth 8192 in
theorem at_main_v87 : after ops V (Proc.devRef .tc main_v87) = broadcastInDim S850000 ![] bcast_S_S850000 (after ops V (Proc.devRef .tc main_c_21) : (⟨S_, .i32⟩ : BufTy).Contents (Elt F)) :=
  stage_unary ops_aligned 138 V main_c_21 main_v87 _ rfl (by decide) (by decide)

set_option maxRecDepth 8192 in
theorem at_main_v88 : after ops V (Proc.devRef .tc main_v88) = cmpi .slt (after ops V (Proc.devRef .tc main_v70) : (⟨S850000, .i32⟩ : BufTy).Contents (Elt F)) (after ops V (Proc.devRef .tc main_v87) : (⟨S850000, .i32⟩ : BufTy).Contents (Elt F)) :=
  stage_binary ops_aligned 139 V main_v70 main_v87 main_v88 _ rfl (by decide) (by decide) (by decide)

set_option maxRecDepth 8192 in
theorem at_main_c_22 : after ops V (Proc.devRef .tc main_c_22) = constantI S_ 32 50000#32 :=
  stage_nullary ops_aligned 140 V main_c_22 _ rfl (by decide)

set_option maxRecDepth 8192 in
theorem at_main_v89 : after ops V (Proc.devRef .tc main_v89) = broadcastInDim S850000 ![] bcast_S_S850000 (after ops V (Proc.devRef .tc main_c_22) : (⟨S_, .i32⟩ : BufTy).Contents (Elt F)) :=
  stage_unary ops_aligned 141 V main_c_22 main_v89 _ rfl (by decide) (by decide)

set_option maxRecDepth 8192 in
theorem at_main_v90 : after ops V (Proc.devRef .tc main_v90) = addi (after ops V (Proc.devRef .tc main_v70) : (⟨S850000, .i32⟩ : BufTy).Contents (Elt F)) (after ops V (Proc.devRef .tc main_v89) : (⟨S850000, .i32⟩ : BufTy).Contents (Elt F)) :=
  stage_binary ops_aligned 142 V main_v70 main_v89 main_v90 _ rfl (by decide) (by decide) (by decide)

set_option maxRecDepth 8192 in
theorem at_main_v91 : after ops V (Proc.devRef .tc main_v91) = select (after ops V (Proc.devRef .tc main_v88) : (⟨S850000, .i1⟩ : BufTy).Contents (Elt F)) (after ops V (Proc.devRef .tc main_v90) : (⟨S850000, .i32⟩ : BufTy).Contents (Elt F)) (after ops V (Proc.devRef .tc main_v70) : (⟨S850000, .i32⟩ : BufTy).Contents (Elt F)) :=
  stage_ternary ops_aligned 143 V main_v88 main_v90 main_v70 main_v91 _ rfl (by decide) (by decide) (by decide) (by decide)

set_option maxRecDepth 8192 in
theorem at_main_v92 : after ops V (Proc.devRef .tc main_v92) = broadcastInDim S850000x1 ![0] bcast_S850000_S850000x1_0 (after ops V (Proc.devRef .tc main_v91) : (⟨S850000, .i32⟩ : BufTy).Contents (Elt F)) :=
  stage_unary ops_aligned 144 V main_v91 main_v92 _ rfl (by decide) (by decide)

set_option maxRecDepth 8192 in
theorem at_main_v93 : after ops V (Proc.devRef .tc main_v93) = Host.gather gather_S50000_S850000x1_S850000_n_0_n_n_0_1_1 (after ops V (Proc.devRef .tc main_v79) : (⟨S50000, .f32⟩ : BufTy).Contents (Elt F)) (after ops V (Proc.devRef .tc main_v92) : (⟨S850000x1, .i32⟩ : BufTy).Contents (Elt F)) :=
  stage_binary ops_aligned 145 V main_v79 main_v92 main_v93 _ rfl (by decide) (by decide) (by decide)

set_option maxRecDepth 8192 in
theorem at_main_v94 : after ops V (Proc.devRef .tc main_v94) = mulf (after ops V (Proc.devRef .tc main_v86) : (⟨S850000, .f32⟩ : BufTy).Contents (Elt F)) (after ops V (Proc.devRef .tc main_v93) : (⟨S850000, .f32⟩ : BufTy).Contents (Elt F)) :=
  stage_binary ops_aligned 146 V main_v86 main_v93 main_v94 _ rfl (by decide) (by decide) (by decide)

end Cert.ReferenceIdeal.Hand

end
-- ==== Proof.Ref.Read2.lean ====
/- The operation list read stage by stage: one equation per operation of window 2 of @main, in program order. After the whole list, the
   buffer an operation writes holds the operation's function of what its operands' buffers hold after the whole list
   (every buffer is written once, by an operation placed after the ones that write its operands). Each is the
   stage lemma of its kind at the operation's place in the list. -/
import proofs.«168650_j27212912787479_2_alg».proof.Proof.Ref.Aligned

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

set_option maxRecDepth 8192 in
theorem at_main_v95 : after ops V (Proc.devRef .tc main_v95) = Host.dotGeneral dot_S50000x128_S128x128_S50000x128_1_0_0_1_n_n none (after ops V (Proc.devRef .tc main_v67) : (⟨S50000x128, .f32⟩ : BufTy).Contents (Elt F)) (after ops V (Proc.devRef .tc main_arg6) : (⟨S128x128, .f32⟩ : BufTy).Contents (Elt F)) :=
  stage_binary ops_aligned 147 V main_v67 main_arg6 main_v95 _ rfl (by decide) (by decide) (by decide)

set_option maxRecDepth 8192 in
theorem at_main_c_23 : after ops V (Proc.devRef .tc main_c_23) = constantI S_ 32 0#32 :=
  stage_nullary ops_aligned 148 V main_c_23 _ rfl (by decide)

set_option maxRecDepth 8192 in
theorem at_main_v96 : after ops V (Proc.devRef .tc main_v96) = broadcastInDim S850000 ![] bcast_S_S850000 (after ops V (Proc.devRef .tc main_c_23) : (⟨S_, .i32⟩ : BufTy).Contents (Elt F)) :=
  stage_unary ops_aligned 149 V main_c_23 main_v96 _ rfl (by decide) (by decide)

set_option maxRecDepth 8192 in
theorem at_main_v97 : after ops V (Proc.devRef .tc main_v97) = cmpi .slt (after ops V (Proc.devRef .tc main_v69) : (⟨S850000, .i32⟩ : BufTy).Contents (Elt F)) (after ops V (Proc.devRef .tc main_v96) : (⟨S850000, .i32⟩ : BufTy).Contents (Elt F)) :=
  stage_binary ops_aligned 150 V main_v69 main_v96 main_v97 _ rfl (by decide) (by decide) (by decide)

set_option maxRecDepth 8192 in
theorem at_main_c_24 : after ops V (Proc.devRef .tc main_c_24) = constantI S_ 32 50000#32 :=
  stage_nullary ops_aligned 151 V main_c_24 _ rfl (by decide)

set_option maxRecDepth 8192 in
theorem at_main_v98 : after ops V (Proc.devRef .tc main_v98) = broadcastInDim S850000 ![] bcast_S_S850000 (after ops V (Proc.devRef .tc main_c_24) : (⟨S_, .i32⟩ : BufTy).Contents (Elt F)) :=
  stage_unary ops_aligned 152 V main_c_24 main_v98 _ rfl (by decide) (by decide)

set_option maxRecDepth 8192 in
theorem at_main_v99 : after ops V (Proc.devRef .tc main_v99) = addi (after ops V (Proc.devRef .tc main_v69) : (⟨S850000, .i32⟩ : BufTy).Contents (Elt F)) (after ops V (Proc.devRef .tc main_v98) : (⟨S850000, .i32⟩ : BufTy).Contents (Elt F)) :=
  stage_binary ops_aligned 153 V main_v69 main_v98 main_v99 _ rfl (by decide) (by decide) (by decide)

set_option maxRecDepth 8192 in
theorem at_main_v100 : after ops V (Proc.devRef .tc main_v100) = select (after ops V (Proc.devRef .tc main_v97) : (⟨S850000, .i1⟩ : BufTy).Contents (Elt F)) (after ops V (Proc.devRef .tc main_v99) : (⟨S850000, .i32⟩ : BufTy).Contents (Elt F)) (after ops V (Proc.devRef .tc main_v69) : (⟨S850000, .i32⟩ : BufTy).Contents (Elt F)) :=
  stage_ternary ops_aligned 154 V main_v97 main_v99 main_v69 main_v100 _ rfl (by decide) (by decide) (by decide) (by decide)

set_option maxRecDepth 8192 in
theorem at_main_v101 : after ops V (Proc.devRef .tc main_v101) = broadcastInDim S850000x1 ![0] bcast_S850000_S850000x1_0 (after ops V (Proc.devRef .tc main_v100) : (⟨S850000, .i32⟩ : BufTy).Contents (Elt F)) :=
  stage_unary ops_aligned 155 V main_v100 main_v101 _ rfl (by decide) (by decide)

set_option maxRecDepth 8192 in
theorem at_main_v102 : after ops V (Proc.devRef .tc main_v102) = Host.gather gather_S50000x128_S850000x1_S850000x128_1_0_n_n_0_1_1128 (after ops V (Proc.devRef .tc main_v95) : (⟨S50000x128, .f32⟩ : BufTy).Contents (Elt F)) (after ops V (Proc.devRef .tc main_v101) : (⟨S850000x1, .i32⟩ : BufTy).Contents (Elt F)) :=
  stage_binary ops_aligned 156 V main_v95 main_v101 main_v102 _ rfl (by decide) (by decide) (by decide)

set_option maxRecDepth 8192 in
theorem at_main_v103 : after ops V (Proc.devRef .tc main_v103) = broadcastInDim S850000x1 ![0] bcast_S850000_S850000x1_0 (after ops V (Proc.devRef .tc main_v94) : (⟨S850000, .f32⟩ : BufTy).Contents (Elt F)) :=
  stage_unary ops_aligned 157 V main_v94 main_v103 _ rfl (by decide) (by decide)

set_option maxRecDepth 8192 in
theorem at_main_v104 : after ops V (Proc.devRef .tc main_v104) = broadcastInDim S850000x128 ![0, 1] bcast_S850000x1_S850000x128_0_1 (after ops V (Proc.devRef .tc main_v103) : (⟨S850000x1, .f32⟩ : BufTy).Contents (Elt F)) :=
  stage_unary ops_aligned 158 V main_v103 main_v104 _ rfl (by decide) (by decide)

set_option maxRecDepth 8192 in
theorem at_main_v105 : after ops V (Proc.devRef .tc main_v105) = mulf (after ops V (Proc.devRef .tc main_v102) : (⟨S850000x128, .f32⟩ : BufTy).Contents (Elt F)) (after ops V (Proc.devRef .tc main_v104) : (⟨S850000x128, .f32⟩ : BufTy).Contents (Elt F)) :=
  stage_binary ops_aligned 159 V main_v102 main_v104 main_v105 _ rfl (by decide) (by decide) (by decide)

set_option maxRecDepth 8192 in
theorem at_main_cst_25 : after ops V (Proc.devRef .tc main_cst_25) = constant S_ .f32 0x00000000#32 :=
  stage_nullary ops_aligned 160 V main_cst_25 _ rfl (by decide)

set_option maxRecDepth 8192 in
theorem at_main_v106 : after ops V (Proc.devRef .tc main_v106) = broadcastInDim S50000x128 ![] bcast_S_S50000x128 (after ops V (Proc.devRef .tc main_cst_25) : (⟨S_, .f32⟩ : BufTy).Contents (Elt F)) :=
  stage_unary ops_aligned 161 V main_cst_25 main_v106 _ rfl (by decide) (by decide)

set_option maxRecDepth 8192 in
theorem at_main_v107 : after ops V (Proc.devRef .tc main_v107) = broadcastInDim S850000x1 ![0] bcast_S850000_S850000x1_0 (after ops V (Proc.devRef .tc main_v70) : (⟨S850000, .i32⟩ : BufTy).Contents (Elt F)) :=
  stage_unary ops_aligned 162 V main_v70 main_v107 _ rfl (by decide) (by decide)

set_option maxRecDepth 8192 in
theorem at_main_v108 : after ops V (Proc.devRef .tc main_v108) = Host.scatterAdd scatter_S50000x128_S850000x1_S850000x128_1_0_0_1 (after ops V (Proc.devRef .tc main_v106) : (⟨S50000x128, .f32⟩ : BufTy).Contents (Elt F)) (after ops V (Proc.devRef .tc main_v107) : (⟨S850000x1, .i32⟩ : BufTy).Contents (Elt F)) (after ops V (Proc.devRef .tc main_v105) : (⟨S850000x128, .f32⟩ : BufTy).Contents (Elt F)) :=
  stage_ternary ops_aligned 163 V main_v106 main_v107 main_v105 main_v108 _ rfl (by decide) (by decide) (by decide) (by decide)

set_option maxRecDepth 8192 in
theorem at_main_v109 : after ops V (Proc.devRef .tc main_v109) = broadcastInDim S1x128 ![1] bcast_S128_S1x128_1 (after ops V (Proc.devRef .tc main_arg7) : (⟨S128, .f32⟩ : BufTy).Contents (Elt F)) :=
  stage_unary ops_aligned 164 V main_arg7 main_v109 _ rfl (by decide) (by decide)

set_option maxRecDepth 8192 in
theorem at_main_v110 : after ops V (Proc.devRef .tc main_v110) = broadcastInDim S50000x128 ![0, 1] bcast_S1x128_S50000x128_0_1 (after ops V (Proc.devRef .tc main_v109) : (⟨S1x128, .f32⟩ : BufTy).Contents (Elt F)) :=
  stage_unary ops_aligned 165 V main_v109 main_v110 _ rfl (by decide) (by decide)

set_option maxRecDepth 8192 in
theorem at_main_v111 : after ops V (Proc.devRef .tc main_v111) = addf (after ops V (Proc.devRef .tc main_v108) : (⟨S50000x128, .f32⟩ : BufTy).Contents (Elt F)) (after ops V (Proc.devRef .tc main_v110) : (⟨S50000x128, .f32⟩ : BufTy).Contents (Elt F)) :=
  stage_binary ops_aligned 166 V main_v108 main_v110 main_v111 _ rfl (by decide) (by decide) (by decide)

set_option maxRecDepth 8192 in
theorem at_main_cst_26 : after ops V (Proc.devRef .tc main_cst_26) = constant S_ .f32 0x00000000#32 :=
  stage_nullary ops_aligned 167 V main_cst_26 _ rfl (by decide)

set_option maxRecDepth 8192 in
theorem at_main_v112 : after ops V (Proc.devRef .tc main_v112) = Host.reduceAdd (after ops V (Proc.devRef .tc main_v111) : (⟨S50000x128, .f32⟩ : BufTy).Contents (Elt F)) (after ops V (Proc.devRef .tc main_cst_26) : (⟨S_, .f32⟩ : BufTy).Contents (Elt F)) reducesTo_S50000x128_S128_d0 h_S_ :=
  stage_binary ops_aligned 168 V main_v111 main_cst_26 main_v112 _ rfl (by decide) (by decide) (by decide)

set_option maxRecDepth 8192 in
theorem at_main_cst_27 : after ops V (Proc.devRef .tc main_cst_27) = constant S_ .f32 0x47435000#32 :=
  stage_nullary ops_aligned 169 V main_cst_27 _ rfl (by decide)

set_option maxRecDepth 8192 in
theorem at_main_v113 : after ops V (Proc.devRef .tc main_v113) = broadcastInDim S128 ![] bcast_S_S128 (after ops V (Proc.devRef .tc main_cst_27) : (⟨S_, .f32⟩ : BufTy).Contents (Elt F)) :=
  stage_unary ops_aligned 170 V main_cst_27 main_v113 _ rfl (by decide) (by decide)

set_option maxRecDepth 8192 in
theorem at_main_v114 : after ops V (Proc.devRef .tc main_v114) = Host.divf (after ops V (Proc.devRef .tc main_v112) : (⟨S128, .f32⟩ : BufTy).Contents (Elt F)) (after ops V (Proc.devRef .tc main_v113) : (⟨S128, .f32⟩ : BufTy).Contents (Elt F)) :=
  stage_binary ops_aligned 171 V main_v112 main_v113 main_v114 _ rfl (by decide) (by decide) (by decide)

set_option maxRecDepth 8192 in
theorem at_main_c_28 : after ops V (Proc.devRef .tc main_c_28) = constantI S_ 32 0#32 :=
  stage_nullary ops_aligned 172 V main_c_28 _ rfl (by decide)

set_option maxRecDepth 8192 in
theorem at_main_call4_cst : after ops V (Proc.devRef .tc main_call4_cst) = constant S_ .f32 0x00000000#32 :=
  stage_nullary ops_aligned 173 V main_call4_cst _ rfl (by decide)

set_option maxRecDepth 8192 in
theorem at_main_call4_v0 : after ops V (Proc.devRef .tc main_call4_v0) = Host.reduceAdd (after ops V (Proc.devRef .tc main_v111) : (⟨S50000x128, .f32⟩ : BufTy).Contents (Elt F)) (after ops V (Proc.devRef .tc main_call4_cst) : (⟨S_, .f32⟩ : BufTy).Contents (Elt F)) reducesTo_S50000x128_S128_d0 h_S_ :=
  stage_binary ops_aligned 174 V main_v111 main_call4_cst main_call4_v0 _ rfl (by decide) (by decide) (by decide)

set_option maxRecDepth 8192 in
theorem at_main_call4_v1 : after ops V (Proc.devRef .tc main_call4_v1) = broadcastInDim S1x128 ![1] bcast_S128_S1x128_1 (after ops V (Proc.devRef .tc main_call4_v0) : (⟨S128, .f32⟩ : BufTy).Contents (Elt F)) :=
  stage_unary ops_aligned 175 V main_call4_v0 main_call4_v1 _ rfl (by decide) (by decide)

set_option maxRecDepth 8192 in
theorem at_main_call4_cst_0 : after ops V (Proc.devRef .tc main_call4_cst_0) = constant S_ .f32 0x47435000#32 :=
  stage_nullary ops_aligned 176 V main_call4_cst_0 _ rfl (by decide)

set_option maxRecDepth 8192 in
theorem at_main_call4_v2 : after ops V (Proc.devRef .tc main_call4_v2) = broadcastInDim S1x128 ![] bcast_S_S1x128 (after ops V (Proc.devRef .tc main_call4_cst_0) : (⟨S_, .f32⟩ : BufTy).Contents (Elt F)) :=
  stage_unary ops_aligned 177 V main_call4_cst_0 main_call4_v2 _ rfl (by decide) (by decide)

set_option maxRecDepth 8192 in
theorem at_main_call4_v3 : after ops V (Proc.devRef .tc main_call4_v3) = Host.divf (after ops V (Proc.devRef .tc main_call4_v1) : (⟨S1x128, .f32⟩ : BufTy).Contents (Elt F)) (after ops V (Proc.devRef .tc main_call4_v2) : (⟨S1x128, .f32⟩ : BufTy).Contents (Elt F)) :=
  stage_binary ops_aligned 178 V main_call4_v1 main_call4_v2 main_call4_v3 _ rfl (by decide) (by decide) (by decide)

set_option maxRecDepth 8192 in
theorem at_main_call4_v4 : after ops V (Proc.devRef .tc main_call4_v4) = broadcastInDim S50000x128 ![0, 1] bcast_S1x128_S50000x128_0_1 (after ops V (Proc.devRef .tc main_call4_v3) : (⟨S1x128, .f32⟩ : BufTy).Contents (Elt F)) :=
  stage_unary ops_aligned 179 V main_call4_v3 main_call4_v4 _ rfl (by decide) (by decide)

set_option maxRecDepth 8192 in
theorem at_main_call4_v5 : after ops V (Proc.devRef .tc main_call4_v5) = subf (after ops V (Proc.devRef .tc main_v111) : (⟨S50000x128, .f32⟩ : BufTy).Contents (Elt F)) (after ops V (Proc.devRef .tc main_call4_v4) : (⟨S50000x128, .f32⟩ : BufTy).Contents (Elt F)) :=
  stage_binary ops_aligned 180 V main_v111 main_call4_v4 main_call4_v5 _ rfl (by decide) (by decide) (by decide)

set_option maxRecDepth 8192 in
theorem at_main_call4_v6 : after ops V (Proc.devRef .tc main_call4_v6) = mulf (after ops V (Proc.devRef .tc main_call4_v5) : (⟨S50000x128, .f32⟩ : BufTy).Contents (Elt F)) (after ops V (Proc.devRef .tc main_call4_v5) : (⟨S50000x128, .f32⟩ : BufTy).Contents (Elt F)) :=
  stage_binary ops_aligned 181 V main_call4_v5 main_call4_v5 main_call4_v6 _ rfl (by decide) (by decide) (by decide)

set_option maxRecDepth 8192 in
theorem at_main_call4_v7 : after ops V (Proc.devRef .tc main_call4_v7) = sitofp .f32 (after ops V (Proc.devRef .tc main_c_28) : (⟨S_, .i32⟩ : BufTy).Contents (Elt F)) :=
  stage_unary ops_aligned 182 V main_c_28 main_call4_v7 _ rfl (by decide) (by decide)

set_option maxRecDepth 8192 in
theorem at_main_call4_cst_1 : after ops V (Proc.devRef .tc main_call4_cst_1) = constant S_ .f32 0x47435000#32 :=
  stage_nullary ops_aligned 183 V main_call4_cst_1 _ rfl (by decide)

set_option maxRecDepth 8192 in
theorem at_main_call4_v8 : after ops V (Proc.devRef .tc main_call4_v8) = subf (after ops V (Proc.devRef .tc main_call4_cst_1) : (⟨S_, .f32⟩ : BufTy).Contents (Elt F)) (after ops V (Proc.devRef .tc main_call4_v7) : (⟨S_, .f32⟩ : BufTy).Contents (Elt F)) :=
  stage_binary ops_aligned 184 V main_call4_cst_1 main_call4_v7 main_call4_v8 _ rfl (by decide) (by decide) (by decide)

set_option maxRecDepth 8192 in
theorem at_main_call4_cst_2 : after ops V (Proc.devRef .tc main_call4_cst_2) = constant S_ .f32 0x00000000#32 :=
  stage_nullary ops_aligned 185 V main_call4_cst_2 _ rfl (by decide)

set_option maxRecDepth 8192 in
theorem at_main_call4_v9 : after ops V (Proc.devRef .tc main_call4_v9) = Host.reduceAdd (after ops V (Proc.devRef .tc main_call4_v6) : (⟨S50000x128, .f32⟩ : BufTy).Contents (Elt F)) (after ops V (Proc.devRef .tc main_call4_cst_2) : (⟨S_, .f32⟩ : BufTy).Contents (Elt F)) reducesTo_S50000x128_S128_d0 h_S_ :=
  stage_binary ops_aligned 186 V main_call4_v6 main_call4_cst_2 main_call4_v9 _ rfl (by decide) (by decide) (by decide)

set_option maxRecDepth 8192 in
theorem at_main_call4_v10 : after ops V (Proc.devRef .tc main_call4_v10) = broadcastInDim S128 ![] bcast_S_S128 (after ops V (Proc.devRef .tc main_call4_v8) : (⟨S_, .f32⟩ : BufTy).Contents (Elt F)) :=
  stage_unary ops_aligned 187 V main_call4_v8 main_call4_v10 _ rfl (by decide) (by decide)

set_option maxRecDepth 8192 in
theorem at_main_call4_v11 : after ops V (Proc.devRef .tc main_call4_v11) = Host.divf (after ops V (Proc.devRef .tc main_call4_v9) : (⟨S128, .f32⟩ : BufTy).Contents (Elt F)) (after ops V (Proc.devRef .tc main_call4_v10) : (⟨S128, .f32⟩ : BufTy).Contents (Elt F)) :=
  stage_binary ops_aligned 188 V main_call4_v9 main_call4_v10 main_call4_v11 _ rfl (by decide) (by decide) (by decide)

set_option maxRecDepth 8192 in
theorem at_main_call4_cst_3 : after ops V (Proc.devRef .tc main_call4_cst_3) = constant S_ .f32 0x00000000#32 :=
  stage_nullary ops_aligned 189 V main_call4_cst_3 _ rfl (by decide)

set_option maxRecDepth 8192 in
theorem at_main_call4_v12 : after ops V (Proc.devRef .tc main_call4_v12) = cmpf .ogt (after ops V (Proc.devRef .tc main_call4_v8) : (⟨S_, .f32⟩ : BufTy).Contents (Elt F)) (after ops V (Proc.devRef .tc main_call4_cst_3) : (⟨S_, .f32⟩ : BufTy).Contents (Elt F)) :=
  stage_binary ops_aligned 190 V main_call4_v8 main_call4_cst_3 main_call4_v12 _ rfl (by decide) (by decide) (by decide)

set_option maxRecDepth 8192 in
theorem at_main_call4_cst_4 : after ops V (Proc.devRef .tc main_call4_cst_4) = constant S_ .f32 0x7FC00000#32 :=
  stage_nullary ops_aligned 191 V main_call4_cst_4 _ rfl (by decide)

set_option maxRecDepth 8192 in
theorem at_main_call4_call0_v0 : after ops V (Proc.devRef .tc main_call4_call0_v0) = (after ops V (Proc.devRef .tc main_call4_cst_4) : (⟨S_, .f32⟩ : BufTy).Contents (Elt F)) :=
  stage_unary ops_aligned 192 V main_call4_cst_4 main_call4_call0_v0 _ rfl (by decide) (by decide)

set_option maxRecDepth 8192 in
theorem at_main_call4_call0_v1 : after ops V (Proc.devRef .tc main_call4_call0_v1) = broadcastInDim S128 ![] bcast_S_S128 (after ops V (Proc.devRef .tc main_call4_call0_v0) : (⟨S_, .f32⟩ : BufTy).Contents (Elt F)) :=
  stage_unary ops_aligned 193 V main_call4_call0_v0 main_call4_call0_v1 _ rfl (by decide) (by decide)

set_option maxRecDepth 8192 in
theorem at_main_v115 : after ops V (Proc.devRef .tc main_v115) = select (broadcastInDim S128 ![] bcast_S_S128 (after ops V (Proc.devRef .tc main_call4_v12) : (⟨S_, .i1⟩ : BufTy).Contents (Elt F))) (after ops V (Proc.devRef .tc main_call4_v11) : (⟨S128, .f32⟩ : BufTy).Contents (Elt F)) (after ops V (Proc.devRef .tc main_call4_call0_v1) : (⟨S128, .f32⟩ : BufTy).Contents (Elt F)) :=
  stage_ternary ops_aligned 194 V main_call4_v12 main_call4_v11 main_call4_call0_v1 main_v115 _ rfl (by decide) (by decide) (by decide) (by decide)

set_option maxRecDepth 8192 in
theorem at_main_v116 : after ops V (Proc.devRef .tc main_v116) = broadcastInDim S1x128 ![1] bcast_S128_S1x128_1 (after ops V (Proc.devRef .tc main_v114) : (⟨S128, .f32⟩ : BufTy).Contents (Elt F)) :=
  stage_unary ops_aligned 195 V main_v114 main_v116 _ rfl (by decide) (by decide)

set_option maxRecDepth 8192 in
theorem at_main_v117 : after ops V (Proc.devRef .tc main_v117) = broadcastInDim S50000x128 ![0, 1] bcast_S1x128_S50000x128_0_1 (after ops V (Proc.devRef .tc main_v116) : (⟨S1x128, .f32⟩ : BufTy).Contents (Elt F)) :=
  stage_unary ops_aligned 196 V main_v116 main_v117 _ rfl (by decide) (by decide)

set_option maxRecDepth 8192 in
theorem at_main_v118 : after ops V (Proc.devRef .tc main_v118) = subf (after ops V (Proc.devRef .tc main_v111) : (⟨S50000x128, .f32⟩ : BufTy).Contents (Elt F)) (after ops V (Proc.devRef .tc main_v117) : (⟨S50000x128, .f32⟩ : BufTy).Contents (Elt F)) :=
  stage_binary ops_aligned 197 V main_v111 main_v117 main_v118 _ rfl (by decide) (by decide) (by decide)

set_option maxRecDepth 8192 in
theorem at_main_cst_29 : after ops V (Proc.devRef .tc main_cst_29) = constant S_ .f32 0x3727C5AC#32 :=
  stage_nullary ops_aligned 198 V main_cst_29 _ rfl (by decide)

set_option maxRecDepth 8192 in
theorem at_main_v119 : after ops V (Proc.devRef .tc main_v119) = broadcastInDim S128 ![] bcast_S_S128 (after ops V (Proc.devRef .tc main_cst_29) : (⟨S_, .f32⟩ : BufTy).Contents (Elt F)) :=
  stage_unary ops_aligned 199 V main_cst_29 main_v119 _ rfl (by decide) (by decide)

set_option maxRecDepth 8192 in
theorem at_main_v120 : after ops V (Proc.devRef .tc main_v120) = addf (after ops V (Proc.devRef .tc main_v115) : (⟨S128, .f32⟩ : BufTy).Contents (Elt F)) (after ops V (Proc.devRef .tc main_v119) : (⟨S128, .f32⟩ : BufTy).Contents (Elt F)) :=
  stage_binary ops_aligned 200 V main_v115 main_v119 main_v120 _ rfl (by decide) (by decide) (by decide)

set_option maxRecDepth 8192 in
theorem at_main_v121 : after ops V (Proc.devRef .tc main_v121) = Host.rsqrt (after ops V (Proc.devRef .tc main_v120) : (⟨S128, .f32⟩ : BufTy).Contents (Elt F)) :=
  stage_unary ops_aligned 201 V main_v120 main_v121 _ rfl (by decide) (by decide)

set_option maxRecDepth 8192 in
theorem at_main_v122 : after ops V (Proc.devRef .tc main_v122) = broadcastInDim S1x128 ![1] bcast_S128_S1x128_1 (after ops V (Proc.devRef .tc main_v121) : (⟨S128, .f32⟩ : BufTy).Contents (Elt F)) :=
  stage_unary ops_aligned 202 V main_v121 main_v122 _ rfl (by decide) (by decide)

set_option maxRecDepth 8192 in
theorem at_main_v123 : after ops V (Proc.devRef .tc main_v123) = broadcastInDim S50000x128 ![0, 1] bcast_S1x128_S50000x128_0_1 (after ops V (Proc.devRef .tc main_v122) : (⟨S1x128, .f32⟩ : BufTy).Contents (Elt F)) :=
  stage_unary ops_aligned 203 V main_v122 main_v123 _ rfl (by decide) (by decide)

set_option maxRecDepth 8192 in
theorem at_main_v124 : after ops V (Proc.devRef .tc main_v124) = mulf (after ops V (Proc.devRef .tc main_v118) : (⟨S50000x128, .f32⟩ : BufTy).Contents (Elt F)) (after ops V (Proc.devRef .tc main_v123) : (⟨S50000x128, .f32⟩ : BufTy).Contents (Elt F)) :=
  stage_binary ops_aligned 204 V main_v118 main_v123 main_v124 _ rfl (by decide) (by decide) (by decide)

set_option maxRecDepth 8192 in
theorem at_main_v125 : after ops V (Proc.devRef .tc main_v125) = broadcastInDim S1x128 ![1] bcast_S128_S1x128_1 (after ops V (Proc.devRef .tc main_arg8) : (⟨S128, .f32⟩ : BufTy).Contents (Elt F)) :=
  stage_unary ops_aligned 205 V main_arg8 main_v125 _ rfl (by decide) (by decide)

set_option maxRecDepth 8192 in
theorem at_main_v126 : after ops V (Proc.devRef .tc main_v126) = broadcastInDim S50000x128 ![0, 1] bcast_S1x128_S50000x128_0_1 (after ops V (Proc.devRef .tc main_v125) : (⟨S1x128, .f32⟩ : BufTy).Contents (Elt F)) :=
  stage_unary ops_aligned 206 V main_v125 main_v126 _ rfl (by decide) (by decide)

set_option maxRecDepth 8192 in
theorem at_main_v127 : after ops V (Proc.devRef .tc main_v127) = mulf (after ops V (Proc.devRef .tc main_v124) : (⟨S50000x128, .f32⟩ : BufTy).Contents (Elt F)) (after ops V (Proc.devRef .tc main_v126) : (⟨S50000x128, .f32⟩ : BufTy).Contents (Elt F)) :=
  stage_binary ops_aligned 207 V main_v124 main_v126 main_v127 _ rfl (by decide) (by decide) (by decide)

set_option maxRecDepth 8192 in
theorem at_main_v128 : after ops V (Proc.devRef .tc main_v128) = broadcastInDim S1x128 ![1] bcast_S128_S1x128_1 (after ops V (Proc.devRef .tc main_arg9) : (⟨S128, .f32⟩ : BufTy).Contents (Elt F)) :=
  stage_unary ops_aligned 208 V main_arg9 main_v128 _ rfl (by decide) (by decide)

set_option maxRecDepth 8192 in
theorem at_main_v129 : after ops V (Proc.devRef .tc main_v129) = broadcastInDim S50000x128 ![0, 1] bcast_S1x128_S50000x128_0_1 (after ops V (Proc.devRef .tc main_v128) : (⟨S1x128, .f32⟩ : BufTy).Contents (Elt F)) :=
  stage_unary ops_aligned 209 V main_v128 main_v129 _ rfl (by decide) (by decide)

set_option maxRecDepth 8192 in
theorem at_main_v130 : after ops V (Proc.devRef .tc main_v130) = addf (after ops V (Proc.devRef .tc main_v127) : (⟨S50000x128, .f32⟩ : BufTy).Contents (Elt F)) (after ops V (Proc.devRef .tc main_v129) : (⟨S50000x128, .f32⟩ : BufTy).Contents (Elt F)) :=
  stage_binary ops_aligned 210 V main_v127 main_v129 main_v130 _ rfl (by decide) (by decide) (by decide)

set_option maxRecDepth 8192 in
theorem at_main_call5_cst : after ops V (Proc.devRef .tc main_call5_cst) = constant S_ .f32 0x00000000#32 :=
  stage_nullary ops_aligned 211 V main_call5_cst _ rfl (by decide)

set_option maxRecDepth 8192 in
theorem at_main_call5_v0 : after ops V (Proc.devRef .tc main_call5_v0) = broadcastInDim S50000x128 ![] bcast_S_S50000x128 (after ops V (Proc.devRef .tc main_call5_cst) : (⟨S_, .f32⟩ : BufTy).Contents (Elt F)) :=
  stage_unary ops_aligned 212 V main_call5_cst main_call5_v0 _ rfl (by decide) (by decide)

set_option maxRecDepth 8192 in
theorem at_main_v131 : after ops V (Proc.devRef .tc main_v131) = maximumf (after ops V (Proc.devRef .tc main_v130) : (⟨S50000x128, .f32⟩ : BufTy).Contents (Elt F)) (after ops V (Proc.devRef .tc main_call5_v0) : (⟨S50000x128, .f32⟩ : BufTy).Contents (Elt F)) :=
  stage_binary ops_aligned 213 V main_v130 main_call5_v0 main_v131 _ rfl (by decide) (by decide) (by decide)

end Cert.ReferenceIdeal.Hand

end
-- ==== Proof.Ref.Read.lean ====
/- The whole operation list read stage by stage: the three windows' stage equations together (one `at_‹buffer›` per
   operation: the buffer it writes holds, after the whole list, its function of its operands' buffers after the whole
   list), over `ops_aligned` and the stage lemmas. -/
import proofs.«168650_j27212912787479_2_alg».proof.Proof.Ref.Read0
import proofs.«168650_j27212912787479_2_alg».proof.Proof.Ref.Read1
import proofs.«168650_j27212912787479_2_alg».proof.Proof.Ref.Read2
-- ==== Proof.Ref.ValueFold1.lean ====
/- The reference's buffers, read after the whole operation list, are the stage functions of one another: each
   equation is the stage equations of the operations between two stages, rewritten in program order (layer 1 and
   the shared index arrays). -/
import proofs.«168650_j27212912787479_2_alg».proof.Proof.Ref.Read
import proofs.«168650_j27212912787479_2_alg».proof.Proof.Ref.Run
import proofs.«168650_j27212912787479_2_alg».proof.Proof.Ref.ValueDefs

noncomputable section

namespace Cert.ReferenceIdeal.Hand

open Cert.ReferenceIdeal Cert.ReferenceIdeal.Gen Idealize.ShloMosaic Idealize.ShloMosaic.TcCoe Idealize.SL.Sem Idealize.ShloMosaic.StableHlo

variable (V : Valuation τ sig (Elt Ideal))

theorem fold_v5 : after ops V (Proc.devRef .tc main_v5) = srcV (V (Proc.devRef .tc main_arg1) : IVec S2x800000 32) := by
  rw [at_main_v5 V, at_main_v4 V, at_main_v1 V, at_main_v0 V, after_keep V main_arg1 (by decide) (by decide) (by decide)]; rfl

theorem fold_v6 : after ops V (Proc.devRef .tc main_v6) = dstV (V (Proc.devRef .tc main_arg1) : IVec S2x800000 32) := by
  rw [at_main_v6 V, at_main_v4 V, at_main_v3 V, at_main_v2 V, after_keep V main_arg1 (by decide) (by decide) (by decide)]; rfl

theorem fold_v20 : after ops V (Proc.devRef .tc main_v20) = normV (after ops V (Proc.devRef .tc main_v5)) := by
  rw [at_main_v20 V, at_main_v19 V, at_main_v18 V, at_main_c_4 V, at_main_v17 V, at_main_v16 V, at_main_c V]; rfl

theorem fold_v27 : after ops V (Proc.devRef .tc main_v27) = normV (after ops V (Proc.devRef .tc main_v6)) := by
  rw [at_main_v27 V, at_main_v26 V, at_main_v25 V, at_main_c_6 V, at_main_v24 V, at_main_v23 V, at_main_c_5 V]; rfl

theorem fold_v36 : after ops V (Proc.devRef .tc main_v36) = normV (after ops V (Proc.devRef .tc main_v5)) := by
  rw [at_main_v36 V, at_main_v35 V, at_main_v34 V, at_main_c_8 V, at_main_v33 V, at_main_v32 V, at_main_c_7 V]; rfl

theorem fold_v10 : after ops V (Proc.devRef .tc main_v10) = degV (after ops V (Proc.devRef .tc main_v6)) := by
  rw [at_main_v10 V, at_main_v9 V, at_main_v8 V, at_main_cst_0 V, at_main_v7 V, at_main_cst V]; rfl

theorem fold_v15 : after ops V (Proc.devRef .tc main_v15) = dinvV (after ops V (Proc.devRef .tc main_v6)) := by
  rw [at_main_v15 V, at_main_call0_v1 V, at_main_call0_v0 V, at_main_cst_3 V, at_main_v14 V, at_main_v13 V, at_main_cst_2 V, at_main_v12 V, at_main_v11 V, at_main_cst_1 V, fold_v10]; rfl

theorem fold_v30 : after ops V (Proc.devRef .tc main_v30) = normE (after ops V (Proc.devRef .tc main_v5)) (after ops V (Proc.devRef .tc main_v6)) := by
  rw [at_main_v30 V, at_main_v29 V, at_main_v28 V, at_main_v22 V, at_main_v21 V, fold_v15, fold_v20, fold_v27]; rfl

theorem fold_v47 : after ops V (Proc.devRef .tc main_v47) = layerV (after ops V (Proc.devRef .tc main_v5)) (after ops V (Proc.devRef .tc main_v6))
    (V (Proc.devRef .tc main_arg0)) (V (Proc.devRef .tc main_arg2)) (V (Proc.devRef .tc main_arg3)) := by
  rw [at_main_v47 V, at_main_v46 V, at_main_v45 V, at_main_v44 V, at_main_v43 V, at_main_v42 V, at_main_cst_9 V, at_main_v41 V, at_main_v40 V, at_main_v39 V, at_main_v38 V, at_main_v37 V, at_main_v31 V, fold_v30, fold_v36,
    after_keep V main_arg0 (by decide) (by decide) (by decide), after_keep V main_arg2 (by decide) (by decide) (by decide), after_keep V main_arg3 (by decide) (by decide) (by decide)]; rfl

theorem fold_v50 : after ops V (Proc.devRef .tc main_v50) = meanV (after ops V (Proc.devRef .tc main_v47)) := by
  rw [at_main_v50 V, at_main_v49 V, at_main_cst_11 V, at_main_v48 V, at_main_cst_10 V]; rfl

theorem fold_v51 : after ops V (Proc.devRef .tc main_v51) = varV (after ops V (Proc.devRef .tc main_v47)) := by
  rw [at_main_v51 V, at_main_call1_call0_v1 V, at_main_call1_call0_v0 V, at_main_call1_cst_4 V, at_main_call1_v12 V, at_main_call1_cst_3 V, at_main_call1_v11 V, at_main_call1_v10 V, at_main_call1_v9 V, at_main_call1_cst_2 V, at_main_call1_v8 V, at_main_call1_cst_1 V, at_main_call1_v7 V, at_main_call1_v6 V, at_main_call1_v5 V, at_main_call1_v4 V, at_main_call1_v3 V, at_main_call1_v2 V, at_main_call1_cst_0 V, at_main_call1_v1 V, at_main_call1_v0 V, at_main_call1_cst V, at_main_c_12 V]; rfl

theorem fold_v67 : after ops V (Proc.devRef .tc main_v67) = bnV (after ops V (Proc.devRef .tc main_v47)) (V (Proc.devRef .tc main_arg4)) (V (Proc.devRef .tc main_arg5)) := by
  rw [at_main_v67 V, at_main_call2_v0 V, at_main_call2_cst V, at_main_v66 V, at_main_v65 V, at_main_v64 V, at_main_v63 V, at_main_v62 V, at_main_v61 V, at_main_v60 V, at_main_v59 V, at_main_v58 V, at_main_v57 V, at_main_v56 V, at_main_v55 V, at_main_cst_13 V, at_main_v54 V, at_main_v53 V, at_main_v52 V, fold_v50, fold_v51,
    after_keep V main_arg4 (by decide) (by decide) (by decide), after_keep V main_arg5 (by decide) (by decide) (by decide)]; rfl

end Cert.ReferenceIdeal.Hand

end
-- ==== Proof.Ref.ValueFold2.lean ====
/- Layer 2's buffers are the same stage functions at layer 1's output, and the result buffer is the two layers
   composed over the edge arrays and the nine float arguments. -/
import proofs.«168650_j27212912787479_2_alg».proof.Proof.Ref.ValueFold1

noncomputable section

namespace Cert.ReferenceIdeal.Hand

open Cert.ReferenceIdeal Cert.ReferenceIdeal.Gen Idealize.ShloMosaic Idealize.ShloMosaic.TcCoe Idealize.SL.Sem Idealize.ShloMosaic.StableHlo

variable (V : Valuation τ sig (Elt Ideal))

theorem fold_v69 : after ops V (Proc.devRef .tc main_v69) = srcV (V (Proc.devRef .tc main_arg1) : IVec S2x800000 32) := by
  rw [at_main_v69 V, at_main_v68 V, at_main_v1 V, at_main_v0 V, after_keep V main_arg1 (by decide) (by decide) (by decide)]; rfl

theorem fold_v70 : after ops V (Proc.devRef .tc main_v70) = dstV (V (Proc.devRef .tc main_arg1) : IVec S2x800000 32) := by
  rw [at_main_v70 V, at_main_v68 V, at_main_v3 V, at_main_v2 V, after_keep V main_arg1 (by decide) (by decide) (by decide)]; rfl

theorem fold_v84 : after ops V (Proc.devRef .tc main_v84) = normV (after ops V (Proc.devRef .tc main_v69)) := by
  rw [at_main_v84 V, at_main_v83 V, at_main_v82 V, at_main_c_20 V, at_main_v81 V, at_main_v80 V, at_main_c_19 V]; rfl

theorem fold_v91 : after ops V (Proc.devRef .tc main_v91) = normV (after ops V (Proc.devRef .tc main_v70)) := by
  rw [at_main_v91 V, at_main_v90 V, at_main_v89 V, at_main_c_22 V, at_main_v88 V, at_main_v87 V, at_main_c_21 V]; rfl

theorem fold_v100 : after ops V (Proc.devRef .tc main_v100) = normV (after ops V (Proc.devRef .tc main_v69)) := by
  rw [at_main_v100 V, at_main_v99 V, at_main_v98 V, at_main_c_24 V, at_main_v97 V, at_main_v96 V, at_main_c_23 V]; rfl

theorem fold_v74 : after ops V (Proc.devRef .tc main_v74) = degV (after ops V (Proc.devRef .tc main_v70)) := by
  rw [at_main_v74 V, at_main_v73 V, at_main_v72 V, at_main_cst_15 V, at_main_v71 V, at_main_cst_14 V]; rfl

theorem fold_v79 : after ops V (Proc.devRef .tc main_v79) = dinvV (after ops V (Proc.devRef .tc main_v70)) := by
  rw [at_main_v79 V, at_main_call3_v1 V, at_main_call3_v0 V, at_main_cst_18 V, at_main_v78 V, at_main_v77 V, at_main_cst_17 V, at_main_v76 V, at_main_v75 V, at_main_cst_16 V, fold_v74]; rfl

theorem fold_v94 : after ops V (Proc.devRef .tc main_v94) = normE (after ops V (Proc.devRef .tc main_v69)) (after ops V (Proc.devRef .tc main_v70)) := by
  rw [at_main_v94 V, at_main_v93 V, at_main_v92 V, at_main_v86 V, at_main_v85 V, fold_v79, fold_v84, fold_v91]; rfl

theorem fold_v111 : after ops V (Proc.devRef .tc main_v111) = layerV (after ops V (Proc.devRef .tc main_v69)) (after ops V (Proc.devRef .tc main_v70))
    (after ops V (Proc.devRef .tc main_v67)) (V (Proc.devRef .tc main_arg6)) (V (Proc.devRef .tc main_arg7)) := by
  rw [at_main_v111 V, at_main_v110 V, at_main_v109 V, at_main_v108 V, at_main_v107 V, at_main_v106 V, at_main_cst_25 V, at_main_v105 V, at_main_v104 V, at_main_v103 V, at_main_v102 V, at_main_v101 V, at_main_v95 V, fold_v94, fold_v100,
    after_keep V main_arg6 (by decide) (by decide) (by decide), after_keep V main_arg7 (by decide) (by decide) (by decide)]; rfl

theorem fold_v114 : after ops V (Proc.devRef .tc main_v114) = meanV (after ops V (Proc.devRef .tc main_v111)) := by
  rw [at_main_v114 V, at_main_v113 V, at_main_cst_27 V, at_main_v112 V, at_main_cst_26 V]; rfl

theorem fold_v115 : after ops V (Proc.devRef .tc main_v115) = varV (after ops V (Proc.devRef .tc main_v111)) := by
  rw [at_main_v115 V, at_main_call4_call0_v1 V, at_main_call4_call0_v0 V, at_main_call4_cst_4 V, at_main_call4_v12 V, at_main_call4_cst_3 V, at_main_call4_v11 V, at_main_call4_v10 V, at_main_call4_v9 V, at_main_call4_cst_2 V, at_main_call4_v8 V, at_main_call4_cst_1 V, at_main_call4_v7 V, at_main_call4_v6 V, at_main_call4_v5 V, at_main_call4_v4 V, at_main_call4_v3 V, at_main_call4_v2 V, at_main_call4_cst_0 V, at_main_call4_v1 V, at_main_call4_v0 V, at_main_call4_cst V, at_main_c_28 V]; rfl

theorem fold_v131 : after ops V (Proc.devRef .tc main_v131) = bnV (after ops V (Proc.devRef .tc main_v111)) (V (Proc.devRef .tc main_arg8)) (V (Proc.devRef .tc main_arg9)) := by
  rw [at_main_v131 V, at_main_call5_v0 V, at_main_call5_cst V, at_main_v130 V, at_main_v129 V, at_main_v128 V, at_main_v127 V, at_main_v126 V, at_main_v125 V, at_main_v124 V, at_main_v123 V, at_main_v122 V, at_main_v121 V, at_main_v120 V, at_main_v119 V, at_main_cst_29 V, at_main_v118 V, at_main_v117 V, at_main_v116 V, fold_v114, fold_v115,
    after_keep V main_arg8 (by decide) (by decide) (by decide), after_keep V main_arg9 (by decide) (by decide) (by decide)]; rfl

/-- The result buffer: two layers, each followed by its normalisation and rectifier, over the edge arrays. -/
theorem fold_out : after ops V (Proc.devRef .tc main_v131)
    = bnV (layerV (srcV (V (Proc.devRef .tc main_arg1) : IVec S2x800000 32)) (dstV (V (Proc.devRef .tc main_arg1) : IVec S2x800000 32))
          (bnV (layerV (srcV (V (Proc.devRef .tc main_arg1) : IVec S2x800000 32)) (dstV (V (Proc.devRef .tc main_arg1) : IVec S2x800000 32))
                (V (Proc.devRef .tc main_arg0)) (V (Proc.devRef .tc main_arg2)) (V (Proc.devRef .tc main_arg3)))
              (V (Proc.devRef .tc main_arg4)) (V (Proc.devRef .tc main_arg5)))
          (V (Proc.devRef .tc main_arg6)) (V (Proc.devRef .tc main_arg7)))
        (V (Proc.devRef .tc main_arg8)) (V (Proc.devRef .tc main_arg9)) := by
  rw [fold_v131, fold_v111, fold_v69, fold_v70, fold_v67, fold_v47, fold_v5, fold_v6]

end Cert.ReferenceIdeal.Hand

end
-- ==== Proof.Ref.Value.lean ====
/- The reference's value over the reals. When the nine float arguments hold finite values, the result buffer after
   the whole operation list holds, at (n, j), the model's network `netR` of those values and the edge index array:
   the buffer is the two layers' stage functions composed (the fold), each layer on finite inputs is the model's
   `layerR`, and each normalisation with rectifier is the model's `bn` with the model's `mean` and `varR`. -/
import proofs.«168650_j27212912787479_2_alg».proof.Proof.Ref.ValueMath4
import proofs.«168650_j27212912787479_2_alg».proof.Proof.Ref.ValueFold2

noncomputable section

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx Cert.Gcn Cert.GatherScatter

/-- One layer on finite inputs over the program's edge arrays is the model's layer, as a whole array. -/
theorem layerV_coe (ei : IVec S2x800000 32) (a : Fin 50000 → Fin 128 → ℝ) (w : Fin 128 → Fin 128 → ℝ) (b : Fin 128 → ℝ) :
    layerV (srcV ei) (dstV ei) (coe2 a) (coe2 w) (coe1 b)
      = coe2 (layerR (land (dOf ei)) (fun e => nodeOf (sOf ei e)) (fun e => nodeOf (dOf ei e)) (dinvR (dOf ei)) a w b) := by
  have hs : (fun e => srcV ei (ix1 e)) = sOf ei := funext (srcV_apply ei)
  have hd : (fun e => dstV ei (ix1 e)) = dOf ei := funext (dstV_apply ei)
  funext i
  obtain ⟨n, j, rfl⟩ : ∃ n j, i = ix2 n j := ⟨i 0, i 1, eq_ix2 i⟩
  rw [layerV_apply, coe2_apply, hd]
  simp only [srcV_apply, dstV_apply]

/-- Normalisation with rectifier on finite inputs is the model's, as a whole array. -/
theorem bnV_coe (hh : Fin 50000 → Fin 128 → ℝ) (g be : Fin 128 → ℝ) :
    bnV (coe2 hh) (coe1 g) (coe1 be) = coe2 (bn epsR hh (mean 50000 hh) (varR 50000 hh) g be) := by
  funext i
  obtain ⟨n, j, rfl⟩ : ∃ n j, i = ix2 n j := ⟨i 0, i 1, eq_ix2 i⟩
  rw [bnV_apply, coe2_apply]

/-- THE REFERENCE'S VALUE: on finite arguments the result buffer is the model's network at every element. -/
theorem ref_value (V : Valuation τ sig (Elt Ideal))
    (x : Fin 50000 → Fin 128 → ℝ) (W1 : Fin 128 → Fin 128 → ℝ) (b1 g1 be1 : Fin 128 → ℝ)
    (W2 : Fin 128 → Fin 128 → ℝ) (b2 g2 be2 : Fin 128 → ℝ)
    (hx : (V (Proc.devRef .tc main_arg0) : S50000x128.Idx → EReal) = fun i => ((x (i 0) (i 1) : ℝ) : EReal))
    (hW1 : (V (Proc.devRef .tc main_arg2) : S128x128.Idx → EReal) = fun i => ((W1 (i 0) (i 1) : ℝ) : EReal))
    (hb1 : (V (Proc.devRef .tc main_arg3) : S128.Idx → EReal) = fun i => ((b1 (i 0) : ℝ) : EReal))
    (hg1 : (V (Proc.devRef .tc main_arg4) : S128.Idx → EReal) = fun i => ((g1 (i 0) : ℝ) : EReal))
    (hbe1 : (V (Proc.devRef .tc main_arg5) : S128.Idx → EReal) = fun i => ((be1 (i 0) : ℝ) : EReal))
    (hW2 : (V (Proc.devRef .tc main_arg6) : S128x128.Idx → EReal) = fun i => ((W2 (i 0) (i 1) : ℝ) : EReal))
    (hb2 : (V (Proc.devRef .tc main_arg7) : S128.Idx → EReal) = fun i => ((b2 (i 0) : ℝ) : EReal))
    (hg2 : (V (Proc.devRef .tc main_arg8) : S128.Idx → EReal) = fun i => ((g2 (i 0) : ℝ) : EReal))
    (hbe2 : (V (Proc.devRef .tc main_arg9) : S128.Idx → EReal) = fun i => ((be2 (i 0) : ℝ) : EReal)) :
    (StableHlo.after ops V (Proc.devRef .tc main_v131) : S50000x128.Idx → EReal)
      = fun i => ((Cert.Gcn.netR (V (Proc.devRef .tc main_arg1)) x W1 b1 g1 be1 W2 b2 g2 be2 (i 0) (i 1) : ℝ) : EReal) := by
  rw [fold_out, hx, hW1, hb1, hg1, hbe1, hW2, hb2, hg2, hbe2]
  show bnV (layerV _ _ (bnV (layerV _ _ (coe2 x) (coe2 W1) (coe1 b1)) (coe1 g1) (coe1 be1)) (coe2 W2) (coe1 b2)) (coe1 g2) (coe1 be2)
    = coe2 (netR _ x W1 b1 g1 be1 W2 b2 g2 be2)
  rw [layerV_coe, bnV_coe, layerV_coe, bnV_coe]
  rfl

end Cert.ReferenceIdeal.Hand

end
-- ==== Proof.Finite.lean ====
/- The precondition, decoded: the printed predicate is the conjunction, over the nine float arguments, of "every entry's
   absolute value is below +inf". On the extended reals that says every entry is a real, so each float argument is the
   coercion of a real array. The integer edge list carries no condition. -/
import proofs.«168650_j27212912787479_2_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.Pre_finite_inputs.Hand

open Idealize.ShloMosaic
open Idealize.ShloMosaic.ValueIdx
open Cert.Pre_finite_inputs

variable [Cert.Pre_finite_inputs.Facts]

/-- The scalar shape has one index. -/
instance : Subsingleton S_.Idx := ⟨fun a b => funext fun d => d.elim0⟩

/-- An extended real whose absolute value is below +inf is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- One conjunct of the predicate: if "all entries have absolute value below +inf" holds of an array, every entry is a
    real. -/
theorem all_real {s : Shape} {axes : List (Fin s.rank)} (a : FVec Ideal s .f32)
    (bc : S_.BroadcastsInDim s (![] : Fin 0 → Fin s.rank)) (r : s.ReducesTo axes S_) (hu : 0 < S_.numel)
    (h : Host.reduce IntOp.andi (cmpf .olt (Host.absf a) (broadcastInDim s ![] bc (constant (F := Ideal) S_ .f32 0x7F800000#32)))
          (constantI S_ 1 1#1) r hu ix0 = 1#1) :
    ∀ i, ∃ x : ℝ, a i = (x : EReal) := fun i =>
  real_of_abs_lt_inf (a i) (Host.reduce_andi_all _ _ r hu ix0 h i)

/-- A matrix of reals, from "every entry is a real". -/
theorem mat_of_all_real {n0 n1 : Nat} (a : (⟨2, ![n0, n1]⟩ : Shape).Idx → EReal) (h : ∀ i, ∃ x : ℝ, a i = (x : EReal)) :
    ∃ X : Fin n0 → Fin n1 → ℝ, a = fun i => ((X (i 0) (i 1) : ℝ) : EReal) := by
  choose f hf using h
  refine ⟨fun p q => f (ix2 p q), funext fun i => ?_⟩
  rw [hf i]
  exact congrArg (fun j => ((f j : ℝ) : EReal)) (eq_ix2 i)

/-- A vector of reals, from "every entry is a real". -/
theorem vec_of_all_real {n : Nat} (a : (⟨1, ![n]⟩ : Shape).Idx → EReal) (h : ∀ i, ∃ x : ℝ, a i = (x : EReal)) :
    ∃ X : Fin n → ℝ, a = fun i => ((X (i 0) : ℝ) : EReal) := by
  choose f hf using h
  refine ⟨fun p => f (ix1 p), funext fun i => ?_⟩
  rw [hf i]
  exact congrArg (fun j => ((f j : ℝ) : EReal)) (eq_ix1 i)

/-- Under the precondition every float argument is an array of reals. -/
theorem finite_of_pre (a0 : FVec Ideal S50000x128 .f32) (a1 : IVec S2x800000 32) (a2 : FVec Ideal S128x128 .f32)
    (a3 a4 a5 : FVec Ideal S128 .f32) (a6 : FVec Ideal S128x128 .f32) (a7 a8 a9 : FVec Ideal S128 .f32)
    (h : Cert.Pre_finite_inputs.fn (F := Ideal) a0 a1 a2 a3 a4 a5 a6 a7 a8 a9 = fun _ => 1#1) :
    (∃ x : Fin 50000 → Fin 128 → ℝ, a0 = fun i => ((x (i 0) (i 1) : ℝ) : EReal))
    ∧ (∃ W1 : Fin 128 → Fin 128 → ℝ, a2 = fun i => ((W1 (i 0) (i 1) : ℝ) : EReal))
    ∧ (∃ b1 : Fin 128 → ℝ, a3 = fun i => ((b1 (i 0) : ℝ) : EReal))
    ∧ (∃ g1 : Fin 128 → ℝ, a4 = fun i => ((g1 (i 0) : ℝ) : EReal))
    ∧ (∃ be1 : Fin 128 → ℝ, a5 = fun i => ((be1 (i 0) : ℝ) : EReal))
    ∧ (∃ W2 : Fin 128 → Fin 128 → ℝ, a6 = fun i => ((W2 (i 0) (i 1) : ℝ) : EReal))
    ∧ (∃ b2 : Fin 128 → ℝ, a7 = fun i => ((b2 (i 0) : ℝ) : EReal))
    ∧ (∃ g2 : Fin 128 → ℝ, a8 = fun i => ((g2 (i 0) : ℝ) : EReal))
    ∧ (∃ be2 : Fin 128 → ℝ, a9 = fun i => ((be2 (i 0) : ℝ) : EReal)) := by
  have e := congrFun h ix0
  dsimp only [fn, fn_part1, fn_part2] at e
  simp only [andi, IntOp.andi_eq_one] at e
  obtain ⟨⟨⟨⟨⟨⟨⟨⟨h0, h2⟩, h3⟩, h4⟩, h5⟩, h6⟩, h7⟩, h8⟩, h9⟩ := e
  exact ⟨mat_of_all_real a0 (all_real a0 _ _ _ h0), mat_of_all_real a2 (all_real a2 _ _ _ h2),
    vec_of_all_real a3 (all_real a3 _ _ _ h3), vec_of_all_real a4 (all_real a4 _ _ _ h4),
    vec_of_all_real a5 (all_real a5 _ _ _ h5), mat_of_all_real a6 (all_real a6 _ _ _ h6),
    vec_of_all_real a7 (all_real a7 _ _ _ h7), vec_of_all_real a8 (all_real a8 _ _ _ h8),
    vec_of_all_real a9 (all_real a9 _ _ _ h9)⟩

end Cert.Pre_finite_inputs.Hand

end
-- ==== Proof.Bridge.lean ====
/-
  The two exact programs end with equal results.

  Under the precondition every float input is an array of finite values, that is, the coercion of a real array.  From
  such inputs the kernel program's result array is the coercion of the real network `Cert.Gcn.netK` (Proof/KI/Value.lean)
  and the reference's the coercion of `Cert.Gcn.netR` (Proof/Ref/Value.lean), both of the same real inputs and — the
  memories agreeing on the arguments — the same raw edge list; and the two real networks are one function
  (Proof/Model.lean `netK_eq_netR`: the normalisation factor of an edge landing on a node is that node's, so it leaves
  the sum; the variance by moments is the variance by deviations).
-/
import proofs.«168650_j27212912787479_2_alg».proof.Defs
import proofs.«168650_j27212912787479_2_alg».proof.Proof.KI.Value
import proofs.«168650_j27212912787479_2_alg».proof.Proof.Ref.Value
import proofs.«168650_j27212912787479_2_alg».proof.Proof.Finite

set_option maxRecDepth 16384

noncomputable section

namespace Cert.Proof

open Idealize.ShloMosaic Idealize.ShloMosaic.TcCoe Idealize.SL.Sem

theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.KernelIdeal.Hand.W12 m c (Proc.devRef .tc Cert.KernelIdeal.main_v65), Cert.KernelIdeal.Hand.run_result m ρ, ?_⟩
  refine (θ_run Cert.ReferenceIdeal.defs _ _).mono (fun r h c => ⟨(h c).1.trans ?_, (h c).2⟩) (Cert.ReferenceIdeal.Hand.run (F := Ideal) m' ρ')
  obtain ⟨⟨x, hx⟩, ⟨W1, hW1⟩, ⟨b1, hb1⟩, ⟨g1, hg1⟩, ⟨be1, hbe1⟩, ⟨W2, hW2⟩, ⟨b2, hb2⟩, ⟨g2, hg2⟩, ⟨be2, hbe2⟩⟩ :=
    Cert.Pre_finite_inputs.Hand.finite_of_pre _ _ _ _ _ _ _ _ _ _ (hpre c)
  obtain ⟨e0, e1, e2, e3, e4, e5, e6, e7, e8, e9⟩ := hagree c
  refine (Cert.ReferenceIdeal.Hand.ref_value (fun b => m' (c, b)) x W1 b1 g1 be1 W2 b2 g2 be2
    (e0.trans hx) (e2.trans hW1) (e3.trans hb1) (e4.trans hg1) (e5.trans hbe1) (e6.trans hW2) (e7.trans hb2) (e8.trans hg2) (e9.trans hbe2)).trans ?_
  refine Eq.trans ?_ (Cert.KernelIdeal.Hand.kernel_value m c x W1 b1 g1 be1 W2 b2 g2 be2 hx hW1 hb1 hg1 hbe1 hW2 hb2 hg2 hbe2).symm
  funext i
  rw [← Cert.Gcn.netK_eq_netR]
  exact congrArg (fun ei => ((Cert.Gcn.netK ei x W1 b1 g1 be1 W2 b2 g2 be2 (i 0) (i 1) : ℝ) : EReal)) e1

end Cert.Proof

end
-- ==== Proof.lean ====
/-
  The certificate's proof.

  The kernel program is a two-layer graph convolution with batch normalisation: five kernel regions over 25 row blocks
  of 2000 nodes, joined by host stretches that gather projected rows by source node and scatter-add them by target
  node.  Its three frame claims come from the programs' runs: the two kernel programs' as twelve chained items
  (Proof/K/Run.lean at the word-level reading, Proof/KI/Run.lean at the exact one), the reference's as one host sequence
  (Proof/Ref/Run.lean).  The idealisation rewrote nothing, so `preserves` is trivial.  The equivalence of the two
  exact programs rests on two identities over finite reals — the symmetric normalisation `dinv[s]·dinv[d]` of an edge
  landing on node `n` has `dinv[d] = dinv[n]`, which comes out of the sum over those edges; and the mean of squares
  less the squared mean is the mean of squared deviations, nonnegative — stated once in Proof/Algebra.lean, and joined
  to the two programs in Proof/Bridge.lean.
-/
import proofs.«168650_j27212912787479_2_alg».proof.Defs
import proofs.«168650_j27212912787479_2_alg».proof.Proof.Gen.Kernel
import proofs.«168650_j27212912787479_2_alg».proof.Proof.Gen.KernelIdeal
import proofs.«168650_j27212912787479_2_alg».proof.Proof.Gen.ReferenceIdeal
import proofs.«168650_j27212912787479_2_alg».proof.Proof.Gen.Pre_finite_inputs
import proofs.«168650_j27212912787479_2_alg».proof.Proof.K.Run
import proofs.«168650_j27212912787479_2_alg».proof.Proof.KI.Run
import proofs.«168650_j27212912787479_2_alg».proof.Proof.Ref.Run
import proofs.«168650_j27212912787479_2_alg».proof.Proof.Bridge

noncomputable section

namespace Cert.Proof

open Idealize.ShloMosaic Idealize.SL.Sem

theorem frame_k [Cert.Kernel.Facts] [Cert.Pre_finite_inputs.Facts] : Cert.frame_Kernel :=
  fun m ρ _ => Cert.Kernel.Hand.frame m ρ

theorem frame_ki [Cert.KernelIdeal.Facts] [Cert.Pre_finite_inputs.Facts] : Cert.frame_KernelIdeal :=
  fun m ρ _ => Cert.KernelIdeal.Hand.frame m ρ

/-- The reference's frame is its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Hand.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
